-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v127)) (v1 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_v128) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_arg7 : FVec F S3x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S100000x1 : Shape := ⟨2, ![100000, 1]⟩
abbrev S100000x384 : Shape := ⟨2, ![100000, 384]⟩
abbrev S128x384 : Shape := ⟨2, ![128, 384]⟩

abbrev nBuf : Space → Nat
  | .hbm => 162
  | .vmem => 66
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S1x128, .f32⟩
  | 39 => ⟨S1x128, .f32⟩
  | 40 => ⟨S100000x128, .f32⟩
  | 41 => ⟨S1x128, .f32⟩
  | 42 => ⟨S1x128, .f32⟩
  | 43 => ⟨S128, .f32⟩
  | 44 => ⟨S_, .f32⟩
  | 45 => ⟨S128, .f32⟩
  | 46 => ⟨S128, .f32⟩
  | 47 => ⟨S128, .f32⟩
  | 48 => ⟨S_, .f32⟩
  | 49 => ⟨S128, .f32⟩
  | 50 => ⟨S128, .f32⟩
  | 51 => ⟨S128, .f32⟩
  | 52 => ⟨S128, .f32⟩
  | 53 => ⟨S1x128, .f32⟩
  | 54 => ⟨S1x128, .f32⟩
  | 55 => ⟨S1x128, .f32⟩
  | 56 => ⟨S1x128, .f32⟩
  | 57 => ⟨S100000x128, .f32⟩
  | 58 => ⟨S1x128x128, .f32⟩
  | 59 => ⟨S128x128, .f32⟩
  | 60 => ⟨S1x128, .f32⟩
  | 61 => ⟨S128, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S1x128, .f32⟩
  | 84 => ⟨S1x128, .f32⟩
  | 85 => ⟨S100000x128, .f32⟩
  | 86 => ⟨S1x128, .f32⟩
  | 87 => ⟨S1x128, .f32⟩
  | 88 => ⟨S128, .f32⟩
  | 89 => ⟨S_, .f32⟩
  | 90 => ⟨S128, .f32⟩
  | 91 => ⟨S128, .f32⟩
  | 92 => ⟨S128, .f32⟩
  | 93 => ⟨S_, .f32⟩
  | 94 => ⟨S128, .f32⟩
  | 95 => ⟨S128, .f32⟩
  | 96 => ⟨S128, .f32⟩
  | 97 => ⟨S128, .f32⟩
  | 98 => ⟨S1x128, .f32⟩
  | 99 => ⟨S1x128, .f32⟩
  | 100 => ⟨S1x128, .f32⟩
  | 101 => ⟨S1x128, .f32⟩
  | 102 => ⟨S100000x128, .f32⟩
  | 103 => ⟨S1x128x128, .f32⟩
  | 104 => ⟨S128x128, .f32⟩
  | 105 => ⟨S1x128, .f32⟩
  | 106 => ⟨S128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x128, .f32⟩
  | 124 => ⟨S_, .f32⟩
  | 125 => ⟨S100000x128, .f32⟩
  | 126 => ⟨S1600000x1, .i32⟩
  | 127 => ⟨S100000x128, .f32⟩
  | _ => ⟨S100000x128, .f32⟩

abbrev hbmTy0_1 (i : Nat) : BufTy := match i % 128 with
  | 0 => ⟨S1x128, .f32⟩
  | 1 => ⟨S1x128, .f32⟩
  | 2 => ⟨S100000x128, .f32⟩
  | 3 => ⟨S1x128, .f32⟩
  | 4 => ⟨S1x128, .f32⟩
  | 5 => ⟨S128, .f32⟩
  | 6 => ⟨S_, .f32⟩
  | 7 => ⟨S128, .f32⟩
  | 8 => ⟨S128, .f32⟩
  | 9 => ⟨S128, .f32⟩
  | 10 => ⟨S_, .f32⟩
  | 11 => ⟨S128, .f32⟩
  | 12 => ⟨S128, .f32⟩
  | 13 => ⟨S128, .f32⟩
  | 14 => ⟨S128, .f32⟩
  | 15 => ⟨S1x128, .f32⟩
  | 16 => ⟨S1x128, .f32⟩
  | 17 => ⟨S1x128, .f32⟩
  | 18 => ⟨S1x128, .f32⟩
  | 19 => ⟨S100000x128, .f32⟩
  | 20 => ⟨S_, .f32⟩
  | 21 => ⟨S128x128, .f32⟩
  | 22 => ⟨S100000x1, .i32⟩
  | 23 => ⟨S128x128, .f32⟩
  | 24 => ⟨S_, .f32⟩
  | 25 => ⟨S128x128, .f32⟩
  | 26 => ⟨S100000x1, .i32⟩
  | 27 => ⟨S128x128, .f32⟩
  | 28 => ⟨S_, .f32⟩
  | 29 => ⟨S128x128, .f32⟩
  | 30 => ⟨S100000x1, .i32⟩
  | 31 => ⟨S128x128, .f32⟩
  | 32 => ⟨S100000x384, .f32⟩
  | 33 => ⟨S128x384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S1x128, .f32⟩
  | .local _ .vmem, ⟨50, _⟩ => ⟨S128x128, .f32⟩
  | .local _ .vmem, ⟨51, _⟩ => ⟨S1x128, .f32⟩
  | .local _ .vmem, ⟨52, _⟩ => ⟨S2000x128, .f32⟩
  | .local _ .vmem, ⟨53, _⟩ => ⟨S2000x128, .f32⟩
  | .local _ .vmem, ⟨54, _⟩ => ⟨S1x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S2000x128, .f32⟩
  | .local _ .vmem, ⟨59, _⟩ => ⟨S2000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S2000x128, .f32⟩
  | .local _ .vmem, ⟨65, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28_0 : Ref sig .tc := ⟨.hbm, 40, rfl⟩
abbrev main_v28_1 : Ref sig .tc := ⟨.hbm, 41, rfl⟩
abbrev main_v28_2 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_3 : Ref sig .tc := ⟨.hbm, 70, rfl⟩
abbrev main_v54 : Ref sig .tc := ⟨.hbm, 71, rfl⟩
abbrev main_v55 : Ref sig .tc := ⟨.hbm, 72, rfl⟩
abbrev main_c_4 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_5 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66_0 : Ref sig .tc := ⟨.hbm, 85, rfl⟩
abbrev main_v66_1 : Ref sig .tc := ⟨.hbm, 86, rfl⟩
abbrev main_v66_2 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_c_8 : Ref sig .tc := ⟨.hbm, 115, rfl⟩
abbrev main_v92 : Ref sig .tc := ⟨.hbm, 116, rfl⟩
abbrev main_v93 : Ref sig .tc := ⟨.hbm, 117, rfl⟩
abbrev main_c_9 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_10 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104_0 : Ref sig .tc := ⟨.hbm, 130, rfl⟩
abbrev main_v104_1 : Ref sig .tc := ⟨.hbm, 131, rfl⟩
abbrev main_v104_2 : Ref sig .tc := ⟨.hbm, 132, rfl⟩
abbrev main_v105 : Ref sig .tc := ⟨.hbm, 133, rfl⟩
abbrev main_cst_11 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_12 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_cst_13 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_14 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_15 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg8_0 : Ref sig .tc := ⟨.vmem, 33, rfl⟩
abbrev cc2_scratch0 : Ref sig .tc := ⟨.vmem, 34, rfl⟩
abbrev cc2_scratch1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc4_stg6_0 : Ref sig .tc := ⟨.vmem, 52, rfl⟩
abbrev cc4_stg6_1 : Ref sig .tc := ⟨.vmem, 53, rfl⟩
abbrev cc4_stg7_0 : Ref sig .tc := ⟨.vmem, 54, rfl⟩
abbrev cc4_stg8_0 : Ref sig .tc := ⟨.vmem, 55, rfl⟩
abbrev cc4_scratch0 : Ref sig .tc := ⟨.vmem, 56, rfl⟩
abbrev cc4_scratch1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg2_0 : Ref sig .tc := ⟨.vmem, 61, rfl⟩
abbrev cc5_stg3_0 : Ref sig .tc := ⟨.vmem, 62, rfl⟩
abbrev cc5_stg4_0 : Ref sig .tc := ⟨.vmem, 63, rfl⟩
abbrev cc5_stg5_0 : Ref sig .tc := ⟨.vmem, 64, rfl⟩
abbrev cc5_stg5_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v45 : BitVec 1 := Scalar.cmpi .eq arg0 c49_i32
  let v46 : BitVec 32 := Scalar.extui v45
  let c0_i32_27 : BitVec 32 := 0#32
  let v47 : BitVec 1 := Scalar.cmpi .ne v46 c0_i32_27
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v46 : BitVec 1 := Scalar.cmpi .eq arg0 c49_i32
  let v47 : BitVec 32 := Scalar.extui v46
  let c0_i32_27 : BitVec 32 := 0#32
  let v48 : BitVec 1 := Scalar.cmpi .ne v47 c0_i32_27
  v48

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def k4_cond2 (i : grid4.Coords) : BitVec 1 :=
  let arg0 : BitVec 32 := BitVec.ofNat 32 (i 0).val
  let c49_i32 : BitVec 32 := 49#32
  let v46 : BitVec 1 := Scalar.cmpi .eq arg0 c49_i32
  let v47 : BitVec 32 := Scalar.extui v46
  let c0_i32_27 : BitVec 32 := 0#32
  let v48 : BitVec 1 := Scalar.cmpi .ne v47 c0_i32_27
  v48

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S2000x128 : S1x128.Broadcasts S2000x128
  reduces_S2000x128_S128 : S2000x128.Reduces [0] S128
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  concatenates_S128x128_S128x128_S128x128_S128x384_d1 : Shape.Concatenates [S128x128, S128x128, S128x128] S128x384 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S128x128_S100000x1_S100000x128_1_0_0_1_wf : ScatterDims.WF S128x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v28_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v66_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v66_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v66_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v79) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v101) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v103) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v104_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v104_1) S1x128.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v104_2) S1x128.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v104_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v113) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v114) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v115) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v116) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v117) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x384 : Shape := ⟨2, ![100000, 384]⟩
abbrev S128x384 : Shape := ⟨2, ![128, 384]⟩

abbrev nBuf : Space → Nat
  | .hbm => 279
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S100000x128, .f32⟩
  | 66 => ⟨S100000x128, .f32⟩
  | 67 => ⟨S100000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S100000x128, .f32⟩
  | 83 => ⟨S100000x128, .f32⟩
  | 84 => ⟨S_, .f32⟩
  | 85 => ⟨S128, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128x128, .f32⟩
  | 98 => ⟨S128x128, .f32⟩
  | 99 => ⟨S1x128, .f32⟩
  | 100 => ⟨S128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S128, .f32⟩
  | 107 => ⟨S1x128, .f32⟩
  | 108 => ⟨S128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S100000x128, .f32⟩
  | 22 => ⟨S100000x128, .f32⟩
  | 23 => ⟨S100000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S100000x128, .f32⟩
  | 39 => ⟨S100000x128, .f32⟩
  | 40 => ⟨S_, .f32⟩
  | 41 => ⟨S128, .f32⟩
  | 42 => ⟨S128, .f32⟩
  | 43 => ⟨S128, .f32⟩
  | 44 => ⟨S1x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S128, .f32⟩
  | 63 => ⟨S1x128, .f32⟩
  | 64 => ⟨S128, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S100000x128, .f32⟩
  | 87 => ⟨S1x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .f32⟩
  | 94 => ⟨S128, .f32⟩
  | 95 => ⟨S_, .f32⟩
  | 96 => ⟨S128, .f32⟩
  | 97 => ⟨S128, .f32⟩
  | 98 => ⟨S_, .i32⟩
  | 99 => ⟨S_, .f32⟩
  | 100 => ⟨S128, .f32⟩
  | 101 => ⟨S1x128, .f32⟩
  | 102 => ⟨S_, .f32⟩
  | 103 => ⟨S1x128, .f32⟩
  | 104 => ⟨S1x128, .f32⟩
  | 105 => ⟨S100000x128, .f32⟩
  | 106 => ⟨S100000x128, .f32⟩
  | 107 => ⟨S100000x128, .f32⟩
  | 108 => ⟨S_, .f32⟩
  | 109 => ⟨S_, .f32⟩
  | 110 => ⟨S_, .f32⟩
  | 111 => ⟨S_, .f32⟩
  | 112 => ⟨S128, .f32⟩
  | 113 => ⟨S128, .f32⟩
  | 114 => ⟨S128, .f32⟩
  | 115 => ⟨S_, .f32⟩
  | 116 => ⟨S_, .i1⟩
  | 117 => ⟨S_, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S_, .f32⟩
  | 125 => ⟨S128, .f32⟩
  | 126 => ⟨S128, .f32⟩
  | 127 => ⟨S128, .f32⟩
  | _ => ⟨S100000x128, .f32⟩

abbrev hbmTy0_2 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S128x128, .f32⟩
  | 11 => ⟨S100000x1, .i32⟩
  | 12 => ⟨S128x128, .f32⟩
  | 13 => ⟨S_, .f32⟩
  | 14 => ⟨S128x128, .f32⟩
  | 15 => ⟨S100000x1, .i32⟩
  | 16 => ⟨S128x128, .f32⟩
  | 17 => ⟨S_, .f32⟩
  | 18 => ⟨S128x128, .f32⟩
  | 19 => ⟨S100000x1, .i32⟩
  | 20 => ⟨S128x128, .f32⟩
  | 21 => ⟨S100000x384, .f32⟩
  | 22 => ⟨S128x384, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_cst : Ref sig .tc := ⟨.hbm, 50, rfl⟩
abbrev main_call1_v0 : Ref sig .tc := ⟨.hbm, 51, rfl⟩
abbrev main_v36 : Ref sig .tc := ⟨.hbm, 52, rfl⟩
abbrev main_cst_1 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_c_3 : Ref sig .tc := ⟨.hbm, 58, rfl⟩
abbrev main_call2_cst : Ref sig .tc := ⟨.hbm, 59, rfl⟩
abbrev main_call2_v0 : Ref sig .tc := ⟨.hbm, 60, rfl⟩
abbrev main_call2_v1 : Ref sig .tc := ⟨.hbm, 61, rfl⟩
abbrev main_call2_cst_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_cst_1 : Ref sig .tc := ⟨.hbm, 69, rfl⟩
abbrev main_call2_v8 : Ref sig .tc := ⟨.hbm, 70, rfl⟩
abbrev main_call2_cst_2 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_cst_3 : Ref sig .tc := ⟨.hbm, 75, rfl⟩
abbrev main_call2_v12 : Ref sig .tc := ⟨.hbm, 76, rfl⟩
abbrev main_call2_cst_4 : Ref sig .tc := ⟨.hbm, 77, rfl⟩
abbrev main_call2_call0_v0 : Ref sig .tc := ⟨.hbm, 78, rfl⟩
abbrev main_call2_call0_v1 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_4 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_5 : Ref sig .tc := ⟨.hbm, 109, rfl⟩
abbrev main_v68 : Ref sig .tc := ⟨.hbm, 110, rfl⟩
abbrev main_v69 : Ref sig .tc := ⟨.hbm, 111, rfl⟩
abbrev main_c_6 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_7 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_call3_cst : Ref sig .tc := ⟨.hbm, 127, rfl⟩
abbrev main_call3_v0 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_call4_cst : Ref sig .tc := ⟨.hbm, 134, rfl⟩
abbrev main_call4_v0 : Ref sig .tc := ⟨.hbm, 135, rfl⟩
abbrev main_v88 : Ref sig .tc := ⟨.hbm, 136, rfl⟩
abbrev main_cst_8 : Ref sig .tc := ⟨.hbm, 137, rfl⟩
abbrev main_v89 : Ref sig .tc := ⟨.hbm, 138, rfl⟩
abbrev main_cst_9 : Ref sig .tc := ⟨.hbm, 139, rfl⟩
abbrev main_v90 : Ref sig .tc := ⟨.hbm, 140, rfl⟩
abbrev main_v91 : Ref sig .tc := ⟨.hbm, 141, rfl⟩
abbrev main_c_10 : Ref sig .tc := ⟨.hbm, 142, rfl⟩
abbrev main_call5_cst : Ref sig .tc := ⟨.hbm, 143, rfl⟩
abbrev main_call5_v0 : Ref sig .tc := ⟨.hbm, 144, rfl⟩
abbrev main_call5_v1 : Ref sig .tc := ⟨.hbm, 145, rfl⟩
abbrev main_call5_cst_0 : Ref sig .tc := ⟨.hbm, 146, rfl⟩
abbrev main_call5_v2 : Ref sig .tc := ⟨.hbm, 147, rfl⟩
abbrev main_call5_v3 : Ref sig .tc := ⟨.hbm, 148, rfl⟩
abbrev main_call5_v4 : Ref sig .tc := ⟨.hbm, 149, rfl⟩
abbrev main_call5_v5 : Ref sig .tc := ⟨.hbm, 150, rfl⟩
abbrev main_call5_v6 : Ref sig .tc := ⟨.hbm, 151, rfl⟩
abbrev main_call5_v7 : Ref sig .tc := ⟨.hbm, 152, rfl⟩
abbrev main_call5_cst_1 : Ref sig .tc := ⟨.hbm, 153, rfl⟩
abbrev main_call5_v8 : Ref sig .tc := ⟨.hbm, 154, rfl⟩
abbrev main_call5_cst_2 : Ref sig .tc := ⟨.hbm, 155, rfl⟩
abbrev main_call5_v9 : Ref sig .tc := ⟨.hbm, 156, rfl⟩
abbrev main_call5_v10 : Ref sig .tc := ⟨.hbm, 157, rfl⟩
abbrev main_call5_v11 : Ref sig .tc := ⟨.hbm, 158, rfl⟩
abbrev main_call5_cst_3 : Ref sig .tc := ⟨.hbm, 159, rfl⟩
abbrev main_call5_v12 : Ref sig .tc := ⟨.hbm, 160, rfl⟩
abbrev main_call5_cst_4 : Ref sig .tc := ⟨.hbm, 161, rfl⟩
abbrev main_call5_call0_v0 : Ref sig .tc := ⟨.hbm, 162, rfl⟩
abbrev main_call5_call0_v1 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_cst_11 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_c_12 : Ref sig .tc := ⟨.hbm, 193, rfl⟩
abbrev main_v120 : Ref sig .tc := ⟨.hbm, 194, rfl⟩
abbrev main_v121 : Ref sig .tc := ⟨.hbm, 195, rfl⟩
abbrev main_c_13 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_cst_14 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_call6_cst : Ref sig .tc := ⟨.hbm, 211, rfl⟩
abbrev main_call6_v0 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_call7_cst : Ref sig .tc := ⟨.hbm, 218, rfl⟩
abbrev main_call7_v0 : Ref sig .tc := ⟨.hbm, 219, rfl⟩
abbrev main_v140 : Ref sig .tc := ⟨.hbm, 220, rfl⟩
abbrev main_cst_15 : Ref sig .tc := ⟨.hbm, 221, rfl⟩
abbrev main_v141 : Ref sig .tc := ⟨.hbm, 222, rfl⟩
abbrev main_cst_16 : Ref sig .tc := ⟨.hbm, 223, rfl⟩
abbrev main_v142 : Ref sig .tc := ⟨.hbm, 224, rfl⟩
abbrev main_v143 : Ref sig .tc := ⟨.hbm, 225, rfl⟩
abbrev main_c_17 : Ref sig .tc := ⟨.hbm, 226, rfl⟩
abbrev main_call8_cst : Ref sig .tc := ⟨.hbm, 227, rfl⟩
abbrev main_call8_v0 : Ref sig .tc := ⟨.hbm, 228, rfl⟩
abbrev main_call8_v1 : Ref sig .tc := ⟨.hbm, 229, rfl⟩
abbrev main_call8_cst_0 : Ref sig .tc := ⟨.hbm, 230, rfl⟩
abbrev main_call8_v2 : Ref sig .tc := ⟨.hbm, 231, rfl⟩
abbrev main_call8_v3 : Ref sig .tc := ⟨.hbm, 232, rfl⟩
abbrev main_call8_v4 : Ref sig .tc := ⟨.hbm, 233, rfl⟩
abbrev main_call8_v5 : Ref sig .tc := ⟨.hbm, 234, rfl⟩
abbrev main_call8_v6 : Ref sig .tc := ⟨.hbm, 235, rfl⟩
abbrev main_call8_v7 : Ref sig .tc := ⟨.hbm, 236, rfl⟩
abbrev main_call8_cst_1 : Ref sig .tc := ⟨.hbm, 237, rfl⟩
abbrev main_call8_v8 : Ref sig .tc := ⟨.hbm, 238, rfl⟩
abbrev main_call8_cst_2 : Ref sig .tc := ⟨.hbm, 239, rfl⟩
abbrev main_call8_v9 : Ref sig .tc := ⟨.hbm, 240, rfl⟩
abbrev main_call8_v10 : Ref sig .tc := ⟨.hbm, 241, rfl⟩
abbrev main_call8_v11 : Ref sig .tc := ⟨.hbm, 242, rfl⟩
abbrev main_call8_cst_3 : Ref sig .tc := ⟨.hbm, 243, rfl⟩
abbrev main_call8_v12 : Ref sig .tc := ⟨.hbm, 244, rfl⟩
abbrev main_call8_cst_4 : Ref sig .tc := ⟨.hbm, 245, rfl⟩
abbrev main_call8_call0_v0 : Ref sig .tc := ⟨.hbm, 246, rfl⟩
abbrev main_call8_call0_v1 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_cst_18 : Ref sig .tc := ⟨.hbm, 252, rfl⟩
abbrev main_v148 : Ref sig .tc := ⟨.hbm, 253, rfl⟩
abbrev main_v149 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_cst_19 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_cst_20 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_cst_21 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S128x128 : S_.BroadcastsInDim S128x128 (![] : Fin 0 → Fin S128x128.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  concatenates_S128x128_S128x128_S128x128_S128x384_d1 : Shape.Concatenates [S128x128, S128x128, S128x128] S128x384 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S128x128_S100000x1_S100000x128_1_0_0_1_wf : ScatterDims.WF S128x128 S100000x1 S100000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf

class Facts : Prop extends Facts₀ where

variable [Facts]
-- ==== Proof.RefOps.lean ====
/-
  The reference's @main as ONE straight line of host operations.

  The printed @main is cut into four consecutive stretches, and nine of its statements are calls — six of a
  rectifier (three operations: the zero, its broadcast, the pointwise maximum) and three of a variance (nineteen
  operations followed by a call of a three-operation selection). A call's body, run over that
  call's own buffers, is the same sequence of host steps as its operations written out in place; so each stretch
  is a literal list of operations (`ops0` … `ops3`, 85 + 85 + 85 + 15 of them), the stretches' concatenation is
  @main (`main_eq`), and what the run leaves in every buffer is the fold of the operations' results.

  Beside each list stand the three facts the run asks of it: every operation touches TensorCore buffers only,
  none allocates, and the buffers it writes are among a list (`W0` … `W3`) that holds no argument — which is why
  every argument array ends as it was launched (`kept`).
-/
import proofs.«100772_j6322191859838_1_alg».proof.Proof.Gen.ReferenceIdeal
import Idealize.ShloMosaic.Lib.StableHlo.Run

set_option maxRecDepth 8192

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents after two stretches run one after the other: the second's fold over the first's. -/
theorem after_two (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- @main's statements 1 … 60 of 196: 85 operations, each call written out over its buffers. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.unary main_arg3 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v4 main_v5 rfl shapeCasts_S1x128x128_S128x128,
    StableHlo.unary main_arg4 main_v6 ((extractStridedSlice S1x128 ![0, 0] · slices_S3x128_S1x128_0_0) : (⟨S3x128, .f32⟩ : BufTy).Contents (Elt F) → (⟨S1x128, .f32⟩ : BufTy).Contents (Elt F)),
    StableHlo.reshape main_v6 main_v7 rfl shapeCasts_S1x128_S128,
    StableHlo.unary main_arg5 main_v8 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v8 main_v9 rfl shapeCasts_S1x128x128_S128x128,
    StableHlo.unary main_arg6 main_v10 ((extractStridedSlice S1x128 ![0, 0] · slices_S3x128_S1x128_0_0) : (⟨S3x128, .f32⟩ : BufTy).Contents (Elt F) → (⟨S1x128, .f32⟩ : BufTy).Contents (Elt F)),
    StableHlo.reshape main_v10 main_v11 rfl shapeCasts_S1x128_S128,
    StableHlo.unary main_arg7 main_v12 ((extractStridedSlice S1x128 ![0, 0] · slices_S3x128_S1x128_0_0) : (⟨S3x128, .f32⟩ : BufTy).Contents (Elt F) → (⟨S1x128, .f32⟩ : BufTy).Contents (Elt F)),
    StableHlo.reshape main_v12 main_v13 rfl shapeCasts_S1x128_S128,
    StableHlo.unary main_arg8 main_v14 ((extractStridedSlice S1x128 ![0, 0] · slices_S3x128_S1x128_0_0) : (⟨S3x128, .f32⟩ : BufTy).Contents (Elt F) → (⟨S1x128, .f32⟩ : BufTy).Contents (Elt F)),
    StableHlo.reshape main_v14 main_v15 rfl shapeCasts_S1x128_S128,
    StableHlo.nullary main_c (constantI S_ 32 0#32),
    StableHlo.unary main_c main_v16 (broadcastInDim S1600000 ![] bcast_S_S1600000 : (⟨S_, .i32⟩ : BufTy).Contents (Elt F) → (⟨S1600000, .i32⟩ : BufTy).Contents (Elt F)),
    StableHlo.binary main_v1 main_v16 main_v17 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v18 (broadcastInDim S1600000 ![] bcast_S_S1600000 : (⟨S_, .i32⟩ : BufTy).Contents (Elt F) → (⟨S1600000, .i32⟩ : BufTy).Contents (Elt F)),
    StableHlo.binary main_v1 main_v18 main_v19 (addi : (⟨S1600000, .i32⟩ : BufTy).Contents (Elt F) → (⟨S1600000, .i32⟩ : BufTy).Contents (Elt F) → (⟨S1600000, .i32⟩ : BufTy).Contents (Elt F)),
    StableHlo.ternary main_v17 main_v19 main_v1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v20 main_v21 (broadcastInDim S1600000x1 ![0] bcast_S1600000_S1600000x1_0 : (⟨S1600000, .i32⟩ : BufTy).Contents (Elt F) → (⟨S1600000x1, .i32⟩ : BufTy).Contents (Elt F)),
    StableHlo.binary main_arg0 main_v21 main_v22 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v23 (broadcastInDim S100000x128 ![] bcast_S_S100000x128 : (⟨S_, .f32⟩ : BufTy).Contents (Elt F) → (⟨S100000x128, .f32⟩ : BufTy).Contents (Elt F)),
    StableHlo.unary main_v3 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v25 main_v26 (addf : (⟨S100000x128, .f32⟩ : BufTy).Contents (Elt F) → (⟨S100000x128, .f32⟩ : BufTy).Contents (Elt F) → (⟨S100000x128, .f32⟩ : BufTy).Contents (Elt F)),
    StableHlo.binary main_v26 main_v5 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v7 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v29 main_v30 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v30 : StableHlo.TRef sig ⟨S100000x128, .f32⟩) main_call0.v0 main_call0.v1 maximumf,
    StableHlo.binary main_v31 main_v9 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v11 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v34 main_v35 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v35 : StableHlo.TRef sig ⟨S100000x128, .f32⟩) main_call1.v0 main_call1.v1 maximumf,
    StableHlo.nullary main_cst_1 (constant S_ .f32 0x00000000#32),
    StableHlo.binary main_v36 main_cst_1 main_v37 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_2 (constant S_ .f32 0x47C35000#32),
    StableHlo.unary main_cst_2 main_v38 (broadcastInDim S128 ![] bcast_S_S128 : (⟨S_, .f32⟩ : BufTy).Contents (Elt F) → (⟨S128, .f32⟩ : BufTy).Contents (Elt F)),
    StableHlo.binary main_v37 main_v38 main_v39 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v36 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v36 : StableHlo.TRef sig ⟨S100000x128, .f32⟩) main_call2.v4 main_call2.v5 subf,
    StableHlo.TRef.binary main_call2.v5 main_call2.v5 main_call2.v6 mulf,
    StableHlo.TRef.unary (.of main_c_3 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v39 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v36 main_v42 main_v43 (subf : (⟨S100000x128, .f32⟩ : BufTy).Contents (Elt F) → (⟨S100000x128, .f32⟩ : BufTy).Contents (Elt F) → (⟨S100000x128, .f32⟩ : BufTy).Contents (Elt F)),
    StableHlo.nullary main_cst_4 (constant S_ .f32 0x3727C5AC#32),
    StableHlo.unary main_cst_4 main_v44 (broadcastInDim S128 ![] bcast_S_S128 : (⟨S_, .f32⟩ : BufTy).Contents (Elt F) → (⟨S128, .f32⟩ : BufTy).Contents (Elt F)),
    StableHlo.binary main_v40 main_v44 main_v45 (addf : (⟨S128, .f32⟩ : BufTy).Contents (Elt F) → (⟨S128, .f32⟩ : BufTy).Contents (Elt F) → (⟨S128, .f32⟩ : BufTy).Contents (Elt F)),
    StableHlo.unary main_v45 main_v46 (Host.rsqrt : (⟨S128, .f32⟩ : BufTy).Contents (Elt F) → (⟨S128, .f32⟩ : BufTy).Contents (Elt F)),
    StableHlo.unary main_v46 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_v13 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (mulf : (⟨S100000x128, .f32⟩ : BufTy).Contents (Elt F) → (⟨S100000x128, .f32⟩ : BufTy).Contents (Elt F) → (⟨S100000x128, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩

theorem ops0_fresh : (ops0 : List (HloOp τ sig (Elt F))).Forall fun op => op.fresh = ∅ := by
  simp only [List.Forall]; repeat' constructor

/-- The buffers stretch 0 writes: one per operation, no argument among them. -/
abbrev W0 : List (Ref sig .tc) := [main_v0, main_v1, main_v2, main_v3, main_v4, main_v5, main_v6, main_v7, main_v8, main_v9, main_v10, main_v11, main_v12, main_v13, main_v14, main_v15, main_c, main_v16, main_v17, main_c_0, main_v18, main_v19, main_v20, main_v21, main_v22, main_cst, main_v23, main_v24, main_v25, main_v26, main_v27, main_v28, main_v29, main_v30, main_call0_cst, main_call0_v0, main_v31, main_v32, main_v33, main_v34, main_v35, main_call1_cst, main_call1_v0, main_v36, main_cst_1, main_v37, main_cst_2, main_v38, main_v39, main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v40, main_v41, main_v42, main_v43, main_cst_4, main_v44, main_v45, main_v46, main_v47, main_v48, main_v49, main_v50, main_v51, main_v52]

theorem ops0_writes : (ops0 : List (HloOp τ sig (Elt F))).Forall fun op => op.writes ⊆ (W0.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- Stretch 0 of @main is that line: the callees' definitions unfolded at their calls, sequencing reassociated. -/
theorem part0_eq (c : Dev nD) : main_part0 (F := F) c = seq ops0 := by
  simp only [main_part0, fn_relu.body, fn_var.body, fn_where.body, seq, bind_assoc, pure_bind]
  rfl

/-- @main's statements 61 … 120 of 196: 85 operations, each call written out over its buffers. -/
abbrev ops1 : List (HloOp τ sig (Elt F)) :=
  [ StableHlo.unary main_v15 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v52 main_v54 main_v55 (addf : (⟨S100000x128, .f32⟩ : BufTy).Contents (Elt F) → (⟨S100000x128, .f32⟩ : BufTy).Contents (Elt F) → (⟨S100000x128, .f32⟩ : BufTy).Contents (Elt F)),
    StableHlo.unary main_arg3 main_v56 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v56 main_v57 rfl shapeCasts_S1x128x128_S128x128,
    StableHlo.unary main_arg4 main_v58 ((extractStridedSlice S1x128 ![1, 0] · slices_S3x128_S1x128_1_0) : (⟨S3x128, .f32⟩ : BufTy).Contents (Elt F) → (⟨S1x128, .f32⟩ : BufTy).Contents (Elt F)),
    StableHlo.reshape main_v58 main_v59 rfl shapeCasts_S1x128_S128,
    StableHlo.unary main_arg5 main_v60 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v60 main_v61 rfl shapeCasts_S1x128x128_S128x128,
    StableHlo.unary main_arg6 main_v62 ((extractStridedSlice S1x128 ![1, 0] · slices_S3x128_S1x128_1_0) : (⟨S3x128, .f32⟩ : BufTy).Contents (Elt F) → (⟨S1x128, .f32⟩ : BufTy).Contents (Elt F)),
    StableHlo.reshape main_v62 main_v63 rfl shapeCasts_S1x128_S128,
    StableHlo.unary main_arg7 main_v64 ((extractStridedSlice S1x128 ![1, 0] · slices_S3x128_S1x128_1_0) : (⟨S3x128, .f32⟩ : BufTy).Contents (Elt F) → (⟨S1x128, .f32⟩ : BufTy).Contents (Elt F)),
    StableHlo.reshape main_v64 main_v65 rfl shapeCasts_S1x128_S128,
    StableHlo.unary main_arg8 main_v66 ((extractStridedSlice S1x128 ![1, 0] · slices_S3x128_S1x128_1_0) : (⟨S3x128, .f32⟩ : BufTy).Contents (Elt F) → (⟨S1x128, .f32⟩ : BufTy).Contents (Elt F)),
    StableHlo.reshape main_v66 main_v67 rfl shapeCasts_S1x128_S128,
    StableHlo.nullary main_c_5 (constantI S_ 32 0#32),
    StableHlo.unary main_c_5 main_v68 (broadcastInDim S1600000 ![] bcast_S_S1600000 : (⟨S_, .i32⟩ : BufTy).Contents (Elt F) → (⟨S1600000, .i32⟩ : BufTy).Contents (Elt F)),
    StableHlo.binary main_v1 main_v68 main_v69 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v70 (broadcastInDim S1600000 ![] bcast_S_S1600000 : (⟨S_, .i32⟩ : BufTy).Contents (Elt F) → (⟨S1600000, .i32⟩ : BufTy).Contents (Elt F)),
    StableHlo.binary main_v1 main_v70 main_v71 (addi : (⟨S1600000, .i32⟩ : BufTy).Contents (Elt F) → (⟨S1600000, .i32⟩ : BufTy).Contents (Elt F) → (⟨S1600000, .i32⟩ : BufTy).Contents (Elt F)),
    StableHlo.ternary main_v69 main_v71 main_v1 main_v72 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v72 main_v73 (broadcastInDim S1600000x1 ![0] bcast_S1600000_S1600000x1_0 : (⟨S1600000, .i32⟩ : BufTy).Contents (Elt F) → (⟨S1600000x1, .i32⟩ : BufTy).Contents (Elt F)),
    StableHlo.binary main_v55 main_v73 main_v74 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v75 (broadcastInDim S100000x128 ![] bcast_S_S100000x128 : (⟨S_, .f32⟩ : BufTy).Contents (Elt F) → (⟨S100000x128, .f32⟩ : BufTy).Contents (Elt F)),
    StableHlo.unary main_v3 main_v76 (broadcastInDim S1600000x1 ![0] bcast_S1600000_S1600000x1_0 : (⟨S1600000, .i32⟩ : BufTy).Contents (Elt F) → (⟨S1600000x1, .i32⟩ : BufTy).Contents (Elt F)),
    StableHlo.ternary main_v75 main_v76 main_v74 main_v77 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v55 main_v77 main_v78 (addf : (⟨S100000x128, .f32⟩ : BufTy).Contents (Elt F) → (⟨S100000x128, .f32⟩ : BufTy).Contents (Elt F) → (⟨S100000x128, .f32⟩ : BufTy).Contents (Elt F)),
    StableHlo.binary main_v78 main_v57 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v59 main_v80 (broadcastInDim S1x128 ![1] bcast_S128_S1x128_1 : (⟨S128, .f32⟩ : BufTy).Contents (Elt F) → (⟨S1x128, .f32⟩ : BufTy).Contents (Elt F)),
    StableHlo.unary main_v80 main_v81 (broadcastInDim S100000x128 ![0, 1] bcast_S1x128_S100000x128_0_1 : (⟨S1x128, .f32⟩ : BufTy).Contents (Elt F) → (⟨S100000x128, .f32⟩ : BufTy).Contents (Elt F)),
    StableHlo.binary main_v79 main_v81 main_v82 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v82 : StableHlo.TRef sig ⟨S100000x128, .f32⟩) main_call3.v0 main_call3.v1 maximumf,
    StableHlo.binary main_v83 main_v61 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v63 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v86 main_v87 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v87 : StableHlo.TRef sig ⟨S100000x128, .f32⟩) main_call4.v0 main_call4.v1 maximumf,
    StableHlo.nullary main_cst_8 (constant S_ .f32 0x00000000#32),
    StableHlo.binary main_v88 main_cst_8 main_v89 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v90 (broadcastInDim S128 ![] bcast_S_S128 : (⟨S_, .f32⟩ : BufTy).Contents (Elt F) → (⟨S128, .f32⟩ : BufTy).Contents (Elt F)),
    StableHlo.binary main_v89 main_v90 main_v91 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call5.cst (constant S_ .f32 0x00000000#32),
    StableHlo.TRef.binary (.of main_v88 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v88 : StableHlo.TRef sig ⟨S100000x128, .f32⟩) main_call5.v4 main_call5.v5 subf,
    StableHlo.TRef.binary main_call5.v5 main_call5.v5 main_call5.v6 mulf,
    StableHlo.TRef.unary (.of main_c_10 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b),
    StableHlo.unary main_v91 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v88 main_v94 main_v95 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v96 (broadcastInDim S128 ![] bcast_S_S128 : (⟨S_, .f32⟩ : BufTy).Contents (Elt F) → (⟨S128, .f32⟩ : BufTy).Contents (Elt F)),
    StableHlo.binary main_v92 main_v96 main_v97 (addf : (⟨S128, .f32⟩ : BufTy).Contents (Elt F) → (⟨S128, .f32⟩ : BufTy).Contents (Elt F) → (⟨S128, .f32⟩ : BufTy).Contents (Elt F)),
    StableHlo.unary main_v97 main_v98 (Host.rsqrt : (⟨S128, .f32⟩ : BufTy).Contents (Elt F) → (⟨S128, .f32⟩ : BufTy).Contents (Elt F)),
    StableHlo.unary main_v98 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S100000x128 ![0, 1] bcast_S1x128_S100000x128_0_1 : (⟨S1x128, .f32⟩ : BufTy).Contents (Elt F) → (⟨S100000x128, .f32⟩ : BufTy).Contents (Elt F)),
    StableHlo.binary main_v95 main_v100 main_v101 (mulf : (⟨S100000x128, .f32⟩ : BufTy).Contents (Elt F) → (⟨S100000x128, .f32⟩ : BufTy).Contents (Elt F) → (⟨S100000x128, .f32⟩ : BufTy).Contents (Elt F)),
    StableHlo.unary main_v65 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v101 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_v67 main_v105 (broadcastInDim S1x128 ![1] bcast_S128_S1x128_1 : (⟨S128, .f32⟩ : BufTy).Contents (Elt F) → (⟨S1x128, .f32⟩ : BufTy).Contents (Elt F)) ]

theorem ops1_sub : (ops1 : List (HloOp τ sig (Elt F))).Forall fun op => op.bufs ⊆ tcRefs τ sig :=
  ⟨unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub ..⟩

theorem ops1_fresh : (ops1 : List (HloOp τ sig (Elt F))).Forall fun op => op.fresh = ∅ := by
  simp only [List.Forall]; repeat' constructor

/-- The buffers stretch 1 writes: one per operation, no argument among them. -/
abbrev W1 : List (Ref sig .tc) := [main_v53, main_v54, main_v55, main_v56, main_v57, main_v58, main_v59, main_v60, main_v61, main_v62, main_v63, main_v64, main_v65, main_v66, main_v67, main_c_5, main_v68, main_v69, main_c_6, main_v70, main_v71, main_v72, main_v73, main_v74, main_cst_7, main_v75, main_v76, main_v77, main_v78, main_v79, main_v80, main_v81, main_v82, main_call3_cst, main_call3_v0, main_v83, main_v84, main_v85, main_v86, main_v87, main_call4_cst, main_call4_v0, main_v88, main_cst_8, main_v89, main_cst_9, main_v90, main_v91, main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v92, main_v93, main_v94, main_v95, main_cst_11, main_v96, main_v97, main_v98, main_v99, main_v100, main_v101, main_v102, main_v103, main_v104, main_v105]

theorem ops1_writes : (ops1 : List (HloOp τ sig (Elt F))).Forall fun op => op.writes ⊆ (W1.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- Stretch 1 of @main is that line: the callees' definitions unfolded at their calls, sequencing reassociated. -/
theorem part1_eq (c : Dev nD) : main_part1 (F := F) c = seq ops1 := by
  simp only [main_part1, fn_relu.body, fn_var.body, fn_where.body, seq, bind_assoc, pure_bind]
  rfl

/-- @main's statements 121 … 180 of 196: 85 operations, each call written out over its buffers. -/
abbrev ops2 : List (HloOp τ sig (Elt F)) :=
  [ StableHlo.unary main_v105 main_v106 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v106 main_v107 (addf : (⟨S100000x128, .f32⟩ : BufTy).Contents (Elt F) → (⟨S100000x128, .f32⟩ : BufTy).Contents (Elt F) → (⟨S100000x128, .f32⟩ : BufTy).Contents (Elt F)),
    StableHlo.unary main_arg3 main_v108 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v108 main_v109 rfl shapeCasts_S1x128x128_S128x128,
    StableHlo.unary main_arg4 main_v110 ((extractStridedSlice S1x128 ![2, 0] · slices_S3x128_S1x128_2_0) : (⟨S3x128, .f32⟩ : BufTy).Contents (Elt F) → (⟨S1x128, .f32⟩ : BufTy).Contents (Elt F)),
    StableHlo.reshape main_v110 main_v111 rfl shapeCasts_S1x128_S128,
    StableHlo.unary main_arg5 main_v112 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v112 main_v113 rfl shapeCasts_S1x128x128_S128x128,
    StableHlo.unary main_arg6 main_v114 ((extractStridedSlice S1x128 ![2, 0] · slices_S3x128_S1x128_2_0) : (⟨S3x128, .f32⟩ : BufTy).Contents (Elt F) → (⟨S1x128, .f32⟩ : BufTy).Contents (Elt F)),
    StableHlo.reshape main_v114 main_v115 rfl shapeCasts_S1x128_S128,
    StableHlo.unary main_arg7 main_v116 ((extractStridedSlice S1x128 ![2, 0] · slices_S3x128_S1x128_2_0) : (⟨S3x128, .f32⟩ : BufTy).Contents (Elt F) → (⟨S1x128, .f32⟩ : BufTy).Contents (Elt F)),
    StableHlo.reshape main_v116 main_v117 rfl shapeCasts_S1x128_S128,
    StableHlo.unary main_arg8 main_v118 ((extractStridedSlice S1x128 ![2, 0] · slices_S3x128_S1x128_2_0) : (⟨S3x128, .f32⟩ : BufTy).Contents (Elt F) → (⟨S1x128, .f32⟩ : BufTy).Contents (Elt F)),
    StableHlo.reshape main_v118 main_v119 rfl shapeCasts_S1x128_S128,
    StableHlo.nullary main_c_12 (constantI S_ 32 0#32),
    StableHlo.unary main_c_12 main_v120 (broadcastInDim S1600000 ![] bcast_S_S1600000 : (⟨S_, .i32⟩ : BufTy).Contents (Elt F) → (⟨S1600000, .i32⟩ : BufTy).Contents (Elt F)),
    StableHlo.binary main_v1 main_v120 main_v121 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v122 (broadcastInDim S1600000 ![] bcast_S_S1600000 : (⟨S_, .i32⟩ : BufTy).Contents (Elt F) → (⟨S1600000, .i32⟩ : BufTy).Contents (Elt F)),
    StableHlo.binary main_v1 main_v122 main_v123 (addi : (⟨S1600000, .i32⟩ : BufTy).Contents (Elt F) → (⟨S1600000, .i32⟩ : BufTy).Contents (Elt F) → (⟨S1600000, .i32⟩ : BufTy).Contents (Elt F)),
    StableHlo.ternary main_v121 main_v123 main_v1 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v124 main_v125 (broadcastInDim S1600000x1 ![0] bcast_S1600000_S1600000x1_0 : (⟨S1600000, .i32⟩ : BufTy).Contents (Elt F) → (⟨S1600000x1, .i32⟩ : BufTy).Contents (Elt F)),
    StableHlo.binary main_v107 main_v125 main_v126 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v127 (broadcastInDim S100000x128 ![] bcast_S_S100000x128 : (⟨S_, .f32⟩ : BufTy).Contents (Elt F) → (⟨S100000x128, .f32⟩ : BufTy).Contents (Elt F)),
    StableHlo.unary main_v3 main_v128 (broadcastInDim S1600000x1 ![0] bcast_S1600000_S1600000x1_0 : (⟨S1600000, .i32⟩ : BufTy).Contents (Elt F) → (⟨S1600000x1, .i32⟩ : BufTy).Contents (Elt F)),
    StableHlo.ternary main_v127 main_v128 main_v126 main_v129 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v107 main_v129 main_v130 (addf : (⟨S100000x128, .f32⟩ : BufTy).Contents (Elt F) → (⟨S100000x128, .f32⟩ : BufTy).Contents (Elt F) → (⟨S100000x128, .f32⟩ : BufTy).Contents (Elt F)),
    StableHlo.binary main_v130 main_v109 main_v131 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v111 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v133 main_v134 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v134 : StableHlo.TRef sig ⟨S100000x128, .f32⟩) main_call6.v0 main_call6.v1 maximumf,
    StableHlo.binary main_v135 main_v113 main_v136 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v115 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v138 main_v139 (addf : (⟨S100000x128, .f32⟩ : BufTy).Contents (Elt F) → (⟨S100000x128, .f32⟩ : BufTy).Contents (Elt F) → (⟨S100000x128, .f32⟩ : BufTy).Contents (Elt F)),
    StableHlo.TRef.nullary main_call7.cst (constant S_ .f32 0x00000000#32),
    StableHlo.TRef.unary main_call7.cst main_call7.v0 (broadcastInDim S100000x128 ![] bcast_S_S100000x128),
    StableHlo.TRef.binary (.of main_v139 : StableHlo.TRef sig ⟨S100000x128, .f32⟩) main_call7.v0 main_call7.v1 maximumf,
    StableHlo.nullary main_cst_15 (constant S_ .f32 0x00000000#32),
    StableHlo.binary main_v140 main_cst_15 main_v141 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v142 (broadcastInDim S128 ![] bcast_S_S128 : (⟨S_, .f32⟩ : BufTy).Contents (Elt F) → (⟨S128, .f32⟩ : BufTy).Contents (Elt F)),
    StableHlo.binary main_v141 main_v142 main_v143 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.TRef.nullary main_call8.cst (constant S_ .f32 0x00000000#32),
    StableHlo.TRef.binary (.of main_v140 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v140 : StableHlo.TRef sig ⟨S100000x128, .f32⟩) main_call8.v4 main_call8.v5 subf,
    StableHlo.TRef.binary main_call8.v5 main_call8.v5 main_call8.v6 mulf,
    StableHlo.TRef.unary (.of main_c_17 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v143 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S100000x128 ![0, 1] bcast_S1x128_S100000x128_0_1 : (⟨S1x128, .f32⟩ : BufTy).Contents (Elt F) → (⟨S100000x128, .f32⟩ : BufTy).Contents (Elt F)),
    StableHlo.binary main_v140 main_v146 main_v147 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v148 (broadcastInDim S128 ![] bcast_S_S128 : (⟨S_, .f32⟩ : BufTy).Contents (Elt F) → (⟨S128, .f32⟩ : BufTy).Contents (Elt F)),
    StableHlo.binary main_v144 main_v148 main_v149 (addf : (⟨S128, .f32⟩ : BufTy).Contents (Elt F) → (⟨S128, .f32⟩ : BufTy).Contents (Elt F) → (⟨S128, .f32⟩ : BufTy).Contents (Elt F)),
    StableHlo.unary main_v149 main_v150 (Host.rsqrt : (⟨S128, .f32⟩ : BufTy).Contents (Elt F) → (⟨S128, .f32⟩ : BufTy).Contents (Elt F)),
    StableHlo.unary main_v150 main_v151 (broadcastInDim S1x128 ![1] bcast_S128_S1x128_1 : (⟨S128, .f32⟩ : BufTy).Contents (Elt F) → (⟨S1x128, .f32⟩ : BufTy).Contents (Elt F)),
    StableHlo.unary main_v151 main_v152 (broadcastInDim S100000x128 ![0, 1] bcast_S1x128_S100000x128_0_1 : (⟨S1x128, .f32⟩ : BufTy).Contents (Elt F) → (⟨S100000x128, .f32⟩ : BufTy).Contents (Elt F)),
    StableHlo.binary main_v147 main_v152 main_v153 (mulf : (⟨S100000x128, .f32⟩ : BufTy).Contents (Elt F) → (⟨S100000x128, .f32⟩ : BufTy).Contents (Elt F) → (⟨S100000x128, .f32⟩ : BufTy).Contents (Elt F)),
    StableHlo.unary main_v117 main_v154 (broadcastInDim S1x128 ![1] bcast_S128_S1x128_1 : (⟨S128, .f32⟩ : BufTy).Contents (Elt F) → (⟨S1x128, .f32⟩ : BufTy).Contents (Elt F)),
    StableHlo.unary main_v154 main_v155 (broadcastInDim S100000x128 ![0, 1] bcast_S1x128_S100000x128_0_1 : (⟨S1x128, .f32⟩ : BufTy).Contents (Elt F) → (⟨S100000x128, .f32⟩ : BufTy).Contents (Elt F)),
    StableHlo.binary main_v153 main_v155 main_v156 (mulf : (⟨S100000x128, .f32⟩ : BufTy).Contents (Elt F) → (⟨S100000x128, .f32⟩ : BufTy).Contents (Elt F) → (⟨S100000x128, .f32⟩ : BufTy).Contents (Elt F)),
    StableHlo.unary main_v119 main_v157 (broadcastInDim S1x128 ![1] bcast_S128_S1x128_1 : (⟨S128, .f32⟩ : BufTy).Contents (Elt F) → (⟨S1x128, .f32⟩ : BufTy).Contents (Elt F)),
    StableHlo.unary main_v157 main_v158 (broadcastInDim S100000x128 ![0, 1] bcast_S1x128_S100000x128_0_1 : (⟨S1x128, .f32⟩ : BufTy).Contents (Elt F) → (⟨S100000x128, .f32⟩ : BufTy).Contents (Elt F)) ]

theorem ops2_sub : (ops2 : List (HloOp τ sig (Elt F))).Forall fun op => op.bufs ⊆ tcRefs τ sig :=
  ⟨unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

theorem ops2_fresh : (ops2 : List (HloOp τ sig (Elt F))).Forall fun op => op.fresh = ∅ := by
  simp only [List.Forall]; repeat' constructor

/-- The buffers stretch 2 writes: one per operation, no argument among them. -/
abbrev W2 : List (Ref sig .tc) := [main_v106, main_v107, main_v108, main_v109, main_v110, main_v111, main_v112, main_v113, main_v114, main_v115, main_v116, main_v117, main_v118, main_v119, main_c_12, main_v120, main_v121, main_c_13, main_v122, main_v123, main_v124, main_v125, main_v126, main_cst_14, main_v127, main_v128, main_v129, main_v130, main_v131, main_v132, main_v133, main_v134, main_call6_cst, main_call6_v0, main_v135, main_v136, main_v137, main_v138, main_v139, main_call7_cst, main_call7_v0, main_v140, main_cst_15, main_v141, main_cst_16, main_v142, main_v143, main_c_17, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v144, main_v145, main_v146, main_v147, main_cst_18, main_v148, main_v149, main_v150, main_v151, main_v152, main_v153, main_v154, main_v155, main_v156, main_v157, main_v158]

theorem ops2_writes : (ops2 : List (HloOp τ sig (Elt F))).Forall fun op => op.writes ⊆ (W2.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- Stretch 2 of @main is that line: the callees' definitions unfolded at their calls, sequencing reassociated. -/
theorem part2_eq (c : Dev nD) : main_part2 (F := F) c = seq ops2 := by
  simp only [main_part2, fn_relu.body, fn_var.body, fn_where.body, seq, bind_assoc, pure_bind]
  rfl

/-- @main's statements 181 … 196 of 196: 15 operations, each call written out over its buffers. -/
abbrev ops3 : List (HloOp τ sig (Elt F)) :=
  [ StableHlo.binary main_v156 main_v158 main_v159 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v160 (broadcastInDim S128x128 ![] bcast_S_S128x128 : (⟨S_, .f32⟩ : BufTy).Contents (Elt F) → (⟨S128x128, .f32⟩ : BufTy).Contents (Elt F)),
    StableHlo.unary main_arg2 main_v161 (broadcastInDim S100000x1 ![0] bcast_S100000_S100000x1_0 : (⟨S100000, .i32⟩ : BufTy).Contents (Elt F) → (⟨S100000x1, .i32⟩ : BufTy).Contents (Elt F)),
    StableHlo.ternary main_v160 main_v161 main_v55 main_v162 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_20 (constant S_ .f32 0x00000000#32),
    StableHlo.unary main_cst_20 main_v163 (broadcastInDim S128x128 ![] bcast_S_S128x128 : (⟨S_, .f32⟩ : BufTy).Contents (Elt F) → (⟨S128x128, .f32⟩ : BufTy).Contents (Elt F)),
    StableHlo.unary main_arg2 main_v164 (broadcastInDim S100000x1 ![0] bcast_S100000_S100000x1_0 : (⟨S100000, .i32⟩ : BufTy).Contents (Elt F) → (⟨S100000x1, .i32⟩ : BufTy).Contents (Elt F)),
    StableHlo.ternary main_v163 main_v164 main_v107 main_v165 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_21 (constant S_ .f32 0x00000000#32),
    StableHlo.unary main_cst_21 main_v166 (broadcastInDim S128x128 ![] bcast_S_S128x128 : (⟨S_, .f32⟩ : BufTy).Contents (Elt F) → (⟨S128x128, .f32⟩ : BufTy).Contents (Elt F)),
    StableHlo.unary main_arg2 main_v167 (broadcastInDim S100000x1 ![0] bcast_S100000_S100000x1_0 : (⟨S100000, .i32⟩ : BufTy).Contents (Elt F) → (⟨S100000x1, .i32⟩ : BufTy).Contents (Elt F)),
    StableHlo.ternary main_v166 main_v167 main_v159 main_v168 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nary ![main_v55, main_v107, main_v159] main_v169 (fun u => concatenate S100000x384 1 [⟨S100000x128, u 0⟩, ⟨S100000x128, u 1⟩, ⟨S100000x128, u 2⟩] concatenates_S100000x128_S100000x128_S100000x128_S100000x384_d1),
    StableHlo.nary ![main_v162, main_v165, main_v168] main_v170 (fun u => concatenate S128x384 1 [⟨S128x128, u 0⟩, ⟨S128x128, u 1⟩, ⟨S128x128, u 2⟩] concatenates_S128x128_S128x128_S128x128_S128x384_d1) ]

theorem ops3_sub : (ops3 : List (HloOp τ sig (Elt F))).Forall fun op => op.bufs ⊆ tcRefs τ sig :=
  ⟨binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nary_bufs_sub .., nary_bufs_sub ..⟩

theorem ops3_fresh : (ops3 : List (HloOp τ sig (Elt F))).Forall fun op => op.fresh = ∅ := by
  simp only [List.Forall]; repeat' constructor

/-- The buffers stretch 3 writes: one per operation, no argument among them. -/
abbrev W3 : List (Ref sig .tc) := [main_v159, main_cst_19, main_v160, main_v161, main_v162, main_cst_20, main_v163, main_v164, main_v165, main_cst_21, main_v166, main_v167, main_v168, main_v169, main_v170]

theorem ops3_writes : (ops3 : List (HloOp τ sig (Elt F))).Forall fun op => op.writes ⊆ (W3.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- Stretch 3 of @main is that line (it makes no call): sequencing reassociated. -/
theorem part3_eq (c : Dev nD) : main_part3 (F := F) c = seq ops3 := by
  simp only [main_part3, seq, bind_assoc, pure_bind]

/-- @main's 270 operations, in order. -/
abbrev ops : List (HloOp τ sig (Elt F)) := ops0 ++ (ops1 ++ (ops2 ++ ops3))

/-- @main is that straight line. -/
theorem main_eq (c : Dev nD) : main (F := F) c = seq ops := by
  unfold main
  rw [part0_eq, part1_eq, part2_eq, part3_eq]
  simp only [ops, seq_append]

private theorem forall_ops {P : HloOp τ sig (Elt F) → Prop} (h0 : (ops0 (F := F)).Forall P) (h1 : (ops1 (F := F)).Forall P)
    (h2 : (ops2 (F := F)).Forall P) (h3 : (ops3 (F := F)).Forall P) : ∀ op ∈ (ops (F := F)), P op := by
  intro op h
  rcases List.mem_append.mp h with h | h
  · exact List.forall_iff_forall_mem.mp h0 op h
  rcases List.mem_append.mp h with h | h
  · exact List.forall_iff_forall_mem.mp h1 op h
  rcases List.mem_append.mp h with h | h
  · exact List.forall_iff_forall_mem.mp h2 op h
  · exact List.forall_iff_forall_mem.mp h3 op h

theorem ops_sub : (ops : List (HloOp τ sig (Elt F))).Forall fun op => op.bufs ⊆ tcRefs τ sig :=
  List.forall_iff_forall_mem.mpr (forall_ops ops0_sub ops1_sub ops2_sub ops3_sub)

theorem ops_fresh : ∀ op ∈ (ops : List (HloOp τ sig (Elt F))), op.fresh = ∅ :=
  forall_ops ops0_fresh ops1_fresh ops2_fresh ops3_fresh

/-- A buffer none of the four stretches writes holds after @main what it held before. -/
theorem kept (V : Valuation τ sig (Elt F)) (r : Ref sig .tc) (h0 : r ∉ W0) (h1 : r ∉ W1) (h2 : r ∉ W2) (h3 : r ∉ W3) :
    after ops V (Proc.devRef .tc r) = V (Proc.devRef .tc r) := by
  simp only [ops, after_two]
  exact (after_of_writes_sub ops3 _ ops3_writes h3).trans <| (after_of_writes_sub ops2 _ ops2_writes h2).trans <|
    (after_of_writes_sub ops1 _ ops1_writes h1).trans (after_of_writes_sub ops0 _ ops0_writes h0)

theorem scopedRefs_eq : (Finset.univ.filter fun b : Ref sig .tc => b.isScoped) = ∅ := by decide
theorem scopedSems_eq : (Finset.univ.filter fun sm : SemLoc sig => sm.isScoped .tc) = ∅ := by decide

/-- On every device, at any float instance, from any memory with zero counters: every weakly fair execution of the
    reference's @main terminates, nothing faulting, with every TensorCore buffer at the fold of the 270 operations'
    results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefFrame.lean ====
/-
  The reference's frame: its @main runs to the end, faults nowhere, and leaves the nine argument arrays as launched.

  @main is a straight line of 270 host operations (the calls written out); a host operation always completes, and
  the run leaves every buffer at the fold of the operations' results over the launch contents. None of the 270
  writes an argument's buffer — each writes the buffer of the value it defines — so each argument's final contents
  are its launch contents. The precondition is not used.
-/
import proofs.«100772_j6322191859838_1_alg».proof.Defs
import proofs.«100772_j6322191859838_1_alg».proof.Proof.RefOps
import proofs.«100772_j6322191859838_1_alg».proof.Proof.Gen.Pre_finite_inputs

set_option maxRecDepth 8192

noncomputable section

namespace Cert.Proof.Reference

open Cert.ReferenceIdeal Cert.ReferenceIdeal.Gen Cert.ReferenceIdeal.RefRun
open Idealize.ShloMosaic Idealize.ShloMosaic.TcCoe Idealize.SL.Sem Idealize.ShloMosaic.StableHlo

/-- Every weakly fair execution of the reference terminates with the arguments unchanged. -/
theorem frame : Cert.frame_ReferenceIdeal := fun m ρ _ =>
  (θ_run Cert.ReferenceIdeal.defs _ _).mono
    (fun _ h c => ⟨(h c main_arg0).trans (kept _ main_arg0 (by decide) (by decide) (by decide) (by decide)),
      (h c main_arg1).trans (kept _ main_arg1 (by decide) (by decide) (by decide) (by decide)),
      (h c main_arg2).trans (kept _ main_arg2 (by decide) (by decide) (by decide) (by decide)),
      (h c main_arg3).trans (kept _ main_arg3 (by decide) (by decide) (by decide) (by decide)),
      (h c main_arg4).trans (kept _ main_arg4 (by decide) (by decide) (by decide) (by decide)),
      (h c main_arg5).trans (kept _ main_arg5 (by decide) (by decide) (by decide) (by decide)),
      (h c main_arg6).trans (kept _ main_arg6 (by decide) (by decide) (by decide) (by decide)),
      (h c main_arg7).trans (kept _ main_arg7 (by decide) (by decide) (by decide) (by decide)),
      (h c main_arg8).trans (kept _ main_arg8 (by decide) (by decide) (by decide) (by decide))⟩)
    (run_main (F := Ideal) m ρ)

end Cert.Proof.Reference

end
-- ==== Proof.K_MlpRun0.lean ====
/-
  Region 0 of the word-level kernel program: the two dense maps of one layer over a block of 2000 rows, with
  the column sums of the result and of its squares accumulated over the 50 blocks.

  At grid point t the body is handed rows 2000 t … 2000 t + 1999 of the node features and of their neighbour sums,
  the two weight matrices and the two bias rows. At the FIRST point it zeroes two single-row accumulators it keeps
  between points. At EVERY point it stores the block's hidden features into the output block, adds their column sums
  to the first accumulator and the column sums of their squares to the second. At the LAST point it copies the two
  accumulators into the two single-row outputs, which are written back only there. So a point is in one of three
  cases — first, middle, last — decided by its index; in each the body's run is a straight line, and what it leaves
  in each buffer is a list of stored pieces that covers the buffer. What the accumulators hold after point n is
  defined by recursion on n (the first point from the zeroed rows, a later one from what the point before left), and
  the region's invariant between points says exactly that; the two row outputs are idle except at the last point.
  Stated at a parameter V — the contents of the buffers when the region is entered — and at any float instance.
-/
import proofs.«100772_j6322191859838_1_alg».proof.Proof.Gen.Kernel.Launch
import proofs.«100772_j6322191859838_1_alg».proof.Proof.Gen.Kernel.Skeleton
import proofs.«100772_j6322191859838_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three cases of a point -/

/-- The body's first condition (the point is the first), as the skeleton computes it from the grid coordinate. -/
abbrev condFirst0 (i : grid0.Coords) : Prop := (Scalar.cmpi .ne (Scalar.extui (Scalar.cmpi .eq (BitVec.ofNat 32 (i 0).val) 0#32)) 0#32) = 1#1
/-- The body's second condition (the point is the last). -/
abbrev condLast0 (i : grid0.Coords) : Prop := k0_cond2 i = 1#1
/-- Decided over the 50 points: the first condition holds at point 0 only, the second at point 49 only. -/
theorem hcondFirst0 : ∀ t : Fin cfg0.N, condFirst0 (grid0.coords t) ↔ t.val = 0 :=
  (by decide +kernel : ∀ t : Fin grid0.N, condFirst0 (grid0.coords t) ↔ t.val = 0)
theorem hcondLast0 : ∀ t : Fin cfg0.N, condLast0 (grid0.coords t) ↔ t.val = 49 :=
  (by decide +kernel : ∀ t : Fin grid0.N, condLast0 (grid0.coords t) ↔ t.val = 49)

/-- The two accumulators as whole memrefs. -/
abbrev sc0_0 : Memref sig .tc .vmem S1x128 .f32 := Memref.whole cc0_scratch0
abbrev sc0_1 : Memref sig .tc .vmem S1x128 .f32 := Memref.whole cc0_scratch1

/-! ## The body's run in each case: the stored pieces are what the run finds -/

set_option maxHeartbeats 4000000 in
/-- FIRST point: the accumulators hold anything; the run zeroes them, then stores the block's hidden features and the
    two updated accumulators. The pieces found: the output block's, the first accumulator's, the second's. -/
noncomputable def run0_F (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst0 i) (hc2 : ¬condLast0 i) (x0 x1 : Vec F S2000x128 .f32) (x2 : Vec F S128x128 .f32) (x3 : Vec F S1x128 .f32) (x4 : Vec F S128x128 .f32) (x5 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc0__gin_mlp_kernel_eq_skeleton]; unfold cc0__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, HS0⟩, ⟨%e1, %g1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- MIDDLE point: the accumulators hold s0, s1; the run stores the block's hidden features and the two updated
    accumulators. -/
noncomputable def run0_M (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc0__gin_mlp_kernel_eq_skeleton]; unfold cc0__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- LAST point: as a middle point, and then the two accumulators are copied into the two row outputs. The pieces
    found: the output block's, the two row outputs', the two accumulators'. -/
noncomputable def run0_L (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L8 : List (View.Piece (Elt F) S1x128 .f32)) (L9 : List (View.Piece (Elt F) S1x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  refine ⟨?_, ?_, ?_, ?_, ?_, fun E K => ?run⟩
  case run =>
    simp only [cc0__gin_mlp_kernel_eq_skeleton]; unfold cc0__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

/-! ## Every list of pieces covers its buffer (each is one or two stores of the whole buffer) -/

theorem cover0_F_7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst0 i) (hc2 : ¬condLast0 i) (x0 x1 : Vec F S2000x128 .f32) (x2 : Vec F S128x128 .f32) (x3 : Vec F S1x128 .f32) (x4 : Vec F S128x128 .f32) (x5 : Vec F S1x128 .f32) (y : S2000x128.Idx) :
    ∃ pc ∈ (run0_F c i arg1 harg1 arg2 harg2 arg3 harg3 arg4 harg4 arg5 harg5 arg6 harg6 arg7 harg7 arg8 harg8 arg9 harg9 arg10 harg10 arg11 harg11 hc1 hc2 x0 x1 x2 x3 x4 x5).1, y ∈ pc.1.set :=
  View.cover_of_tiledL (run0_F c i arg1 harg1 arg2 harg2 arg3 harg3 arg4 harg4 arg5 harg5 arg6 harg6 arg7 harg7 arg8 harg8 arg9 harg9 arg10 harg10 arg11 harg11 hc1 hc2 x0 x1 x2 x3 x4 x5).1 S2000x128.size (by sl_kernel_rfl) y
theorem cover0_F_10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst0 i) (hc2 : ¬condLast0 i) (x0 x1 : Vec F S2000x128 .f32) (x2 : Vec F S128x128 .f32) (x3 : Vec F S1x128 .f32) (x4 : Vec F S128x128 .f32) (x5 : Vec F S1x128 .f32) (y : S1x128.Idx) :
    ∃ pc ∈ (run0_F c i arg1 harg1 arg2 harg2 arg3 harg3 arg4 harg4 arg5 harg5 arg6 harg6 arg7 harg7 arg8 harg8 arg9 harg9 arg10 harg10 arg11 harg11 hc1 hc2 x0 x1 x2 x3 x4 x5).2.1, y ∈ pc.1.set :=
  View.cover_of_tiledL (run0_F c i arg1 harg1 arg2 harg2 arg3 harg3 arg4 harg4 arg5 harg5 arg6 harg6 arg7 harg7 arg8 harg8 arg9 harg9 arg10 harg10 arg11 harg11 hc1 hc2 x0 x1 x2 x3 x4 x5).2.1 S1x128.size (by sl_kernel_rfl) y
theorem cover0_F_11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst0 i) (hc2 : ¬condLast0 i) (x0 x1 : Vec F S2000x128 .f32) (x2 : Vec F S128x128 .f32) (x3 : Vec F S1x128 .f32) (x4 : Vec F S128x128 .f32) (x5 : Vec F S1x128 .f32) (y : S1x128.Idx) :
    ∃ pc ∈ (run0_F c i arg1 harg1 arg2 harg2 arg3 harg3 arg4 harg4 arg5 harg5 arg6 harg6 arg7 harg7 arg8 harg8 arg9 harg9 arg10 harg10 arg11 harg11 hc1 hc2 x0 x1 x2 x3 x4 x5).2.2.1, y ∈ pc.1.set :=
  View.cover_of_tiledL (run0_F c i arg1 harg1 arg2 harg2 arg3 harg3 arg4 harg4 arg5 harg5 arg6 harg6 arg7 harg7 arg8 harg8 arg9 harg9 arg10 harg10 arg11 harg11 hc1 hc2 x0 x1 x2 x3 x4 x5).2.2.1 S1x128.size (by sl_kernel_rfl) y
theorem cover0_M_7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover0_M_10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover0_M_11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover0_L_7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover0_L_8 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover0_L_9 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover0_L_10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 S1x128.size (by sl_kernel_rfl) y
theorem cover0_L_11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 S1x128.size (by sl_kernel_rfl) y

end Cert.Kernel.Hand

end
-- ==== Proof.K_Mlp0.lean ====
/-
  Region 0 of the word-level kernel program, point by point: what the output block and the two accumulators hold
  after each point, the region's proof data and invariant, and the body obligation.

  After point 0 the buffers hold what the first-point run stores from the point's blocks alone. After a later point
  they hold what the middle-point run (or, at point 49, the last-point run) stores from the point's blocks and the
  two accumulators AS THE POINT BEFORE LEFT THEM. The invariant between points says the accumulators hold exactly
  that (before the first point: anything). The two row outputs are idle — handed back as found — except at point 49,
  where they receive the last-point run's copies of the accumulators.
-/
import proofs.«100772_j6322191859838_1_alg».proof.Proof.K_MlpRun0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## One point's step, case by case: what the run's stored pieces leave -/

/-- First point: (the output block, accumulator 0, accumulator 1) after the run, from the point's blocks. -/
def stepF0 (c : Dev nD) (t : Fin cfg0.N) (hc1 : condFirst0 (grid0.coords t)) (hc2 : ¬condLast0 (grid0.coords t)) :
    Vec F S2000x128 .f32 × Vec F S1x128 .f32 × Vec F S1x128 .f32 :=
  (View.canon (run0_F c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)).1,
   View.canon (run0_F c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)).2.1,
   View.canon (run0_F c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)).2.2.1)
/-- Middle point: the same from the point's blocks and the accumulators s0, s1 it is handed. -/
def stepM0 (c : Dev nD) (t : Fin cfg0.N) (hc1 : ¬condFirst0 (grid0.coords t)) (hc2 : ¬condLast0 (grid0.coords t)) (s0 s1 : Vec F S1x128 .f32) :
    Vec F S2000x128 .f32 × Vec F S1x128 .f32 × Vec F S1x128 .f32 :=
  (View.canon (run0_M c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).1,
   View.canon (run0_M c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.1,
   View.canon (run0_M c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.2.1)
/-- Last point: the same, -/
def stepL0 (c : Dev nD) (t : Fin cfg0.N) (hc1 : ¬condFirst0 (grid0.coords t)) (hc2 : condLast0 (grid0.coords t)) (s0 s1 : Vec F S1x128 .f32) :
    Vec F S2000x128 .f32 × Vec F S1x128 .f32 × Vec F S1x128 .f32 :=
  (View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).1,
   View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.2.2.1,
   View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.2.2.2.1)
/-- and the two row outputs it fills. -/
def rowsL0 (c : Dev nD) (t : Fin cfg0.N) (hc1 : ¬condFirst0 (grid0.coords t)) (hc2 : condLast0 (grid0.coords t)) (s0 s1 : Vec F S1x128 .f32) :
    Vec F S1x128 .f32 × Vec F S1x128 .f32 :=
  (View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.1,
   View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.2.1)

/-! ## What the output block and the accumulators hold after each point -/

/-- (the output block, accumulator 0, accumulator 1) after the body at point n: the first-point step at point 0; at a
    later point the middle-point step — the last-point step at point 49 — from the accumulators the point before left. -/
def stAt0 (c : Dev nD) : (n : ℕ) → n < cfg0.N → Vec F S2000x128 .f32 × Vec F S1x128 .f32 × Vec F S1x128 .f32
  | 0, hn => stepF0 V c ⟨0, hn⟩ ((hcondFirst0 ⟨0, hn⟩).mpr rfl) (fun h => absurd ((hcondLast0 ⟨0, hn⟩).mp h) (by simp))
  | n + 1, hn =>
    if h49 : n + 1 = 49 then
      stepL0 V c ⟨n + 1, hn⟩ (fun h => absurd ((hcondFirst0 ⟨n + 1, hn⟩).mp h) (Nat.succ_ne_zero n)) ((hcondLast0 ⟨n + 1, hn⟩).mpr h49)
        (stAt0 c n (Nat.lt_of_succ_lt hn)).2.1 (stAt0 c n (Nat.lt_of_succ_lt hn)).2.2
    else
      stepM0 V c ⟨n + 1, hn⟩ (fun h => absurd ((hcondFirst0 ⟨n + 1, hn⟩).mp h) (Nat.succ_ne_zero n)) (fun h => h49 ((hcondLast0 ⟨n + 1, hn⟩).mp h))
        (stAt0 c n (Nat.lt_of_succ_lt hn)).2.1 (stAt0 c n (Nat.lt_of_succ_lt hn)).2.2

/-- The same point under two spellings of its index. -/
theorem stAt0_irrel (c : Dev nD) (n k : ℕ) (h : n = k) (hn : n < cfg0.N) (hk : k < cfg0.N) : stAt0 V c n hn = stAt0 V c k hk := by
  subst h; rfl

theorem stAt0_F (c : Dev nD) (t : Fin cfg0.N) (h0 : t.val = 0) :
    stAt0 V c t.val t.isLt = stepF0 V c t ((hcondFirst0 t).mpr h0) (fun h => by have := (hcondLast0 t).mp h; omega) := by
  obtain ⟨n, hn⟩ := t
  cases n with
  | zero => exact rfl
  | succ n => exact absurd h0 (Nat.succ_ne_zero n)

theorem stAt0_M (c : Dev nD) (t : Fin cfg0.N) (h0 : t.val ≠ 0) (h49 : t.val ≠ 49) :
    stAt0 V c t.val t.isLt = stepM0 V c t (fun h => h0 ((hcondFirst0 t).mp h)) (fun h => h49 ((hcondLast0 t).mp h)) (stAt0 V c (t.val - 1) (Nat.lt_of_le_of_lt (Nat.sub_le _ _) t.isLt)).2.1 (stAt0 V c (t.val - 1) (Nat.lt_of_le_of_lt (Nat.sub_le _ _) t.isLt)).2.2 := by
  obtain ⟨n, hn⟩ := t
  cases n with
  | zero => exact absurd rfl h0
  | succ n => exact (dif_neg h49).trans rfl

theorem stAt0_L (c : Dev nD) (t : Fin cfg0.N) (h49 : t.val = 49) :
    stAt0 V c t.val t.isLt = stepL0 V c t (fun h => by have := (hcondFirst0 t).mp h; omega) ((hcondLast0 t).mpr h49) (stAt0 V c (t.val - 1) (Nat.lt_of_le_of_lt (Nat.sub_le _ _) t.isLt)).2.1 (stAt0 V c (t.val - 1) (Nat.lt_of_le_of_lt (Nat.sub_le _ _) t.isLt)).2.2 := by
  obtain ⟨n, hn⟩ := t
  cases n with
  | zero => exact absurd h49 (by simp)
  | succ n => exact (dif_pos h49).trans rfl

/-- The two row outputs after the body at point t: at point 49 the last-point step's copies; elsewhere unnamed (the
    windows are idle there). -/
def o78At0 (c : Dev nD) (t : Fin cfg0.N) : Vec F S1x128 .f32 × Vec F S1x128 .f32 :=
  if h49 : t.val = 49 then rowsL0 V c t (fun h => by have := (hcondFirst0 t).mp h; omega) ((hcondLast0 t).mpr h49) (stAt0 V c (t.val - 1) (Nat.lt_of_le_of_lt (Nat.sub_le _ _) t.isLt)).2.1 (stAt0 V c (t.val - 1) (Nat.lt_of_le_of_lt (Nat.sub_le _ _) t.isLt)).2.2
  else (View.canon ([] : List (View.Piece (Elt F) S1x128 .f32)), View.canon ([] : List (View.Piece (Elt F) S1x128 .f32)))

/-! ## The proof data and the invariant -/

/-- Between points: the two accumulators hold what the point before left (before the first point: anything); the other
    scoped buffers and the generator register ride along untouched. -/
def Phi0 (c : Dev nD) (n : Fin (cfg0.N + 1)) : sProp 𝕄 :=
  iprop((∃ X0 X1 : Vec F S1x128 .f32,
          ⌜∀ h0 : n.val ≠ 0, X0 = (stAt0 V c (n.val - 1) (lt_of_lt_of_le (Nat.sub_lt (Nat.pos_of_ne_zero h0) Nat.one_pos) (Nat.le_of_lt_succ n.isLt))).2.1
              ∧ X1 = (stAt0 V c (n.val - 1) (lt_of_lt_of_le (Nat.sub_lt (Nat.pos_of_ne_zero h0) Nat.one_pos) (Nat.le_of_lt_succ n.isLt))).2.2⌝
          ∗ owns (c : Thread nD τ) sc0_0 fullShare X0 ∗ owns (c : Thread nD τ) sc0_1 fullShare X1)
      ∗ Pipeline.scopedRestBut (Ix := Unit) (Name := ℕ) (U := UR sig nD τ) (Lvl := ℕ) (Val := Elt F) spec0 c [cc0_scratch0, cc0_scratch1]
      ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (stAt0 V c t.val t.isLt).1
    | ⟨7, _⟩ => (o78At0 V c t).1
    | ⟨8, _⟩ => (o78At0 V c t).2
  Φ n := Phi0 V c n
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (stAt0 V c t.val t.isLt).1 := by dsimp only [dat0]
theorem after0_7 (c : Dev nD) (t : Fin cfg0.N) : (dat0 V c).after 7 t = (o78At0 V c t).1 := by dsimp only [dat0]
theorem after0_8 (c : Dev nD) (t : Fin cfg0.N) : (dat0 V c).after 8 t = (o78At0 V c t).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (match cfg0.idle 7 (cfg0.grid.coords t) with
       | true =>
         match (cfg0.win 7).flush t with
         | false => iprop(∃ d, owns (c : Thread nD τ) (st0_7 t) fullShare ((dat0 V c).before 7 t d))
         | true => owns (c : Thread nD τ) (st0_7 t) fullShare ((dat0 V c).after 7 t)
       | false => owns (c : Thread nD τ) (st0_7 t) fullShare ((dat0 V c).after 7 t))
    ∗ (match cfg0.idle 8 (cfg0.grid.coords t) with
       | true =>
         match (cfg0.win 8).flush t with
         | false => iprop(∃ d, owns (c : Thread nD τ) (st0_8 t) fullShare ((dat0 V c).before 8 t d))
         | true => owns (c : Thread nD τ) (st0_8 t) fullShare ((dat0 V c).after 8 t)
       | false => owns (c : Thread nD τ) (st0_8 t) fullShare ((dat0 V c).after 8 t)))

set_option maxHeartbeats 4000000 in
/-- The first point. -/
theorem sound_first0 (c : Dev nD) (t : Fin cfg0.N) (h0 : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.castSucc = Phi0 V c t.castSucc from rfl, show (dat0 V c).Φ t.succ = Phi0 V c t.succ from rfl,
    show (dat0 V c).owesAt () t.succ = (dat0 V c).owesAt () t.castSucc from rfl,
    after0_0, after0_1, after0_2, after0_3, after0_4, after0_5, after0_6, after0_7, after0_8]
  unfold Phi0
  have hN : t.val < 50 := lt_of_lt_of_eq t.isLt (show cfg0.N = 50 from N_0)
  have hsucc : stAt0 V c (t.succ.val - 1) (lt_of_lt_of_le (Nat.sub_lt (Nat.pos_of_ne_zero (Nat.succ_ne_zero _)) Nat.one_pos) (Nat.le_of_lt_succ t.succ.isLt)) = stAt0 V c t.val t.isLt :=
    stAt0_irrel V c _ _ (by simp) _ _
  have hnl : ¬condLast0 (grid0.coords t) := fun h => by have := (hcondLast0 t).mp h; omega
  have hidle7 : cfg0.idle 7 (cfg0.grid.coords t) = true := by
    show (!(k0_cond2 (grid0.coords t) == 1#1)) = true
    rw [Bool.not_eq_true', beq_eq_false_iff_ne]; exact hnl
  have hidle8 : cfg0.idle 8 (cfg0.grid.coords t) = true := by
    show (!(k0_cond2 (grid0.coords t) == 1#1)) = true
    rw [Bool.not_eq_true', beq_eq_false_iff_ne]; exact hnl
  have hfl7 : (cfg0.win 7).flush t = false := Bool.eq_false_iff.mpr fun h => by have := (flush0_7 t).mp h; omega
  have hfl8 : (cfg0.win 8).flush t = false := Bool.eq_false_iff.mpr fun h => by have := (flush0_8 t).mp h; omega
  have hidle7' : idle0 7 (grid0.coords t) = true := hidle7
  have hidle8' : idle0 8 (grid0.coords t) = true := hidle8
  have hfl7' : (win0 7).flush t = false := hfl7
  have hfl8' : (win0 8).flush t = false := hfl8
  simp only [hidle7, hidle8, hfl7, hfl8, hidle7', hidle8', hfl7', hfl8']
  rw [stAt0_F V c t h0]
  unfold stepF0
  iintro ⟨⟨⟨%X0, %X1, -, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0_F c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) ((hcondFirst0 t).mpr h0) (fun h => by have := (hcondLast0 t).mp h; omega) (iblk0 V c 0 t) (iblk0 V c 1 t) (iblk0 V c 2 t) (iblk0 V c 3 t) (iblk0 V c 4 t) (iblk0 V c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexists _; iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover0_F_10 c _ _ _ _ _ _ _ _ _ _ _ _ _ _ _ _ _ _ _ _ _ _ _ _ _ _ _ _ _ _ _)
        · unfold owns; iexists _; isplitr; swap; iexact HS1; ipureintro; exact View.read_writes_eq_canon _ _ _ (cover0_F_11 c _ _ _ _ _ _ _ _ _ _ _ _ _ _ _ _ _ _ _ _ _ _ _ _ _ _ _ _ _ _ _)
      ipureintro; intro _; rw [hsucc, stAt0_F V c t h0]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover0_F_7 c _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- A middle point. -/
theorem sound_mid0 (c : Dev nD) (t : Fin cfg0.N) (h0 : t.val ≠ 0) (h49 : t.val ≠ 49) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.castSucc = Phi0 V c t.castSucc from rfl, show (dat0 V c).Φ t.succ = Phi0 V c t.succ from rfl,
    show (dat0 V c).owesAt () t.succ = (dat0 V c).owesAt () t.castSucc from rfl,
    after0_0, after0_1, after0_2, after0_3, after0_4, after0_5, after0_6, after0_7, after0_8]
  unfold Phi0
  have hN : t.val < 50 := lt_of_lt_of_eq t.isLt (show cfg0.N = 50 from N_0)
  have hsucc : stAt0 V c (t.succ.val - 1) (lt_of_lt_of_le (Nat.sub_lt (Nat.pos_of_ne_zero (Nat.succ_ne_zero _)) Nat.one_pos) (Nat.le_of_lt_succ t.succ.isLt)) = stAt0 V c t.val t.isLt :=
    stAt0_irrel V c _ _ (by simp) _ _
  have hnl : ¬condLast0 (grid0.coords t) := fun h => h49 ((hcondLast0 t).mp h)
  have hidle7 : cfg0.idle 7 (cfg0.grid.coords t) = true := by
    show (!(k0_cond2 (grid0.coords t) == 1#1)) = true
    rw [Bool.not_eq_true', beq_eq_false_iff_ne]; exact hnl
  have hidle8 : cfg0.idle 8 (cfg0.grid.coords t) = true := by
    show (!(k0_cond2 (grid0.coords t) == 1#1)) = true
    rw [Bool.not_eq_true', beq_eq_false_iff_ne]; exact hnl
  have hfl7 : (cfg0.win 7).flush t = false := Bool.eq_false_iff.mpr fun h => by have := (flush0_7 t).mp h; omega
  have hfl8 : (cfg0.win 8).flush t = false := Bool.eq_false_iff.mpr fun h => by have := (flush0_8 t).mp h; omega
  have hidle7' : idle0 7 (grid0.coords t) = true := hidle7
  have hidle8' : idle0 8 (grid0.coords t) = true := hidle8
  have hfl7' : (win0 7).flush t = false := hfl7
  have hfl8' : (win0 8).flush t = false := hfl8
  simp only [hidle7, hidle8, hfl7, hfl8, hidle7', hidle8', hfl7', hfl8']
  rw [stAt0_M V c t h0 h49]
  unfold stepM0
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run0_M c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) (fun h => h0 ((hcondFirst0 t).mp h)) (fun h => h49 ((hcondLast0 t).mp h)) (iblk0 V c 0 t) (iblk0 V c 1 t) (iblk0 V c 2 t) (iblk0 V c 3 t) (iblk0 V c 4 t) (iblk0 V c 5 t) _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover0_M_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover0_M_11 c _ _ _ _ _ _ _ _ _ _ _ _ _ _ _ _ _ _ _ _ _ _ _ _ _ _ _ _ _ _ _ _ _)
      ipureintro; intro _; rw [hsucc, stAt0_M V c t h0 h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover0_M_7 c _ _ _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- The last point. -/
theorem sound_last0 (c : Dev nD) (t : Fin cfg0.N) (h0 : t.val ≠ 0) (h49 : t.val = 49) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.castSucc = Phi0 V c t.castSucc from rfl, show (dat0 V c).Φ t.succ = Phi0 V c t.succ from rfl,
    show (dat0 V c).owesAt () t.succ = (dat0 V c).owesAt () t.castSucc from rfl,
    after0_0, after0_1, after0_2, after0_3, after0_4, after0_5, after0_6, after0_7, after0_8]
  unfold Phi0
  have hN : t.val < 50 := lt_of_lt_of_eq t.isLt (show cfg0.N = 50 from N_0)
  have hsucc : stAt0 V c (t.succ.val - 1) (lt_of_lt_of_le (Nat.sub_lt (Nat.pos_of_ne_zero (Nat.succ_ne_zero _)) Nat.one_pos) (Nat.le_of_lt_succ t.succ.isLt)) = stAt0 V c t.val t.isLt :=
    stAt0_irrel V c _ _ (by simp) _ _
  have hl : condLast0 (grid0.coords t) := (hcondLast0 t).mpr h49
  have hidle7 : cfg0.idle 7 (cfg0.grid.coords t) = false := by
    show (!(k0_cond2 (grid0.coords t) == 1#1)) = false
    rw [Bool.not_eq_false', beq_iff_eq]; exact hl
  have hidle8 : cfg0.idle 8 (cfg0.grid.coords t) = false := by
    show (!(k0_cond2 (grid0.coords t) == 1#1)) = false
    rw [Bool.not_eq_false', beq_iff_eq]; exact hl
  have hidle7' : idle0 7 (grid0.coords t) = false := hidle7
  have hidle8' : idle0 8 (grid0.coords t) = false := hidle8
  simp only [hidle7, hidle8, hidle7', hidle8']
  rw [stAt0_L V c t h49]
  unfold o78At0
  simp only [dif_pos h49]
  unfold stepL0 rowsL0
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) (fun h => by have := (hcondFirst0 t).mp h; omega) ((hcondLast0 t).mpr h49) (iblk0 V c 0 t) (iblk0 V c 1 t) (iblk0 V c 2 t) (iblk0 V c 3 t) (iblk0 V c 4 t) (iblk0 V c 5 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover0_L_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover0_L_11 c _ _ _ _ _ _ _ _ _ _ _ _ _ _ _ _ _ _ _ _ _ _ _ _ _ _ _ _ _ _ _ _ _)
      ipureintro; intro _; rw [hsucc, stAt0_L V c t h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover0_L_7 c _ _ _ _ _ _ _ _ _ _ _ _ _ _ _ _ _ _ _ _ _ _ _ _ _ _ _ _ _ _ _ _ _)
  isplitl [H7]
  · split
    next h => exact absurd (hidle7.symm.trans h) (by decide)
    next => unfold owns; iexists _; isplitr; swap; iexact H7; ipureintro; exact View.read_writes_eq_canon _ _ _ (cover0_L_8 c _ _ _ _ _ _ _ _ _ _ _ _ _ _ _ _ _ _ _ _ _ _ _ _ _ _ _ _ _ _ _ _ _)
  split
  next h => exact absurd (hidle8.symm.trans h) (by decide)
  next => unfold owns; iexists _; isplitr; swap; iexact H8; ipureintro; exact View.read_writes_eq_canon _ _ _ (cover0_L_9 c _ _ _ _ _ _ _ _ _ _ _ _ _ _ _ _ _ _ _ _ _ _ _ _ _ _ _ _ _ _ _ _ _)

/-- The body at any point: by the point's case. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_first0 V c t h0
  by_cases h49 : t.val = 49
  · exact sound_last0 V c t h0 h49
  · exact sound_mid0 V c t h0 h49

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Norm1.lean ====
/-
  Region 1 of the word-level kernel program: one pass of batch normalisation over a block of 2000 rows.

  At grid point t the body is handed rows 2000 t … 2000 t + 1999 of the activations and the four rows
  (mean, variance, scale, shift), loads all five whole, and stores ONE value into the output block: entry (r, j)
  is (h r j − mean j) · rsqrt (variance j + ε) · scale j + shift j, the skeleton's payload of its loads. Nothing
  is kept from point to point. So: what the output's buffer holds after the body is that payload laid over the
  whole block; the body's triple is the symbolic run of its six loads and one store; and the proof data says
  "each input's buffer holds its block, the output's the payload of the blocks" at every point.
  Stated at a parameter V — the contents of the buffers when the region is entered — and at any float instance.
-/
import proofs.«100772_j6322191859838_1_alg».proof.Proof.Gen.Kernel.Launch
import proofs.«100772_j6322191859838_1_alg».proof.Proof.Gen.Kernel.Skeleton
import proofs.«100772_j6322191859838_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not (unfetched, the block index has
    not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not (unfetched, the block index has
    not moved), for any proof data whose array is V's and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not (unfetched, the block index has
    not moved), for any proof data whose array is V's and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, fetched there or not (unfetched, the block index has
    not moved), for any proof data whose array is V's and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every point, fetched there or not (unfetched, the block index has
    not moved), for any proof data whose array is V's and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole block of 2000 rows, and the whole single row: the rectangles the body loads and stores through. -/
abbrev rBlk1 : Rect S2000x128 := Rect.unit (s := S2000x128) ![0, 0] S2000x128.size inb_S2000x128_S2000x128_0_0
abbrev rRow1 : Rect S1x128 := Rect.unit (s := S1x128) ![0, 0] S1x128.size inb_S1x128_S1x128_0_0

/-- The output block after the body, from the five input blocks: the one store's payload over the whole block. -/
def out1_5 (x0 : Vec F S2000x128 .f32) (x1 x2 x3 x4 : Vec F S1x128 .f32) : Vec F S2000x128 .f32 :=
  View.canon [⟨rBlk1, k1_pay1 (View.ld x0 rBlk1) (View.ld x1 rRow1) (View.ld x2 rRow1) (View.ld x3 rRow1) (View.ld x4 rRow1)⟩]

/-- The one store covers the block. -/
theorem cover1_5 (p0 : Vec F S2000x128 .f32) (y : S2000x128.Idx) :
    ∃ pc ∈ ([⟨rBlk1, p0⟩] : List (View.Piece (Elt F) S2000x128 .f32)), y ∈ pc.1.set :=
  View.cover_of_tiled [⟨rBlk1, p0⟩] S2000x128.size (by rfl) y

set_option maxHeartbeats 4000000 in
/-- The body on whole staging memrefs — the inputs' at read contents x0 … x4, the output's at anything — runs to the
    continuation holding the inputs' as they were and the output's at the payload of the inputs. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_normalize_kernel i arg1 harg1 arg2 harg2 arg3 harg3 arg4 harg4 arg5 harg5 arg6 harg6) K := by
  simp only [cc1__bn_normalize_kernel_eq_skeleton]; unfold cc1__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the region on core c: the arrays as the region finds them; after the body at point t each
    input's buffer at its block and the output's at the payload of the blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_MlpRun2.lean ====
/-
  Region 2 of the word-level kernel program: the two dense maps of one layer over a block of 2000 rows, with
  the column sums of the result and of its squares accumulated over the 50 blocks.

  At grid point t the body is handed rows 2000 t … 2000 t + 1999 of the node features and of their neighbour sums,
  the two weight matrices and the two bias rows. At the FIRST point it zeroes two single-row accumulators it keeps
  between points. At EVERY point it stores the block's hidden features into the output block, adds their column sums
  to the first accumulator and the column sums of their squares to the second. At the LAST point it copies the two
  accumulators into the two single-row outputs, which are written back only there. So a point is in one of three
  cases — first, middle, last — decided by its index; in each the body's run is a straight line, and what it leaves
  in each buffer is a list of stored pieces that covers the buffer. What the accumulators hold after point n is
  defined by recursion on n (the first point from the zeroed rows, a later one from what the point before left), and
  the region's invariant between points says exactly that; the two row outputs are idle except at the last point.
  Stated at a parameter V — the contents of the buffers when the region is entered — and at any float instance.
-/
import proofs.«100772_j6322191859838_1_alg».proof.Proof.Gen.Kernel.Launch
import proofs.«100772_j6322191859838_1_alg».proof.Proof.Gen.Kernel.Skeleton
import proofs.«100772_j6322191859838_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three cases of a point -/

/-- The body's first condition (the point is the first), as the skeleton computes it from the grid coordinate. -/
abbrev condFirst2 (i : grid2.Coords) : Prop := (Scalar.cmpi .ne (Scalar.extui (Scalar.cmpi .eq (BitVec.ofNat 32 (i 0).val) 0#32)) 0#32) = 1#1
/-- The body's second condition (the point is the last). -/
abbrev condLast2 (i : grid2.Coords) : Prop := k2_cond2 i = 1#1
/-- Decided over the 50 points: the first condition holds at point 0 only, the second at point 49 only. -/
theorem hcondFirst2 : ∀ t : Fin cfg2.N, condFirst2 (grid2.coords t) ↔ t.val = 0 :=
  (by decide +kernel : ∀ t : Fin grid2.N, condFirst2 (grid2.coords t) ↔ t.val = 0)
theorem hcondLast2 : ∀ t : Fin cfg2.N, condLast2 (grid2.coords t) ↔ t.val = 49 :=
  (by decide +kernel : ∀ t : Fin grid2.N, condLast2 (grid2.coords t) ↔ t.val = 49)

/-- The two accumulators as whole memrefs. -/
abbrev sc2_0 : Memref sig .tc .vmem S1x128 .f32 := Memref.whole cc2_scratch0
abbrev sc2_1 : Memref sig .tc .vmem S1x128 .f32 := Memref.whole cc2_scratch1

/-! ## The body's run in each case: the stored pieces are what the run finds -/

set_option maxHeartbeats 4000000 in
/-- FIRST point: the accumulators hold anything; the run zeroes them, then stores the block's hidden features and the
    two updated accumulators. The pieces found: the output block's, the first accumulator's, the second's. -/
noncomputable def run2_F (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst2 i) (hc2 : ¬condLast2 i) (x0 x1 : Vec F S2000x128 .f32) (x2 : Vec F S128x128 .f32) (x3 : Vec F S1x128 .f32) (x4 : Vec F S128x128 .f32) (x5 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc2__gin_mlp_kernel_eq_skeleton]; unfold cc2__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, HS0⟩, ⟨%e1, %g1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- MIDDLE point: the accumulators hold s0, s1; the run stores the block's hidden features and the two updated
    accumulators. -/
noncomputable def run2_M (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc2__gin_mlp_kernel_eq_skeleton]; unfold cc2__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- LAST point: as a middle point, and then the two accumulators are copied into the two row outputs. The pieces
    found: the output block's, the two row outputs', the two accumulators'. -/
noncomputable def run2_L (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L8 : List (View.Piece (Elt F) S1x128 .f32)) (L9 : List (View.Piece (Elt F) S1x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  refine ⟨?_, ?_, ?_, ?_, ?_, fun E K => ?run⟩
  case run =>
    simp only [cc2__gin_mlp_kernel_eq_skeleton]; unfold cc2__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

/-! ## Every list of pieces covers its buffer (each is one or two stores of the whole buffer) -/

theorem cover2_F_7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst2 i) (hc2 : ¬condLast2 i) (x0 x1 : Vec F S2000x128 .f32) (x2 : Vec F S128x128 .f32) (x3 : Vec F S1x128 .f32) (x4 : Vec F S128x128 .f32) (x5 : Vec F S1x128 .f32) (y : S2000x128.Idx) :
    ∃ pc ∈ (run2_F c i arg1 harg1 arg2 harg2 arg3 harg3 arg4 harg4 arg5 harg5 arg6 harg6 arg7 harg7 arg8 harg8 arg9 harg9 arg10 harg10 arg11 harg11 hc1 hc2 x0 x1 x2 x3 x4 x5).1, y ∈ pc.1.set :=
  View.cover_of_tiledL (run2_F c i arg1 harg1 arg2 harg2 arg3 harg3 arg4 harg4 arg5 harg5 arg6 harg6 arg7 harg7 arg8 harg8 arg9 harg9 arg10 harg10 arg11 harg11 hc1 hc2 x0 x1 x2 x3 x4 x5).1 S2000x128.size (by sl_kernel_rfl) y
theorem cover2_F_10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst2 i) (hc2 : ¬condLast2 i) (x0 x1 : Vec F S2000x128 .f32) (x2 : Vec F S128x128 .f32) (x3 : Vec F S1x128 .f32) (x4 : Vec F S128x128 .f32) (x5 : Vec F S1x128 .f32) (y : S1x128.Idx) :
    ∃ pc ∈ (run2_F c i arg1 harg1 arg2 harg2 arg3 harg3 arg4 harg4 arg5 harg5 arg6 harg6 arg7 harg7 arg8 harg8 arg9 harg9 arg10 harg10 arg11 harg11 hc1 hc2 x0 x1 x2 x3 x4 x5).2.1, y ∈ pc.1.set :=
  View.cover_of_tiledL (run2_F c i arg1 harg1 arg2 harg2 arg3 harg3 arg4 harg4 arg5 harg5 arg6 harg6 arg7 harg7 arg8 harg8 arg9 harg9 arg10 harg10 arg11 harg11 hc1 hc2 x0 x1 x2 x3 x4 x5).2.1 S1x128.size (by sl_kernel_rfl) y
theorem cover2_F_11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst2 i) (hc2 : ¬condLast2 i) (x0 x1 : Vec F S2000x128 .f32) (x2 : Vec F S128x128 .f32) (x3 : Vec F S1x128 .f32) (x4 : Vec F S128x128 .f32) (x5 : Vec F S1x128 .f32) (y : S1x128.Idx) :
    ∃ pc ∈ (run2_F c i arg1 harg1 arg2 harg2 arg3 harg3 arg4 harg4 arg5 harg5 arg6 harg6 arg7 harg7 arg8 harg8 arg9 harg9 arg10 harg10 arg11 harg11 hc1 hc2 x0 x1 x2 x3 x4 x5).2.2.1, y ∈ pc.1.set :=
  View.cover_of_tiledL (run2_F c i arg1 harg1 arg2 harg2 arg3 harg3 arg4 harg4 arg5 harg5 arg6 harg6 arg7 harg7 arg8 harg8 arg9 harg9 arg10 harg10 arg11 harg11 hc1 hc2 x0 x1 x2 x3 x4 x5).2.2.1 S1x128.size (by sl_kernel_rfl) y
theorem cover2_M_7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover2_M_10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover2_M_11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover2_L_7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover2_L_8 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover2_L_9 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover2_L_10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 S1x128.size (by sl_kernel_rfl) y
theorem cover2_L_11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 S1x128.size (by sl_kernel_rfl) y

end Cert.Kernel.Hand

end
-- ==== Proof.K_Mlp2.lean ====
/-
  Region 2 of the word-level kernel program, point by point: what the output block and the two accumulators hold
  after each point, the region's proof data and invariant, and the body obligation.

  After point 0 the buffers hold what the first-point run stores from the point's blocks alone. After a later point
  they hold what the middle-point run (or, at point 49, the last-point run) stores from the point's blocks and the
  two accumulators AS THE POINT BEFORE LEFT THEM. The invariant between points says the accumulators hold exactly
  that (before the first point: anything). The two row outputs are idle — handed back as found — except at point 49,
  where they receive the last-point run's copies of the accumulators.
-/
import proofs.«100772_j6322191859838_1_alg».proof.Proof.K_MlpRun2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## One point's step, case by case: what the run's stored pieces leave -/

/-- First point: (the output block, accumulator 0, accumulator 1) after the run, from the point's blocks. -/
def stepF2 (c : Dev nD) (t : Fin cfg2.N) (hc1 : condFirst2 (grid2.coords t)) (hc2 : ¬condLast2 (grid2.coords t)) :
    Vec F S2000x128 .f32 × Vec F S1x128 .f32 × Vec F S1x128 .f32 :=
  (View.canon (run2_F c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)).1,
   View.canon (run2_F c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)).2.1,
   View.canon (run2_F c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)).2.2.1)
/-- Middle point: the same from the point's blocks and the accumulators s0, s1 it is handed. -/
def stepM2 (c : Dev nD) (t : Fin cfg2.N) (hc1 : ¬condFirst2 (grid2.coords t)) (hc2 : ¬condLast2 (grid2.coords t)) (s0 s1 : Vec F S1x128 .f32) :
    Vec F S2000x128 .f32 × Vec F S1x128 .f32 × Vec F S1x128 .f32 :=
  (View.canon (run2_M c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).1,
   View.canon (run2_M c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.1,
   View.canon (run2_M c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.2.1)
/-- Last point: the same, -/
def stepL2 (c : Dev nD) (t : Fin cfg2.N) (hc1 : ¬condFirst2 (grid2.coords t)) (hc2 : condLast2 (grid2.coords t)) (s0 s1 : Vec F S1x128 .f32) :
    Vec F S2000x128 .f32 × Vec F S1x128 .f32 × Vec F S1x128 .f32 :=
  (View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).1,
   View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.2.2.1,
   View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.2.2.2.1)
/-- and the two row outputs it fills. -/
def rowsL2 (c : Dev nD) (t : Fin cfg2.N) (hc1 : ¬condFirst2 (grid2.coords t)) (hc2 : condLast2 (grid2.coords t)) (s0 s1 : Vec F S1x128 .f32) :
    Vec F S1x128 .f32 × Vec F S1x128 .f32 :=
  (View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.1,
   View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.2.1)

/-! ## What the output block and the accumulators hold after each point -/

/-- (the output block, accumulator 0, accumulator 1) after the body at point n: the first-point step at point 0; at a
    later point the middle-point step — the last-point step at point 49 — from the accumulators the point before left. -/
def stAt2 (c : Dev nD) : (n : ℕ) → n < cfg2.N → Vec F S2000x128 .f32 × Vec F S1x128 .f32 × Vec F S1x128 .f32
  | 0, hn => stepF2 V c ⟨0, hn⟩ ((hcondFirst2 ⟨0, hn⟩).mpr rfl) (fun h => absurd ((hcondLast2 ⟨0, hn⟩).mp h) (by simp))
  | n + 1, hn =>
    if h49 : n + 1 = 49 then
      stepL2 V c ⟨n + 1, hn⟩ (fun h => absurd ((hcondFirst2 ⟨n + 1, hn⟩).mp h) (Nat.succ_ne_zero n)) ((hcondLast2 ⟨n + 1, hn⟩).mpr h49)
        (stAt2 c n (Nat.lt_of_succ_lt hn)).2.1 (stAt2 c n (Nat.lt_of_succ_lt hn)).2.2
    else
      stepM2 V c ⟨n + 1, hn⟩ (fun h => absurd ((hcondFirst2 ⟨n + 1, hn⟩).mp h) (Nat.succ_ne_zero n)) (fun h => h49 ((hcondLast2 ⟨n + 1, hn⟩).mp h))
        (stAt2 c n (Nat.lt_of_succ_lt hn)).2.1 (stAt2 c n (Nat.lt_of_succ_lt hn)).2.2

/-- The same point under two spellings of its index. -/
theorem stAt2_irrel (c : Dev nD) (n k : ℕ) (h : n = k) (hn : n < cfg2.N) (hk : k < cfg2.N) : stAt2 V c n hn = stAt2 V c k hk := by
  subst h; rfl

theorem stAt2_F (c : Dev nD) (t : Fin cfg2.N) (h0 : t.val = 0) :
    stAt2 V c t.val t.isLt = stepF2 V c t ((hcondFirst2 t).mpr h0) (fun h => by have := (hcondLast2 t).mp h; omega) := by
  obtain ⟨n, hn⟩ := t
  cases n with
  | zero => exact rfl
  | succ n => exact absurd h0 (Nat.succ_ne_zero n)

theorem stAt2_M (c : Dev nD) (t : Fin cfg2.N) (h0 : t.val ≠ 0) (h49 : t.val ≠ 49) :
    stAt2 V c t.val t.isLt = stepM2 V c t (fun h => h0 ((hcondFirst2 t).mp h)) (fun h => h49 ((hcondLast2 t).mp h)) (stAt2 V c (t.val - 1) (Nat.lt_of_le_of_lt (Nat.sub_le _ _) t.isLt)).2.1 (stAt2 V c (t.val - 1) (Nat.lt_of_le_of_lt (Nat.sub_le _ _) t.isLt)).2.2 := by
  obtain ⟨n, hn⟩ := t
  cases n with
  | zero => exact absurd rfl h0
  | succ n => exact (dif_neg h49).trans rfl

theorem stAt2_L (c : Dev nD) (t : Fin cfg2.N) (h49 : t.val = 49) :
    stAt2 V c t.val t.isLt = stepL2 V c t (fun h => by have := (hcondFirst2 t).mp h; omega) ((hcondLast2 t).mpr h49) (stAt2 V c (t.val - 1) (Nat.lt_of_le_of_lt (Nat.sub_le _ _) t.isLt)).2.1 (stAt2 V c (t.val - 1) (Nat.lt_of_le_of_lt (Nat.sub_le _ _) t.isLt)).2.2 := by
  obtain ⟨n, hn⟩ := t
  cases n with
  | zero => exact absurd h49 (by simp)
  | succ n => exact (dif_pos h49).trans rfl

/-- The two row outputs after the body at point t: at point 49 the last-point step's copies; elsewhere unnamed (the
    windows are idle there). -/
def o78At2 (c : Dev nD) (t : Fin cfg2.N) : Vec F S1x128 .f32 × Vec F S1x128 .f32 :=
  if h49 : t.val = 49 then rowsL2 V c t (fun h => by have := (hcondFirst2 t).mp h; omega) ((hcondLast2 t).mpr h49) (stAt2 V c (t.val - 1) (Nat.lt_of_le_of_lt (Nat.sub_le _ _) t.isLt)).2.1 (stAt2 V c (t.val - 1) (Nat.lt_of_le_of_lt (Nat.sub_le _ _) t.isLt)).2.2
  else (View.canon ([] : List (View.Piece (Elt F) S1x128 .f32)), View.canon ([] : List (View.Piece (Elt F) S1x128 .f32)))

/-! ## The proof data and the invariant -/

/-- Between points: the two accumulators hold what the point before left (before the first point: anything); the other
    scoped buffers and the generator register ride along untouched. -/
def Phi2 (c : Dev nD) (n : Fin (cfg2.N + 1)) : sProp 𝕄 :=
  iprop((∃ X0 X1 : Vec F S1x128 .f32,
          ⌜∀ h0 : n.val ≠ 0, X0 = (stAt2 V c (n.val - 1) (lt_of_lt_of_le (Nat.sub_lt (Nat.pos_of_ne_zero h0) Nat.one_pos) (Nat.le_of_lt_succ n.isLt))).2.1
              ∧ X1 = (stAt2 V c (n.val - 1) (lt_of_lt_of_le (Nat.sub_lt (Nat.pos_of_ne_zero h0) Nat.one_pos) (Nat.le_of_lt_succ n.isLt))).2.2⌝
          ∗ owns (c : Thread nD τ) sc2_0 fullShare X0 ∗ owns (c : Thread nD τ) sc2_1 fullShare X1)
      ∗ Pipeline.scopedRestBut (Ix := Unit) (Name := ℕ) (U := UR sig nD τ) (Lvl := ℕ) (Val := Elt F) spec2 c [cc2_scratch0, cc2_scratch1]
      ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (stAt2 V c t.val t.isLt).1
    | ⟨7, _⟩ => (o78At2 V c t).1
    | ⟨8, _⟩ => (o78At2 V c t).2
  Φ n := Phi2 V c n
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (stAt2 V c t.val t.isLt).1 := by dsimp only [dat2]
theorem after2_7 (c : Dev nD) (t : Fin cfg2.N) : (dat2 V c).after 7 t = (o78At2 V c t).1 := by dsimp only [dat2]
theorem after2_8 (c : Dev nD) (t : Fin cfg2.N) : (dat2 V c).after 8 t = (o78At2 V c t).2 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (match cfg2.idle 7 (cfg2.grid.coords t) with
       | true =>
         match (cfg2.win 7).flush t with
         | false => iprop(∃ d, owns (c : Thread nD τ) (st2_7 t) fullShare ((dat2 V c).before 7 t d))
         | true => owns (c : Thread nD τ) (st2_7 t) fullShare ((dat2 V c).after 7 t)
       | false => owns (c : Thread nD τ) (st2_7 t) fullShare ((dat2 V c).after 7 t))
    ∗ (match cfg2.idle 8 (cfg2.grid.coords t) with
       | true =>
         match (cfg2.win 8).flush t with
         | false => iprop(∃ d, owns (c : Thread nD τ) (st2_8 t) fullShare ((dat2 V c).before 8 t d))
         | true => owns (c : Thread nD τ) (st2_8 t) fullShare ((dat2 V c).after 8 t)
       | false => owns (c : Thread nD τ) (st2_8 t) fullShare ((dat2 V c).after 8 t)))

set_option maxHeartbeats 4000000 in
/-- The first point. -/
theorem sound_first2 (c : Dev nD) (t : Fin cfg2.N) (h0 : t.val = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.castSucc = Phi2 V c t.castSucc from rfl, show (dat2 V c).Φ t.succ = Phi2 V c t.succ from rfl,
    show (dat2 V c).owesAt () t.succ = (dat2 V c).owesAt () t.castSucc from rfl,
    after2_0, after2_1, after2_2, after2_3, after2_4, after2_5, after2_6, after2_7, after2_8]
  unfold Phi2
  have hN : t.val < 50 := lt_of_lt_of_eq t.isLt (show cfg2.N = 50 from N_2)
  have hsucc : stAt2 V c (t.succ.val - 1) (lt_of_lt_of_le (Nat.sub_lt (Nat.pos_of_ne_zero (Nat.succ_ne_zero _)) Nat.one_pos) (Nat.le_of_lt_succ t.succ.isLt)) = stAt2 V c t.val t.isLt :=
    stAt2_irrel V c _ _ (by simp) _ _
  have hnl : ¬condLast2 (grid2.coords t) := fun h => by have := (hcondLast2 t).mp h; omega
  have hidle7 : cfg2.idle 7 (cfg2.grid.coords t) = true := by
    show (!(k2_cond2 (grid2.coords t) == 1#1)) = true
    rw [Bool.not_eq_true', beq_eq_false_iff_ne]; exact hnl
  have hidle8 : cfg2.idle 8 (cfg2.grid.coords t) = true := by
    show (!(k2_cond2 (grid2.coords t) == 1#1)) = true
    rw [Bool.not_eq_true', beq_eq_false_iff_ne]; exact hnl
  have hfl7 : (cfg2.win 7).flush t = false := Bool.eq_false_iff.mpr fun h => by have := (flush2_7 t).mp h; omega
  have hfl8 : (cfg2.win 8).flush t = false := Bool.eq_false_iff.mpr fun h => by have := (flush2_8 t).mp h; omega
  have hidle7' : idle2 7 (grid2.coords t) = true := hidle7
  have hidle8' : idle2 8 (grid2.coords t) = true := hidle8
  have hfl7' : (win2 7).flush t = false := hfl7
  have hfl8' : (win2 8).flush t = false := hfl8
  simp only [hidle7, hidle8, hfl7, hfl8, hidle7', hidle8', hfl7', hfl8']
  rw [stAt2_F V c t h0]
  unfold stepF2
  iintro ⟨⟨⟨%X0, %X1, -, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run2_F c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) ((hcondFirst2 t).mpr h0) (fun h => by have := (hcondLast2 t).mp h; omega) (iblk2 V c 0 t) (iblk2 V c 1 t) (iblk2 V c 2 t) (iblk2 V c 3 t) (iblk2 V c 4 t) (iblk2 V c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexists _; iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover2_F_10 c _ _ _ _ _ _ _ _ _ _ _ _ _ _ _ _ _ _ _ _ _ _ _ _ _ _ _ _ _ _ _)
        · unfold owns; iexists _; isplitr; swap; iexact HS1; ipureintro; exact View.read_writes_eq_canon _ _ _ (cover2_F_11 c _ _ _ _ _ _ _ _ _ _ _ _ _ _ _ _ _ _ _ _ _ _ _ _ _ _ _ _ _ _ _)
      ipureintro; intro _; rw [hsucc, stAt2_F V c t h0]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover2_F_7 c _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- A middle point. -/
theorem sound_mid2 (c : Dev nD) (t : Fin cfg2.N) (h0 : t.val ≠ 0) (h49 : t.val ≠ 49) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.castSucc = Phi2 V c t.castSucc from rfl, show (dat2 V c).Φ t.succ = Phi2 V c t.succ from rfl,
    show (dat2 V c).owesAt () t.succ = (dat2 V c).owesAt () t.castSucc from rfl,
    after2_0, after2_1, after2_2, after2_3, after2_4, after2_5, after2_6, after2_7, after2_8]
  unfold Phi2
  have hN : t.val < 50 := lt_of_lt_of_eq t.isLt (show cfg2.N = 50 from N_2)
  have hsucc : stAt2 V c (t.succ.val - 1) (lt_of_lt_of_le (Nat.sub_lt (Nat.pos_of_ne_zero (Nat.succ_ne_zero _)) Nat.one_pos) (Nat.le_of_lt_succ t.succ.isLt)) = stAt2 V c t.val t.isLt :=
    stAt2_irrel V c _ _ (by simp) _ _
  have hnl : ¬condLast2 (grid2.coords t) := fun h => h49 ((hcondLast2 t).mp h)
  have hidle7 : cfg2.idle 7 (cfg2.grid.coords t) = true := by
    show (!(k2_cond2 (grid2.coords t) == 1#1)) = true
    rw [Bool.not_eq_true', beq_eq_false_iff_ne]; exact hnl
  have hidle8 : cfg2.idle 8 (cfg2.grid.coords t) = true := by
    show (!(k2_cond2 (grid2.coords t) == 1#1)) = true
    rw [Bool.not_eq_true', beq_eq_false_iff_ne]; exact hnl
  have hfl7 : (cfg2.win 7).flush t = false := Bool.eq_false_iff.mpr fun h => by have := (flush2_7 t).mp h; omega
  have hfl8 : (cfg2.win 8).flush t = false := Bool.eq_false_iff.mpr fun h => by have := (flush2_8 t).mp h; omega
  have hidle7' : idle2 7 (grid2.coords t) = true := hidle7
  have hidle8' : idle2 8 (grid2.coords t) = true := hidle8
  have hfl7' : (win2 7).flush t = false := hfl7
  have hfl8' : (win2 8).flush t = false := hfl8
  simp only [hidle7, hidle8, hfl7, hfl8, hidle7', hidle8', hfl7', hfl8']
  rw [stAt2_M V c t h0 h49]
  unfold stepM2
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run2_M c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) (fun h => h0 ((hcondFirst2 t).mp h)) (fun h => h49 ((hcondLast2 t).mp h)) (iblk2 V c 0 t) (iblk2 V c 1 t) (iblk2 V c 2 t) (iblk2 V c 3 t) (iblk2 V c 4 t) (iblk2 V c 5 t) _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover2_M_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover2_M_11 c _ _ _ _ _ _ _ _ _ _ _ _ _ _ _ _ _ _ _ _ _ _ _ _ _ _ _ _ _ _ _ _ _)
      ipureintro; intro _; rw [hsucc, stAt2_M V c t h0 h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover2_M_7 c _ _ _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- The last point. -/
theorem sound_last2 (c : Dev nD) (t : Fin cfg2.N) (h0 : t.val ≠ 0) (h49 : t.val = 49) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.castSucc = Phi2 V c t.castSucc from rfl, show (dat2 V c).Φ t.succ = Phi2 V c t.succ from rfl,
    show (dat2 V c).owesAt () t.succ = (dat2 V c).owesAt () t.castSucc from rfl,
    after2_0, after2_1, after2_2, after2_3, after2_4, after2_5, after2_6, after2_7, after2_8]
  unfold Phi2
  have hN : t.val < 50 := lt_of_lt_of_eq t.isLt (show cfg2.N = 50 from N_2)
  have hsucc : stAt2 V c (t.succ.val - 1) (lt_of_lt_of_le (Nat.sub_lt (Nat.pos_of_ne_zero (Nat.succ_ne_zero _)) Nat.one_pos) (Nat.le_of_lt_succ t.succ.isLt)) = stAt2 V c t.val t.isLt :=
    stAt2_irrel V c _ _ (by simp) _ _
  have hl : condLast2 (grid2.coords t) := (hcondLast2 t).mpr h49
  have hidle7 : cfg2.idle 7 (cfg2.grid.coords t) = false := by
    show (!(k2_cond2 (grid2.coords t) == 1#1)) = false
    rw [Bool.not_eq_false', beq_iff_eq]; exact hl
  have hidle8 : cfg2.idle 8 (cfg2.grid.coords t) = false := by
    show (!(k2_cond2 (grid2.coords t) == 1#1)) = false
    rw [Bool.not_eq_false', beq_iff_eq]; exact hl
  have hidle7' : idle2 7 (grid2.coords t) = false := hidle7
  have hidle8' : idle2 8 (grid2.coords t) = false := hidle8
  simp only [hidle7, hidle8, hidle7', hidle8']
  rw [stAt2_L V c t h49]
  unfold o78At2
  simp only [dif_pos h49]
  unfold stepL2 rowsL2
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) (fun h => by have := (hcondFirst2 t).mp h; omega) ((hcondLast2 t).mpr h49) (iblk2 V c 0 t) (iblk2 V c 1 t) (iblk2 V c 2 t) (iblk2 V c 3 t) (iblk2 V c 4 t) (iblk2 V c 5 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover2_L_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover2_L_11 c _ _ _ _ _ _ _ _ _ _ _ _ _ _ _ _ _ _ _ _ _ _ _ _ _ _ _ _ _ _ _ _ _)
      ipureintro; intro _; rw [hsucc, stAt2_L V c t h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover2_L_7 c _ _ _ _ _ _ _ _ _ _ _ _ _ _ _ _ _ _ _ _ _ _ _ _ _ _ _ _ _ _ _ _ _)
  isplitl [H7]
  · split
    next h => exact absurd (hidle7.symm.trans h) (by decide)
    next => unfold owns; iexists _; isplitr; swap; iexact H7; ipureintro; exact View.read_writes_eq_canon _ _ _ (cover2_L_8 c _ _ _ _ _ _ _ _ _ _ _ _ _ _ _ _ _ _ _ _ _ _ _ _ _ _ _ _ _ _ _ _ _)
  split
  next h => exact absurd (hidle8.symm.trans h) (by decide)
  next => unfold owns; iexists _; isplitr; swap; iexact H8; ipureintro; exact View.read_writes_eq_canon _ _ _ (cover2_L_9 c _ _ _ _ _ _ _ _ _ _ _ _ _ _ _ _ _ _ _ _ _ _ _ _ _ _ _ _ _ _ _ _ _)

/-- The body at any point: by the point's case. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val = 0
  · exact sound_first2 V c t h0
  by_cases h49 : t.val = 49
  · exact sound_last2 V c t h0 h49
  · exact sound_mid2 V c t h0 h49

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Norm3.lean ====
/-
  Region 3 of the word-level kernel program: one pass of batch normalisation over a block of 2000 rows.

  At grid point t the body is handed rows 2000 t … 2000 t + 1999 of the activations and the four rows
  (mean, variance, scale, shift), loads all five whole, and stores ONE value into the output block: entry (r, j)
  is (h r j − mean j) · rsqrt (variance j + ε) · scale j + shift j, the skeleton's payload of its loads. Nothing
  is kept from point to point. So: what the output's buffer holds after the body is that payload laid over the
  whole block; the body's triple is the symbolic run of its six loads and one store; and the proof data says
  "each input's buffer holds its block, the output's the payload of the blocks" at every point.
  Stated at a parameter V — the contents of the buffers when the region is entered — and at any float instance.
-/
import proofs.«100772_j6322191859838_1_alg».proof.Proof.Gen.Kernel.Launch
import proofs.«100772_j6322191859838_1_alg».proof.Proof.Gen.Kernel.Skeleton
import proofs.«100772_j6322191859838_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, fetched there or not (unfetched, the block index has
    not moved), for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's buffer holds its block at every point, fetched there or not (unfetched, the block index has
    not moved), for any proof data whose array is V's and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's buffer holds its block at every point, fetched there or not (unfetched, the block index has
    not moved), for any proof data whose array is V's and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's buffer holds its block at every point, fetched there or not (unfetched, the block index has
    not moved), for any proof data whose array is V's and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's buffer holds its block at every point, fetched there or not (unfetched, the block index has
    not moved), for any proof data whose array is V's and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole block of 2000 rows, and the whole single row: the rectangles the body loads and stores through. -/
abbrev rBlk3 : Rect S2000x128 := Rect.unit (s := S2000x128) ![0, 0] S2000x128.size inb_S2000x128_S2000x128_0_0
abbrev rRow3 : Rect S1x128 := Rect.unit (s := S1x128) ![0, 0] S1x128.size inb_S1x128_S1x128_0_0

/-- The output block after the body, from the five input blocks: the one store's payload over the whole block. -/
def out3_5 (x0 : Vec F S2000x128 .f32) (x1 x2 x3 x4 : Vec F S1x128 .f32) : Vec F S2000x128 .f32 :=
  View.canon [⟨rBlk3, k3_pay1 (View.ld x0 rBlk3) (View.ld x1 rRow3) (View.ld x2 rRow3) (View.ld x3 rRow3) (View.ld x4 rRow3)⟩]

/-- The one store covers the block. -/
theorem cover3_5 (p0 : Vec F S2000x128 .f32) (y : S2000x128.Idx) :
    ∃ pc ∈ ([⟨rBlk3, p0⟩] : List (View.Piece (Elt F) S2000x128 .f32)), y ∈ pc.1.set :=
  View.cover_of_tiled [⟨rBlk3, p0⟩] S2000x128.size (by rfl) y

set_option maxHeartbeats 4000000 in
/-- The body on whole staging memrefs — the inputs' at read contents x0 … x4, the output's at anything — runs to the
    continuation holding the inputs' as they were and the output's at the payload of the inputs. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_normalize_kernel i arg1 harg1 arg2 harg2 arg3 harg3 arg4 harg4 arg5 harg5 arg6 harg6) K := by
  simp only [cc3__bn_normalize_kernel_eq_skeleton]; unfold cc3__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of the region on core c: the arrays as the region finds them; after the body at point t each
    input's buffer at its block and the output's at the payload of the blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K_MlpRun4.lean ====
/-
  Region 4 of the word-level kernel program: the two dense maps of one layer over a block of 2000 rows, with
  the column sums of the result and of its squares accumulated over the 50 blocks.

  At grid point t the body is handed rows 2000 t … 2000 t + 1999 of the node features and of their neighbour sums,
  the two weight matrices and the two bias rows. At the FIRST point it zeroes two single-row accumulators it keeps
  between points. At EVERY point it stores the block's hidden features into the output block, adds their column sums
  to the first accumulator and the column sums of their squares to the second. At the LAST point it copies the two
  accumulators into the two single-row outputs, which are written back only there. So a point is in one of three
  cases — first, middle, last — decided by its index; in each the body's run is a straight line, and what it leaves
  in each buffer is a list of stored pieces that covers the buffer. What the accumulators hold after point n is
  defined by recursion on n (the first point from the zeroed rows, a later one from what the point before left), and
  the region's invariant between points says exactly that; the two row outputs are idle except at the last point.
  Stated at a parameter V — the contents of the buffers when the region is entered — and at any float instance.
-/
import proofs.«100772_j6322191859838_1_alg».proof.Proof.Gen.Kernel.Launch
import proofs.«100772_j6322191859838_1_alg».proof.Proof.Gen.Kernel.Skeleton
import proofs.«100772_j6322191859838_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three cases of a point -/

/-- The body's first condition (the point is the first), as the skeleton computes it from the grid coordinate. -/
abbrev condFirst4 (i : grid4.Coords) : Prop := (Scalar.cmpi .ne (Scalar.extui (Scalar.cmpi .eq (BitVec.ofNat 32 (i 0).val) 0#32)) 0#32) = 1#1
/-- The body's second condition (the point is the last). -/
abbrev condLast4 (i : grid4.Coords) : Prop := k4_cond2 i = 1#1
/-- Decided over the 50 points: the first condition holds at point 0 only, the second at point 49 only. -/
theorem hcondFirst4 : ∀ t : Fin cfg4.N, condFirst4 (grid4.coords t) ↔ t.val = 0 :=
  (by decide +kernel : ∀ t : Fin grid4.N, condFirst4 (grid4.coords t) ↔ t.val = 0)
theorem hcondLast4 : ∀ t : Fin cfg4.N, condLast4 (grid4.coords t) ↔ t.val = 49 :=
  (by decide +kernel : ∀ t : Fin grid4.N, condLast4 (grid4.coords t) ↔ t.val = 49)

/-- The two accumulators as whole memrefs. -/
abbrev sc4_0 : Memref sig .tc .vmem S1x128 .f32 := Memref.whole cc4_scratch0
abbrev sc4_1 : Memref sig .tc .vmem S1x128 .f32 := Memref.whole cc4_scratch1

/-! ## The body's run in each case: the stored pieces are what the run finds -/

set_option maxHeartbeats 4000000 in
/-- FIRST point: the accumulators hold anything; the run zeroes them, then stores the block's hidden features and the
    two updated accumulators. The pieces found: the output block's, the first accumulator's, the second's. -/
noncomputable def run4_F (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst4 i) (hc2 : ¬condLast4 i) (x0 x1 : Vec F S2000x128 .f32) (x2 : Vec F S128x128 .f32) (x3 : Vec F S1x128 .f32) (x4 : Vec F S128x128 .f32) (x5 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc4__gin_mlp_kernel_eq_skeleton]; unfold cc4__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, HS0⟩, ⟨%e1, %g1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- MIDDLE point: the accumulators hold s0, s1; the run stores the block's hidden features and the two updated
    accumulators. -/
noncomputable def run4_M (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc4__gin_mlp_kernel_eq_skeleton]; unfold cc4__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- LAST point: as a middle point, and then the two accumulators are copied into the two row outputs. The pieces
    found: the output block's, the two row outputs', the two accumulators'. -/
noncomputable def run4_L (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L8 : List (View.Piece (Elt F) S1x128 .f32)) (L9 : List (View.Piece (Elt F) S1x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  refine ⟨?_, ?_, ?_, ?_, ?_, fun E K => ?run⟩
  case run =>
    simp only [cc4__gin_mlp_kernel_eq_skeleton]; unfold cc4__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

/-! ## Every list of pieces covers its buffer (each is one or two stores of the whole buffer) -/

theorem cover4_F_7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst4 i) (hc2 : ¬condLast4 i) (x0 x1 : Vec F S2000x128 .f32) (x2 : Vec F S128x128 .f32) (x3 : Vec F S1x128 .f32) (x4 : Vec F S128x128 .f32) (x5 : Vec F S1x128 .f32) (y : S2000x128.Idx) :
    ∃ pc ∈ (run4_F c i arg1 harg1 arg2 harg2 arg3 harg3 arg4 harg4 arg5 harg5 arg6 harg6 arg7 harg7 arg8 harg8 arg9 harg9 arg10 harg10 arg11 harg11 hc1 hc2 x0 x1 x2 x3 x4 x5).1, y ∈ pc.1.set :=
  View.cover_of_tiledL (run4_F c i arg1 harg1 arg2 harg2 arg3 harg3 arg4 harg4 arg5 harg5 arg6 harg6 arg7 harg7 arg8 harg8 arg9 harg9 arg10 harg10 arg11 harg11 hc1 hc2 x0 x1 x2 x3 x4 x5).1 S2000x128.size (by sl_kernel_rfl) y
theorem cover4_F_10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst4 i) (hc2 : ¬condLast4 i) (x0 x1 : Vec F S2000x128 .f32) (x2 : Vec F S128x128 .f32) (x3 : Vec F S1x128 .f32) (x4 : Vec F S128x128 .f32) (x5 : Vec F S1x128 .f32) (y : S1x128.Idx) :
    ∃ pc ∈ (run4_F c i arg1 harg1 arg2 harg2 arg3 harg3 arg4 harg4 arg5 harg5 arg6 harg6 arg7 harg7 arg8 harg8 arg9 harg9 arg10 harg10 arg11 harg11 hc1 hc2 x0 x1 x2 x3 x4 x5).2.1, y ∈ pc.1.set :=
  View.cover_of_tiledL (run4_F c i arg1 harg1 arg2 harg2 arg3 harg3 arg4 harg4 arg5 harg5 arg6 harg6 arg7 harg7 arg8 harg8 arg9 harg9 arg10 harg10 arg11 harg11 hc1 hc2 x0 x1 x2 x3 x4 x5).2.1 S1x128.size (by sl_kernel_rfl) y
theorem cover4_F_11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst4 i) (hc2 : ¬condLast4 i) (x0 x1 : Vec F S2000x128 .f32) (x2 : Vec F S128x128 .f32) (x3 : Vec F S1x128 .f32) (x4 : Vec F S128x128 .f32) (x5 : Vec F S1x128 .f32) (y : S1x128.Idx) :
    ∃ pc ∈ (run4_F c i arg1 harg1 arg2 harg2 arg3 harg3 arg4 harg4 arg5 harg5 arg6 harg6 arg7 harg7 arg8 harg8 arg9 harg9 arg10 harg10 arg11 harg11 hc1 hc2 x0 x1 x2 x3 x4 x5).2.2.1, y ∈ pc.1.set :=
  View.cover_of_tiledL (run4_F c i arg1 harg1 arg2 harg2 arg3 harg3 arg4 harg4 arg5 harg5 arg6 harg6 arg7 harg7 arg8 harg8 arg9 harg9 arg10 harg10 arg11 harg11 hc1 hc2 x0 x1 x2 x3 x4 x5).2.2.1 S1x128.size (by sl_kernel_rfl) y
theorem cover4_M_7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover4_M_10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover4_M_11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover4_L_7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover4_L_8 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover4_L_9 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover4_L_10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 S1x128.size (by sl_kernel_rfl) y
theorem cover4_L_11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 S1x128.size (by sl_kernel_rfl) y

end Cert.Kernel.Hand

end
-- ==== Proof.K_Mlp4.lean ====
/-
  Region 4 of the word-level kernel program, point by point: what the output block and the two accumulators hold
  after each point, the region's proof data and invariant, and the body obligation.

  After point 0 the buffers hold what the first-point run stores from the point's blocks alone. After a later point
  they hold what the middle-point run (or, at point 49, the last-point run) stores from the point's blocks and the
  two accumulators AS THE POINT BEFORE LEFT THEM. The invariant between points says the accumulators hold exactly
  that (before the first point: anything). The two row outputs are idle — handed back as found — except at point 49,
  where they receive the last-point run's copies of the accumulators.
-/
import proofs.«100772_j6322191859838_1_alg».proof.Proof.K_MlpRun4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## One point's step, case by case: what the run's stored pieces leave -/

/-- First point: (the output block, accumulator 0, accumulator 1) after the run, from the point's blocks. -/
def stepF4 (c : Dev nD) (t : Fin cfg4.N) (hc1 : condFirst4 (grid4.coords t)) (hc2 : ¬condLast4 (grid4.coords t)) :
    Vec F S2000x128 .f32 × Vec F S1x128 .f32 × Vec F S1x128 .f32 :=
  (View.canon (run4_F c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)).1,
   View.canon (run4_F c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)).2.1,
   View.canon (run4_F c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)).2.2.1)
/-- Middle point: the same from the point's blocks and the accumulators s0, s1 it is handed. -/
def stepM4 (c : Dev nD) (t : Fin cfg4.N) (hc1 : ¬condFirst4 (grid4.coords t)) (hc2 : ¬condLast4 (grid4.coords t)) (s0 s1 : Vec F S1x128 .f32) :
    Vec F S2000x128 .f32 × Vec F S1x128 .f32 × Vec F S1x128 .f32 :=
  (View.canon (run4_M c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).1,
   View.canon (run4_M c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.1,
   View.canon (run4_M c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.2.1)
/-- Last point: the same, -/
def stepL4 (c : Dev nD) (t : Fin cfg4.N) (hc1 : ¬condFirst4 (grid4.coords t)) (hc2 : condLast4 (grid4.coords t)) (s0 s1 : Vec F S1x128 .f32) :
    Vec F S2000x128 .f32 × Vec F S1x128 .f32 × Vec F S1x128 .f32 :=
  (View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).1,
   View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.2.2.1,
   View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.2.2.2.1)
/-- and the two row outputs it fills. -/
def rowsL4 (c : Dev nD) (t : Fin cfg4.N) (hc1 : ¬condFirst4 (grid4.coords t)) (hc2 : condLast4 (grid4.coords t)) (s0 s1 : Vec F S1x128 .f32) :
    Vec F S1x128 .f32 × Vec F S1x128 .f32 :=
  (View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.1,
   View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.2.1)

/-! ## What the output block and the accumulators hold after each point -/

/-- (the output block, accumulator 0, accumulator 1) after the body at point n: the first-point step at point 0; at a
    later point the middle-point step — the last-point step at point 49 — from the accumulators the point before left. -/
def stAt4 (c : Dev nD) : (n : ℕ) → n < cfg4.N → Vec F S2000x128 .f32 × Vec F S1x128 .f32 × Vec F S1x128 .f32
  | 0, hn => stepF4 V c ⟨0, hn⟩ ((hcondFirst4 ⟨0, hn⟩).mpr rfl) (fun h => absurd ((hcondLast4 ⟨0, hn⟩).mp h) (by simp))
  | n + 1, hn =>
    if h49 : n + 1 = 49 then
      stepL4 V c ⟨n + 1, hn⟩ (fun h => absurd ((hcondFirst4 ⟨n + 1, hn⟩).mp h) (Nat.succ_ne_zero n)) ((hcondLast4 ⟨n + 1, hn⟩).mpr h49)
        (stAt4 c n (Nat.lt_of_succ_lt hn)).2.1 (stAt4 c n (Nat.lt_of_succ_lt hn)).2.2
    else
      stepM4 V c ⟨n + 1, hn⟩ (fun h => absurd ((hcondFirst4 ⟨n + 1, hn⟩).mp h) (Nat.succ_ne_zero n)) (fun h => h49 ((hcondLast4 ⟨n + 1, hn⟩).mp h))
        (stAt4 c n (Nat.lt_of_succ_lt hn)).2.1 (stAt4 c n (Nat.lt_of_succ_lt hn)).2.2

/-- The same point under two spellings of its index. -/
theorem stAt4_irrel (c : Dev nD) (n k : ℕ) (h : n = k) (hn : n < cfg4.N) (hk : k < cfg4.N) : stAt4 V c n hn = stAt4 V c k hk := by
  subst h; rfl

theorem stAt4_F (c : Dev nD) (t : Fin cfg4.N) (h0 : t.val = 0) :
    stAt4 V c t.val t.isLt = stepF4 V c t ((hcondFirst4 t).mpr h0) (fun h => by have := (hcondLast4 t).mp h; omega) := by
  obtain ⟨n, hn⟩ := t
  cases n with
  | zero => exact rfl
  | succ n => exact absurd h0 (Nat.succ_ne_zero n)

theorem stAt4_M (c : Dev nD) (t : Fin cfg4.N) (h0 : t.val ≠ 0) (h49 : t.val ≠ 49) :
    stAt4 V c t.val t.isLt = stepM4 V c t (fun h => h0 ((hcondFirst4 t).mp h)) (fun h => h49 ((hcondLast4 t).mp h)) (stAt4 V c (t.val - 1) (Nat.lt_of_le_of_lt (Nat.sub_le _ _) t.isLt)).2.1 (stAt4 V c (t.val - 1) (Nat.lt_of_le_of_lt (Nat.sub_le _ _) t.isLt)).2.2 := by
  obtain ⟨n, hn⟩ := t
  cases n with
  | zero => exact absurd rfl h0
  | succ n => exact (dif_neg h49).trans rfl

theorem stAt4_L (c : Dev nD) (t : Fin cfg4.N) (h49 : t.val = 49) :
    stAt4 V c t.val t.isLt = stepL4 V c t (fun h => by have := (hcondFirst4 t).mp h; omega) ((hcondLast4 t).mpr h49) (stAt4 V c (t.val - 1) (Nat.lt_of_le_of_lt (Nat.sub_le _ _) t.isLt)).2.1 (stAt4 V c (t.val - 1) (Nat.lt_of_le_of_lt (Nat.sub_le _ _) t.isLt)).2.2 := by
  obtain ⟨n, hn⟩ := t
  cases n with
  | zero => exact absurd h49 (by simp)
  | succ n => exact (dif_pos h49).trans rfl

/-- The two row outputs after the body at point t: at point 49 the last-point step's copies; elsewhere unnamed (the
    windows are idle there). -/
def o78At4 (c : Dev nD) (t : Fin cfg4.N) : Vec F S1x128 .f32 × Vec F S1x128 .f32 :=
  if h49 : t.val = 49 then rowsL4 V c t (fun h => by have := (hcondFirst4 t).mp h; omega) ((hcondLast4 t).mpr h49) (stAt4 V c (t.val - 1) (Nat.lt_of_le_of_lt (Nat.sub_le _ _) t.isLt)).2.1 (stAt4 V c (t.val - 1) (Nat.lt_of_le_of_lt (Nat.sub_le _ _) t.isLt)).2.2
  else (View.canon ([] : List (View.Piece (Elt F) S1x128 .f32)), View.canon ([] : List (View.Piece (Elt F) S1x128 .f32)))

/-! ## The proof data and the invariant -/

/-- Between points: the two accumulators hold what the point before left (before the first point: anything); the other
    scoped buffers and the generator register ride along untouched. -/
def Phi4 (c : Dev nD) (n : Fin (cfg4.N + 1)) : sProp 𝕄 :=
  iprop((∃ X0 X1 : Vec F S1x128 .f32,
          ⌜∀ h0 : n.val ≠ 0, X0 = (stAt4 V c (n.val - 1) (lt_of_lt_of_le (Nat.sub_lt (Nat.pos_of_ne_zero h0) Nat.one_pos) (Nat.le_of_lt_succ n.isLt))).2.1
              ∧ X1 = (stAt4 V c (n.val - 1) (lt_of_lt_of_le (Nat.sub_lt (Nat.pos_of_ne_zero h0) Nat.one_pos) (Nat.le_of_lt_succ n.isLt))).2.2⌝
          ∗ owns (c : Thread nD τ) sc4_0 fullShare X0 ∗ owns (c : Thread nD τ) sc4_1 fullShare X1)
      ∗ Pipeline.scopedRestBut (Ix := Unit) (Name := ℕ) (U := UR sig nD τ) (Lvl := ℕ) (Val := Elt F) spec4 c [cc4_scratch0, cc4_scratch1]
      ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (stAt4 V c t.val t.isLt).1
    | ⟨7, _⟩ => (o78At4 V c t).1
    | ⟨8, _⟩ => (o78At4 V c t).2
  Φ n := Phi4 V c n
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (stAt4 V c t.val t.isLt).1 := by dsimp only [dat4]
theorem after4_7 (c : Dev nD) (t : Fin cfg4.N) : (dat4 V c).after 7 t = (o78At4 V c t).1 := by dsimp only [dat4]
theorem after4_8 (c : Dev nD) (t : Fin cfg4.N) : (dat4 V c).after 8 t = (o78At4 V c t).2 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ (match cfg4.idle 7 (cfg4.grid.coords t) with
       | true =>
         match (cfg4.win 7).flush t with
         | false => iprop(∃ d, owns (c : Thread nD τ) (st4_7 t) fullShare ((dat4 V c).before 7 t d))
         | true => owns (c : Thread nD τ) (st4_7 t) fullShare ((dat4 V c).after 7 t)
       | false => owns (c : Thread nD τ) (st4_7 t) fullShare ((dat4 V c).after 7 t))
    ∗ (match cfg4.idle 8 (cfg4.grid.coords t) with
       | true =>
         match (cfg4.win 8).flush t with
         | false => iprop(∃ d, owns (c : Thread nD τ) (st4_8 t) fullShare ((dat4 V c).before 8 t d))
         | true => owns (c : Thread nD τ) (st4_8 t) fullShare ((dat4 V c).after 8 t)
       | false => owns (c : Thread nD τ) (st4_8 t) fullShare ((dat4 V c).after 8 t)))

set_option maxHeartbeats 4000000 in
/-- The first point. -/
theorem sound_first4 (c : Dev nD) (t : Fin cfg4.N) (h0 : t.val = 0) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.castSucc = Phi4 V c t.castSucc from rfl, show (dat4 V c).Φ t.succ = Phi4 V c t.succ from rfl,
    show (dat4 V c).owesAt () t.succ = (dat4 V c).owesAt () t.castSucc from rfl,
    after4_0, after4_1, after4_2, after4_3, after4_4, after4_5, after4_6, after4_7, after4_8]
  unfold Phi4
  have hN : t.val < 50 := lt_of_lt_of_eq t.isLt (show cfg4.N = 50 from N_4)
  have hsucc : stAt4 V c (t.succ.val - 1) (lt_of_lt_of_le (Nat.sub_lt (Nat.pos_of_ne_zero (Nat.succ_ne_zero _)) Nat.one_pos) (Nat.le_of_lt_succ t.succ.isLt)) = stAt4 V c t.val t.isLt :=
    stAt4_irrel V c _ _ (by simp) _ _
  have hnl : ¬condLast4 (grid4.coords t) := fun h => by have := (hcondLast4 t).mp h; omega
  have hidle7 : cfg4.idle 7 (cfg4.grid.coords t) = true := by
    show (!(k4_cond2 (grid4.coords t) == 1#1)) = true
    rw [Bool.not_eq_true', beq_eq_false_iff_ne]; exact hnl
  have hidle8 : cfg4.idle 8 (cfg4.grid.coords t) = true := by
    show (!(k4_cond2 (grid4.coords t) == 1#1)) = true
    rw [Bool.not_eq_true', beq_eq_false_iff_ne]; exact hnl
  have hfl7 : (cfg4.win 7).flush t = false := Bool.eq_false_iff.mpr fun h => by have := (flush4_7 t).mp h; omega
  have hfl8 : (cfg4.win 8).flush t = false := Bool.eq_false_iff.mpr fun h => by have := (flush4_8 t).mp h; omega
  have hidle7' : idle4 7 (grid4.coords t) = true := hidle7
  have hidle8' : idle4 8 (grid4.coords t) = true := hidle8
  have hfl7' : (win4 7).flush t = false := hfl7
  have hfl8' : (win4 8).flush t = false := hfl8
  simp only [hidle7, hidle8, hfl7, hfl8, hidle7', hidle8', hfl7', hfl8']
  rw [stAt4_F V c t h0]
  unfold stepF4
  iintro ⟨⟨⟨%X0, %X1, -, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run4_F c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) ((hcondFirst4 t).mpr h0) (fun h => by have := (hcondLast4 t).mp h; omega) (iblk4 V c 0 t) (iblk4 V c 1 t) (iblk4 V c 2 t) (iblk4 V c 3 t) (iblk4 V c 4 t) (iblk4 V c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexists _; iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover4_F_10 c _ _ _ _ _ _ _ _ _ _ _ _ _ _ _ _ _ _ _ _ _ _ _ _ _ _ _ _ _ _ _)
        · unfold owns; iexists _; isplitr; swap; iexact HS1; ipureintro; exact View.read_writes_eq_canon _ _ _ (cover4_F_11 c _ _ _ _ _ _ _ _ _ _ _ _ _ _ _ _ _ _ _ _ _ _ _ _ _ _ _ _ _ _ _)
      ipureintro; intro _; rw [hsucc, stAt4_F V c t h0]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover4_F_7 c _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- A middle point. -/
theorem sound_mid4 (c : Dev nD) (t : Fin cfg4.N) (h0 : t.val ≠ 0) (h49 : t.val ≠ 49) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.castSucc = Phi4 V c t.castSucc from rfl, show (dat4 V c).Φ t.succ = Phi4 V c t.succ from rfl,
    show (dat4 V c).owesAt () t.succ = (dat4 V c).owesAt () t.castSucc from rfl,
    after4_0, after4_1, after4_2, after4_3, after4_4, after4_5, after4_6, after4_7, after4_8]
  unfold Phi4
  have hN : t.val < 50 := lt_of_lt_of_eq t.isLt (show cfg4.N = 50 from N_4)
  have hsucc : stAt4 V c (t.succ.val - 1) (lt_of_lt_of_le (Nat.sub_lt (Nat.pos_of_ne_zero (Nat.succ_ne_zero _)) Nat.one_pos) (Nat.le_of_lt_succ t.succ.isLt)) = stAt4 V c t.val t.isLt :=
    stAt4_irrel V c _ _ (by simp) _ _
  have hnl : ¬condLast4 (grid4.coords t) := fun h => h49 ((hcondLast4 t).mp h)
  have hidle7 : cfg4.idle 7 (cfg4.grid.coords t) = true := by
    show (!(k4_cond2 (grid4.coords t) == 1#1)) = true
    rw [Bool.not_eq_true', beq_eq_false_iff_ne]; exact hnl
  have hidle8 : cfg4.idle 8 (cfg4.grid.coords t) = true := by
    show (!(k4_cond2 (grid4.coords t) == 1#1)) = true
    rw [Bool.not_eq_true', beq_eq_false_iff_ne]; exact hnl
  have hfl7 : (cfg4.win 7).flush t = false := Bool.eq_false_iff.mpr fun h => by have := (flush4_7 t).mp h; omega
  have hfl8 : (cfg4.win 8).flush t = false := Bool.eq_false_iff.mpr fun h => by have := (flush4_8 t).mp h; omega
  have hidle7' : idle4 7 (grid4.coords t) = true := hidle7
  have hidle8' : idle4 8 (grid4.coords t) = true := hidle8
  have hfl7' : (win4 7).flush t = false := hfl7
  have hfl8' : (win4 8).flush t = false := hfl8
  simp only [hidle7, hidle8, hfl7, hfl8, hidle7', hidle8', hfl7', hfl8']
  rw [stAt4_M V c t h0 h49]
  unfold stepM4
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run4_M c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) (fun h => h0 ((hcondFirst4 t).mp h)) (fun h => h49 ((hcondLast4 t).mp h)) (iblk4 V c 0 t) (iblk4 V c 1 t) (iblk4 V c 2 t) (iblk4 V c 3 t) (iblk4 V c 4 t) (iblk4 V c 5 t) _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover4_M_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover4_M_11 c _ _ _ _ _ _ _ _ _ _ _ _ _ _ _ _ _ _ _ _ _ _ _ _ _ _ _ _ _ _ _ _ _)
      ipureintro; intro _; rw [hsucc, stAt4_M V c t h0 h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover4_M_7 c _ _ _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- The last point. -/
theorem sound_last4 (c : Dev nD) (t : Fin cfg4.N) (h0 : t.val ≠ 0) (h49 : t.val = 49) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.castSucc = Phi4 V c t.castSucc from rfl, show (dat4 V c).Φ t.succ = Phi4 V c t.succ from rfl,
    show (dat4 V c).owesAt () t.succ = (dat4 V c).owesAt () t.castSucc from rfl,
    after4_0, after4_1, after4_2, after4_3, after4_4, after4_5, after4_6, after4_7, after4_8]
  unfold Phi4
  have hN : t.val < 50 := lt_of_lt_of_eq t.isLt (show cfg4.N = 50 from N_4)
  have hsucc : stAt4 V c (t.succ.val - 1) (lt_of_lt_of_le (Nat.sub_lt (Nat.pos_of_ne_zero (Nat.succ_ne_zero _)) Nat.one_pos) (Nat.le_of_lt_succ t.succ.isLt)) = stAt4 V c t.val t.isLt :=
    stAt4_irrel V c _ _ (by simp) _ _
  have hl : condLast4 (grid4.coords t) := (hcondLast4 t).mpr h49
  have hidle7 : cfg4.idle 7 (cfg4.grid.coords t) = false := by
    show (!(k4_cond2 (grid4.coords t) == 1#1)) = false
    rw [Bool.not_eq_false', beq_iff_eq]; exact hl
  have hidle8 : cfg4.idle 8 (cfg4.grid.coords t) = false := by
    show (!(k4_cond2 (grid4.coords t) == 1#1)) = false
    rw [Bool.not_eq_false', beq_iff_eq]; exact hl
  have hidle7' : idle4 7 (grid4.coords t) = false := hidle7
  have hidle8' : idle4 8 (grid4.coords t) = false := hidle8
  simp only [hidle7, hidle8, hidle7', hidle8']
  rw [stAt4_L V c t h49]
  unfold o78At4
  simp only [dif_pos h49]
  unfold stepL4 rowsL4
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) (fun h => by have := (hcondFirst4 t).mp h; omega) ((hcondLast4 t).mpr h49) (iblk4 V c 0 t) (iblk4 V c 1 t) (iblk4 V c 2 t) (iblk4 V c 3 t) (iblk4 V c 4 t) (iblk4 V c 5 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover4_L_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover4_L_11 c _ _ _ _ _ _ _ _ _ _ _ _ _ _ _ _ _ _ _ _ _ _ _ _ _ _ _ _ _ _ _ _ _)
      ipureintro; intro _; rw [hsucc, stAt4_L V c t h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover4_L_7 c _ _ _ _ _ _ _ _ _ _ _ _ _ _ _ _ _ _ _ _ _ _ _ _ _ _ _ _ _ _ _ _ _)
  isplitl [H7]
  · split
    next h => exact absurd (hidle7.symm.trans h) (by decide)
    next => unfold owns; iexists _; isplitr; swap; iexact H7; ipureintro; exact View.read_writes_eq_canon _ _ _ (cover4_L_8 c _ _ _ _ _ _ _ _ _ _ _ _ _ _ _ _ _ _ _ _ _ _ _ _ _ _ _ _ _ _ _ _ _)
  split
  next h => exact absurd (hidle8.symm.trans h) (by decide)
  next => unfold owns; iexists _; isplitr; swap; iexact H8; ipureintro; exact View.read_writes_eq_canon _ _ _ (cover4_L_9 c _ _ _ _ _ _ _ _ _ _ _ _ _ _ _ _ _ _ _ _ _ _ _ _ _ _ _ _ _ _ _ _ _)

/-- The body at any point: by the point's case. -/
theorem sound_body4 (c : Dev nD) (t : Fin cfg4.N) :
    bodyPre4 V c t ⊢ wp frame (wpE (defs₀ (F := F)) Variants.none c none) Set.univ (bodyAt4 t) (fun _ => bodyPost4 V c t) := by
  by_cases h0 : t.val = 0
  · exact sound_first4 V c t h0
  by_cases h49 : t.val = 49
  · exact sound_last4 V c t h0 h49
  · exact sound_mid4 V c t h0 h49

/-- The body obligation of the region, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K_Norm5.lean ====
/-
  Region 5 of the word-level kernel program: one pass of batch normalisation over a block of 2000 rows.

  At grid point t the body is handed rows 2000 t … 2000 t + 1999 of the activations and the four rows
  (mean, variance, scale, shift), loads all five whole, and stores ONE value into the output block: entry (r, j)
  is (h r j − mean j) · rsqrt (variance j + ε) · scale j + shift j, the skeleton's payload of its loads. Nothing
  is kept from point to point. So: what the output's buffer holds after the body is that payload laid over the
  whole block; the body's triple is the symbolic run of its six loads and one store; and the proof data says
  "each input's buffer holds its block, the output's the payload of the blocks" at every point.
  Stated at a parameter V — the contents of the buffers when the region is entered — and at any float instance.
-/
import proofs.«100772_j6322191859838_1_alg».proof.Proof.Gen.Kernel.Launch
import proofs.«100772_j6322191859838_1_alg».proof.Proof.Gen.Kernel.Skeleton
import proofs.«100772_j6322191859838_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's buffer holds its block at every point, fetched there or not (unfetched, the block index has
    not moved), for any proof data whose array is V's and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's buffer holds its block at every point, fetched there or not (unfetched, the block index has
    not moved), for any proof data whose array is V's and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's buffer holds its block at every point, fetched there or not (unfetched, the block index has
    not moved), for any proof data whose array is V's and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's buffer holds its block at every point, fetched there or not (unfetched, the block index has
    not moved), for any proof data whose array is V's and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's buffer holds its block at every point, fetched there or not (unfetched, the block index has
    not moved), for any proof data whose array is V's and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole block of 2000 rows, and the whole single row: the rectangles the body loads and stores through. -/
abbrev rBlk5 : Rect S2000x128 := Rect.unit (s := S2000x128) ![0, 0] S2000x128.size inb_S2000x128_S2000x128_0_0
abbrev rRow5 : Rect S1x128 := Rect.unit (s := S1x128) ![0, 0] S1x128.size inb_S1x128_S1x128_0_0

/-- The output block after the body, from the five input blocks: the one store's payload over the whole block. -/
def out5_5 (x0 : Vec F S2000x128 .f32) (x1 x2 x3 x4 : Vec F S1x128 .f32) : Vec F S2000x128 .f32 :=
  View.canon [⟨rBlk5, k5_pay1 (View.ld x0 rBlk5) (View.ld x1 rRow5) (View.ld x2 rRow5) (View.ld x3 rRow5) (View.ld x4 rRow5)⟩]

/-- The one store covers the block. -/
theorem cover5_5 (p0 : Vec F S2000x128 .f32) (y : S2000x128.Idx) :
    ∃ pc ∈ ([⟨rBlk5, p0⟩] : List (View.Piece (Elt F) S2000x128 .f32)), y ∈ pc.1.set :=
  View.cover_of_tiled [⟨rBlk5, p0⟩] S2000x128.size (by rfl) y

set_option maxHeartbeats 4000000 in
/-- The body on whole staging memrefs — the inputs' at read contents x0 … x4, the output's at anything — runs to the
    continuation holding the inputs' as they were and the output's at the payload of the inputs. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_normalize_kernel i arg1 harg1 arg2 harg2 arg3 harg3 arg4 harg4 arg5 harg5 arg6 harg6) K := by
  simp only [cc5__bn_normalize_kernel_eq_skeleton]; unfold cc5__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of the region on core c: the arrays as the region finds them; after the body at point t each
    input's buffer at its block and the output's at the payload of the blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K_Run.lean ====
/-
  The word-level kernel program's run: @main as thirteen segments — seven stretches of host operations and the six
  kernel regions between them — from the launch to the return.

  The contents of the device's buffers at each boundary are a fold from the launch memory: a host stretch applies its
  operations' results; a region replaces its arrays by what its write-backs leave (the inputs as entered, each output
  the fold of its blocks) and leaves every other buffer alone. Each region is entered from "every unscoped buffer at
  the boundary's contents" and left at the next boundary's; its arrays are split out of the unscoped buffers on entry
  and put back on exit; a normalisation region needs nothing else, an MLP region also takes its two accumulators out
  of the scoped buffers into its invariant and returns them. So every weakly fair execution terminates with every
  unscoped buffer at the last boundary's contents (`run_all`) — from which the frame: no host operation and no region
  writes an argument, so the fold at an argument's buffer walks back to the launch memory.
-/
import proofs.«100772_j6322191859838_1_alg».proof.Proof.K_Mlp0
import proofs.«100772_j6322191859838_1_alg».proof.Proof.K_Norm1
import proofs.«100772_j6322191859838_1_alg».proof.Proof.K_Mlp2
import proofs.«100772_j6322191859838_1_alg».proof.Proof.K_Norm3
import proofs.«100772_j6322191859838_1_alg».proof.Proof.K_Mlp4
import proofs.«100772_j6322191859838_1_alg».proof.Proof.K_Norm5
import proofs.«100772_j6322191859838_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After host stretch 0: region 0's entry. -/
abbrev W1 : Dev nD → Valuation τ sig (Elt F) := fun c => StableHlo.after hostOps0 (W0 m ρ c)
abbrev Ent1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Ent1 m ρ) c).arrAt w cfg0.N
theorem W2_arr (c : Dev nD) (w : Fin cfg0.W) :
    W2 m ρ c (Proc.devRef .tc (Pipeline.arrRef spec0 w)) = (dat0 (Ent1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ext2 : (c : Dev nD) → (b : Ref sig .tc) → Buf (Elt F) ((c : Thread nD τ).loc b) := fun c b => W2 m ρ c b
theorem hF0 (c : Dev nD) (w : Fin cfg0.W) : (dat0 (Ent1 m ρ) c).arrAt w cfg0.N = Ext2 m ρ c (Pipeline.arrRef spec0 w) :=
  (W2_arr m ρ c w).symm
theorem hrest0 (c : Dev nD) : ∀ b, b ∉ Finset.univ.image (Pipeline.arrRef spec0) → Ext2 m ρ c b = Ent1 m ρ c b :=
  fun b hb => W2_of_ne m ρ c b fun w e => hb (Finset.mem_image.mpr ⟨w, Finset.mem_univ _, e⟩)

/-- After host stretch 1: region 1's entry. -/
abbrev W3 : Dev nD → Valuation τ sig (Elt F) := fun c => StableHlo.after hostOps1 (W2 m ρ c)
abbrev Ent3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (Ent3 m ρ) c).arrAt w cfg1.N
theorem W4_arr (c : Dev nD) (w : Fin cfg1.W) :
    W4 m ρ c (Proc.devRef .tc (Pipeline.arrRef spec1 w)) = (dat1 (Ent3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ext4 : (c : Dev nD) → (b : Ref sig .tc) → Buf (Elt F) ((c : Thread nD τ).loc b) := fun c b => W4 m ρ c b
theorem hF1 (c : Dev nD) (w : Fin cfg1.W) : (dat1 (Ent3 m ρ) c).arrAt w cfg1.N = Ext4 m ρ c (Pipeline.arrRef spec1 w) :=
  (W4_arr m ρ c w).symm
theorem hrest1 (c : Dev nD) : ∀ b, b ∉ Finset.univ.image (Pipeline.arrRef spec1) → Ext4 m ρ c b = Ent3 m ρ c b :=
  fun b hb => W4_of_ne m ρ c b fun w e => hb (Finset.mem_image.mpr ⟨w, Finset.mem_univ _, e⟩)

/-- After host stretch 2: region 2's entry. -/
abbrev W5 : Dev nD → Valuation τ sig (Elt F) := fun c => StableHlo.after hostOps2 (W4 m ρ c)
abbrev Ent5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (Ent5 m ρ) c).arrAt w cfg2.N
theorem W6_arr (c : Dev nD) (w : Fin cfg2.W) :
    W6 m ρ c (Proc.devRef .tc (Pipeline.arrRef spec2 w)) = (dat2 (Ent5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Ext6 : (c : Dev nD) → (b : Ref sig .tc) → Buf (Elt F) ((c : Thread nD τ).loc b) := fun c b => W6 m ρ c b
theorem hF2 (c : Dev nD) (w : Fin cfg2.W) : (dat2 (Ent5 m ρ) c).arrAt w cfg2.N = Ext6 m ρ c (Pipeline.arrRef spec2 w) :=
  (W6_arr m ρ c w).symm
theorem hrest2 (c : Dev nD) : ∀ b, b ∉ Finset.univ.image (Pipeline.arrRef spec2) → Ext6 m ρ c b = Ent5 m ρ c b :=
  fun b hb => W6_of_ne m ρ c b fun w e => hb (Finset.mem_image.mpr ⟨w, Finset.mem_univ _, e⟩)

/-- After host stretch 3: region 3's entry. -/
abbrev W7 : Dev nD → Valuation τ sig (Elt F) := fun c => StableHlo.after hostOps3 (W6 m ρ c)
abbrev Ent7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (Ent7 m ρ) c).arrAt w cfg3.N
theorem W8_arr (c : Dev nD) (w : Fin cfg3.W) :
    W8 m ρ c (Proc.devRef .tc (Pipeline.arrRef spec3 w)) = (dat3 (Ent7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Ext8 : (c : Dev nD) → (b : Ref sig .tc) → Buf (Elt F) ((c : Thread nD τ).loc b) := fun c b => W8 m ρ c b
theorem hF3 (c : Dev nD) (w : Fin cfg3.W) : (dat3 (Ent7 m ρ) c).arrAt w cfg3.N = Ext8 m ρ c (Pipeline.arrRef spec3 w) :=
  (W8_arr m ρ c w).symm
theorem hrest3 (c : Dev nD) : ∀ b, b ∉ Finset.univ.image (Pipeline.arrRef spec3) → Ext8 m ρ c b = Ent7 m ρ c b :=
  fun b hb => W8_of_ne m ρ c b fun w e => hb (Finset.mem_image.mpr ⟨w, Finset.mem_univ _, e⟩)

/-- After host stretch 4: region 4's entry. -/
abbrev W9 : Dev nD → Valuation τ sig (Elt F) := fun c => StableHlo.after hostOps4 (W8 m ρ c)
abbrev Ent9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (Ent9 m ρ) c).arrAt w cfg4.N
theorem W10_arr (c : Dev nD) (w : Fin cfg4.W) :
    W10 m ρ c (Proc.devRef .tc (Pipeline.arrRef spec4 w)) = (dat4 (Ent9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Ext10 : (c : Dev nD) → (b : Ref sig .tc) → Buf (Elt F) ((c : Thread nD τ).loc b) := fun c b => W10 m ρ c b
theorem hF4 (c : Dev nD) (w : Fin cfg4.W) : (dat4 (Ent9 m ρ) c).arrAt w cfg4.N = Ext10 m ρ c (Pipeline.arrRef spec4 w) :=
  (W10_arr m ρ c w).symm
theorem hrest4 (c : Dev nD) : ∀ b, b ∉ Finset.univ.image (Pipeline.arrRef spec4) → Ext10 m ρ c b = Ent9 m ρ c b :=
  fun b hb => W10_of_ne m ρ c b fun w e => hb (Finset.mem_image.mpr ⟨w, Finset.mem_univ _, e⟩)

/-- After host stretch 5: region 5's entry. -/
abbrev W11 : Dev nD → Valuation τ sig (Elt F) := fun c => StableHlo.after hostOps5 (W10 m ρ c)
abbrev Ent11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (Ent11 m ρ) c).arrAt w cfg5.N
theorem W12_arr (c : Dev nD) (w : Fin cfg5.W) :
    W12 m ρ c (Proc.devRef .tc (Pipeline.arrRef spec5 w)) = (dat5 (Ent11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev Ext12 : (c : Dev nD) → (b : Ref sig .tc) → Buf (Elt F) ((c : Thread nD τ).loc b) := fun c b => W12 m ρ c b
theorem hF5 (c : Dev nD) (w : Fin cfg5.W) : (dat5 (Ent11 m ρ) c).arrAt w cfg5.N = Ext12 m ρ c (Pipeline.arrRef spec5 w) :=
  (W12_arr m ρ c w).symm
theorem hrest5 (c : Dev nD) : ∀ b, b ∉ Finset.univ.image (Pipeline.arrRef spec5) → Ext12 m ρ c b = Ent11 m ρ c b :=
  fun b hb => W12_of_ne m ρ c b fun w e => hb (Finset.mem_image.mpr ⟨w, Finset.mem_univ _, e⟩)

/-- After the last host stretch: the return. -/
abbrev W13 : Dev nD → Valuation τ sig (Elt F) := fun c => StableHlo.after hostOps6 (W12 m ρ c)

/-! ## No segment writes an argument -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Ent1 m ρ) c).arrAt_in 0 rfl _).trans (A_eq0 (Ent1 m ρ) c 0))
    _ = W0 m ρ c (Proc.devRef .tc main_arg0) := StableHlo.after_of_writes_sub hostOps0 _ hostOps0_writes (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

abbrev adm : (p : Fin 6) → (pcfgs (F := F) p).Adm := fun p => (cfgs p).toPCfg_adm
/-- Every pipeline's proof data, each at its region's entry contents (a literal match on the pipeline). -/
def pdats : (p : Fin 6) → (c : Dev nD) → Dat τ (Elt F) Unit ℕ (UR sig nD τ) ℕ (Pipeline.pin (pcfgs (F := F)) adm p) c
  | ⟨0, _⟩ => fun c => dat0 (Ent1 m ρ) c
  | ⟨1, _⟩ => fun c => dat1 (Ent3 m ρ) c
  | ⟨2, _⟩ => fun c => dat2 (Ent5 m ρ) c
  | ⟨3, _⟩ => fun c => dat3 (Ent7 m ρ) c
  | ⟨4, _⟩ => fun c => dat4 (Ent9 m ρ) c
  | ⟨5, _⟩ => fun c => dat5 (Ent11 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option maxHeartbeats 4000000 in
set_option backward.isDefEq.respectTransparency.types false in
/-- REGION 0: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest0_split (Ix := Unit) (Val := Elt F) (Name := ℕ) (U := UR sig nD τ) (Lvl := ℕ) c
    rw [show (pdats m ρ 0 c).Φ 0 = Phi0 (Ent1 m ρ) c 0 from rfl]; unfold Phi0
    iintro ⟨Hp, -, Hr⟩
    ihave Hr' := (Entails.of_eq hs) $$ Hr
    icases Hr' with ⟨⟨⟨%f0, H0⟩, ⟨%f1, H1⟩⟩, Hrb⟩
    isplitl [H0 H1]
    · iexists f0; iexists f1; isplitr; · ipureintro; intro h; exact absurd rfl h
      isplitl [H0]
      · iapply (Entails.of_eq (owns_whole (c : Thread nD τ) cc0_scratch0 fullShare f0).symm); iexact H0
      · iapply (Entails.of_eq (owns_whole (c : Thread nD τ) cc0_scratch1 fullShare f1).symm); iexact H1
    isplitl [Hrb]; · iexact Hrb
    iexact Hp
  hout c := by
    have hs := scopedRest0_split (Ix := Unit) (Val := Elt F) (Name := ℕ) (U := UR sig nD τ) (Lvl := ℕ) c
    rw [Pipeline.ownSems0_none]
    show Phi0 (Ent1 m ρ) c _ ⊢ _
    unfold Phi0
    iintro ⟨⟨%X0, %X1, -, H0, H1⟩, Hrb, Hp⟩
    isplitl [Hp]; · iexact Hp
    isplitr; · iempintro
    iapply (Entails.of_eq hs.symm)
    isplitl [H0 H1]
    · isplitl [H0]
      · iexists X0; iapply (Entails.of_eq (owns_whole (c : Thread nD τ) cc0_scratch0 fullShare X0)); iexact H0
      · iexists X1; iapply (Entails.of_eq (owns_whole (c : Thread nD τ) cc0_scratch1 fullShare X1)); iexact H1
    iexact Hrb
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent1 m ρ c) (Ext2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 1: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent3 m ρ c) (Ext4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 2: entered from every unscoped buffer at W5, left at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Ent5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest2_split (Ix := Unit) (Val := Elt F) (Name := ℕ) (U := UR sig nD τ) (Lvl := ℕ) c
    rw [show (pdats m ρ 2 c).Φ 0 = Phi2 (Ent5 m ρ) c 0 from rfl]; unfold Phi2
    iintro ⟨Hp, -, Hr⟩
    ihave Hr' := (Entails.of_eq hs) $$ Hr
    icases Hr' with ⟨⟨⟨%f0, H0⟩, ⟨%f1, H1⟩⟩, Hrb⟩
    isplitl [H0 H1]
    · iexists f0; iexists f1; isplitr; · ipureintro; intro h; exact absurd rfl h
      isplitl [H0]
      · iapply (Entails.of_eq (owns_whole (c : Thread nD τ) cc2_scratch0 fullShare f0).symm); iexact H0
      · iapply (Entails.of_eq (owns_whole (c : Thread nD τ) cc2_scratch1 fullShare f1).symm); iexact H1
    isplitl [Hrb]; · iexact Hrb
    iexact Hp
  hout c := by
    have hs := scopedRest2_split (Ix := Unit) (Val := Elt F) (Name := ℕ) (U := UR sig nD τ) (Lvl := ℕ) c
    rw [Pipeline.ownSems0_none]
    show Phi2 (Ent5 m ρ) c _ ⊢ _
    unfold Phi2
    iintro ⟨⟨%X0, %X1, -, H0, H1⟩, Hrb, Hp⟩
    isplitl [Hp]; · iexact Hp
    isplitr; · iempintro
    iapply (Entails.of_eq hs.symm)
    isplitl [H0 H1]
    · isplitl [H0]
      · iexists X0; iapply (Entails.of_eq (owns_whole (c : Thread nD τ) cc2_scratch0 fullShare X0)); iexact H0
      · iexists X1; iapply (Entails.of_eq (owns_whole (c : Thread nD τ) cc2_scratch1 fullShare X1)); iexact H1
    iexact Hrb
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent5 m ρ c) (Ext6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 3: entered from every unscoped buffer at W7, left at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ent7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (Ent7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Ent7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Ent7 m ρ c) (Ext8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 4: entered from every unscoped buffer at W9, left at W10. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ent9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (Ent9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Ent9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest4_split (Ix := Unit) (Val := Elt F) (Name := ℕ) (U := UR sig nD τ) (Lvl := ℕ) c
    rw [show (pdats m ρ 4 c).Φ 0 = Phi4 (Ent9 m ρ) c 0 from rfl]; unfold Phi4
    iintro ⟨Hp, -, Hr⟩
    ihave Hr' := (Entails.of_eq hs) $$ Hr
    icases Hr' with ⟨⟨⟨%f0, H0⟩, ⟨%f1, H1⟩⟩, Hrb⟩
    isplitl [H0 H1]
    · iexists f0; iexists f1; isplitr; · ipureintro; intro h; exact absurd rfl h
      isplitl [H0]
      · iapply (Entails.of_eq (owns_whole (c : Thread nD τ) cc4_scratch0 fullShare f0).symm); iexact H0
      · iapply (Entails.of_eq (owns_whole (c : Thread nD τ) cc4_scratch1 fullShare f1).symm); iexact H1
    isplitl [Hrb]; · iexact Hrb
    iexact Hp
  hout c := by
    have hs := scopedRest4_split (Ix := Unit) (Val := Elt F) (Name := ℕ) (U := UR sig nD τ) (Lvl := ℕ) c
    rw [Pipeline.ownSems0_none]
    show Phi4 (Ent9 m ρ) c _ ⊢ _
    unfold Phi4
    iintro ⟨⟨%X0, %X1, -, H0, H1⟩, Hrb, Hp⟩
    isplitl [Hp]; · iexact Hp
    isplitr; · iempintro
    iapply (Entails.of_eq hs.symm)
    isplitl [H0 H1]
    · isplitl [H0]
      · iexists X0; iapply (Entails.of_eq (owns_whole (c : Thread nD τ) cc4_scratch0 fullShare X0)); iexact H0
      · iexists X1; iapply (Entails.of_eq (owns_whole (c : Thread nD τ) cc4_scratch1 fullShare X1)); iexact H1
    iexact Hrb
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Ent9 m ρ c) (Ext10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 5: entered from every unscoped buffer at W11, left at W12. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ent11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (Ent11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Ent11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Ent11 m ρ c) (Ext12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

set_option backward.isDefEq.respectTransparency.types false in
/-- At the compiled mesh, at any float instance, from any memory with zero counters: every weakly fair execution of
    @main terminates, nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- THE FRAME: every weakly fair execution terminates with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c)⟩) (run_all m ρ)

end Cert.Kernel.Hand

end
-- ==== Proof.KI_MlpRun0.lean ====
/-
  Region 0 of the idealized kernel program: the two dense maps of one layer over a block of 2000 rows, with
  the column sums of the result and of its squares accumulated over the 50 blocks.

  At grid point t the body is handed rows 2000 t … 2000 t + 1999 of the node features and of their neighbour sums,
  the two weight matrices and the two bias rows. At the FIRST point it zeroes two single-row accumulators it keeps
  between points. At EVERY point it stores the block's hidden features into the output block, adds their column sums
  to the first accumulator and the column sums of their squares to the second. At the LAST point it copies the two
  accumulators into the two single-row outputs, which are written back only there. So a point is in one of three
  cases — first, middle, last — decided by its index; in each the body's run is a straight line, and what it leaves
  in each buffer is a list of stored pieces that covers the buffer. What the accumulators hold after point n is
  defined by recursion on n (the first point from the zeroed rows, a later one from what the point before left), and
  the region's invariant between points says exactly that; the two row outputs are idle except at the last point.
  Stated at a parameter V — the contents of the buffers when the region is entered — and at any float instance.
-/
import proofs.«100772_j6322191859838_1_alg».proof.Proof.Gen.KernelIdeal.Launch
import proofs.«100772_j6322191859838_1_alg».proof.Proof.Gen.KernelIdeal.Skeleton
import proofs.«100772_j6322191859838_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three cases of a point -/

/-- The body's first condition (the point is the first), as the skeleton computes it from the grid coordinate. -/
abbrev condFirst0 (i : grid0.Coords) : Prop := (Scalar.cmpi .ne (Scalar.extui (Scalar.cmpi .eq (BitVec.ofNat 32 (i 0).val) 0#32)) 0#32) = 1#1
/-- The body's second condition (the point is the last). -/
abbrev condLast0 (i : grid0.Coords) : Prop := k0_cond2 i = 1#1
/-- Decided over the 50 points: the first condition holds at point 0 only, the second at point 49 only. -/
theorem hcondFirst0 : ∀ t : Fin cfg0.N, condFirst0 (grid0.coords t) ↔ t.val = 0 :=
  (by decide +kernel : ∀ t : Fin grid0.N, condFirst0 (grid0.coords t) ↔ t.val = 0)
theorem hcondLast0 : ∀ t : Fin cfg0.N, condLast0 (grid0.coords t) ↔ t.val = 49 :=
  (by decide +kernel : ∀ t : Fin grid0.N, condLast0 (grid0.coords t) ↔ t.val = 49)

/-- The two accumulators as whole memrefs. -/
abbrev sc0_0 : Memref sig .tc .vmem S1x128 .f32 := Memref.whole cc0_scratch0
abbrev sc0_1 : Memref sig .tc .vmem S1x128 .f32 := Memref.whole cc0_scratch1

/-! ## The body's run in each case: the stored pieces are what the run finds -/

set_option maxHeartbeats 4000000 in
/-- FIRST point: the accumulators hold anything; the run zeroes them, then stores the block's hidden features and the
    two updated accumulators. The pieces found: the output block's, the first accumulator's, the second's. -/
noncomputable def run0_F (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst0 i) (hc2 : ¬condLast0 i) (x0 x1 : Vec F S2000x128 .f32) (x2 : Vec F S128x128 .f32) (x3 : Vec F S1x128 .f32) (x4 : Vec F S128x128 .f32) (x5 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc0__gin_mlp_kernel_eq_skeleton]; unfold cc0__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, HS0⟩, ⟨%e1, %g1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- MIDDLE point: the accumulators hold s0, s1; the run stores the block's hidden features and the two updated
    accumulators. -/
noncomputable def run0_M (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc0__gin_mlp_kernel_eq_skeleton]; unfold cc0__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- LAST point: as a middle point, and then the two accumulators are copied into the two row outputs. The pieces
    found: the output block's, the two row outputs', the two accumulators'. -/
noncomputable def run0_L (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L8 : List (View.Piece (Elt F) S1x128 .f32)) (L9 : List (View.Piece (Elt F) S1x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  refine ⟨?_, ?_, ?_, ?_, ?_, fun E K => ?run⟩
  case run =>
    simp only [cc0__gin_mlp_kernel_eq_skeleton]; unfold cc0__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

/-! ## Every list of pieces covers its buffer (each is one or two stores of the whole buffer) -/

theorem cover0_F_7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst0 i) (hc2 : ¬condLast0 i) (x0 x1 : Vec F S2000x128 .f32) (x2 : Vec F S128x128 .f32) (x3 : Vec F S1x128 .f32) (x4 : Vec F S128x128 .f32) (x5 : Vec F S1x128 .f32) (y : S2000x128.Idx) :
    ∃ pc ∈ (run0_F c i arg1 harg1 arg2 harg2 arg3 harg3 arg4 harg4 arg5 harg5 arg6 harg6 arg7 harg7 arg8 harg8 arg9 harg9 arg10 harg10 arg11 harg11 hc1 hc2 x0 x1 x2 x3 x4 x5).1, y ∈ pc.1.set :=
  View.cover_of_tiledL (run0_F c i arg1 harg1 arg2 harg2 arg3 harg3 arg4 harg4 arg5 harg5 arg6 harg6 arg7 harg7 arg8 harg8 arg9 harg9 arg10 harg10 arg11 harg11 hc1 hc2 x0 x1 x2 x3 x4 x5).1 S2000x128.size (by sl_kernel_rfl) y
theorem cover0_F_10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst0 i) (hc2 : ¬condLast0 i) (x0 x1 : Vec F S2000x128 .f32) (x2 : Vec F S128x128 .f32) (x3 : Vec F S1x128 .f32) (x4 : Vec F S128x128 .f32) (x5 : Vec F S1x128 .f32) (y : S1x128.Idx) :
    ∃ pc ∈ (run0_F c i arg1 harg1 arg2 harg2 arg3 harg3 arg4 harg4 arg5 harg5 arg6 harg6 arg7 harg7 arg8 harg8 arg9 harg9 arg10 harg10 arg11 harg11 hc1 hc2 x0 x1 x2 x3 x4 x5).2.1, y ∈ pc.1.set :=
  View.cover_of_tiledL (run0_F c i arg1 harg1 arg2 harg2 arg3 harg3 arg4 harg4 arg5 harg5 arg6 harg6 arg7 harg7 arg8 harg8 arg9 harg9 arg10 harg10 arg11 harg11 hc1 hc2 x0 x1 x2 x3 x4 x5).2.1 S1x128.size (by sl_kernel_rfl) y
theorem cover0_F_11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst0 i) (hc2 : ¬condLast0 i) (x0 x1 : Vec F S2000x128 .f32) (x2 : Vec F S128x128 .f32) (x3 : Vec F S1x128 .f32) (x4 : Vec F S128x128 .f32) (x5 : Vec F S1x128 .f32) (y : S1x128.Idx) :
    ∃ pc ∈ (run0_F c i arg1 harg1 arg2 harg2 arg3 harg3 arg4 harg4 arg5 harg5 arg6 harg6 arg7 harg7 arg8 harg8 arg9 harg9 arg10 harg10 arg11 harg11 hc1 hc2 x0 x1 x2 x3 x4 x5).2.2.1, y ∈ pc.1.set :=
  View.cover_of_tiledL (run0_F c i arg1 harg1 arg2 harg2 arg3 harg3 arg4 harg4 arg5 harg5 arg6 harg6 arg7 harg7 arg8 harg8 arg9 harg9 arg10 harg10 arg11 harg11 hc1 hc2 x0 x1 x2 x3 x4 x5).2.2.1 S1x128.size (by sl_kernel_rfl) y
theorem cover0_M_7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover0_M_10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover0_M_11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run0_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover0_L_7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover0_L_8 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover0_L_9 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover0_L_10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 S1x128.size (by sl_kernel_rfl) y
theorem cover0_L_11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1, y ∈ pc.1.set :=
  View.cover_of_tiledL (run0_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 S1x128.size (by sl_kernel_rfl) y

end Cert.KernelIdeal.Hand

end
-- ==== Proof.KI_Mlp0.lean ====
/-
  Region 0 of the idealized kernel program, point by point: what the output block and the two accumulators hold
  after each point, the region's proof data and invariant, and the body obligation.

  After point 0 the buffers hold what the first-point run stores from the point's blocks alone. After a later point
  they hold what the middle-point run (or, at point 49, the last-point run) stores from the point's blocks and the
  two accumulators AS THE POINT BEFORE LEFT THEM. The invariant between points says the accumulators hold exactly
  that (before the first point: anything). The two row outputs are idle — handed back as found — except at point 49,
  where they receive the last-point run's copies of the accumulators.
-/
import proofs.«100772_j6322191859838_1_alg».proof.Proof.KI_MlpRun0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## One point's step, case by case: what the run's stored pieces leave -/

/-- First point: (the output block, accumulator 0, accumulator 1) after the run, from the point's blocks. -/
def stepF0 (c : Dev nD) (t : Fin cfg0.N) (hc1 : condFirst0 (grid0.coords t)) (hc2 : ¬condLast0 (grid0.coords t)) :
    Vec F S2000x128 .f32 × Vec F S1x128 .f32 × Vec F S1x128 .f32 :=
  (View.canon (run0_F c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)).1,
   View.canon (run0_F c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)).2.1,
   View.canon (run0_F c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)).2.2.1)
/-- Middle point: the same from the point's blocks and the accumulators s0, s1 it is handed. -/
def stepM0 (c : Dev nD) (t : Fin cfg0.N) (hc1 : ¬condFirst0 (grid0.coords t)) (hc2 : ¬condLast0 (grid0.coords t)) (s0 s1 : Vec F S1x128 .f32) :
    Vec F S2000x128 .f32 × Vec F S1x128 .f32 × Vec F S1x128 .f32 :=
  (View.canon (run0_M c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).1,
   View.canon (run0_M c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.1,
   View.canon (run0_M c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.2.1)
/-- Last point: the same, -/
def stepL0 (c : Dev nD) (t : Fin cfg0.N) (hc1 : ¬condFirst0 (grid0.coords t)) (hc2 : condLast0 (grid0.coords t)) (s0 s1 : Vec F S1x128 .f32) :
    Vec F S2000x128 .f32 × Vec F S1x128 .f32 × Vec F S1x128 .f32 :=
  (View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).1,
   View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.2.2.1,
   View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.2.2.2.1)
/-- and the two row outputs it fills. -/
def rowsL0 (c : Dev nD) (t : Fin cfg0.N) (hc1 : ¬condFirst0 (grid0.coords t)) (hc2 : condLast0 (grid0.coords t)) (s0 s1 : Vec F S1x128 .f32) :
    Vec F S1x128 .f32 × Vec F S1x128 .f32 :=
  (View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.1,
   View.canon (run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1).2.2.1)

/-! ## What the output block and the accumulators hold after each point -/

/-- (the output block, accumulator 0, accumulator 1) after the body at point n: the first-point step at point 0; at a
    later point the middle-point step — the last-point step at point 49 — from the accumulators the point before left. -/
def stAt0 (c : Dev nD) : (n : ℕ) → n < cfg0.N → Vec F S2000x128 .f32 × Vec F S1x128 .f32 × Vec F S1x128 .f32
  | 0, hn => stepF0 V c ⟨0, hn⟩ ((hcondFirst0 ⟨0, hn⟩).mpr rfl) (fun h => absurd ((hcondLast0 ⟨0, hn⟩).mp h) (by simp))
  | n + 1, hn =>
    if h49 : n + 1 = 49 then
      stepL0 V c ⟨n + 1, hn⟩ (fun h => absurd ((hcondFirst0 ⟨n + 1, hn⟩).mp h) (Nat.succ_ne_zero n)) ((hcondLast0 ⟨n + 1, hn⟩).mpr h49)
        (stAt0 c n (Nat.lt_of_succ_lt hn)).2.1 (stAt0 c n (Nat.lt_of_succ_lt hn)).2.2
    else
      stepM0 V c ⟨n + 1, hn⟩ (fun h => absurd ((hcondFirst0 ⟨n + 1, hn⟩).mp h) (Nat.succ_ne_zero n)) (fun h => h49 ((hcondLast0 ⟨n + 1, hn⟩).mp h))
        (stAt0 c n (Nat.lt_of_succ_lt hn)).2.1 (stAt0 c n (Nat.lt_of_succ_lt hn)).2.2

/-- The same point under two spellings of its index. -/
theorem stAt0_irrel (c : Dev nD) (n k : ℕ) (h : n = k) (hn : n < cfg0.N) (hk : k < cfg0.N) : stAt0 V c n hn = stAt0 V c k hk := by
  subst h; rfl

theorem stAt0_F (c : Dev nD) (t : Fin cfg0.N) (h0 : t.val = 0) :
    stAt0 V c t.val t.isLt = stepF0 V c t ((hcondFirst0 t).mpr h0) (fun h => by have := (hcondLast0 t).mp h; omega) := by
  obtain ⟨n, hn⟩ := t
  cases n with
  | zero => exact rfl
  | succ n => exact absurd h0 (Nat.succ_ne_zero n)

theorem stAt0_M (c : Dev nD) (t : Fin cfg0.N) (h0 : t.val ≠ 0) (h49 : t.val ≠ 49) :
    stAt0 V c t.val t.isLt = stepM0 V c t (fun h => h0 ((hcondFirst0 t).mp h)) (fun h => h49 ((hcondLast0 t).mp h)) (stAt0 V c (t.val - 1) (Nat.lt_of_le_of_lt (Nat.sub_le _ _) t.isLt)).2.1 (stAt0 V c (t.val - 1) (Nat.lt_of_le_of_lt (Nat.sub_le _ _) t.isLt)).2.2 := by
  obtain ⟨n, hn⟩ := t
  cases n with
  | zero => exact absurd rfl h0
  | succ n => exact (dif_neg h49).trans rfl

theorem stAt0_L (c : Dev nD) (t : Fin cfg0.N) (h49 : t.val = 49) :
    stAt0 V c t.val t.isLt = stepL0 V c t (fun h => by have := (hcondFirst0 t).mp h; omega) ((hcondLast0 t).mpr h49) (stAt0 V c (t.val - 1) (Nat.lt_of_le_of_lt (Nat.sub_le _ _) t.isLt)).2.1 (stAt0 V c (t.val - 1) (Nat.lt_of_le_of_lt (Nat.sub_le _ _) t.isLt)).2.2 := by
  obtain ⟨n, hn⟩ := t
  cases n with
  | zero => exact absurd h49 (by simp)
  | succ n => exact (dif_pos h49).trans rfl

/-- The two row outputs after the body at point t: at point 49 the last-point step's copies; elsewhere unnamed (the
    windows are idle there). -/
def o78At0 (c : Dev nD) (t : Fin cfg0.N) : Vec F S1x128 .f32 × Vec F S1x128 .f32 :=
  if h49 : t.val = 49 then rowsL0 V c t (fun h => by have := (hcondFirst0 t).mp h; omega) ((hcondLast0 t).mpr h49) (stAt0 V c (t.val - 1) (Nat.lt_of_le_of_lt (Nat.sub_le _ _) t.isLt)).2.1 (stAt0 V c (t.val - 1) (Nat.lt_of_le_of_lt (Nat.sub_le _ _) t.isLt)).2.2
  else (View.canon ([] : List (View.Piece (Elt F) S1x128 .f32)), View.canon ([] : List (View.Piece (Elt F) S1x128 .f32)))

/-! ## The proof data and the invariant -/

/-- Between points: the two accumulators hold what the point before left (before the first point: anything); the other
    scoped buffers and the generator register ride along untouched. -/
def Phi0 (c : Dev nD) (n : Fin (cfg0.N + 1)) : sProp 𝕄 :=
  iprop((∃ X0 X1 : Vec F S1x128 .f32,
          ⌜∀ h0 : n.val ≠ 0, X0 = (stAt0 V c (n.val - 1) (lt_of_lt_of_le (Nat.sub_lt (Nat.pos_of_ne_zero h0) Nat.one_pos) (Nat.le_of_lt_succ n.isLt))).2.1
              ∧ X1 = (stAt0 V c (n.val - 1) (lt_of_lt_of_le (Nat.sub_lt (Nat.pos_of_ne_zero h0) Nat.one_pos) (Nat.le_of_lt_succ n.isLt))).2.2⌝
          ∗ owns (c : Thread nD τ) sc0_0 fullShare X0 ∗ owns (c : Thread nD τ) sc0_1 fullShare X1)
      ∗ Pipeline.scopedRestBut (Ix := Unit) (Name := ℕ) (U := UR sig nD τ) (Lvl := ℕ) (Val := Elt F) spec0 c [cc0_scratch0, cc0_scratch1]
      ∗ ∃ r, prngReg c r)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (stAt0 V c t.val t.isLt).1
    | ⟨7, _⟩ => (o78At0 V c t).1
    | ⟨8, _⟩ => (o78At0 V c t).2
  Φ n := Phi0 V c n
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (stAt0 V c t.val t.isLt).1 := by dsimp only [dat0]
theorem after0_7 (c : Dev nD) (t : Fin cfg0.N) : (dat0 V c).after 7 t = (o78At0 V c t).1 := by dsimp only [dat0]
theorem after0_8 (c : Dev nD) (t : Fin cfg0.N) : (dat0 V c).after 8 t = (o78At0 V c t).2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ (match cfg0.idle 7 (cfg0.grid.coords t) with
       | true =>
         match (cfg0.win 7).flush t with
         | false => iprop(∃ d, owns (c : Thread nD τ) (st0_7 t) fullShare ((dat0 V c).before 7 t d))
         | true => owns (c : Thread nD τ) (st0_7 t) fullShare ((dat0 V c).after 7 t)
       | false => owns (c : Thread nD τ) (st0_7 t) fullShare ((dat0 V c).after 7 t))
    ∗ (match cfg0.idle 8 (cfg0.grid.coords t) with
       | true =>
         match (cfg0.win 8).flush t with
         | false => iprop(∃ d, owns (c : Thread nD τ) (st0_8 t) fullShare ((dat0 V c).before 8 t d))
         | true => owns (c : Thread nD τ) (st0_8 t) fullShare ((dat0 V c).after 8 t)
       | false => owns (c : Thread nD τ) (st0_8 t) fullShare ((dat0 V c).after 8 t)))

set_option maxHeartbeats 4000000 in
/-- The first point. -/
theorem sound_first0 (c : Dev nD) (t : Fin cfg0.N) (h0 : t.val = 0) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.castSucc = Phi0 V c t.castSucc from rfl, show (dat0 V c).Φ t.succ = Phi0 V c t.succ from rfl,
    show (dat0 V c).owesAt () t.succ = (dat0 V c).owesAt () t.castSucc from rfl,
    after0_0, after0_1, after0_2, after0_3, after0_4, after0_5, after0_6, after0_7, after0_8]
  unfold Phi0
  have hN : t.val < 50 := lt_of_lt_of_eq t.isLt (show cfg0.N = 50 from N_0)
  have hsucc : stAt0 V c (t.succ.val - 1) (lt_of_lt_of_le (Nat.sub_lt (Nat.pos_of_ne_zero (Nat.succ_ne_zero _)) Nat.one_pos) (Nat.le_of_lt_succ t.succ.isLt)) = stAt0 V c t.val t.isLt :=
    stAt0_irrel V c _ _ (by simp) _ _
  have hnl : ¬condLast0 (grid0.coords t) := fun h => by have := (hcondLast0 t).mp h; omega
  have hidle7 : cfg0.idle 7 (cfg0.grid.coords t) = true := by
    show (!(k0_cond2 (grid0.coords t) == 1#1)) = true
    rw [Bool.not_eq_true', beq_eq_false_iff_ne]; exact hnl
  have hidle8 : cfg0.idle 8 (cfg0.grid.coords t) = true := by
    show (!(k0_cond2 (grid0.coords t) == 1#1)) = true
    rw [Bool.not_eq_true', beq_eq_false_iff_ne]; exact hnl
  have hfl7 : (cfg0.win 7).flush t = false := Bool.eq_false_iff.mpr fun h => by have := (flush0_7 t).mp h; omega
  have hfl8 : (cfg0.win 8).flush t = false := Bool.eq_false_iff.mpr fun h => by have := (flush0_8 t).mp h; omega
  have hidle7' : idle0 7 (grid0.coords t) = true := hidle7
  have hidle8' : idle0 8 (grid0.coords t) = true := hidle8
  have hfl7' : (win0 7).flush t = false := hfl7
  have hfl8' : (win0 8).flush t = false := hfl8
  simp only [hidle7, hidle8, hfl7, hfl8, hidle7', hidle8', hfl7', hfl8']
  rw [stAt0_F V c t h0]
  unfold stepF0
  iintro ⟨⟨⟨%X0, %X1, -, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run0_F c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) ((hcondFirst0 t).mpr h0) (fun h => by have := (hcondLast0 t).mp h; omega) (iblk0 V c 0 t) (iblk0 V c 1 t) (iblk0 V c 2 t) (iblk0 V c 3 t) (iblk0 V c 4 t) (iblk0 V c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexists _; iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover0_F_10 c _ _ _ _ _ _ _ _ _ _ _ _ _ _ _ _ _ _ _ _ _ _ _ _ _ _ _ _ _ _ _)
        · unfold owns; iexists _; isplitr; swap; iexact HS1; ipureintro; exact View.read_writes_eq_canon _ _ _ (cover0_F_11 c _ _ _ _ _ _ _ _ _ _ _ _ _ _ _ _ _ _ _ _ _ _ _ _ _ _ _ _ _ _ _)
      ipureintro; intro _; rw [hsucc, stAt0_F V c t h0]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover0_F_7 c _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- A middle point. -/
theorem sound_mid0 (c : Dev nD) (t : Fin cfg0.N) (h0 : t.val ≠ 0) (h49 : t.val ≠ 49) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.castSucc = Phi0 V c t.castSucc from rfl, show (dat0 V c).Φ t.succ = Phi0 V c t.succ from rfl,
    show (dat0 V c).owesAt () t.succ = (dat0 V c).owesAt () t.castSucc from rfl,
    after0_0, after0_1, after0_2, after0_3, after0_4, after0_5, after0_6, after0_7, after0_8]
  unfold Phi0
  have hN : t.val < 50 := lt_of_lt_of_eq t.isLt (show cfg0.N = 50 from N_0)
  have hsucc : stAt0 V c (t.succ.val - 1) (lt_of_lt_of_le (Nat.sub_lt (Nat.pos_of_ne_zero (Nat.succ_ne_zero _)) Nat.one_pos) (Nat.le_of_lt_succ t.succ.isLt)) = stAt0 V c t.val t.isLt :=
    stAt0_irrel V c _ _ (by simp) _ _
  have hnl : ¬condLast0 (grid0.coords t) := fun h => h49 ((hcondLast0 t).mp h)
  have hidle7 : cfg0.idle 7 (cfg0.grid.coords t) = true := by
    show (!(k0_cond2 (grid0.coords t) == 1#1)) = true
    rw [Bool.not_eq_true', beq_eq_false_iff_ne]; exact hnl
  have hidle8 : cfg0.idle 8 (cfg0.grid.coords t) = true := by
    show (!(k0_cond2 (grid0.coords t) == 1#1)) = true
    rw [Bool.not_eq_true', beq_eq_false_iff_ne]; exact hnl
  have hfl7 : (cfg0.win 7).flush t = false := Bool.eq_false_iff.mpr fun h => by have := (flush0_7 t).mp h; omega
  have hfl8 : (cfg0.win 8).flush t = false := Bool.eq_false_iff.mpr fun h => by have := (flush0_8 t).mp h; omega
  have hidle7' : idle0 7 (grid0.coords t) = true := hidle7
  have hidle8' : idle0 8 (grid0.coords t) = true := hidle8
  have hfl7' : (win0 7).flush t = false := hfl7
  have hfl8' : (win0 8).flush t = false := hfl8
  simp only [hidle7, hidle8, hfl7, hfl8, hidle7', hidle8', hfl7', hfl8']
  rw [stAt0_M V c t h0 h49]
  unfold stepM0
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run0_M c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) (fun h => h0 ((hcondFirst0 t).mp h)) (fun h => h49 ((hcondLast0 t).mp h)) (iblk0 V c 0 t) (iblk0 V c 1 t) (iblk0 V c 2 t) (iblk0 V c 3 t) (iblk0 V c 4 t) (iblk0 V c 5 t) _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover0_M_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover0_M_11 c _ _ _ _ _ _ _ _ _ _ _ _ _ _ _ _ _ _ _ _ _ _ _ _ _ _ _ _ _ _ _ _ _)
      ipureintro; intro _; rw [hsucc, stAt0_M V c t h0 h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover0_M_7 c _ _ _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- The last point. -/
theorem sound_last0 (c : Dev nD) (t : Fin cfg0.N) (h0 : t.val ≠ 0) (h49 : t.val = 49) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.castSucc = Phi0 V c t.castSucc from rfl, show (dat0 V c).Φ t.succ = Phi0 V c t.succ from rfl,
    show (dat0 V c).owesAt () t.succ = (dat0 V c).owesAt () t.castSucc from rfl,
    after0_0, after0_1, after0_2, after0_3, after0_4, after0_5, after0_6, after0_7, after0_8]
  unfold Phi0
  have hN : t.val < 50 := lt_of_lt_of_eq t.isLt (show cfg0.N = 50 from N_0)
  have hsucc : stAt0 V c (t.succ.val - 1) (lt_of_lt_of_le (Nat.sub_lt (Nat.pos_of_ne_zero (Nat.succ_ne_zero _)) Nat.one_pos) (Nat.le_of_lt_succ t.succ.isLt)) = stAt0 V c t.val t.isLt :=
    stAt0_irrel V c _ _ (by simp) _ _
  have hl : condLast0 (grid0.coords t) := (hcondLast0 t).mpr h49
  have hidle7 : cfg0.idle 7 (cfg0.grid.coords t) = false := by
    show (!(k0_cond2 (grid0.coords t) == 1#1)) = false
    rw [Bool.not_eq_false', beq_iff_eq]; exact hl
  have hidle8 : cfg0.idle 8 (cfg0.grid.coords t) = false := by
    show (!(k0_cond2 (grid0.coords t) == 1#1)) = false
    rw [Bool.not_eq_false', beq_iff_eq]; exact hl
  have hidle7' : idle0 7 (grid0.coords t) = false := hidle7
  have hidle8' : idle0 8 (grid0.coords t) = false := hidle8
  simp only [hidle7, hidle8, hidle7', hidle8']
  rw [stAt0_L V c t h49]
  unfold o78At0
  simp only [dif_pos h49]
  unfold stepL0 rowsL0
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run0_L c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) (fun h => by have := (hcondFirst0 t).mp h; omega) ((hcondLast0 t).mpr h49) (iblk0 V c 0 t) (iblk0 V c 1 t) (iblk0 V c 2 t) (iblk0 V c 3 t) (iblk0 V c 4 t) (iblk0 V c 5 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover0_L_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover0_L_11 c _ _ _ _ _ _ _ _ _ _ _ _ _ _ _ _ _ _ _ _ _ _ _ _ _ _ _ _ _ _ _ _ _)
      ipureintro; intro _; rw [hsucc, stAt0_L V c t h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover0_L_7 c _ _ _ _ _ _ _ _ _ _ _ _ _ _ _ _ _ _ _ _ _ _ _ _ _ _ _ _ _ _ _ _ _)
  isplitl [H7]
  · split
    next h => exact absurd (hidle7.symm.trans h) (by decide)
    next => unfold owns; iexists _; isplitr; swap; iexact H7; ipureintro; exact View.read_writes_eq_canon _ _ _ (cover0_L_8 c _ _ _ _ _ _ _ _ _ _ _ _ _ _ _ _ _ _ _ _ _ _ _ _ _ _ _ _ _ _ _ _ _)
  split
  next h => exact absurd (hidle8.symm.trans h) (by decide)
  next => unfold owns; iexists _; isplitr; swap; iexact H8; ipureintro; exact View.read_writes_eq_canon _ _ _ (cover0_L_9 c _ _ _ _ _ _ _ _ _ _ _ _ _ _ _ _ _ _ _ _ _ _ _ _ _ _ _ _ _ _ _ _ _)

/-- The body at any point: by the point's case. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_first0 V c t h0
  by_cases h49 : t.val = 49
  · exact sound_last0 V c t h0 h49
  · exact sound_mid0 V c t h0 h49

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Norm1.lean ====
/-
  Region 1 of the idealized kernel program: one pass of batch normalisation over a block of 2000 rows.

  At grid point t the body is handed rows 2000 t … 2000 t + 1999 of the activations and the four rows
  (mean, variance, scale, shift), loads all five whole, and stores ONE value into the output block: entry (r, j)
  is (h r j − mean j) · rsqrt (variance j + ε) · scale j + shift j, the skeleton's payload of its loads. Nothing
  is kept from point to point. So: what the output's buffer holds after the body is that payload laid over the
  whole block; the body's triple is the symbolic run of its six loads and one store; and the proof data says
  "each input's buffer holds its block, the output's the payload of the blocks" at every point.
  Stated at a parameter V — the contents of the buffers when the region is entered — and at any float instance.
-/
import proofs.«100772_j6322191859838_1_alg».proof.Proof.Gen.KernelIdeal.Launch
import proofs.«100772_j6322191859838_1_alg».proof.Proof.Gen.KernelIdeal.Skeleton
import proofs.«100772_j6322191859838_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block at every point, fetched there or not (unfetched, the block index has
    not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's buffer holds its block at every point, fetched there or not (unfetched, the block index has
    not moved), for any proof data whose array is V's and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's buffer holds its block at every point, fetched there or not (unfetched, the block index has
    not moved), for any proof data whose array is V's and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's buffer holds its block at every point, fetched there or not (unfetched, the block index has
    not moved), for any proof data whose array is V's and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's buffer holds its block at every point, fetched there or not (unfetched, the block index has
    not moved), for any proof data whose array is V's and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole block of 2000 rows, and the whole single row: the rectangles the body loads and stores through. -/
abbrev rBlk1 : Rect S2000x128 := Rect.unit (s := S2000x128) ![0, 0] S2000x128.size inb_S2000x128_S2000x128_0_0
abbrev rRow1 : Rect S1x128 := Rect.unit (s := S1x128) ![0, 0] S1x128.size inb_S1x128_S1x128_0_0

/-- The output block after the body, from the five input blocks: the one store's payload over the whole block. -/
def out1_5 (x0 : Vec F S2000x128 .f32) (x1 x2 x3 x4 : Vec F S1x128 .f32) : Vec F S2000x128 .f32 :=
  View.canon [⟨rBlk1, k1_pay1 (View.ld x0 rBlk1) (View.ld x1 rRow1) (View.ld x2 rRow1) (View.ld x3 rRow1) (View.ld x4 rRow1)⟩]

/-- The one store covers the block. -/
theorem cover1_5 (p0 : Vec F S2000x128 .f32) (y : S2000x128.Idx) :
    ∃ pc ∈ ([⟨rBlk1, p0⟩] : List (View.Piece (Elt F) S2000x128 .f32)), y ∈ pc.1.set :=
  View.cover_of_tiled [⟨rBlk1, p0⟩] S2000x128.size (by rfl) y

set_option maxHeartbeats 4000000 in
/-- The body on whole staging memrefs — the inputs' at read contents x0 … x4, the output's at anything — runs to the
    continuation holding the inputs' as they were and the output's at the payload of the inputs. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_normalize_kernel i arg1 harg1 arg2 harg2 arg3 harg3 arg4 harg4 arg5 harg5 arg6 harg6) K := by
  simp only [cc1__bn_normalize_kernel_eq_skeleton]; unfold cc1__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of the region on core c: the arrays as the region finds them; after the body at point t each
    input's buffer at its block and the output's at the payload of the blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_MlpRun2.lean ====
/-
  Region 2 of the idealized kernel program: the two dense maps of one layer over a block of 2000 rows, with
  the column sums of the result and of its squares accumulated over the 50 blocks.

  At grid point t the body is handed rows 2000 t … 2000 t + 1999 of the node features and of their neighbour sums,
  the two weight matrices and the two bias rows. At the FIRST point it zeroes two single-row accumulators it keeps
  between points. At EVERY point it stores the block's hidden features into the output block, adds their column sums
  to the first accumulator and the column sums of their squares to the second. At the LAST point it copies the two
  accumulators into the two single-row outputs, which are written back only there. So a point is in one of three
  cases — first, middle, last — decided by its index; in each the body's run is a straight line, and what it leaves
  in each buffer is a list of stored pieces that covers the buffer. What the accumulators hold after point n is
  defined by recursion on n (the first point from the zeroed rows, a later one from what the point before left), and
  the region's invariant between points says exactly that; the two row outputs are idle except at the last point.
  Stated at a parameter V — the contents of the buffers when the region is entered — and at any float instance.
-/
import proofs.«100772_j6322191859838_1_alg».proof.Proof.Gen.KernelIdeal.Launch
import proofs.«100772_j6322191859838_1_alg».proof.Proof.Gen.KernelIdeal.Skeleton
import proofs.«100772_j6322191859838_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three cases of a point -/

/-- The body's first condition (the point is the first), as the skeleton computes it from the grid coordinate. -/
abbrev condFirst2 (i : grid2.Coords) : Prop := (Scalar.cmpi .ne (Scalar.extui (Scalar.cmpi .eq (BitVec.ofNat 32 (i 0).val) 0#32)) 0#32) = 1#1
/-- The body's second condition (the point is the last). -/
abbrev condLast2 (i : grid2.Coords) : Prop := k2_cond2 i = 1#1
/-- Decided over the 50 points: the first condition holds at point 0 only, the second at point 49 only. -/
theorem hcondFirst2 : ∀ t : Fin cfg2.N, condFirst2 (grid2.coords t) ↔ t.val = 0 :=
  (by decide +kernel : ∀ t : Fin grid2.N, condFirst2 (grid2.coords t) ↔ t.val = 0)
theorem hcondLast2 : ∀ t : Fin cfg2.N, condLast2 (grid2.coords t) ↔ t.val = 49 :=
  (by decide +kernel : ∀ t : Fin grid2.N, condLast2 (grid2.coords t) ↔ t.val = 49)

/-- The two accumulators as whole memrefs. -/
abbrev sc2_0 : Memref sig .tc .vmem S1x128 .f32 := Memref.whole cc2_scratch0
abbrev sc2_1 : Memref sig .tc .vmem S1x128 .f32 := Memref.whole cc2_scratch1

/-! ## The body's run in each case: the stored pieces are what the run finds -/

set_option maxHeartbeats 4000000 in
/-- FIRST point: the accumulators hold anything; the run zeroes them, then stores the block's hidden features and the
    two updated accumulators. The pieces found: the output block's, the first accumulator's, the second's. -/
noncomputable def run2_F (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst2 i) (hc2 : ¬condLast2 i) (x0 x1 : Vec F S2000x128 .f32) (x2 : Vec F S128x128 .f32) (x3 : Vec F S1x128 .f32) (x4 : Vec F S128x128 .f32) (x5 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc2__gin_mlp_kernel_eq_skeleton]; unfold cc2__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, HS0⟩, ⟨%e1, %g1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- MIDDLE point: the accumulators hold s0, s1; the run stores the block's hidden features and the two updated
    accumulators. -/
noncomputable def run2_M (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc2__gin_mlp_kernel_eq_skeleton]; unfold cc2__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- LAST point: as a middle point, and then the two accumulators are copied into the two row outputs. The pieces
    found: the output block's, the two row outputs', the two accumulators'. -/
noncomputable def run2_L (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L8 : List (View.Piece (Elt F) S1x128 .f32)) (L9 : List (View.Piece (Elt F) S1x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  refine ⟨?_, ?_, ?_, ?_, ?_, fun E K => ?run⟩
  case run =>
    simp only [cc2__gin_mlp_kernel_eq_skeleton]; unfold cc2__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

/-! ## Every list of pieces covers its buffer (each is one or two stores of the whole buffer) -/

theorem cover2_F_7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst2 i) (hc2 : ¬condLast2 i) (x0 x1 : Vec F S2000x128 .f32) (x2 : Vec F S128x128 .f32) (x3 : Vec F S1x128 .f32) (x4 : Vec F S128x128 .f32) (x5 : Vec F S1x128 .f32) (y : S2000x128.Idx) :
    ∃ pc ∈ (run2_F c i arg1 harg1 arg2 harg2 arg3 harg3 arg4 harg4 arg5 harg5 arg6 harg6 arg7 harg7 arg8 harg8 arg9 harg9 arg10 harg10 arg11 harg11 hc1 hc2 x0 x1 x2 x3 x4 x5).1, y ∈ pc.1.set :=
  View.cover_of_tiledL (run2_F c i arg1 harg1 arg2 harg2 arg3 harg3 arg4 harg4 arg5 harg5 arg6 harg6 arg7 harg7 arg8 harg8 arg9 harg9 arg10 harg10 arg11 harg11 hc1 hc2 x0 x1 x2 x3 x4 x5).1 S2000x128.size (by sl_kernel_rfl) y
theorem cover2_F_10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst2 i) (hc2 : ¬condLast2 i) (x0 x1 : Vec F S2000x128 .f32) (x2 : Vec F S128x128 .f32) (x3 : Vec F S1x128 .f32) (x4 : Vec F S128x128 .f32) (x5 : Vec F S1x128 .f32) (y : S1x128.Idx) :
    ∃ pc ∈ (run2_F c i arg1 harg1 arg2 harg2 arg3 harg3 arg4 harg4 arg5 harg5 arg6 harg6 arg7 harg7 arg8 harg8 arg9 harg9 arg10 harg10 arg11 harg11 hc1 hc2 x0 x1 x2 x3 x4 x5).2.1, y ∈ pc.1.set :=
  View.cover_of_tiledL (run2_F c i arg1 harg1 arg2 harg2 arg3 harg3 arg4 harg4 arg5 harg5 arg6 harg6 arg7 harg7 arg8 harg8 arg9 harg9 arg10 harg10 arg11 harg11 hc1 hc2 x0 x1 x2 x3 x4 x5).2.1 S1x128.size (by sl_kernel_rfl) y
theorem cover2_F_11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst2 i) (hc2 : ¬condLast2 i) (x0 x1 : Vec F S2000x128 .f32) (x2 : Vec F S128x128 .f32) (x3 : Vec F S1x128 .f32) (x4 : Vec F S128x128 .f32) (x5 : Vec F S1x128 .f32) (y : S1x128.Idx) :
    ∃ pc ∈ (run2_F c i arg1 harg1 arg2 harg2 arg3 harg3 arg4 harg4 arg5 harg5 arg6 harg6 arg7 harg7 arg8 harg8 arg9 harg9 arg10 harg10 arg11 harg11 hc1 hc2 x0 x1 x2 x3 x4 x5).2.2.1, y ∈ pc.1.set :=
  View.cover_of_tiledL (run2_F c i arg1 harg1 arg2 harg2 arg3 harg3 arg4 harg4 arg5 harg5 arg6 harg6 arg7 harg7 arg8 harg8 arg9 harg9 arg10 harg10 arg11 harg11 hc1 hc2 x0 x1 x2 x3 x4 x5).2.2.1 S1x128.size (by sl_kernel_rfl) y
theorem cover2_M_7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover2_M_10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover2_M_11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run2_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover2_L_7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover2_L_8 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover2_L_9 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover2_L_10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 S1x128.size (by sl_kernel_rfl) y
theorem cover2_L_11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1, y ∈ pc.1.set :=
  View.cover_of_tiledL (run2_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 S1x128.size (by sl_kernel_rfl) y

end Cert.KernelIdeal.Hand

end
-- ==== Proof.KI_Mlp2.lean ====
/-
  Region 2 of the idealized kernel program, point by point: what the output block and the two accumulators hold
  after each point, the region's proof data and invariant, and the body obligation.

  After point 0 the buffers hold what the first-point run stores from the point's blocks alone. After a later point
  they hold what the middle-point run (or, at point 49, the last-point run) stores from the point's blocks and the
  two accumulators AS THE POINT BEFORE LEFT THEM. The invariant between points says the accumulators hold exactly
  that (before the first point: anything). The two row outputs are idle — handed back as found — except at point 49,
  where they receive the last-point run's copies of the accumulators.
-/
import proofs.«100772_j6322191859838_1_alg».proof.Proof.KI_MlpRun2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## One point's step, case by case: what the run's stored pieces leave -/

/-- First point: (the output block, accumulator 0, accumulator 1) after the run, from the point's blocks. -/
def stepF2 (c : Dev nD) (t : Fin cfg2.N) (hc1 : condFirst2 (grid2.coords t)) (hc2 : ¬condLast2 (grid2.coords t)) :
    Vec F S2000x128 .f32 × Vec F S1x128 .f32 × Vec F S1x128 .f32 :=
  (View.canon (run2_F c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)).1,
   View.canon (run2_F c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)).2.1,
   View.canon (run2_F c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)).2.2.1)
/-- Middle point: the same from the point's blocks and the accumulators s0, s1 it is handed. -/
def stepM2 (c : Dev nD) (t : Fin cfg2.N) (hc1 : ¬condFirst2 (grid2.coords t)) (hc2 : ¬condLast2 (grid2.coords t)) (s0 s1 : Vec F S1x128 .f32) :
    Vec F S2000x128 .f32 × Vec F S1x128 .f32 × Vec F S1x128 .f32 :=
  (View.canon (run2_M c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).1,
   View.canon (run2_M c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.1,
   View.canon (run2_M c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.2.1)
/-- Last point: the same, -/
def stepL2 (c : Dev nD) (t : Fin cfg2.N) (hc1 : ¬condFirst2 (grid2.coords t)) (hc2 : condLast2 (grid2.coords t)) (s0 s1 : Vec F S1x128 .f32) :
    Vec F S2000x128 .f32 × Vec F S1x128 .f32 × Vec F S1x128 .f32 :=
  (View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).1,
   View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.2.2.1,
   View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.2.2.2.1)
/-- and the two row outputs it fills. -/
def rowsL2 (c : Dev nD) (t : Fin cfg2.N) (hc1 : ¬condFirst2 (grid2.coords t)) (hc2 : condLast2 (grid2.coords t)) (s0 s1 : Vec F S1x128 .f32) :
    Vec F S1x128 .f32 × Vec F S1x128 .f32 :=
  (View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.1,
   View.canon (run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1).2.2.1)

/-! ## What the output block and the accumulators hold after each point -/

/-- (the output block, accumulator 0, accumulator 1) after the body at point n: the first-point step at point 0; at a
    later point the middle-point step — the last-point step at point 49 — from the accumulators the point before left. -/
def stAt2 (c : Dev nD) : (n : ℕ) → n < cfg2.N → Vec F S2000x128 .f32 × Vec F S1x128 .f32 × Vec F S1x128 .f32
  | 0, hn => stepF2 V c ⟨0, hn⟩ ((hcondFirst2 ⟨0, hn⟩).mpr rfl) (fun h => absurd ((hcondLast2 ⟨0, hn⟩).mp h) (by simp))
  | n + 1, hn =>
    if h49 : n + 1 = 49 then
      stepL2 V c ⟨n + 1, hn⟩ (fun h => absurd ((hcondFirst2 ⟨n + 1, hn⟩).mp h) (Nat.succ_ne_zero n)) ((hcondLast2 ⟨n + 1, hn⟩).mpr h49)
        (stAt2 c n (Nat.lt_of_succ_lt hn)).2.1 (stAt2 c n (Nat.lt_of_succ_lt hn)).2.2
    else
      stepM2 V c ⟨n + 1, hn⟩ (fun h => absurd ((hcondFirst2 ⟨n + 1, hn⟩).mp h) (Nat.succ_ne_zero n)) (fun h => h49 ((hcondLast2 ⟨n + 1, hn⟩).mp h))
        (stAt2 c n (Nat.lt_of_succ_lt hn)).2.1 (stAt2 c n (Nat.lt_of_succ_lt hn)).2.2

/-- The same point under two spellings of its index. -/
theorem stAt2_irrel (c : Dev nD) (n k : ℕ) (h : n = k) (hn : n < cfg2.N) (hk : k < cfg2.N) : stAt2 V c n hn = stAt2 V c k hk := by
  subst h; rfl

theorem stAt2_F (c : Dev nD) (t : Fin cfg2.N) (h0 : t.val = 0) :
    stAt2 V c t.val t.isLt = stepF2 V c t ((hcondFirst2 t).mpr h0) (fun h => by have := (hcondLast2 t).mp h; omega) := by
  obtain ⟨n, hn⟩ := t
  cases n with
  | zero => exact rfl
  | succ n => exact absurd h0 (Nat.succ_ne_zero n)

theorem stAt2_M (c : Dev nD) (t : Fin cfg2.N) (h0 : t.val ≠ 0) (h49 : t.val ≠ 49) :
    stAt2 V c t.val t.isLt = stepM2 V c t (fun h => h0 ((hcondFirst2 t).mp h)) (fun h => h49 ((hcondLast2 t).mp h)) (stAt2 V c (t.val - 1) (Nat.lt_of_le_of_lt (Nat.sub_le _ _) t.isLt)).2.1 (stAt2 V c (t.val - 1) (Nat.lt_of_le_of_lt (Nat.sub_le _ _) t.isLt)).2.2 := by
  obtain ⟨n, hn⟩ := t
  cases n with
  | zero => exact absurd rfl h0
  | succ n => exact (dif_neg h49).trans rfl

theorem stAt2_L (c : Dev nD) (t : Fin cfg2.N) (h49 : t.val = 49) :
    stAt2 V c t.val t.isLt = stepL2 V c t (fun h => by have := (hcondFirst2 t).mp h; omega) ((hcondLast2 t).mpr h49) (stAt2 V c (t.val - 1) (Nat.lt_of_le_of_lt (Nat.sub_le _ _) t.isLt)).2.1 (stAt2 V c (t.val - 1) (Nat.lt_of_le_of_lt (Nat.sub_le _ _) t.isLt)).2.2 := by
  obtain ⟨n, hn⟩ := t
  cases n with
  | zero => exact absurd h49 (by simp)
  | succ n => exact (dif_pos h49).trans rfl

/-- The two row outputs after the body at point t: at point 49 the last-point step's copies; elsewhere unnamed (the
    windows are idle there). -/
def o78At2 (c : Dev nD) (t : Fin cfg2.N) : Vec F S1x128 .f32 × Vec F S1x128 .f32 :=
  if h49 : t.val = 49 then rowsL2 V c t (fun h => by have := (hcondFirst2 t).mp h; omega) ((hcondLast2 t).mpr h49) (stAt2 V c (t.val - 1) (Nat.lt_of_le_of_lt (Nat.sub_le _ _) t.isLt)).2.1 (stAt2 V c (t.val - 1) (Nat.lt_of_le_of_lt (Nat.sub_le _ _) t.isLt)).2.2
  else (View.canon ([] : List (View.Piece (Elt F) S1x128 .f32)), View.canon ([] : List (View.Piece (Elt F) S1x128 .f32)))

/-! ## The proof data and the invariant -/

/-- Between points: the two accumulators hold what the point before left (before the first point: anything); the other
    scoped buffers and the generator register ride along untouched. -/
def Phi2 (c : Dev nD) (n : Fin (cfg2.N + 1)) : sProp 𝕄 :=
  iprop((∃ X0 X1 : Vec F S1x128 .f32,
          ⌜∀ h0 : n.val ≠ 0, X0 = (stAt2 V c (n.val - 1) (lt_of_lt_of_le (Nat.sub_lt (Nat.pos_of_ne_zero h0) Nat.one_pos) (Nat.le_of_lt_succ n.isLt))).2.1
              ∧ X1 = (stAt2 V c (n.val - 1) (lt_of_lt_of_le (Nat.sub_lt (Nat.pos_of_ne_zero h0) Nat.one_pos) (Nat.le_of_lt_succ n.isLt))).2.2⌝
          ∗ owns (c : Thread nD τ) sc2_0 fullShare X0 ∗ owns (c : Thread nD τ) sc2_1 fullShare X1)
      ∗ Pipeline.scopedRestBut (Ix := Unit) (Name := ℕ) (U := UR sig nD τ) (Lvl := ℕ) (Val := Elt F) spec2 c [cc2_scratch0, cc2_scratch1]
      ∗ ∃ r, prngReg c r)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (stAt2 V c t.val t.isLt).1
    | ⟨7, _⟩ => (o78At2 V c t).1
    | ⟨8, _⟩ => (o78At2 V c t).2
  Φ n := Phi2 V c n
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (stAt2 V c t.val t.isLt).1 := by dsimp only [dat2]
theorem after2_7 (c : Dev nD) (t : Fin cfg2.N) : (dat2 V c).after 7 t = (o78At2 V c t).1 := by dsimp only [dat2]
theorem after2_8 (c : Dev nD) (t : Fin cfg2.N) : (dat2 V c).after 8 t = (o78At2 V c t).2 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ (match cfg2.idle 7 (cfg2.grid.coords t) with
       | true =>
         match (cfg2.win 7).flush t with
         | false => iprop(∃ d, owns (c : Thread nD τ) (st2_7 t) fullShare ((dat2 V c).before 7 t d))
         | true => owns (c : Thread nD τ) (st2_7 t) fullShare ((dat2 V c).after 7 t)
       | false => owns (c : Thread nD τ) (st2_7 t) fullShare ((dat2 V c).after 7 t))
    ∗ (match cfg2.idle 8 (cfg2.grid.coords t) with
       | true =>
         match (cfg2.win 8).flush t with
         | false => iprop(∃ d, owns (c : Thread nD τ) (st2_8 t) fullShare ((dat2 V c).before 8 t d))
         | true => owns (c : Thread nD τ) (st2_8 t) fullShare ((dat2 V c).after 8 t)
       | false => owns (c : Thread nD τ) (st2_8 t) fullShare ((dat2 V c).after 8 t)))

set_option maxHeartbeats 4000000 in
/-- The first point. -/
theorem sound_first2 (c : Dev nD) (t : Fin cfg2.N) (h0 : t.val = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.castSucc = Phi2 V c t.castSucc from rfl, show (dat2 V c).Φ t.succ = Phi2 V c t.succ from rfl,
    show (dat2 V c).owesAt () t.succ = (dat2 V c).owesAt () t.castSucc from rfl,
    after2_0, after2_1, after2_2, after2_3, after2_4, after2_5, after2_6, after2_7, after2_8]
  unfold Phi2
  have hN : t.val < 50 := lt_of_lt_of_eq t.isLt (show cfg2.N = 50 from N_2)
  have hsucc : stAt2 V c (t.succ.val - 1) (lt_of_lt_of_le (Nat.sub_lt (Nat.pos_of_ne_zero (Nat.succ_ne_zero _)) Nat.one_pos) (Nat.le_of_lt_succ t.succ.isLt)) = stAt2 V c t.val t.isLt :=
    stAt2_irrel V c _ _ (by simp) _ _
  have hnl : ¬condLast2 (grid2.coords t) := fun h => by have := (hcondLast2 t).mp h; omega
  have hidle7 : cfg2.idle 7 (cfg2.grid.coords t) = true := by
    show (!(k2_cond2 (grid2.coords t) == 1#1)) = true
    rw [Bool.not_eq_true', beq_eq_false_iff_ne]; exact hnl
  have hidle8 : cfg2.idle 8 (cfg2.grid.coords t) = true := by
    show (!(k2_cond2 (grid2.coords t) == 1#1)) = true
    rw [Bool.not_eq_true', beq_eq_false_iff_ne]; exact hnl
  have hfl7 : (cfg2.win 7).flush t = false := Bool.eq_false_iff.mpr fun h => by have := (flush2_7 t).mp h; omega
  have hfl8 : (cfg2.win 8).flush t = false := Bool.eq_false_iff.mpr fun h => by have := (flush2_8 t).mp h; omega
  have hidle7' : idle2 7 (grid2.coords t) = true := hidle7
  have hidle8' : idle2 8 (grid2.coords t) = true := hidle8
  have hfl7' : (win2 7).flush t = false := hfl7
  have hfl8' : (win2 8).flush t = false := hfl8
  simp only [hidle7, hidle8, hfl7, hfl8, hidle7', hidle8', hfl7', hfl8']
  rw [stAt2_F V c t h0]
  unfold stepF2
  iintro ⟨⟨⟨%X0, %X1, -, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run2_F c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) ((hcondFirst2 t).mpr h0) (fun h => by have := (hcondLast2 t).mp h; omega) (iblk2 V c 0 t) (iblk2 V c 1 t) (iblk2 V c 2 t) (iblk2 V c 3 t) (iblk2 V c 4 t) (iblk2 V c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexists _; iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover2_F_10 c _ _ _ _ _ _ _ _ _ _ _ _ _ _ _ _ _ _ _ _ _ _ _ _ _ _ _ _ _ _ _)
        · unfold owns; iexists _; isplitr; swap; iexact HS1; ipureintro; exact View.read_writes_eq_canon _ _ _ (cover2_F_11 c _ _ _ _ _ _ _ _ _ _ _ _ _ _ _ _ _ _ _ _ _ _ _ _ _ _ _ _ _ _ _)
      ipureintro; intro _; rw [hsucc, stAt2_F V c t h0]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover2_F_7 c _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- A middle point. -/
theorem sound_mid2 (c : Dev nD) (t : Fin cfg2.N) (h0 : t.val ≠ 0) (h49 : t.val ≠ 49) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.castSucc = Phi2 V c t.castSucc from rfl, show (dat2 V c).Φ t.succ = Phi2 V c t.succ from rfl,
    show (dat2 V c).owesAt () t.succ = (dat2 V c).owesAt () t.castSucc from rfl,
    after2_0, after2_1, after2_2, after2_3, after2_4, after2_5, after2_6, after2_7, after2_8]
  unfold Phi2
  have hN : t.val < 50 := lt_of_lt_of_eq t.isLt (show cfg2.N = 50 from N_2)
  have hsucc : stAt2 V c (t.succ.val - 1) (lt_of_lt_of_le (Nat.sub_lt (Nat.pos_of_ne_zero (Nat.succ_ne_zero _)) Nat.one_pos) (Nat.le_of_lt_succ t.succ.isLt)) = stAt2 V c t.val t.isLt :=
    stAt2_irrel V c _ _ (by simp) _ _
  have hnl : ¬condLast2 (grid2.coords t) := fun h => h49 ((hcondLast2 t).mp h)
  have hidle7 : cfg2.idle 7 (cfg2.grid.coords t) = true := by
    show (!(k2_cond2 (grid2.coords t) == 1#1)) = true
    rw [Bool.not_eq_true', beq_eq_false_iff_ne]; exact hnl
  have hidle8 : cfg2.idle 8 (cfg2.grid.coords t) = true := by
    show (!(k2_cond2 (grid2.coords t) == 1#1)) = true
    rw [Bool.not_eq_true', beq_eq_false_iff_ne]; exact hnl
  have hfl7 : (cfg2.win 7).flush t = false := Bool.eq_false_iff.mpr fun h => by have := (flush2_7 t).mp h; omega
  have hfl8 : (cfg2.win 8).flush t = false := Bool.eq_false_iff.mpr fun h => by have := (flush2_8 t).mp h; omega
  have hidle7' : idle2 7 (grid2.coords t) = true := hidle7
  have hidle8' : idle2 8 (grid2.coords t) = true := hidle8
  have hfl7' : (win2 7).flush t = false := hfl7
  have hfl8' : (win2 8).flush t = false := hfl8
  simp only [hidle7, hidle8, hfl7, hfl8, hidle7', hidle8', hfl7', hfl8']
  rw [stAt2_M V c t h0 h49]
  unfold stepM2
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run2_M c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) (fun h => h0 ((hcondFirst2 t).mp h)) (fun h => h49 ((hcondLast2 t).mp h)) (iblk2 V c 0 t) (iblk2 V c 1 t) (iblk2 V c 2 t) (iblk2 V c 3 t) (iblk2 V c 4 t) (iblk2 V c 5 t) _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover2_M_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover2_M_11 c _ _ _ _ _ _ _ _ _ _ _ _ _ _ _ _ _ _ _ _ _ _ _ _ _ _ _ _ _ _ _ _ _)
      ipureintro; intro _; rw [hsucc, stAt2_M V c t h0 h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover2_M_7 c _ _ _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- The last point. -/
theorem sound_last2 (c : Dev nD) (t : Fin cfg2.N) (h0 : t.val ≠ 0) (h49 : t.val = 49) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.castSucc = Phi2 V c t.castSucc from rfl, show (dat2 V c).Φ t.succ = Phi2 V c t.succ from rfl,
    show (dat2 V c).owesAt () t.succ = (dat2 V c).owesAt () t.castSucc from rfl,
    after2_0, after2_1, after2_2, after2_3, after2_4, after2_5, after2_6, after2_7, after2_8]
  unfold Phi2
  have hN : t.val < 50 := lt_of_lt_of_eq t.isLt (show cfg2.N = 50 from N_2)
  have hsucc : stAt2 V c (t.succ.val - 1) (lt_of_lt_of_le (Nat.sub_lt (Nat.pos_of_ne_zero (Nat.succ_ne_zero _)) Nat.one_pos) (Nat.le_of_lt_succ t.succ.isLt)) = stAt2 V c t.val t.isLt :=
    stAt2_irrel V c _ _ (by simp) _ _
  have hl : condLast2 (grid2.coords t) := (hcondLast2 t).mpr h49
  have hidle7 : cfg2.idle 7 (cfg2.grid.coords t) = false := by
    show (!(k2_cond2 (grid2.coords t) == 1#1)) = false
    rw [Bool.not_eq_false', beq_iff_eq]; exact hl
  have hidle8 : cfg2.idle 8 (cfg2.grid.coords t) = false := by
    show (!(k2_cond2 (grid2.coords t) == 1#1)) = false
    rw [Bool.not_eq_false', beq_iff_eq]; exact hl
  have hidle7' : idle2 7 (grid2.coords t) = false := hidle7
  have hidle8' : idle2 8 (grid2.coords t) = false := hidle8
  simp only [hidle7, hidle8, hidle7', hidle8']
  rw [stAt2_L V c t h49]
  unfold o78At2
  simp only [dif_pos h49]
  unfold stepL2 rowsL2
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run2_L c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) (fun h => by have := (hcondFirst2 t).mp h; omega) ((hcondLast2 t).mpr h49) (iblk2 V c 0 t) (iblk2 V c 1 t) (iblk2 V c 2 t) (iblk2 V c 3 t) (iblk2 V c 4 t) (iblk2 V c 5 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover2_L_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover2_L_11 c _ _ _ _ _ _ _ _ _ _ _ _ _ _ _ _ _ _ _ _ _ _ _ _ _ _ _ _ _ _ _ _ _)
      ipureintro; intro _; rw [hsucc, stAt2_L V c t h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover2_L_7 c _ _ _ _ _ _ _ _ _ _ _ _ _ _ _ _ _ _ _ _ _ _ _ _ _ _ _ _ _ _ _ _ _)
  isplitl [H7]
  · split
    next h => exact absurd (hidle7.symm.trans h) (by decide)
    next => unfold owns; iexists _; isplitr; swap; iexact H7; ipureintro; exact View.read_writes_eq_canon _ _ _ (cover2_L_8 c _ _ _ _ _ _ _ _ _ _ _ _ _ _ _ _ _ _ _ _ _ _ _ _ _ _ _ _ _ _ _ _ _)
  split
  next h => exact absurd (hidle8.symm.trans h) (by decide)
  next => unfold owns; iexists _; isplitr; swap; iexact H8; ipureintro; exact View.read_writes_eq_canon _ _ _ (cover2_L_9 c _ _ _ _ _ _ _ _ _ _ _ _ _ _ _ _ _ _ _ _ _ _ _ _ _ _ _ _ _ _ _ _ _)

/-- The body at any point: by the point's case. -/
theorem sound_body2 (c : Dev nD) (t : Fin cfg2.N) :
    bodyPre2 V c t ⊢ wp frame (wpE (defs₀ (F := F)) Variants.none c none) Set.univ (bodyAt2 t) (fun _ => bodyPost2 V c t) := by
  by_cases h0 : t.val = 0
  · exact sound_first2 V c t h0
  by_cases h49 : t.val = 49
  · exact sound_last2 V c t h0 h49
  · exact sound_mid2 V c t h0 h49

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Norm3.lean ====
/-
  Region 3 of the idealized kernel program: one pass of batch normalisation over a block of 2000 rows.

  At grid point t the body is handed rows 2000 t … 2000 t + 1999 of the activations and the four rows
  (mean, variance, scale, shift), loads all five whole, and stores ONE value into the output block: entry (r, j)
  is (h r j − mean j) · rsqrt (variance j + ε) · scale j + shift j, the skeleton's payload of its loads. Nothing
  is kept from point to point. So: what the output's buffer holds after the body is that payload laid over the
  whole block; the body's triple is the symbolic run of its six loads and one store; and the proof data says
  "each input's buffer holds its block, the output's the payload of the blocks" at every point.
  Stated at a parameter V — the contents of the buffers when the region is entered — and at any float instance.
-/
import proofs.«100772_j6322191859838_1_alg».proof.Proof.Gen.KernelIdeal.Launch
import proofs.«100772_j6322191859838_1_alg».proof.Proof.Gen.KernelIdeal.Skeleton
import proofs.«100772_j6322191859838_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block at every point, fetched there or not (unfetched, the block index has
    not moved), for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's buffer holds its block at every point, fetched there or not (unfetched, the block index has
    not moved), for any proof data whose array is V's and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's buffer holds its block at every point, fetched there or not (unfetched, the block index has
    not moved), for any proof data whose array is V's and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's buffer holds its block at every point, fetched there or not (unfetched, the block index has
    not moved), for any proof data whose array is V's and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's buffer holds its block at every point, fetched there or not (unfetched, the block index has
    not moved), for any proof data whose array is V's and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole block of 2000 rows, and the whole single row: the rectangles the body loads and stores through. -/
abbrev rBlk3 : Rect S2000x128 := Rect.unit (s := S2000x128) ![0, 0] S2000x128.size inb_S2000x128_S2000x128_0_0
abbrev rRow3 : Rect S1x128 := Rect.unit (s := S1x128) ![0, 0] S1x128.size inb_S1x128_S1x128_0_0

/-- The output block after the body, from the five input blocks: the one store's payload over the whole block. -/
def out3_5 (x0 : Vec F S2000x128 .f32) (x1 x2 x3 x4 : Vec F S1x128 .f32) : Vec F S2000x128 .f32 :=
  View.canon [⟨rBlk3, k3_pay1 (View.ld x0 rBlk3) (View.ld x1 rRow3) (View.ld x2 rRow3) (View.ld x3 rRow3) (View.ld x4 rRow3)⟩]

/-- The one store covers the block. -/
theorem cover3_5 (p0 : Vec F S2000x128 .f32) (y : S2000x128.Idx) :
    ∃ pc ∈ ([⟨rBlk3, p0⟩] : List (View.Piece (Elt F) S2000x128 .f32)), y ∈ pc.1.set :=
  View.cover_of_tiled [⟨rBlk3, p0⟩] S2000x128.size (by rfl) y

set_option maxHeartbeats 4000000 in
/-- The body on whole staging memrefs — the inputs' at read contents x0 … x4, the output's at anything — runs to the
    continuation holding the inputs' as they were and the output's at the payload of the inputs. -/
theorem sound_kernel3 (c : Dev nD) (E : Set ℕ) (i : grid3.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_normalize_kernel i arg1 harg1 arg2 harg2 arg3 harg3 arg4 harg4 arg5 harg5 arg6 harg6) K := by
  simp only [cc3__bn_normalize_kernel_eq_skeleton]; unfold cc3__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of the region on core c: the arrays as the region finds them; after the body at point t each
    input's buffer at its block and the output's at the payload of the blocks; the invariant the scoped rest and
    the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI_MlpRun4.lean ====
/-
  Region 4 of the idealized kernel program: the two dense maps of one layer over a block of 2000 rows, with
  the column sums of the result and of its squares accumulated over the 50 blocks.

  At grid point t the body is handed rows 2000 t … 2000 t + 1999 of the node features and of their neighbour sums,
  the two weight matrices and the two bias rows. At the FIRST point it zeroes two single-row accumulators it keeps
  between points. At EVERY point it stores the block's hidden features into the output block, adds their column sums
  to the first accumulator and the column sums of their squares to the second. At the LAST point it copies the two
  accumulators into the two single-row outputs, which are written back only there. So a point is in one of three
  cases — first, middle, last — decided by its index; in each the body's run is a straight line, and what it leaves
  in each buffer is a list of stored pieces that covers the buffer. What the accumulators hold after point n is
  defined by recursion on n (the first point from the zeroed rows, a later one from what the point before left), and
  the region's invariant between points says exactly that; the two row outputs are idle except at the last point.
  Stated at a parameter V — the contents of the buffers when the region is entered — and at any float instance.
-/
import proofs.«100772_j6322191859838_1_alg».proof.Proof.Gen.KernelIdeal.Launch
import proofs.«100772_j6322191859838_1_alg».proof.Proof.Gen.KernelIdeal.Skeleton
import proofs.«100772_j6322191859838_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three cases of a point -/

/-- The body's first condition (the point is the first), as the skeleton computes it from the grid coordinate. -/
abbrev condFirst4 (i : grid4.Coords) : Prop := (Scalar.cmpi .ne (Scalar.extui (Scalar.cmpi .eq (BitVec.ofNat 32 (i 0).val) 0#32)) 0#32) = 1#1
/-- The body's second condition (the point is the last). -/
abbrev condLast4 (i : grid4.Coords) : Prop := k4_cond2 i = 1#1
/-- Decided over the 50 points: the first condition holds at point 0 only, the second at point 49 only. -/
theorem hcondFirst4 : ∀ t : Fin cfg4.N, condFirst4 (grid4.coords t) ↔ t.val = 0 :=
  (by decide +kernel : ∀ t : Fin grid4.N, condFirst4 (grid4.coords t) ↔ t.val = 0)
theorem hcondLast4 : ∀ t : Fin cfg4.N, condLast4 (grid4.coords t) ↔ t.val = 49 :=
  (by decide +kernel : ∀ t : Fin grid4.N, condLast4 (grid4.coords t) ↔ t.val = 49)

/-- The two accumulators as whole memrefs. -/
abbrev sc4_0 : Memref sig .tc .vmem S1x128 .f32 := Memref.whole cc4_scratch0
abbrev sc4_1 : Memref sig .tc .vmem S1x128 .f32 := Memref.whole cc4_scratch1

/-! ## The body's run in each case: the stored pieces are what the run finds -/

set_option maxHeartbeats 4000000 in
/-- FIRST point: the accumulators hold anything; the run zeroes them, then stores the block's hidden features and the
    two updated accumulators. The pieces found: the output block's, the first accumulator's, the second's. -/
noncomputable def run4_F (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst4 i) (hc2 : ¬condLast4 i) (x0 x1 : Vec F S2000x128 .f32) (x2 : Vec F S128x128 .f32) (x3 : Vec F S1x128 .f32) (x4 : Vec F S128x128 .f32) (x5 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc4__gin_mlp_kernel_eq_skeleton]; unfold cc4__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, HS0⟩, ⟨%e1, %g1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- MIDDLE point: the accumulators hold s0, s1; the run stores the block's hidden features and the two updated
    accumulators. -/
noncomputable def run4_M (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  refine ⟨?_, ?_, ?_, fun E K => ?run⟩
  case run =>
    simp only [cc4__gin_mlp_kernel_eq_skeleton]; unfold cc4__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

set_option maxHeartbeats 4000000 in
/-- LAST point: as a middle point, and then the two accumulators are copied into the two row outputs. The pieces
    found: the output block's, the two row outputs', the two accumulators'. -/
noncomputable def run4_L (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    Σ' (L7 : List (View.Piece (Elt F) S2000x128 .f32)) (L8 : List (View.Piece (Elt F) S1x128 .f32)) (L9 : List (View.Piece (Elt F) S1x128 .f32)) (L10 : List (View.Piece (Elt F) S1x128 .f32)) (L11 : List (View.Piece (Elt F) S1x128 .f32)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare s0 ∗ owns (c : Thread nD τ) arg11 fullShare s1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc4__gin_mlp_kernel i arg1 harg1 arg2 harg2 arg3 harg3 arg4 harg4 arg5 harg5 arg6 harg6 arg7 harg7 arg8 harg8 arg9 harg9 arg10 harg10 arg11 harg11) K := by
  refine ⟨?_, ?_, ?_, ?_, ?_, fun E K => ?run⟩
  case run =>
    simp only [cc4__gin_mlp_kernel_eq_skeleton]; unfold cc4__gin_mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    obtain rfl := harg10.eq_unread hg0; obtain rfl := harg11.eq_unread hg1
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [HS0]; · iexists _; iexact HS0
    iexists _; iexact HS1

/-! ## Every list of pieces covers its buffer (each is one or two stores of the whole buffer) -/

theorem cover4_F_7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst4 i) (hc2 : ¬condLast4 i) (x0 x1 : Vec F S2000x128 .f32) (x2 : Vec F S128x128 .f32) (x3 : Vec F S1x128 .f32) (x4 : Vec F S128x128 .f32) (x5 : Vec F S1x128 .f32) (y : S2000x128.Idx) :
    ∃ pc ∈ (run4_F c i arg1 harg1 arg2 harg2 arg3 harg3 arg4 harg4 arg5 harg5 arg6 harg6 arg7 harg7 arg8 harg8 arg9 harg9 arg10 harg10 arg11 harg11 hc1 hc2 x0 x1 x2 x3 x4 x5).1, y ∈ pc.1.set :=
  View.cover_of_tiledL (run4_F c i arg1 harg1 arg2 harg2 arg3 harg3 arg4 harg4 arg5 harg5 arg6 harg6 arg7 harg7 arg8 harg8 arg9 harg9 arg10 harg10 arg11 harg11 hc1 hc2 x0 x1 x2 x3 x4 x5).1 S2000x128.size (by sl_kernel_rfl) y
theorem cover4_F_10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst4 i) (hc2 : ¬condLast4 i) (x0 x1 : Vec F S2000x128 .f32) (x2 : Vec F S128x128 .f32) (x3 : Vec F S1x128 .f32) (x4 : Vec F S128x128 .f32) (x5 : Vec F S1x128 .f32) (y : S1x128.Idx) :
    ∃ pc ∈ (run4_F c i arg1 harg1 arg2 harg2 arg3 harg3 arg4 harg4 arg5 harg5 arg6 harg6 arg7 harg7 arg8 harg8 arg9 harg9 arg10 harg10 arg11 harg11 hc1 hc2 x0 x1 x2 x3 x4 x5).2.1, y ∈ pc.1.set :=
  View.cover_of_tiledL (run4_F c i arg1 harg1 arg2 harg2 arg3 harg3 arg4 harg4 arg5 harg5 arg6 harg6 arg7 harg7 arg8 harg8 arg9 harg9 arg10 harg10 arg11 harg11 hc1 hc2 x0 x1 x2 x3 x4 x5).2.1 S1x128.size (by sl_kernel_rfl) y
theorem cover4_F_11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : condFirst4 i) (hc2 : ¬condLast4 i) (x0 x1 : Vec F S2000x128 .f32) (x2 : Vec F S128x128 .f32) (x3 : Vec F S1x128 .f32) (x4 : Vec F S128x128 .f32) (x5 : Vec F S1x128 .f32) (y : S1x128.Idx) :
    ∃ pc ∈ (run4_F c i arg1 harg1 arg2 harg2 arg3 harg3 arg4 harg4 arg5 harg5 arg6 harg6 arg7 harg7 arg8 harg8 arg9 harg9 arg10 harg10 arg11 harg11 hc1 hc2 x0 x1 x2 x3 x4 x5).2.2.1, y ∈ pc.1.set :=
  View.cover_of_tiledL (run4_F c i arg1 harg1 arg2 harg2 arg3 harg3 arg4 harg4 arg5 harg5 arg6 harg6 arg7 harg7 arg8 harg8 arg9 harg9 arg10 harg10 arg11 harg11 hc1 hc2 x0 x1 x2 x3 x4 x5).2.2.1 S1x128.size (by sl_kernel_rfl) y
theorem cover4_M_7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover4_M_10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover4_M_11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run4_M c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover4_L_7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S2000x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).1 S2000x128.size (by sl_kernel_rfl) y
theorem cover4_L_8 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 S1x128.size (by sl_kernel_rfl) y
theorem cover4_L_9 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 S1x128.size (by sl_kernel_rfl) y
theorem cover4_L_10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 S1x128.size (by sl_kernel_rfl) y
theorem cover4_L_11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole) (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) (y : S1x128.Idx) :
    ∃ pc ∈ (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1, y ∈ pc.1.set :=
  View.cover_of_tiledL (run4_L c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 S1x128.size (by sl_kernel_rfl) y

end Cert.KernelIdeal.Hand

end
-- ==== Proof.KI_Mlp4.lean ====
/-
  Region 4 of the idealized kernel program, point by point: what the output block and the two accumulators hold
  after each point, the region's proof data and invariant, and the body obligation.

  After point 0 the buffers hold what the first-point run stores from the point's blocks alone. After a later point
  they hold what the middle-point run (or, at point 49, the last-point run) stores from the point's blocks and the
  two accumulators AS THE POINT BEFORE LEFT THEM. The invariant between points says the accumulators hold exactly
  that (before the first point: anything). The two row outputs are idle — handed back as found — except at point 49,
  where they receive the last-point run's copies of the accumulators.
-/
import proofs.«100772_j6322191859838_1_alg».proof.Proof.KI_MlpRun4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## One point's step, case by case: what the run's stored pieces leave -/

/-- First point: (the output block, accumulator 0, accumulator 1) after the run, from the point's blocks. -/
def stepF4 (c : Dev nD) (t : Fin cfg4.N) (hc1 : condFirst4 (grid4.coords t)) (hc2 : ¬condLast4 (grid4.coords t)) :
    Vec F S2000x128 .f32 × Vec F S1x128 .f32 × Vec F S1x128 .f32 :=
  (View.canon (run4_F c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)).1,
   View.canon (run4_F c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)).2.1,
   View.canon (run4_F c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)).2.2.1)
/-- Middle point: the same from the point's blocks and the accumulators s0, s1 it is handed. -/
def stepM4 (c : Dev nD) (t : Fin cfg4.N) (hc1 : ¬condFirst4 (grid4.coords t)) (hc2 : ¬condLast4 (grid4.coords t)) (s0 s1 : Vec F S1x128 .f32) :
    Vec F S2000x128 .f32 × Vec F S1x128 .f32 × Vec F S1x128 .f32 :=
  (View.canon (run4_M c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).1,
   View.canon (run4_M c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.1,
   View.canon (run4_M c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.2.1)
/-- Last point: the same, -/
def stepL4 (c : Dev nD) (t : Fin cfg4.N) (hc1 : ¬condFirst4 (grid4.coords t)) (hc2 : condLast4 (grid4.coords t)) (s0 s1 : Vec F S1x128 .f32) :
    Vec F S2000x128 .f32 × Vec F S1x128 .f32 × Vec F S1x128 .f32 :=
  (View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).1,
   View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.2.2.1,
   View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.2.2.2.1)
/-- and the two row outputs it fills. -/
def rowsL4 (c : Dev nD) (t : Fin cfg4.N) (hc1 : ¬condFirst4 (grid4.coords t)) (hc2 : condLast4 (grid4.coords t)) (s0 s1 : Vec F S1x128 .f32) :
    Vec F S1x128 .f32 × Vec F S1x128 .f32 :=
  (View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.1,
   View.canon (run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1).2.2.1)

/-! ## What the output block and the accumulators hold after each point -/

/-- (the output block, accumulator 0, accumulator 1) after the body at point n: the first-point step at point 0; at a
    later point the middle-point step — the last-point step at point 49 — from the accumulators the point before left. -/
def stAt4 (c : Dev nD) : (n : ℕ) → n < cfg4.N → Vec F S2000x128 .f32 × Vec F S1x128 .f32 × Vec F S1x128 .f32
  | 0, hn => stepF4 V c ⟨0, hn⟩ ((hcondFirst4 ⟨0, hn⟩).mpr rfl) (fun h => absurd ((hcondLast4 ⟨0, hn⟩).mp h) (by simp))
  | n + 1, hn =>
    if h49 : n + 1 = 49 then
      stepL4 V c ⟨n + 1, hn⟩ (fun h => absurd ((hcondFirst4 ⟨n + 1, hn⟩).mp h) (Nat.succ_ne_zero n)) ((hcondLast4 ⟨n + 1, hn⟩).mpr h49)
        (stAt4 c n (Nat.lt_of_succ_lt hn)).2.1 (stAt4 c n (Nat.lt_of_succ_lt hn)).2.2
    else
      stepM4 V c ⟨n + 1, hn⟩ (fun h => absurd ((hcondFirst4 ⟨n + 1, hn⟩).mp h) (Nat.succ_ne_zero n)) (fun h => h49 ((hcondLast4 ⟨n + 1, hn⟩).mp h))
        (stAt4 c n (Nat.lt_of_succ_lt hn)).2.1 (stAt4 c n (Nat.lt_of_succ_lt hn)).2.2

/-- The same point under two spellings of its index. -/
theorem stAt4_irrel (c : Dev nD) (n k : ℕ) (h : n = k) (hn : n < cfg4.N) (hk : k < cfg4.N) : stAt4 V c n hn = stAt4 V c k hk := by
  subst h; rfl

theorem stAt4_F (c : Dev nD) (t : Fin cfg4.N) (h0 : t.val = 0) :
    stAt4 V c t.val t.isLt = stepF4 V c t ((hcondFirst4 t).mpr h0) (fun h => by have := (hcondLast4 t).mp h; omega) := by
  obtain ⟨n, hn⟩ := t
  cases n with
  | zero => exact rfl
  | succ n => exact absurd h0 (Nat.succ_ne_zero n)

theorem stAt4_M (c : Dev nD) (t : Fin cfg4.N) (h0 : t.val ≠ 0) (h49 : t.val ≠ 49) :
    stAt4 V c t.val t.isLt = stepM4 V c t (fun h => h0 ((hcondFirst4 t).mp h)) (fun h => h49 ((hcondLast4 t).mp h)) (stAt4 V c (t.val - 1) (Nat.lt_of_le_of_lt (Nat.sub_le _ _) t.isLt)).2.1 (stAt4 V c (t.val - 1) (Nat.lt_of_le_of_lt (Nat.sub_le _ _) t.isLt)).2.2 := by
  obtain ⟨n, hn⟩ := t
  cases n with
  | zero => exact absurd rfl h0
  | succ n => exact (dif_neg h49).trans rfl

theorem stAt4_L (c : Dev nD) (t : Fin cfg4.N) (h49 : t.val = 49) :
    stAt4 V c t.val t.isLt = stepL4 V c t (fun h => by have := (hcondFirst4 t).mp h; omega) ((hcondLast4 t).mpr h49) (stAt4 V c (t.val - 1) (Nat.lt_of_le_of_lt (Nat.sub_le _ _) t.isLt)).2.1 (stAt4 V c (t.val - 1) (Nat.lt_of_le_of_lt (Nat.sub_le _ _) t.isLt)).2.2 := by
  obtain ⟨n, hn⟩ := t
  cases n with
  | zero => exact absurd h49 (by simp)
  | succ n => exact (dif_pos h49).trans rfl

/-- The two row outputs after the body at point t: at point 49 the last-point step's copies; elsewhere unnamed (the
    windows are idle there). -/
def o78At4 (c : Dev nD) (t : Fin cfg4.N) : Vec F S1x128 .f32 × Vec F S1x128 .f32 :=
  if h49 : t.val = 49 then rowsL4 V c t (fun h => by have := (hcondFirst4 t).mp h; omega) ((hcondLast4 t).mpr h49) (stAt4 V c (t.val - 1) (Nat.lt_of_le_of_lt (Nat.sub_le _ _) t.isLt)).2.1 (stAt4 V c (t.val - 1) (Nat.lt_of_le_of_lt (Nat.sub_le _ _) t.isLt)).2.2
  else (View.canon ([] : List (View.Piece (Elt F) S1x128 .f32)), View.canon ([] : List (View.Piece (Elt F) S1x128 .f32)))

/-! ## The proof data and the invariant -/

/-- Between points: the two accumulators hold what the point before left (before the first point: anything); the other
    scoped buffers and the generator register ride along untouched. -/
def Phi4 (c : Dev nD) (n : Fin (cfg4.N + 1)) : sProp 𝕄 :=
  iprop((∃ X0 X1 : Vec F S1x128 .f32,
          ⌜∀ h0 : n.val ≠ 0, X0 = (stAt4 V c (n.val - 1) (lt_of_lt_of_le (Nat.sub_lt (Nat.pos_of_ne_zero h0) Nat.one_pos) (Nat.le_of_lt_succ n.isLt))).2.1
              ∧ X1 = (stAt4 V c (n.val - 1) (lt_of_lt_of_le (Nat.sub_lt (Nat.pos_of_ne_zero h0) Nat.one_pos) (Nat.le_of_lt_succ n.isLt))).2.2⌝
          ∗ owns (c : Thread nD τ) sc4_0 fullShare X0 ∗ owns (c : Thread nD τ) sc4_1 fullShare X1)
      ∗ Pipeline.scopedRestBut (Ix := Unit) (Name := ℕ) (U := UR sig nD τ) (Lvl := ℕ) (Val := Elt F) spec4 c [cc4_scratch0, cc4_scratch1]
      ∗ ∃ r, prngReg c r)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (stAt4 V c t.val t.isLt).1
    | ⟨7, _⟩ => (o78At4 V c t).1
    | ⟨8, _⟩ => (o78At4 V c t).2
  Φ n := Phi4 V c n
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (stAt4 V c t.val t.isLt).1 := by dsimp only [dat4]
theorem after4_7 (c : Dev nD) (t : Fin cfg4.N) : (dat4 V c).after 7 t = (o78At4 V c t).1 := by dsimp only [dat4]
theorem after4_8 (c : Dev nD) (t : Fin cfg4.N) : (dat4 V c).after 8 t = (o78At4 V c t).2 := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ (match cfg4.idle 7 (cfg4.grid.coords t) with
       | true =>
         match (cfg4.win 7).flush t with
         | false => iprop(∃ d, owns (c : Thread nD τ) (st4_7 t) fullShare ((dat4 V c).before 7 t d))
         | true => owns (c : Thread nD τ) (st4_7 t) fullShare ((dat4 V c).after 7 t)
       | false => owns (c : Thread nD τ) (st4_7 t) fullShare ((dat4 V c).after 7 t))
    ∗ (match cfg4.idle 8 (cfg4.grid.coords t) with
       | true =>
         match (cfg4.win 8).flush t with
         | false => iprop(∃ d, owns (c : Thread nD τ) (st4_8 t) fullShare ((dat4 V c).before 8 t d))
         | true => owns (c : Thread nD τ) (st4_8 t) fullShare ((dat4 V c).after 8 t)
       | false => owns (c : Thread nD τ) (st4_8 t) fullShare ((dat4 V c).after 8 t)))

set_option maxHeartbeats 4000000 in
/-- The first point. -/
theorem sound_first4 (c : Dev nD) (t : Fin cfg4.N) (h0 : t.val = 0) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.castSucc = Phi4 V c t.castSucc from rfl, show (dat4 V c).Φ t.succ = Phi4 V c t.succ from rfl,
    show (dat4 V c).owesAt () t.succ = (dat4 V c).owesAt () t.castSucc from rfl,
    after4_0, after4_1, after4_2, after4_3, after4_4, after4_5, after4_6, after4_7, after4_8]
  unfold Phi4
  have hN : t.val < 50 := lt_of_lt_of_eq t.isLt (show cfg4.N = 50 from N_4)
  have hsucc : stAt4 V c (t.succ.val - 1) (lt_of_lt_of_le (Nat.sub_lt (Nat.pos_of_ne_zero (Nat.succ_ne_zero _)) Nat.one_pos) (Nat.le_of_lt_succ t.succ.isLt)) = stAt4 V c t.val t.isLt :=
    stAt4_irrel V c _ _ (by simp) _ _
  have hnl : ¬condLast4 (grid4.coords t) := fun h => by have := (hcondLast4 t).mp h; omega
  have hidle7 : cfg4.idle 7 (cfg4.grid.coords t) = true := by
    show (!(k4_cond2 (grid4.coords t) == 1#1)) = true
    rw [Bool.not_eq_true', beq_eq_false_iff_ne]; exact hnl
  have hidle8 : cfg4.idle 8 (cfg4.grid.coords t) = true := by
    show (!(k4_cond2 (grid4.coords t) == 1#1)) = true
    rw [Bool.not_eq_true', beq_eq_false_iff_ne]; exact hnl
  have hfl7 : (cfg4.win 7).flush t = false := Bool.eq_false_iff.mpr fun h => by have := (flush4_7 t).mp h; omega
  have hfl8 : (cfg4.win 8).flush t = false := Bool.eq_false_iff.mpr fun h => by have := (flush4_8 t).mp h; omega
  have hidle7' : idle4 7 (grid4.coords t) = true := hidle7
  have hidle8' : idle4 8 (grid4.coords t) = true := hidle8
  have hfl7' : (win4 7).flush t = false := hfl7
  have hfl8' : (win4 8).flush t = false := hfl8
  simp only [hidle7, hidle8, hfl7, hfl8, hidle7', hidle8', hfl7', hfl8']
  rw [stAt4_F V c t h0]
  unfold stepF4
  iintro ⟨⟨⟨%X0, %X1, -, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((run4_F c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) ((hcondFirst4 t).mpr h0) (fun h => by have := (hcondLast4 t).mp h; omega) (iblk4 V c 0 t) (iblk4 V c 1 t) (iblk4 V c 2 t) (iblk4 V c 3 t) (iblk4 V c 4 t) (iblk4 V c 5 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexists _; iexact HS0
  isplitl [HS1]; · iexists _; iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover4_F_10 c _ _ _ _ _ _ _ _ _ _ _ _ _ _ _ _ _ _ _ _ _ _ _ _ _ _ _ _ _ _ _)
        · unfold owns; iexists _; isplitr; swap; iexact HS1; ipureintro; exact View.read_writes_eq_canon _ _ _ (cover4_F_11 c _ _ _ _ _ _ _ _ _ _ _ _ _ _ _ _ _ _ _ _ _ _ _ _ _ _ _ _ _ _ _)
      ipureintro; intro _; rw [hsucc, stAt4_F V c t h0]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover4_F_7 c _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- A middle point. -/
theorem sound_mid4 (c : Dev nD) (t : Fin cfg4.N) (h0 : t.val ≠ 0) (h49 : t.val ≠ 49) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.castSucc = Phi4 V c t.castSucc from rfl, show (dat4 V c).Φ t.succ = Phi4 V c t.succ from rfl,
    show (dat4 V c).owesAt () t.succ = (dat4 V c).owesAt () t.castSucc from rfl,
    after4_0, after4_1, after4_2, after4_3, after4_4, after4_5, after4_6, after4_7, after4_8]
  unfold Phi4
  have hN : t.val < 50 := lt_of_lt_of_eq t.isLt (show cfg4.N = 50 from N_4)
  have hsucc : stAt4 V c (t.succ.val - 1) (lt_of_lt_of_le (Nat.sub_lt (Nat.pos_of_ne_zero (Nat.succ_ne_zero _)) Nat.one_pos) (Nat.le_of_lt_succ t.succ.isLt)) = stAt4 V c t.val t.isLt :=
    stAt4_irrel V c _ _ (by simp) _ _
  have hnl : ¬condLast4 (grid4.coords t) := fun h => h49 ((hcondLast4 t).mp h)
  have hidle7 : cfg4.idle 7 (cfg4.grid.coords t) = true := by
    show (!(k4_cond2 (grid4.coords t) == 1#1)) = true
    rw [Bool.not_eq_true', beq_eq_false_iff_ne]; exact hnl
  have hidle8 : cfg4.idle 8 (cfg4.grid.coords t) = true := by
    show (!(k4_cond2 (grid4.coords t) == 1#1)) = true
    rw [Bool.not_eq_true', beq_eq_false_iff_ne]; exact hnl
  have hfl7 : (cfg4.win 7).flush t = false := Bool.eq_false_iff.mpr fun h => by have := (flush4_7 t).mp h; omega
  have hfl8 : (cfg4.win 8).flush t = false := Bool.eq_false_iff.mpr fun h => by have := (flush4_8 t).mp h; omega
  have hidle7' : idle4 7 (grid4.coords t) = true := hidle7
  have hidle8' : idle4 8 (grid4.coords t) = true := hidle8
  have hfl7' : (win4 7).flush t = false := hfl7
  have hfl8' : (win4 8).flush t = false := hfl8
  simp only [hidle7, hidle8, hfl7, hfl8, hidle7', hidle8', hfl7', hfl8']
  rw [stAt4_M V c t h0 h49]
  unfold stepM4
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run4_M c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) (fun h => h0 ((hcondFirst4 t).mp h)) (fun h => h49 ((hcondLast4 t).mp h)) (iblk4 V c 0 t) (iblk4 V c 1 t) (iblk4 V c 2 t) (iblk4 V c 3 t) (iblk4 V c 4 t) (iblk4 V c 5 t) _ _).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, ⟨%e6, H6⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover4_M_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover4_M_11 c _ _ _ _ _ _ _ _ _ _ _ _ _ _ _ _ _ _ _ _ _ _ _ _ _ _ _ _ _ _ _ _ _)
      ipureintro; intro _; rw [hsucc, stAt4_M V c t h0 h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover4_M_7 c _ _ _ _ _ _ _ _ _ _ _ _ _ _ _ _ _ _ _ _ _ _ _ _ _ _ _ _ _ _ _ _ _)
  isplitl [H7]
  · split
    next => iexists _; iexact H7
    next h => exact absurd (hidle7.symm.trans h) (by decide)
  split
  next => iexists _; iexact H8
  next h => exact absurd (hidle8.symm.trans h) (by decide)

set_option maxHeartbeats 4000000 in
/-- The last point. -/
theorem sound_last4 (c : Dev nD) (t : Fin cfg4.N) (h0 : t.val ≠ 0) (h49 : t.val = 49) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.castSucc = Phi4 V c t.castSucc from rfl, show (dat4 V c).Φ t.succ = Phi4 V c t.succ from rfl,
    show (dat4 V c).owesAt () t.succ = (dat4 V c).owesAt () t.castSucc from rfl,
    after4_0, after4_1, after4_2, after4_3, after4_4, after4_5, after4_6, after4_7, after4_8]
  unfold Phi4
  have hN : t.val < 50 := lt_of_lt_of_eq t.isLt (show cfg4.N = 50 from N_4)
  have hsucc : stAt4 V c (t.succ.val - 1) (lt_of_lt_of_le (Nat.sub_lt (Nat.pos_of_ne_zero (Nat.succ_ne_zero _)) Nat.one_pos) (Nat.le_of_lt_succ t.succ.isLt)) = stAt4 V c t.val t.isLt :=
    stAt4_irrel V c _ _ (by simp) _ _
  have hl : condLast4 (grid4.coords t) := (hcondLast4 t).mpr h49
  have hidle7 : cfg4.idle 7 (cfg4.grid.coords t) = false := by
    show (!(k4_cond2 (grid4.coords t) == 1#1)) = false
    rw [Bool.not_eq_false', beq_iff_eq]; exact hl
  have hidle8 : cfg4.idle 8 (cfg4.grid.coords t) = false := by
    show (!(k4_cond2 (grid4.coords t) == 1#1)) = false
    rw [Bool.not_eq_false', beq_iff_eq]; exact hl
  have hidle7' : idle4 7 (grid4.coords t) = false := hidle7
  have hidle8' : idle4 8 (grid4.coords t) = false := hidle8
  simp only [hidle7, hidle8, hidle7', hidle8']
  rw [stAt4_L V c t h49]
  unfold o78At4
  simp only [dif_pos h49]
  unfold stepL4 rowsL4
  iintro ⟨⟨⟨%X0, %X1, %hX, HS0, HS1⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨rfl, rfl⟩ := hX h0
  iapply ((run4_L c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) (fun h => by have := (hcondFirst4 t).mp h; omega) ((hcondLast4 t).mpr h49) (iblk4 V c 0 t) (iblk4 V c 1 t) (iblk4 V c 2 t) (iblk4 V c 3 t) (iblk4 V c 4 t) (iblk4 V c 5 t) _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, ⟨%e6, H6⟩, ⟨%e7, H7⟩, ⟨%e8, H8⟩, ⟨%e10, HS0⟩, ⟨%e11, HS1⟩⟩
  isplitl [HS0 HS1 Hrest Hp]
  · isplitl [HS0 HS1]
    · iexists _; iexists _; isplitr
      swap
      · isplitl [HS0]
        · unfold owns; iexists _; isplitr; swap; iexact HS0; ipureintro; exact View.read_writes_eq_canon _ _ _ (cover4_L_10 c _ _ _ _ _ _ _ _ _ _ _ _ _ _ _ _ _ _ _ _ _ _ _ _ _ _ _ _ _ _ _ _ _)
        · unfold owns; iexists _; isplitr; swap; iexact HS1; ipureintro; exact View.read_writes_eq_canon _ _ _ (cover4_L_11 c _ _ _ _ _ _ _ _ _ _ _ _ _ _ _ _ _ _ _ _ _ _ _ _ _ _ _ _ _ _ _ _ _)
      ipureintro; intro _; rw [hsucc, stAt4_L V c t h49]; exact ⟨rfl, rfl⟩
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; iexact H6; ipureintro; exact View.read_writes_eq_canon _ _ _ (cover4_L_7 c _ _ _ _ _ _ _ _ _ _ _ _ _ _ _ _ _ _ _ _ _ _ _ _ _ _ _ _ _ _ _ _ _)
  isplitl [H7]
  · split
    next h => exact absurd (hidle7.symm.trans h) (by decide)
    next => unfold owns; iexists _; isplitr; swap; iexact H7; ipureintro; exact View.read_writes_eq_canon _ _ _ (cover4_L_8 c _ _ _ _ _ _ _ _ _ _ _ _ _ _ _ _ _ _ _ _ _ _ _ _ _ _ _ _ _ _ _ _ _)
  split
  next h => exact absurd (hidle8.symm.trans h) (by decide)
  next => unfold owns; iexists _; isplitr; swap; iexact H8; ipureintro; exact View.read_writes_eq_canon _ _ _ (cover4_L_9 c _ _ _ _ _ _ _ _ _ _ _ _ _ _ _ _ _ _ _ _ _ _ _ _ _ _ _ _ _ _ _ _ _)

/-- The body at any point: by the point's case. -/
theorem sound_body4 (c : Dev nD) (t : Fin cfg4.N) :
    bodyPre4 V c t ⊢ wp frame (wpE (defs₀ (F := F)) Variants.none c none) Set.univ (bodyAt4 t) (fun _ => bodyPost4 V c t) := by
  by_cases h0 : t.val = 0
  · exact sound_first4 V c t h0
  by_cases h49 : t.val = 49
  · exact sound_last4 V c t h0 h49
  · exact sound_mid4 V c t h0 h49

/-- The body obligation of the region, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI_Norm5.lean ====
/-
  Region 5 of the idealized kernel program: one pass of batch normalisation over a block of 2000 rows.

  At grid point t the body is handed rows 2000 t … 2000 t + 1999 of the activations and the four rows
  (mean, variance, scale, shift), loads all five whole, and stores ONE value into the output block: entry (r, j)
  is (h r j − mean j) · rsqrt (variance j + ε) · scale j + shift j, the skeleton's payload of its loads. Nothing
  is kept from point to point. So: what the output's buffer holds after the body is that payload laid over the
  whole block; the body's triple is the symbolic run of its six loads and one store; and the proof data says
  "each input's buffer holds its block, the output's the payload of the blocks" at every point.
  Stated at a parameter V — the contents of the buffers when the region is entered — and at any float instance.
-/
import proofs.«100772_j6322191859838_1_alg».proof.Proof.Gen.KernelIdeal.Launch
import proofs.«100772_j6322191859838_1_alg».proof.Proof.Gen.KernelIdeal.Skeleton
import proofs.«100772_j6322191859838_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's buffer holds its block at every point, fetched there or not (unfetched, the block index has
    not moved), for any proof data whose array is V's and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's buffer holds its block at every point, fetched there or not (unfetched, the block index has
    not moved), for any proof data whose array is V's and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's buffer holds its block at every point, fetched there or not (unfetched, the block index has
    not moved), for any proof data whose array is V's and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's buffer holds its block at every point, fetched there or not (unfetched, the block index has
    not moved), for any proof data whose array is V's and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's buffer holds its block at every point, fetched there or not (unfetched, the block index has
    not moved), for any proof data whose array is V's and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole block of 2000 rows, and the whole single row: the rectangles the body loads and stores through. -/
abbrev rBlk5 : Rect S2000x128 := Rect.unit (s := S2000x128) ![0, 0] S2000x128.size inb_S2000x128_S2000x128_0_0
abbrev rRow5 : Rect S1x128 := Rect.unit (s := S1x128) ![0, 0] S1x128.size inb_S1x128_S1x128_0_0

/-- The output block after the body, from the five input blocks: the one store's payload over the whole block. -/
def out5_5 (x0 : Vec F S2000x128 .f32) (x1 x2 x3 x4 : Vec F S1x128 .f32) : Vec F S2000x128 .f32 :=
  View.canon [⟨rBlk5, k5_pay1 (View.ld x0 rBlk5) (View.ld x1 rRow5) (View.ld x2 rRow5) (View.ld x3 rRow5) (View.ld x4 rRow5)⟩]

/-- The one store covers the block. -/
theorem cover5_5 (p0 : Vec F S2000x128 .f32) (y : S2000x128.Idx) :
    ∃ pc ∈ ([⟨rBlk5, p0⟩] : List (View.Piece (Elt F) S2000x128 .f32)), y ∈ pc.1.set :=
  View.cover_of_tiled [⟨rBlk5, p0⟩] S2000x128.size (by rfl) y

set_option maxHeartbeats 4000000 in
/-- The body on whole staging memrefs — the inputs' at read contents x0 … x4, the output's at anything — runs to the
    continuation holding the inputs' as they were and the output's at the payload of the inputs. -/
theorem sound_kernel5 (c : Dev nD) (E : Set ℕ) (i : grid5.Coords)
    (arg1 : Memref sig .tc .vmem S2000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_normalize_kernel i arg1 harg1 arg2 harg2 arg3 harg3 arg4 harg4 arg5 harg5 arg6 harg6) K := by
  simp only [cc5__bn_normalize_kernel_eq_skeleton]; unfold cc5__bn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of the region on core c: the arrays as the region finds them; after the body at point t each
    input's buffer at its block and the output's at the payload of the blocks; the invariant the scoped rest and
    the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI_Run.lean ====
/-
  The idealized kernel program's run: @main as thirteen segments — seven stretches of host operations and the six
  kernel regions between them — from the launch to the return.

  The contents of the device's buffers at each boundary are a fold from the launch memory: a host stretch applies its
  operations' results; a region replaces its arrays by what its write-backs leave (the inputs as entered, each output
  the fold of its blocks) and leaves every other buffer alone. Each region is entered from "every unscoped buffer at
  the boundary's contents" and left at the next boundary's; its arrays are split out of the unscoped buffers on entry
  and put back on exit; a normalisation region needs nothing else, an MLP region also takes its two accumulators out
  of the scoped buffers into its invariant and returns them. So every weakly fair execution terminates with every
  unscoped buffer at the last boundary's contents (`run_all`) — from which the frame: no host operation and no region
  writes an argument, so the fold at an argument's buffer walks back to the launch memory.
-/
import proofs.«100772_j6322191859838_1_alg».proof.Proof.KI_Mlp0
import proofs.«100772_j6322191859838_1_alg».proof.Proof.KI_Norm1
import proofs.«100772_j6322191859838_1_alg».proof.Proof.KI_Mlp2
import proofs.«100772_j6322191859838_1_alg».proof.Proof.KI_Norm3
import proofs.«100772_j6322191859838_1_alg».proof.Proof.KI_Mlp4
import proofs.«100772_j6322191859838_1_alg».proof.Proof.KI_Norm5
import proofs.«100772_j6322191859838_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After host stretch 0: region 0's entry. -/
abbrev W1 : Dev nD → Valuation τ sig (Elt F) := fun c => StableHlo.after hostOps0 (W0 m ρ c)
abbrev Ent1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Ent1 m ρ) c).arrAt w cfg0.N
theorem W2_arr (c : Dev nD) (w : Fin cfg0.W) :
    W2 m ρ c (Proc.devRef .tc (Pipeline.arrRef spec0 w)) = (dat0 (Ent1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ext2 : (c : Dev nD) → (b : Ref sig .tc) → Buf (Elt F) ((c : Thread nD τ).loc b) := fun c b => W2 m ρ c b
theorem hF0 (c : Dev nD) (w : Fin cfg0.W) : (dat0 (Ent1 m ρ) c).arrAt w cfg0.N = Ext2 m ρ c (Pipeline.arrRef spec0 w) :=
  (W2_arr m ρ c w).symm
theorem hrest0 (c : Dev nD) : ∀ b, b ∉ Finset.univ.image (Pipeline.arrRef spec0) → Ext2 m ρ c b = Ent1 m ρ c b :=
  fun b hb => W2_of_ne m ρ c b fun w e => hb (Finset.mem_image.mpr ⟨w, Finset.mem_univ _, e⟩)

/-- After host stretch 1: region 1's entry. -/
abbrev W3 : Dev nD → Valuation τ sig (Elt F) := fun c => StableHlo.after hostOps1 (W2 m ρ c)
abbrev Ent3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (Ent3 m ρ) c).arrAt w cfg1.N
theorem W4_arr (c : Dev nD) (w : Fin cfg1.W) :
    W4 m ρ c (Proc.devRef .tc (Pipeline.arrRef spec1 w)) = (dat1 (Ent3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ext4 : (c : Dev nD) → (b : Ref sig .tc) → Buf (Elt F) ((c : Thread nD τ).loc b) := fun c b => W4 m ρ c b
theorem hF1 (c : Dev nD) (w : Fin cfg1.W) : (dat1 (Ent3 m ρ) c).arrAt w cfg1.N = Ext4 m ρ c (Pipeline.arrRef spec1 w) :=
  (W4_arr m ρ c w).symm
theorem hrest1 (c : Dev nD) : ∀ b, b ∉ Finset.univ.image (Pipeline.arrRef spec1) → Ext4 m ρ c b = Ent3 m ρ c b :=
  fun b hb => W4_of_ne m ρ c b fun w e => hb (Finset.mem_image.mpr ⟨w, Finset.mem_univ _, e⟩)

/-- After host stretch 2: region 2's entry. -/
abbrev W5 : Dev nD → Valuation τ sig (Elt F) := fun c => StableHlo.after hostOps2 (W4 m ρ c)
abbrev Ent5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (Ent5 m ρ) c).arrAt w cfg2.N
theorem W6_arr (c : Dev nD) (w : Fin cfg2.W) :
    W6 m ρ c (Proc.devRef .tc (Pipeline.arrRef spec2 w)) = (dat2 (Ent5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Ext6 : (c : Dev nD) → (b : Ref sig .tc) → Buf (Elt F) ((c : Thread nD τ).loc b) := fun c b => W6 m ρ c b
theorem hF2 (c : Dev nD) (w : Fin cfg2.W) : (dat2 (Ent5 m ρ) c).arrAt w cfg2.N = Ext6 m ρ c (Pipeline.arrRef spec2 w) :=
  (W6_arr m ρ c w).symm
theorem hrest2 (c : Dev nD) : ∀ b, b ∉ Finset.univ.image (Pipeline.arrRef spec2) → Ext6 m ρ c b = Ent5 m ρ c b :=
  fun b hb => W6_of_ne m ρ c b fun w e => hb (Finset.mem_image.mpr ⟨w, Finset.mem_univ _, e⟩)

/-- After host stretch 3: region 3's entry. -/
abbrev W7 : Dev nD → Valuation τ sig (Elt F) := fun c => StableHlo.after hostOps3 (W6 m ρ c)
abbrev Ent7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (Ent7 m ρ) c).arrAt w cfg3.N
theorem W8_arr (c : Dev nD) (w : Fin cfg3.W) :
    W8 m ρ c (Proc.devRef .tc (Pipeline.arrRef spec3 w)) = (dat3 (Ent7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev Ext8 : (c : Dev nD) → (b : Ref sig .tc) → Buf (Elt F) ((c : Thread nD τ).loc b) := fun c b => W8 m ρ c b
theorem hF3 (c : Dev nD) (w : Fin cfg3.W) : (dat3 (Ent7 m ρ) c).arrAt w cfg3.N = Ext8 m ρ c (Pipeline.arrRef spec3 w) :=
  (W8_arr m ρ c w).symm
theorem hrest3 (c : Dev nD) : ∀ b, b ∉ Finset.univ.image (Pipeline.arrRef spec3) → Ext8 m ρ c b = Ent7 m ρ c b :=
  fun b hb => W8_of_ne m ρ c b fun w e => hb (Finset.mem_image.mpr ⟨w, Finset.mem_univ _, e⟩)

/-- After host stretch 4: region 4's entry. -/
abbrev W9 : Dev nD → Valuation τ sig (Elt F) := fun c => StableHlo.after hostOps4 (W8 m ρ c)
abbrev Ent9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (Ent9 m ρ) c).arrAt w cfg4.N
theorem W10_arr (c : Dev nD) (w : Fin cfg4.W) :
    W10 m ρ c (Proc.devRef .tc (Pipeline.arrRef spec4 w)) = (dat4 (Ent9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev Ext10 : (c : Dev nD) → (b : Ref sig .tc) → Buf (Elt F) ((c : Thread nD τ).loc b) := fun c b => W10 m ρ c b
theorem hF4 (c : Dev nD) (w : Fin cfg4.W) : (dat4 (Ent9 m ρ) c).arrAt w cfg4.N = Ext10 m ρ c (Pipeline.arrRef spec4 w) :=
  (W10_arr m ρ c w).symm
theorem hrest4 (c : Dev nD) : ∀ b, b ∉ Finset.univ.image (Pipeline.arrRef spec4) → Ext10 m ρ c b = Ent9 m ρ c b :=
  fun b hb => W10_of_ne m ρ c b fun w e => hb (Finset.mem_image.mpr ⟨w, Finset.mem_univ _, e⟩)

/-- After host stretch 5: region 5's entry. -/
abbrev W11 : Dev nD → Valuation τ sig (Elt F) := fun c => StableHlo.after hostOps5 (W10 m ρ c)
abbrev Ent11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (Ent11 m ρ) c).arrAt w cfg5.N
theorem W12_arr (c : Dev nD) (w : Fin cfg5.W) :
    W12 m ρ c (Proc.devRef .tc (Pipeline.arrRef spec5 w)) = (dat5 (Ent11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev Ext12 : (c : Dev nD) → (b : Ref sig .tc) → Buf (Elt F) ((c : Thread nD τ).loc b) := fun c b => W12 m ρ c b
theorem hF5 (c : Dev nD) (w : Fin cfg5.W) : (dat5 (Ent11 m ρ) c).arrAt w cfg5.N = Ext12 m ρ c (Pipeline.arrRef spec5 w) :=
  (W12_arr m ρ c w).symm
theorem hrest5 (c : Dev nD) : ∀ b, b ∉ Finset.univ.image (Pipeline.arrRef spec5) → Ext12 m ρ c b = Ent11 m ρ c b :=
  fun b hb => W12_of_ne m ρ c b fun w e => hb (Finset.mem_image.mpr ⟨w, Finset.mem_univ _, e⟩)

/-- After the last host stretch: the return. -/
abbrev W13 : Dev nD → Valuation τ sig (Elt F) := fun c => StableHlo.after hostOps6 (W12 m ρ c)

/-! ## No segment writes an argument -/

theorem W13_main_arg0 (c : Dev nD) : W13 m ρ c (Proc.devRef .tc main_arg0) = m ((c : Thread nD τ).loc main_arg0) :=
  calc W13 m ρ c (Proc.devRef .tc main_arg0)
    _ = W12 m ρ c (Proc.devRef .tc main_arg0) := StableHlo.after_of_writes_sub hostOps6 _ hostOps6_writes (by decide)
    _ = W11 m ρ c (Proc.devRef .tc main_arg0) := W12_of_ne m ρ c main_arg0 (by decide)
    _ = W10 m ρ c (Proc.devRef .tc main_arg0) := StableHlo.after_of_writes_sub hostOps5 _ hostOps5_writes (by decide)
    _ = W9 m ρ c (Proc.devRef .tc main_arg0) := W10_of_ne m ρ c main_arg0 (by decide)
    _ = W8 m ρ c (Proc.devRef .tc main_arg0) := StableHlo.after_of_writes_sub hostOps4 _ hostOps4_writes (by decide)
    _ = W7 m ρ c (Proc.devRef .tc main_arg0) := W8_of_ne m ρ c main_arg0 (by decide)
    _ = W6 m ρ c (Proc.devRef .tc main_arg0) := StableHlo.after_of_writes_sub hostOps3 _ hostOps3_writes (by decide)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Ent1 m ρ) c).arrAt_in 0 rfl _).trans (A_eq0 (Ent1 m ρ) c 0))
    _ = W0 m ρ c (Proc.devRef .tc main_arg0) := StableHlo.after_of_writes_sub hostOps0 _ hostOps0_writes (by decide)
    _ = m ((c : Thread nD τ).loc main_arg0) := rfl

theorem W13_main_arg1 (c : Dev nD) : W13 m ρ c (Proc.devRef .tc main_arg1) = m ((c : Thread nD τ).loc main_arg1) :=
  calc W13 m ρ c (Proc.devRef .tc main_arg1)
    _ = W12 m ρ c (Proc.devRef .tc main_arg1) := StableHlo.after_of_writes_sub hostOps6 _ hostOps6_writes (by decide)
    _ = W11 m ρ c (Proc.devRef .tc main_arg1) := W12_of_ne m ρ c main_arg1 (by decide)
    _ = W10 m ρ c (Proc.devRef .tc main_arg1) := StableHlo.after_of_writes_sub hostOps5 _ hostOps5_writes (by decide)
    _ = W9 m ρ c (Proc.devRef .tc main_arg1) := W10_of_ne m ρ c main_arg1 (by decide)
    _ = W8 m ρ c (Proc.devRef .tc main_arg1) := StableHlo.after_of_writes_sub hostOps4 _ hostOps4_writes (by decide)
    _ = W7 m ρ c (Proc.devRef .tc main_arg1) := W8_of_ne m ρ c main_arg1 (by decide)
    _ = W6 m ρ c (Proc.devRef .tc main_arg1) := StableHlo.after_of_writes_sub hostOps3 _ hostOps3_writes (by decide)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W13_main_arg2 (c : Dev nD) : W13 m ρ c (Proc.devRef .tc main_arg2) = m ((c : Thread nD τ).loc main_arg2) :=
  calc W13 m ρ c (Proc.devRef .tc main_arg2)
    _ = W12 m ρ c (Proc.devRef .tc main_arg2) := StableHlo.after_of_writes_sub hostOps6 _ hostOps6_writes (by decide)
    _ = W11 m ρ c (Proc.devRef .tc main_arg2) := W12_of_ne m ρ c main_arg2 (by decide)
    _ = W10 m ρ c (Proc.devRef .tc main_arg2) := StableHlo.after_of_writes_sub hostOps5 _ hostOps5_writes (by decide)
    _ = W9 m ρ c (Proc.devRef .tc main_arg2) := W10_of_ne m ρ c main_arg2 (by decide)
    _ = W8 m ρ c (Proc.devRef .tc main_arg2) := StableHlo.after_of_writes_sub hostOps4 _ hostOps4_writes (by decide)
    _ = W7 m ρ c (Proc.devRef .tc main_arg2) := W8_of_ne m ρ c main_arg2 (by decide)
    _ = W6 m ρ c (Proc.devRef .tc main_arg2) := StableHlo.after_of_writes_sub hostOps3 _ hostOps3_writes (by decide)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W13_main_arg3 (c : Dev nD) : W13 m ρ c (Proc.devRef .tc main_arg3) = m ((c : Thread nD τ).loc main_arg3) :=
  calc W13 m ρ c (Proc.devRef .tc main_arg3)
    _ = W12 m ρ c (Proc.devRef .tc main_arg3) := StableHlo.after_of_writes_sub hostOps6 _ hostOps6_writes (by decide)
    _ = W11 m ρ c (Proc.devRef .tc main_arg3) := W12_of_ne m ρ c main_arg3 (by decide)
    _ = W10 m ρ c (Proc.devRef .tc main_arg3) := StableHlo.after_of_writes_sub hostOps5 _ hostOps5_writes (by decide)
    _ = W9 m ρ c (Proc.devRef .tc main_arg3) := W10_of_ne m ρ c main_arg3 (by decide)
    _ = W8 m ρ c (Proc.devRef .tc main_arg3) := StableHlo.after_of_writes_sub hostOps4 _ hostOps4_writes (by decide)
    _ = W7 m ρ c (Proc.devRef .tc main_arg3) := W8_of_ne m ρ c main_arg3 (by decide)
    _ = W6 m ρ c (Proc.devRef .tc main_arg3) := StableHlo.after_of_writes_sub hostOps3 _ hostOps3_writes (by decide)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W13_main_arg4 (c : Dev nD) : W13 m ρ c (Proc.devRef .tc main_arg4) = m ((c : Thread nD τ).loc main_arg4) :=
  calc W13 m ρ c (Proc.devRef .tc main_arg4)
    _ = W12 m ρ c (Proc.devRef .tc main_arg4) := StableHlo.after_of_writes_sub hostOps6 _ hostOps6_writes (by decide)
    _ = W11 m ρ c (Proc.devRef .tc main_arg4) := W12_of_ne m ρ c main_arg4 (by decide)
    _ = W10 m ρ c (Proc.devRef .tc main_arg4) := StableHlo.after_of_writes_sub hostOps5 _ hostOps5_writes (by decide)
    _ = W9 m ρ c (Proc.devRef .tc main_arg4) := W10_of_ne m ρ c main_arg4 (by decide)
    _ = W8 m ρ c (Proc.devRef .tc main_arg4) := StableHlo.after_of_writes_sub hostOps4 _ hostOps4_writes (by decide)
    _ = W7 m ρ c (Proc.devRef .tc main_arg4) := W8_of_ne m ρ c main_arg4 (by decide)
    _ = W6 m ρ c (Proc.devRef .tc main_arg4) := StableHlo.after_of_writes_sub hostOps3 _ hostOps3_writes (by decide)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W13_main_arg5 (c : Dev nD) : W13 m ρ c (Proc.devRef .tc main_arg5) = m ((c : Thread nD τ).loc main_arg5) :=
  calc W13 m ρ c (Proc.devRef .tc main_arg5)
    _ = W12 m ρ c (Proc.devRef .tc main_arg5) := StableHlo.after_of_writes_sub hostOps6 _ hostOps6_writes (by decide)
    _ = W11 m ρ c (Proc.devRef .tc main_arg5) := W12_of_ne m ρ c main_arg5 (by decide)
    _ = W10 m ρ c (Proc.devRef .tc main_arg5) := StableHlo.after_of_writes_sub hostOps5 _ hostOps5_writes (by decide)
    _ = W9 m ρ c (Proc.devRef .tc main_arg5) := W10_of_ne m ρ c main_arg5 (by decide)
    _ = W8 m ρ c (Proc.devRef .tc main_arg5) := StableHlo.after_of_writes_sub hostOps4 _ hostOps4_writes (by decide)
    _ = W7 m ρ c (Proc.devRef .tc main_arg5) := W8_of_ne m ρ c main_arg5 (by decide)
    _ = W6 m ρ c (Proc.devRef .tc main_arg5) := StableHlo.after_of_writes_sub hostOps3 _ hostOps3_writes (by decide)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W13_main_arg6 (c : Dev nD) : W13 m ρ c (Proc.devRef .tc main_arg6) = m ((c : Thread nD τ).loc main_arg6) :=
  calc W13 m ρ c (Proc.devRef .tc main_arg6)
    _ = W12 m ρ c (Proc.devRef .tc main_arg6) := StableHlo.after_of_writes_sub hostOps6 _ hostOps6_writes (by decide)
    _ = W11 m ρ c (Proc.devRef .tc main_arg6) := W12_of_ne m ρ c main_arg6 (by decide)
    _ = W10 m ρ c (Proc.devRef .tc main_arg6) := StableHlo.after_of_writes_sub hostOps5 _ hostOps5_writes (by decide)
    _ = W9 m ρ c (Proc.devRef .tc main_arg6) := W10_of_ne m ρ c main_arg6 (by decide)
    _ = W8 m ρ c (Proc.devRef .tc main_arg6) := StableHlo.after_of_writes_sub hostOps4 _ hostOps4_writes (by decide)
    _ = W7 m ρ c (Proc.devRef .tc main_arg6) := W8_of_ne m ρ c main_arg6 (by decide)
    _ = W6 m ρ c (Proc.devRef .tc main_arg6) := StableHlo.after_of_writes_sub hostOps3 _ hostOps3_writes (by decide)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W13_main_arg7 (c : Dev nD) : W13 m ρ c (Proc.devRef .tc main_arg7) = m ((c : Thread nD τ).loc main_arg7) :=
  calc W13 m ρ c (Proc.devRef .tc main_arg7)
    _ = W12 m ρ c (Proc.devRef .tc main_arg7) := StableHlo.after_of_writes_sub hostOps6 _ hostOps6_writes (by decide)
    _ = W11 m ρ c (Proc.devRef .tc main_arg7) := W12_of_ne m ρ c main_arg7 (by decide)
    _ = W10 m ρ c (Proc.devRef .tc main_arg7) := StableHlo.after_of_writes_sub hostOps5 _ hostOps5_writes (by decide)
    _ = W9 m ρ c (Proc.devRef .tc main_arg7) := W10_of_ne m ρ c main_arg7 (by decide)
    _ = W8 m ρ c (Proc.devRef .tc main_arg7) := StableHlo.after_of_writes_sub hostOps4 _ hostOps4_writes (by decide)
    _ = W7 m ρ c (Proc.devRef .tc main_arg7) := W8_of_ne m ρ c main_arg7 (by decide)
    _ = W6 m ρ c (Proc.devRef .tc main_arg7) := StableHlo.after_of_writes_sub hostOps3 _ hostOps3_writes (by decide)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W13_main_arg8 (c : Dev nD) : W13 m ρ c (Proc.devRef .tc main_arg8) = m ((c : Thread nD τ).loc main_arg8) :=
  calc W13 m ρ c (Proc.devRef .tc main_arg8)
    _ = W12 m ρ c (Proc.devRef .tc main_arg8) := StableHlo.after_of_writes_sub hostOps6 _ hostOps6_writes (by decide)
    _ = W11 m ρ c (Proc.devRef .tc main_arg8) := W12_of_ne m ρ c main_arg8 (by decide)
    _ = W10 m ρ c (Proc.devRef .tc main_arg8) := StableHlo.after_of_writes_sub hostOps5 _ hostOps5_writes (by decide)
    _ = W9 m ρ c (Proc.devRef .tc main_arg8) := W10_of_ne m ρ c main_arg8 (by decide)
    _ = W8 m ρ c (Proc.devRef .tc main_arg8) := StableHlo.after_of_writes_sub hostOps4 _ hostOps4_writes (by decide)
    _ = W7 m ρ c (Proc.devRef .tc main_arg8) := W8_of_ne m ρ c main_arg8 (by decide)
    _ = W6 m ρ c (Proc.devRef .tc main_arg8) := StableHlo.after_of_writes_sub hostOps3 _ hostOps3_writes (by decide)
    _ = W5 m ρ c (Proc.devRef .tc main_arg8) := W6_of_ne m ρ c main_arg8 (by decide)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

/-! ## The proof data family and the thread state -/

abbrev adm : (p : Fin 6) → (pcfgs (F := F) p).Adm := fun p => (cfgs p).toPCfg_adm
/-- Every pipeline's proof data, each at its region's entry contents (a literal match on the pipeline). -/
def pdats : (p : Fin 6) → (c : Dev nD) → Dat τ (Elt F) Unit ℕ (UR sig nD τ) ℕ (Pipeline.pin (pcfgs (F := F)) adm p) c
  | ⟨0, _⟩ => fun c => dat0 (Ent1 m ρ) c
  | ⟨1, _⟩ => fun c => dat1 (Ent3 m ρ) c
  | ⟨2, _⟩ => fun c => dat2 (Ent5 m ρ) c
  | ⟨3, _⟩ => fun c => dat3 (Ent7 m ρ) c
  | ⟨4, _⟩ => fun c => dat4 (Ent9 m ρ) c
  | ⟨5, _⟩ => fun c => dat5 (Ent11 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W13 m ρ c) ∗ ∃ r, prngReg c r)

/-! ## The regions as segments -/

set_option maxHeartbeats 4000000 in
set_option backward.isDefEq.respectTransparency.types false in
/-- REGION 0: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ent1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ent1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest0_split (Ix := Unit) (Val := Elt F) (Name := ℕ) (U := UR sig nD τ) (Lvl := ℕ) c
    rw [show (pdats m ρ 0 c).Φ 0 = Phi0 (Ent1 m ρ) c 0 from rfl]; unfold Phi0
    iintro ⟨Hp, -, Hr⟩
    ihave Hr' := (Entails.of_eq hs) $$ Hr
    icases Hr' with ⟨⟨⟨%f0, H0⟩, ⟨%f1, H1⟩⟩, Hrb⟩
    isplitl [H0 H1]
    · iexists f0; iexists f1; isplitr; · ipureintro; intro h; exact absurd rfl h
      isplitl [H0]
      · iapply (Entails.of_eq (owns_whole (c : Thread nD τ) cc0_scratch0 fullShare f0).symm); iexact H0
      · iapply (Entails.of_eq (owns_whole (c : Thread nD τ) cc0_scratch1 fullShare f1).symm); iexact H1
    isplitl [Hrb]; · iexact Hrb
    iexact Hp
  hout c := by
    have hs := scopedRest0_split (Ix := Unit) (Val := Elt F) (Name := ℕ) (U := UR sig nD τ) (Lvl := ℕ) c
    rw [Pipeline.ownSems0_none]
    show Phi0 (Ent1 m ρ) c _ ⊢ _
    unfold Phi0
    iintro ⟨⟨%X0, %X1, -, H0, H1⟩, Hrb, Hp⟩
    isplitl [Hp]; · iexact Hp
    isplitr; · iempintro
    iapply (Entails.of_eq hs.symm)
    isplitl [H0 H1]
    · isplitl [H0]
      · iexists X0; iapply (Entails.of_eq (owns_whole (c : Thread nD τ) cc0_scratch0 fullShare X0)); iexact H0
      · iexists X1; iapply (Entails.of_eq (owns_whole (c : Thread nD τ) cc0_scratch1 fullShare X1)); iexact H1
    iexact Hrb
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ent1 m ρ c) (Ext2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 1: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ent3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ent3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ent3 m ρ c) (Ext4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 2: entered from every unscoped buffer at W5, left at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ent5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (Ent5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest2_split (Ix := Unit) (Val := Elt F) (Name := ℕ) (U := UR sig nD τ) (Lvl := ℕ) c
    rw [show (pdats m ρ 2 c).Φ 0 = Phi2 (Ent5 m ρ) c 0 from rfl]; unfold Phi2
    iintro ⟨Hp, -, Hr⟩
    ihave Hr' := (Entails.of_eq hs) $$ Hr
    icases Hr' with ⟨⟨⟨%f0, H0⟩, ⟨%f1, H1⟩⟩, Hrb⟩
    isplitl [H0 H1]
    · iexists f0; iexists f1; isplitr; · ipureintro; intro h; exact absurd rfl h
      isplitl [H0]
      · iapply (Entails.of_eq (owns_whole (c : Thread nD τ) cc2_scratch0 fullShare f0).symm); iexact H0
      · iapply (Entails.of_eq (owns_whole (c : Thread nD τ) cc2_scratch1 fullShare f1).symm); iexact H1
    isplitl [Hrb]; · iexact Hrb
    iexact Hp
  hout c := by
    have hs := scopedRest2_split (Ix := Unit) (Val := Elt F) (Name := ℕ) (U := UR sig nD τ) (Lvl := ℕ) c
    rw [Pipeline.ownSems0_none]
    show Phi2 (Ent5 m ρ) c _ ⊢ _
    unfold Phi2
    iintro ⟨⟨%X0, %X1, -, H0, H1⟩, Hrb, Hp⟩
    isplitl [Hp]; · iexact Hp
    isplitr; · iempintro
    iapply (Entails.of_eq hs.symm)
    isplitl [H0 H1]
    · isplitl [H0]
      · iexists X0; iapply (Entails.of_eq (owns_whole (c : Thread nD τ) cc2_scratch0 fullShare X0)); iexact H0
      · iexists X1; iapply (Entails.of_eq (owns_whole (c : Thread nD τ) cc2_scratch1 fullShare X1)); iexact H1
    iexact Hrb
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ent5 m ρ c) (Ext6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 3: entered from every unscoped buffer at W7, left at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Ent7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (Ent7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Ent7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Ent7 m ρ c) (Ext8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 4: entered from every unscoped buffer at W9, left at W10. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Ent9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (Ent9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Ent9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hs := scopedRest4_split (Ix := Unit) (Val := Elt F) (Name := ℕ) (U := UR sig nD τ) (Lvl := ℕ) c
    rw [show (pdats m ρ 4 c).Φ 0 = Phi4 (Ent9 m ρ) c 0 from rfl]; unfold Phi4
    iintro ⟨Hp, -, Hr⟩
    ihave Hr' := (Entails.of_eq hs) $$ Hr
    icases Hr' with ⟨⟨⟨%f0, H0⟩, ⟨%f1, H1⟩⟩, Hrb⟩
    isplitl [H0 H1]
    · iexists f0; iexists f1; isplitr; · ipureintro; intro h; exact absurd rfl h
      isplitl [H0]
      · iapply (Entails.of_eq (owns_whole (c : Thread nD τ) cc4_scratch0 fullShare f0).symm); iexact H0
      · iapply (Entails.of_eq (owns_whole (c : Thread nD τ) cc4_scratch1 fullShare f1).symm); iexact H1
    isplitl [Hrb]; · iexact Hrb
    iexact Hp
  hout c := by
    have hs := scopedRest4_split (Ix := Unit) (Val := Elt F) (Name := ℕ) (U := UR sig nD τ) (Lvl := ℕ) c
    rw [Pipeline.ownSems0_none]
    show Phi4 (Ent9 m ρ) c _ ⊢ _
    unfold Phi4
    iintro ⟨⟨%X0, %X1, -, H0, H1⟩, Hrb, Hp⟩
    isplitl [Hp]; · iexact Hp
    isplitr; · iempintro
    iapply (Entails.of_eq hs.symm)
    isplitl [H0 H1]
    · isplitl [H0]
      · iexists X0; iapply (Entails.of_eq (owns_whole (c : Thread nD τ) cc4_scratch0 fullShare X0)); iexact H0
      · iexists X1; iapply (Entails.of_eq (owns_whole (c : Thread nD τ) cc4_scratch1 fullShare X1)); iexact H1
    iexact Hrb
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Ent9 m ρ c) (Ext10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 4000000 in
set_option backward.isDefEq.respectTransparency.types false in
/-- REGION 5: entered from every unscoped buffer at W11, left at W12. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Ent11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (Ent11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Ent11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Ent11 m ρ c) (Ext12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

theorem main_run (c : Dev nD) : main (F := F) c = Pipeline.Seg.run (segs m ρ) := (main_chain c).trans (by chain_rfl)

set_option backward.isDefEq.respectTransparency.types false in
/-- At the compiled mesh, at any float instance, from any memory with zero counters: every weakly fair execution of
    @main terminates, nothing faulting, and every final state has each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W13 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- THE FRAME: every weakly fair execution terminates with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W13_main_arg0 m ρ c),
     (h c _ (mem_uc main_arg1 (by decide))).trans (W13_main_arg1 m ρ c),
     (h c _ (mem_uc main_arg2 (by decide))).trans (W13_main_arg2 m ρ c),
     (h c _ (mem_uc main_arg3 (by decide))).trans (W13_main_arg3 m ρ c),
     (h c _ (mem_uc main_arg4 (by decide))).trans (W13_main_arg4 m ρ c),
     (h c _ (mem_uc main_arg5 (by decide))).trans (W13_main_arg5 m ρ c),
     (h c _ (mem_uc main_arg6 (by decide))).trans (W13_main_arg6 m ρ c),
     (h c _ (mem_uc main_arg7 (by decide))).trans (W13_main_arg7 m ρ c),
     (h c _ (mem_uc main_arg8 (by decide))).trans (W13_main_arg8 m ρ c)⟩) (run_all m ρ)

end Cert.KernelIdeal.Hand

end
-- ==== Proof.RefTerms.lean ====
/-
  The reference's host chain, one named function per piece of a layer.

  Every function here is the host operations' own term at the ideal float instance, kept as a name: the gather and
  scatter-add that sum the neighbours' features, the two dense maps with their rectifiers, the column mean, the
  outlined variance (the mean of squared deviations, selected against the count being positive), the
  normalisation, the parameter slices, the per-graph pooling and the two concatenations. A layer is their
  composition; the three layers are that composition iterated.
-/
import proofs.«100772_j6322191859838_1_alg».proof.Proof.Gen.ReferenceIdeal
import Idealize.ShloMosaic.PureOps.Ideal

noncomputable section

namespace Cert.ReferenceIdeal.RefVal

open Cert.ReferenceIdeal Cert.ReferenceIdeal.Gen Idealize.ShloMosaic

/-- The edge endpoints of row k of the edge list, as a flat vector. -/
def srcT (e : IVec S2x1600000 32) : IVec S1600000 32 :=
  shapeCast S1600000 (extractStridedSlice S1x1600000 ![0, 0] e slices_S2x1600000_S1x1600000_0_0) shapeCasts_S1x1600000_S1600000
def dstT (e : IVec S2x1600000 32) : IVec S1600000 32 :=
  shapeCast S1600000 (extractStridedSlice S1x1600000 ![1, 0] e slices_S2x1600000_S1x1600000_1_0) shapeCasts_S1x1600000_S1600000

/-- Layer k's matrix out of the stacked [3, 128, 128] parameter. -/
def mat0T (W : FVec Ideal S3x128x128 .f32) : FVec Ideal S128x128 .f32 :=
  shapeCast S128x128 (extractStridedSlice S1x128x128 ![0, 0, 0] W slices_S3x128x128_S1x128x128_0_0_0) shapeCasts_S1x128x128_S128x128
def mat1T (W : FVec Ideal S3x128x128 .f32) : FVec Ideal S128x128 .f32 :=
  shapeCast S128x128 (extractStridedSlice S1x128x128 ![1, 0, 0] W slices_S3x128x128_S1x128x128_1_0_0) shapeCasts_S1x128x128_S128x128
def mat2T (W : FVec Ideal S3x128x128 .f32) : FVec Ideal S128x128 .f32 :=
  shapeCast S128x128 (extractStridedSlice S1x128x128 ![2, 0, 0] W slices_S3x128x128_S1x128x128_2_0_0) shapeCasts_S1x128x128_S128x128

/-- Layer k's row out of a stacked [3, 128] parameter. -/
def vec0T (b : FVec Ideal S3x128 .f32) : FVec Ideal S128 .f32 :=
  shapeCast S128 (extractStridedSlice S1x128 ![0, 0] b slices_S3x128_S1x128_0_0) shapeCasts_S1x128_S128
def vec1T (b : FVec Ideal S3x128 .f32) : FVec Ideal S128 .f32 :=
  shapeCast S128 (extractStridedSlice S1x128 ![1, 0] b slices_S3x128_S1x128_1_0) shapeCasts_S1x128_S128
def vec2T (b : FVec Ideal S3x128 .f32) : FVec Ideal S128 .f32 :=
  shapeCast S128 (extractStridedSlice S1x128 ![2, 0] b slices_S3x128_S1x128_2_0) shapeCasts_S1x128_S128

/-- Source indices with a negative entry wrapped by the row count. -/
def wrapT (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The sum of the neighbours' features: gather the rows at the edges' sources, scatter-add them at the destinations. -/
def aggrT (z : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 z
      (broadcastInDim S1600000x1 ![0] bcast_S1600000_S1600000x1_0 (wrapT src)))

/-- A row as [1, 128]. -/
def row1T (b : FVec Ideal S128 .f32) : FVec Ideal S1x128 .f32 := broadcastInDim S1x128 ![1] bcast_S128_S1x128_1 b

/-- A row sent to every row of a [100000, 128] array. -/
def rowsT (b : FVec Ideal S128 .f32) : FVec Ideal S100000x128 .f32 :=
  broadcastInDim S100000x128 ![0, 1] bcast_S1x128_S100000x128_0_1 (row1T b)

/-- The outlined rectifier: the maximum with a broadcast zero. -/
def reluT (x : FVec Ideal S100000x128 .f32) : FVec Ideal S100000x128 .f32 :=
  maximumf x (broadcastInDim S100000x128 ![] bcast_S_S100000x128 (constant (F := Ideal) S_ .f32 0x00000000#32))

/-- One dense map: product, bias row, rectifier. -/
def denseT (x : FVec Ideal S100000x128 .f32) (W : FVec Ideal S128x128 .f32) (b : FVec Ideal S128 .f32) : FVec Ideal S100000x128 .f32 :=
  reluT (addf (Host.dotGeneral (F := Ideal) dot_S100000x128_S128x128_S100000x128_1_0_0_1_n_n none x W) (rowsT b))

/-- The hidden features from the features and their aggregate. -/
def hiddenT (z aggr : FVec Ideal S100000x128 .f32) (W1 : FVec Ideal S128x128 .f32) (b1 : FVec Ideal S128 .f32)
    (W2 : FVec Ideal S128x128 .f32) (b2 : FVec Ideal S128 .f32) : FVec Ideal S100000x128 .f32 :=
  denseT (denseT (addf z aggr) W1 b1) W2 b2

/-- The column sums. -/
def sumT (h : FVec Ideal S100000x128 .f32) : FVec Ideal S128 .f32 :=
  Host.reduceAdd (F := Ideal) h (constant (F := Ideal) S_ .f32 0x00000000#32) reducesTo_S100000x128_S128_d0 h_S_

/-- The column means. -/
def meanT (h : FVec Ideal S100000x128 .f32) : FVec Ideal S128 .f32 :=
  Host.divf (F := Ideal) (sumT h) (broadcastInDim S128 ![] bcast_S_S128 (constant (F := Ideal) S_ .f32 0x47C35000#32))

/-- The outlined variance's deviations: the array less its column means kept as a [1, 128] row. -/
def devT (h : FVec Ideal S100000x128 .f32) : FVec Ideal S100000x128 .f32 :=
  subf h (broadcastInDim S100000x128 ![0, 1] bcast_S1x128_S100000x128_0_1
    (Host.divf (F := Ideal) (broadcastInDim S1x128 ![1] bcast_S128_S1x128_1 (sumT h))
      (broadcastInDim S1x128 ![] bcast_S_S1x128 (constant (F := Ideal) S_ .f32 0x47C35000#32))))

/-- The outlined variance's count: the word for 100000 less the correction 0 as a float. -/
def countT : FVec Ideal S_ .f32 :=
  subf (constant (F := Ideal) S_ .f32 0x47C35000#32) (sitofp (F := Ideal) .f32 (constantI S_ 32 0#32))

/-- The outlined variance: the mean of squared deviations where the count is positive, else the quiet-NaN word. -/
def varT (h : FVec Ideal S100000x128 .f32) : FVec Ideal S128 .f32 :=
  select (broadcastInDim S128 ![] bcast_S_S128 (cmpf .ogt countT (constant (F := Ideal) S_ .f32 0x00000000#32)))
    (Host.divf (F := Ideal)
      (Host.reduceAdd (F := Ideal) (mulf (devT h) (devT h)) (constant (F := Ideal) S_ .f32 0x00000000#32) reducesTo_S100000x128_S128_d0 h_S_)
      (broadcastInDim S128 ![] bcast_S_S128 countT))
    (broadcastInDim S128 ![] bcast_S_S128 (id (constant (F := Ideal) S_ .f32 0x7FC00000#32)))

/-- The normalised and scaled features, before the shift. -/
def scaledT (h : FVec Ideal S100000x128 .f32) (gamma : FVec Ideal S128 .f32) : FVec Ideal S100000x128 .f32 :=
  mulf (mulf (subf h (rowsT (meanT h)))
      (rowsT (Host.rsqrt (F := Ideal) (addf (varT h) (broadcastInDim S128 ![] bcast_S_S128 (constant (F := Ideal) S_ .f32 0x3727C5AC#32))))))
    (rowsT gamma)

/-- Batch normalisation of the hidden features. -/
def bnT (h : FVec Ideal S100000x128 .f32) (gamma beta : FVec Ideal S128 .f32) : FVec Ideal S100000x128 .f32 :=
  addf (scaledT h gamma) (rowsT beta)

/-- One layer of the reference. -/
def layerT (z : FVec Ideal S100000x128 .f32) (src dst : IVec S1600000 32) (W1 : FVec Ideal S128x128 .f32) (b1 : FVec Ideal S128 .f32)
    (W2 : FVec Ideal S128x128 .f32) (b2 gamma beta : FVec Ideal S128 .f32) : FVec Ideal S100000x128 .f32 :=
  bnT (hiddenT z (aggrT z src dst) W1 b1 W2 b2) gamma beta

/-- The per-graph sums of a layer's output. -/
def poolT (z : FVec Ideal S100000x128 .f32) (batch : IVec S100000 32) : FVec Ideal S128x128 .f32 :=
  Host.scatterAdd (F := Ideal) scatter_S128x128_S100000x1_S100000x128_1_0_0_1
    (broadcastInDim S128x128 ![] bcast_S_S128x128 (constant (F := Ideal) S_ .f32 0x00000000#32))
    (broadcastInDim S100000x1 ![0] bcast_S100000_S100000x1_0 batch) z

/-- The three layers' outputs side by side. -/
def catNodesT (z1 z2 z3 : FVec Ideal S100000x128 .f32) : FVec Ideal S100000x384 .f32 :=
  concatenate S100000x384 1 [⟨S100000x128, z1⟩, ⟨S100000x128, z2⟩, ⟨S100000x128, z3⟩] concatenates_S100000x128_S100000x128_S100000x128_S100000x384_d1

/-- The three pooled outputs side by side. -/
def catGraphsT (g1 g2 g3 : FVec Ideal S128x128 .f32) : FVec Ideal S128x384 .f32 :=
  concatenate S128x384 1 [⟨S128x128, g1⟩, ⟨S128x128, g2⟩, ⟨S128x128, g3⟩] concatenates_S128x128_S128x128_S128x128_S128x384_d1

end Cert.ReferenceIdeal.RefVal

end
-- ==== Proof.RefValue0.lean ====
/-
  The reference's first stretch read back: the edge endpoints, the first layer's last parameter slice, and the first
  layer up to the scaling by gamma, each as the named host term of the arguments; the arguments themselves unchanged.
-/
import proofs.«100772_j6322191859838_1_alg».proof.Proof.RefOps
import proofs.«100772_j6322191859838_1_alg».proof.Proof.RefTerms

set_option maxRecDepth 8192

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- Buffer contents at the ideal instance. -/
abbrev Val : Type := Valuation τ sig (Elt Ideal)

/-- The edge sources and destinations. -/
def src (V : Val) : IVec S1600000 32 := srcT (V (Proc.devRef .tc main_arg1))
def dst (V : Val) : IVec S1600000 32 := dstT (V (Proc.devRef .tc main_arg1))

/-- The first layer's hidden features. -/
def h1 (V : Val) : FVec Ideal S100000x128 .f32 :=
  hiddenT (V (Proc.devRef .tc main_arg0)) (aggrT (V (Proc.devRef .tc main_arg0)) (src V) (dst V)) (mat0T (V (Proc.devRef .tc main_arg3))) (vec0T (V (Proc.devRef .tc main_arg4))) (mat0T (V (Proc.devRef .tc main_arg5))) (vec0T (V (Proc.devRef .tc main_arg6)))

/-- The contents after the first stretch. -/
def val1 (V : Val) : Val := after ops0 V

set_option maxHeartbeats 2000000 in
theorem val1_v1 (V : Val) : val1 V (no_index (Proc.devRef .tc main_v1)) = src V := by
  unfold val1
  simp only [ops0]
  after_results_simp
  rfl

set_option maxHeartbeats 2000000 in
theorem val1_v3 (V : Val) : val1 V (no_index (Proc.devRef .tc main_v3)) = dst V := by
  unfold val1
  simp only [ops0]
  after_results_simp
  rfl

set_option maxHeartbeats 2000000 in
theorem val1_v15 (V : Val) : val1 V (no_index (Proc.devRef .tc main_v15)) = vec0T (V (Proc.devRef .tc main_arg8)) := by
  unfold val1
  simp only [ops0]
  after_results_simp
  rfl

set_option maxHeartbeats 4000000 in
theorem val1_v52 (V : Val) : val1 V (no_index (Proc.devRef .tc main_v52)) = scaledT (h1 V) (vec0T (V (Proc.devRef .tc main_arg7))) := by
  unfold val1
  simp only [ops0]
  after_results_simp
  rfl

theorem val1_arg2 (V : Val) : val1 V (no_index (Proc.devRef .tc main_arg2)) = V (Proc.devRef .tc main_arg2) :=
  after_of_writes_sub ops0 _ ops0_writes (by decide : main_arg2 ∉ W0)

theorem val1_arg3 (V : Val) : val1 V (no_index (Proc.devRef .tc main_arg3)) = V (Proc.devRef .tc main_arg3) :=
  after_of_writes_sub ops0 _ ops0_writes (by decide : main_arg3 ∉ W0)

theorem val1_arg4 (V : Val) : val1 V (no_index (Proc.devRef .tc main_arg4)) = V (Proc.devRef .tc main_arg4) :=
  after_of_writes_sub ops0 _ ops0_writes (by decide : main_arg4 ∉ W0)

theorem val1_arg5 (V : Val) : val1 V (no_index (Proc.devRef .tc main_arg5)) = V (Proc.devRef .tc main_arg5) :=
  after_of_writes_sub ops0 _ ops0_writes (by decide : main_arg5 ∉ W0)

theorem val1_arg6 (V : Val) : val1 V (no_index (Proc.devRef .tc main_arg6)) = V (Proc.devRef .tc main_arg6) :=
  after_of_writes_sub ops0 _ ops0_writes (by decide : main_arg6 ∉ W0)

theorem val1_arg7 (V : Val) : val1 V (no_index (Proc.devRef .tc main_arg7)) = V (Proc.devRef .tc main_arg7) :=
  after_of_writes_sub ops0 _ ops0_writes (by decide : main_arg7 ∉ W0)

theorem val1_arg8 (V : Val) : val1 V (no_index (Proc.devRef .tc main_arg8)) = V (Proc.devRef .tc main_arg8) :=
  after_of_writes_sub ops0 _ ops0_writes (by decide : main_arg8 ∉ W0)

end Cert.ReferenceIdeal.RefVal

end
-- ==== Proof.RefValue1.lean ====
/-
  The reference's second stretch read back: the first layer's output, and the second layer up to the scaling by
  gamma with its shift row, each as the named host term of the arguments.
-/
import proofs.«100772_j6322191859838_1_alg».proof.Proof.RefOps
import proofs.«100772_j6322191859838_1_alg».proof.Proof.RefTerms
import proofs.«100772_j6322191859838_1_alg».proof.Proof.RefValue0
set_option maxRecDepth 8192

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- The first layer's output. -/
def z1 (V : Val) : FVec Ideal S100000x128 .f32 := bnT (h1 V) (vec0T (V (Proc.devRef .tc main_arg7))) (vec0T (V (Proc.devRef .tc main_arg8)))

/-- The second layer's hidden features. -/
def h2 (V : Val) : FVec Ideal S100000x128 .f32 :=
  hiddenT (z1 V) (aggrT (z1 V) (src V) (dst V)) (mat1T (V (Proc.devRef .tc main_arg3))) (vec1T (V (Proc.devRef .tc main_arg4))) (mat1T (V (Proc.devRef .tc main_arg5))) (vec1T (V (Proc.devRef .tc main_arg6)))

/-- The contents after the second stretch. -/
def val2 (V : Val) : Val := after ops1 (val1 V)

theorem val2_v1 (V : Val) : val2 V (no_index (Proc.devRef .tc main_v1)) = src V :=
  (after_of_writes_sub ops1 _ ops1_writes (by decide : main_v1 ∉ W1)).trans (val1_v1 V)

theorem val2_v3 (V : Val) : val2 V (no_index (Proc.devRef .tc main_v3)) = dst V :=
  (after_of_writes_sub ops1 _ ops1_writes (by decide : main_v3 ∉ W1)).trans (val1_v3 V)

set_option maxHeartbeats 2000000 in
theorem val2_v55 (V : Val) : val2 V (no_index (Proc.devRef .tc main_v55)) = z1 V := by
  unfold val2
  simp only [ops1]
  after_results_simp
  simp only [val1_v52, val1_v15] <;> rfl

set_option maxHeartbeats 4000000 in
theorem val2_v104 (V : Val) : val2 V (no_index (Proc.devRef .tc main_v104)) = scaledT (h2 V) (vec1T (V (Proc.devRef .tc main_arg7))) := by
  unfold val2
  simp only [ops1]
  after_results_simp
  simp only [val1_v1, val1_v3, val1_v15, val1_v52, val1_arg3, val1_arg4, val1_arg5, val1_arg6, val1_arg7, val1_arg8] <;> rfl

set_option maxHeartbeats 2000000 in
theorem val2_v105 (V : Val) : val2 V (no_index (Proc.devRef .tc main_v105)) = row1T (vec1T (V (Proc.devRef .tc main_arg8))) := by
  unfold val2
  simp only [ops1]
  after_results_simp
  simp only [val1_v1, val1_v3, val1_v15, val1_v52, val1_arg3, val1_arg4, val1_arg5, val1_arg6, val1_arg7, val1_arg8] <;> rfl

theorem val2_arg2 (V : Val) : val2 V (no_index (Proc.devRef .tc main_arg2)) = V (Proc.devRef .tc main_arg2) :=
  (after_of_writes_sub ops1 _ ops1_writes (by decide : main_arg2 ∉ W1)).trans (val1_arg2 V)

theorem val2_arg3 (V : Val) : val2 V (no_index (Proc.devRef .tc main_arg3)) = V (Proc.devRef .tc main_arg3) :=
  (after_of_writes_sub ops1 _ ops1_writes (by decide : main_arg3 ∉ W1)).trans (val1_arg3 V)

theorem val2_arg4 (V : Val) : val2 V (no_index (Proc.devRef .tc main_arg4)) = V (Proc.devRef .tc main_arg4) :=
  (after_of_writes_sub ops1 _ ops1_writes (by decide : main_arg4 ∉ W1)).trans (val1_arg4 V)

theorem val2_arg5 (V : Val) : val2 V (no_index (Proc.devRef .tc main_arg5)) = V (Proc.devRef .tc main_arg5) :=
  (after_of_writes_sub ops1 _ ops1_writes (by decide : main_arg5 ∉ W1)).trans (val1_arg5 V)

theorem val2_arg6 (V : Val) : val2 V (no_index (Proc.devRef .tc main_arg6)) = V (Proc.devRef .tc main_arg6) :=
  (after_of_writes_sub ops1 _ ops1_writes (by decide : main_arg6 ∉ W1)).trans (val1_arg6 V)

theorem val2_arg7 (V : Val) : val2 V (no_index (Proc.devRef .tc main_arg7)) = V (Proc.devRef .tc main_arg7) :=
  (after_of_writes_sub ops1 _ ops1_writes (by decide : main_arg7 ∉ W1)).trans (val1_arg7 V)

theorem val2_arg8 (V : Val) : val2 V (no_index (Proc.devRef .tc main_arg8)) = V (Proc.devRef .tc main_arg8) :=
  (after_of_writes_sub ops1 _ ops1_writes (by decide : main_arg8 ∉ W1)).trans (val1_arg8 V)

end Cert.ReferenceIdeal.RefVal

end
-- ==== Proof.RefValue2.lean ====
/-
  The reference's third stretch read back: the second layer's output, and the third layer up to the scaling by
  gamma with its shift rows, each as the named host term of the arguments.
-/
import proofs.«100772_j6322191859838_1_alg».proof.Proof.RefOps
import proofs.«100772_j6322191859838_1_alg».proof.Proof.RefTerms
import proofs.«100772_j6322191859838_1_alg».proof.Proof.RefValue1
set_option maxRecDepth 8192

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- The second layer's output. -/
def z2 (V : Val) : FVec Ideal S100000x128 .f32 := bnT (h2 V) (vec1T (V (Proc.devRef .tc main_arg7))) (vec1T (V (Proc.devRef .tc main_arg8)))

/-- The third layer's hidden features. -/
def h3 (V : Val) : FVec Ideal S100000x128 .f32 :=
  hiddenT (z2 V) (aggrT (z2 V) (src V) (dst V)) (mat2T (V (Proc.devRef .tc main_arg3))) (vec2T (V (Proc.devRef .tc main_arg4))) (mat2T (V (Proc.devRef .tc main_arg5))) (vec2T (V (Proc.devRef .tc main_arg6)))

/-- The contents after the third stretch. -/
def val3 (V : Val) : Val := after ops2 (val2 V)

theorem val3_v55 (V : Val) : val3 V (no_index (Proc.devRef .tc main_v55)) = z1 V :=
  (after_of_writes_sub ops2 _ ops2_writes (by decide : main_v55 ∉ W2)).trans (val2_v55 V)

set_option maxHeartbeats 2000000 in
theorem val3_v107 (V : Val) : val3 V (no_index (Proc.devRef .tc main_v107)) = z2 V := by
  unfold val3
  simp only [ops2]
  after_results_simp
  simp only [val2_v104, val2_v105] <;> rfl

set_option maxHeartbeats 4000000 in
theorem val3_v156 (V : Val) : val3 V (no_index (Proc.devRef .tc main_v156)) = scaledT (h3 V) (vec2T (V (Proc.devRef .tc main_arg7))) := by
  unfold val3
  simp only [ops2]
  after_results_simp
  simp only [val2_v1, val2_v3, val2_v104, val2_v105, val2_arg3, val2_arg4, val2_arg5, val2_arg6, val2_arg7, val2_arg8] <;> rfl

set_option maxHeartbeats 2000000 in
theorem val3_v158 (V : Val) : val3 V (no_index (Proc.devRef .tc main_v158)) = rowsT (vec2T (V (Proc.devRef .tc main_arg8))) := by
  unfold val3
  simp only [ops2]
  after_results_simp
  simp only [val2_v1, val2_v3, val2_v104, val2_v105, val2_arg3, val2_arg4, val2_arg5, val2_arg6, val2_arg7, val2_arg8] <;> rfl

theorem val3_arg2 (V : Val) : val3 V (no_index (Proc.devRef .tc main_arg2)) = V (Proc.devRef .tc main_arg2) :=
  (after_of_writes_sub ops2 _ ops2_writes (by decide : main_arg2 ∉ W2)).trans (val2_arg2 V)

end Cert.ReferenceIdeal.RefVal

end
-- ==== Proof.RefValue3.lean ====
/-
  The reference's results as functions of its arguments.

  The last stretch adds the third layer's shift, pools each layer's output per graph and sets the three outputs, and
  the three pooled outputs, side by side. It is read in two steps: the thirteen operations before the two
  concatenations, then the concatenations, each operand of which is one of the buffers just read. With the earlier
  stretches this gives both results of the reference as the named host terms of the arguments: three layers, each
  applied to the one before, the edge endpoints and that layer's parameter slices.
-/
import proofs.«100772_j6322191859838_1_alg».proof.Proof.RefOps
import proofs.«100772_j6322191859838_1_alg».proof.Proof.RefTerms
import proofs.«100772_j6322191859838_1_alg».proof.Proof.RefValue2
set_option maxRecDepth 8192

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

/-- The third layer's output. -/
def z3 (V : Val) : FVec Ideal S100000x128 .f32 := bnT (h3 V) (vec2T (V (Proc.devRef .tc main_arg7))) (vec2T (V (Proc.devRef .tc main_arg8)))

section
variable {F : FTy → Type} [FloatOps F]

/-- The last stretch before its two concatenations. -/
abbrev ops3a : List (HloOp τ sig (Elt F)) :=
  [ StableHlo.binary main_v156 main_v158 main_v159 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v160 (broadcastInDim S128x128 ![] bcast_S_S128x128 : (⟨S_, .f32⟩ : BufTy).Contents (Elt F) → (⟨S128x128, .f32⟩ : BufTy).Contents (Elt F)),
    StableHlo.unary main_arg2 main_v161 (broadcastInDim S100000x1 ![0] bcast_S100000_S100000x1_0 : (⟨S100000, .i32⟩ : BufTy).Contents (Elt F) → (⟨S100000x1, .i32⟩ : BufTy).Contents (Elt F)),
    StableHlo.ternary main_v160 main_v161 main_v55 main_v162 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_20 (constant S_ .f32 0x00000000#32),
    StableHlo.unary main_cst_20 main_v163 (broadcastInDim S128x128 ![] bcast_S_S128x128 : (⟨S_, .f32⟩ : BufTy).Contents (Elt F) → (⟨S128x128, .f32⟩ : BufTy).Contents (Elt F)),
    StableHlo.unary main_arg2 main_v164 (broadcastInDim S100000x1 ![0] bcast_S100000_S100000x1_0 : (⟨S100000, .i32⟩ : BufTy).Contents (Elt F) → (⟨S100000x1, .i32⟩ : BufTy).Contents (Elt F)),
    StableHlo.ternary main_v163 main_v164 main_v107 main_v165 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_21 (constant S_ .f32 0x00000000#32),
    StableHlo.unary main_cst_21 main_v166 (broadcastInDim S128x128 ![] bcast_S_S128x128 : (⟨S_, .f32⟩ : BufTy).Contents (Elt F) → (⟨S128x128, .f32⟩ : BufTy).Contents (Elt F)),
    StableHlo.unary main_arg2 main_v167 (broadcastInDim S100000x1 ![0] bcast_S100000_S100000x1_0 : (⟨S100000, .i32⟩ : BufTy).Contents (Elt F) → (⟨S100000x1, .i32⟩ : BufTy).Contents (Elt F)),
    StableHlo.ternary main_v166 main_v167 main_v159 main_v168 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)) ]

/-- The two concatenations. -/
abbrev ops3b : List (HloOp τ sig (Elt F)) :=
  [ StableHlo.nary ![main_v55, main_v107, main_v159] main_v169 (fun u => concatenate S100000x384 1 [⟨S100000x128, u 0⟩, ⟨S100000x128, u 1⟩, ⟨S100000x128, u 2⟩] concatenates_S100000x128_S100000x128_S100000x128_S100000x384_d1),
    StableHlo.nary ![main_v162, main_v165, main_v168] main_v170 (fun u => concatenate S128x384 1 [⟨S128x128, u 0⟩, ⟨S128x128, u 1⟩, ⟨S128x128, u 2⟩] concatenates_S128x128_S128x128_S128x128_S128x384_d1) ]

theorem ops3_split : (ops3 : List (HloOp τ sig (Elt F))) = ops3a ++ ops3b := rfl

end

/-- The contents before the two concatenations. -/
def val3b (V : Val) : Val := after ops3a (val3 V)

/-- The contents after the last stretch. -/
def val4 (V : Val) : Val := after ops3 (val3 V)

theorem val4_eq (V : Val) : val4 V = after ops3b (val3b V) := by
  unfold val4 val3b
  rw [ops3_split, after_two]

set_option maxHeartbeats 2000000 in
theorem val3b_v55 (V : Val) : val3b V (no_index (Proc.devRef .tc main_v55)) = z1 V := by
  unfold val3b
  simp only [ops3a]
  after_results_simp
  simp only [val3_v55] <;> rfl

set_option maxHeartbeats 2000000 in
theorem val3b_v107 (V : Val) : val3b V (no_index (Proc.devRef .tc main_v107)) = z2 V := by
  unfold val3b
  simp only [ops3a]
  after_results_simp
  simp only [val3_v107] <;> rfl

set_option maxHeartbeats 2000000 in
theorem val3b_v159 (V : Val) : val3b V (no_index (Proc.devRef .tc main_v159)) = z3 V := by
  unfold val3b
  simp only [ops3a]
  after_results_simp
  simp only [val3_v156, val3_v158] <;> rfl

set_option maxHeartbeats 2000000 in
theorem val3b_v162 (V : Val) : val3b V (no_index (Proc.devRef .tc main_v162)) = poolT (z1 V) (V (Proc.devRef .tc main_arg2)) := by
  unfold val3b
  simp only [ops3a]
  after_results_simp
  simp only [val3_v55, val3_arg2] <;> rfl

set_option maxHeartbeats 2000000 in
theorem val3b_v165 (V : Val) : val3b V (no_index (Proc.devRef .tc main_v165)) = poolT (z2 V) (V (Proc.devRef .tc main_arg2)) := by
  unfold val3b
  simp only [ops3a]
  after_results_simp
  simp only [val3_v107, val3_arg2] <;> rfl

set_option maxHeartbeats 2000000 in
theorem val3b_v168 (V : Val) : val3b V (no_index (Proc.devRef .tc main_v168)) = poolT (z3 V) (V (Proc.devRef .tc main_arg2)) := by
  unfold val3b
  simp only [ops3a]
  after_results_simp
  simp only [val3_v156, val3_v158, val3_arg2] <;> rfl

theorem val4_v169 (V : Val) : val4 V (Proc.devRef .tc main_v169) = catNodesT (z1 V) (z2 V) (z3 V) := by
  rw [val4_eq]
  simp only [ops3b]
  after_results
  rw [← val3b_v55 V, ← val3b_v107 V, ← val3b_v159 V]
  rfl

theorem val4_v170 (V : Val) : val4 V (Proc.devRef .tc main_v170) = catGraphsT (poolT (z1 V) (V (Proc.devRef .tc main_arg2))) (poolT (z2 V) (V (Proc.devRef .tc main_arg2))) (poolT (z3 V) (V (Proc.devRef .tc main_arg2))) := by
  rw [val4_eq]
  simp only [ops3b]
  after_results
  rw [← val3b_v162 V, ← val3b_v165 V, ← val3b_v168 V]
  rfl

/-- The four stretches in order are the whole line. -/
theorem after_ops (V : Val) : after ops V = val4 V := by
  simp only [ops, after_two]
  rfl

/-- The reference's first result: the three layers' outputs side by side. -/
theorem ref_nodes (V : Val) :
    after ops V (Proc.devRef .tc main_v169) = catNodesT (z1 V) (z2 V) (z3 V) := by
  rw [after_ops]; exact val4_v169 V

/-- The reference's second result: the three layers' pooled outputs side by side. -/
theorem ref_graphs (V : Val) :
    after ops V (Proc.devRef .tc main_v170)
      = catGraphsT (poolT (z1 V) (V (Proc.devRef .tc main_arg2))) (poolT (z2 V) (V (Proc.devRef .tc main_arg2))) (poolT (z3 V) (V (Proc.devRef .tc main_arg2))) := by
  rw [after_ops]; exact val4_v170 V

/-- Each layer is the one function of the layer before, the edge endpoints and that layer's parameter slices. -/
theorem z1_eq (V : Val) : z1 V = layerT (V (Proc.devRef .tc main_arg0)) (src V) (dst V) (mat0T (V (Proc.devRef .tc main_arg3))) (vec0T (V (Proc.devRef .tc main_arg4))) (mat0T (V (Proc.devRef .tc main_arg5))) (vec0T (V (Proc.devRef .tc main_arg6))) (vec0T (V (Proc.devRef .tc main_arg7))) (vec0T (V (Proc.devRef .tc main_arg8))) := rfl
theorem z2_eq (V : Val) : z2 V = layerT (z1 V) (src V) (dst V) (mat1T (V (Proc.devRef .tc main_arg3))) (vec1T (V (Proc.devRef .tc main_arg4))) (mat1T (V (Proc.devRef .tc main_arg5))) (vec1T (V (Proc.devRef .tc main_arg6))) (vec1T (V (Proc.devRef .tc main_arg7))) (vec1T (V (Proc.devRef .tc main_arg8))) := rfl
theorem z3_eq (V : Val) : z3 V = layerT (z2 V) (src V) (dst V) (mat2T (V (Proc.devRef .tc main_arg3))) (vec2T (V (Proc.devRef .tc main_arg4))) (mat2T (V (Proc.devRef .tc main_arg5))) (vec2T (V (Proc.devRef .tc main_arg6))) (vec2T (V (Proc.devRef .tc main_arg7))) (vec2T (V (Proc.devRef .tc main_arg8))) := rfl

end Cert.ReferenceIdeal.RefVal

end
-- ==== Proof.Spec.lean ====
/-
  One layer of the network as index-level functions on the extended reals.

  A matrix is a function of a row and a column, a row vector a function of a column. One layer sends the
  aggregated features a (= z + sum of the neighbours' z) through two dense maps, each "product, add the bias
  row, maximum with zero", to the hidden features h; takes per column the mean mu of h over its n rows (the sum
  divided by the float word for 100000) and a variance v; and returns (h - mu) * rsqrt (v + eps) * gamma + beta.
  Two spellings of the variance: the mean of the squared deviations from mu, and the mean of the squares less
  mu * mu. On finite entries over exactly 100000 rows they are one number; on the extended reals they are two
  functions, so both are named here and the layer is stated with each.

  The float words: 0x47C35000 is 100000, 0x3727C5AC is the eps of the normalisation.
-/
import Idealize.ShloMosaic.PureOps.Ideal
import Idealize.ShloMosaic.Lib.ValueIdx
import Mathlib.Algebra.BigOperators.Group.Finset.Basic

noncomputable section

open scoped BigOperators

namespace Cert.Spec

open Idealize.ShloMosaic Idealize.ShloMosaic.ValueIdx

/-- A matrix of extended reals: entry (row, column). -/
abbrev Mat (a b : ℕ) : Type := Fin a → Fin b → EReal

/-- A row vector of extended reals. -/
abbrev Row (b : ℕ) : Type := Fin b → EReal

/-- A rank-2 array read as a matrix. -/
def mat {a b : ℕ} (x : (⟨2, ![a, b]⟩ : Shape).Idx → EReal) : Mat a b := fun r j => x (ix2 r j)

/-- A rank-1 array read as a row vector. -/
def row {b : ℕ} (x : (⟨1, ![b]⟩ : Shape).Idx → EReal) : Row b := fun j => x (ix1 j)

/-- A [1, b] array read as a row vector. -/
def row1 {b : ℕ} (x : (⟨2, ![1, b]⟩ : Shape).Idx → EReal) : Row b := fun j => x (ix2 (0 : Fin 1) j)

@[simp] theorem mat_apply {a b : ℕ} (x : (⟨2, ![a, b]⟩ : Shape).Idx → EReal) (r : Fin a) (j : Fin b) :
    mat x r j = x (ix2 r j) := rfl

@[simp] theorem row_apply {b : ℕ} (x : (⟨1, ![b]⟩ : Shape).Idx → EReal) (j : Fin b) : row x j = x (ix1 j) := rfl

@[simp] theorem row1_apply {b : ℕ} (x : (⟨2, ![1, b]⟩ : Shape).Idx → EReal) (j : Fin b) :
    row1 x j = x (ix2 (0 : Fin 1) j) := rfl

variable {n d₀ d₁ d₂ d : ℕ}

/-- One dense map: entry (r, j) is max ((∑ i, x r i * W i j) + b j) 0. -/
def dense (x : Mat n d₀) (W : Mat d₀ d₁) (b : Row d₁) : Mat n d₁ :=
  fun r j => max ((∑ i : Fin d₀, x r i * W i j) + b j) 0

theorem dense_apply (x : Mat n d₀) (W : Mat d₀ d₁) (b : Row d₁) (r : Fin n) (j : Fin d₁) :
    dense x W b r j = max ((∑ i : Fin d₀, x r i * W i j) + b j) 0 := rfl

/-- The hidden features: two dense maps, one after the other. -/
def hidden (a : Mat n d₀) (W1 : Mat d₀ d₁) (b1 : Row d₁) (W2 : Mat d₁ d₂) (b2 : Row d₂) : Mat n d₂ :=
  dense (dense a W1 b1) W2 b2

theorem hidden_apply (a : Mat n d₀) (W1 : Mat d₀ d₁) (b1 : Row d₁) (W2 : Mat d₁ d₂) (b2 : Row d₂) (r : Fin n) (j : Fin d₂) :
    hidden a W1 b1 W2 b2 r j
      = max ((∑ k : Fin d₁, max ((∑ i : Fin d₀, a r i * W1 i k) + b1 k) 0 * W2 k j) + b2 j) 0 := rfl

/-- The sum of a column over the rows. -/
def colSum (h : Mat n d) : Row d := fun j => ∑ r : Fin n, h r j

/-- The sum of a column's squares over the rows. -/
def colSumSq (h : Mat n d) : Row d := fun j => ∑ r : Fin n, h r j * h r j

/-- The column mean: the column sum divided by the word for 100000. -/
def mean (h : Mat n d) : Row d := fun j => Ideal.div (colSum h j) (Ideal.ofBits .f32 0x47C35000#32)

/-- The variance as the mean of the squares less the squared mean. -/
def varKernel (h : Mat n d) : Row d :=
  fun j => Ideal.div (colSumSq h j) (Ideal.ofBits .f32 0x47C35000#32) - mean h j * mean h j

/-- The variance as the mean of the squared deviations from the mean. -/
def varReference (h : Mat n d) : Row d :=
  fun j => Ideal.div (∑ r : Fin n, (h r j - mean h j) * (h r j - mean h j)) (Ideal.ofBits .f32 0x47C35000#32)

theorem colSum_apply (h : Mat n d) (j : Fin d) : colSum h j = ∑ r : Fin n, h r j := rfl
theorem colSumSq_apply (h : Mat n d) (j : Fin d) : colSumSq h j = ∑ r : Fin n, h r j * h r j := rfl
theorem mean_apply (h : Mat n d) (j : Fin d) :
    mean h j = Ideal.div (∑ r : Fin n, h r j) (Ideal.ofBits .f32 0x47C35000#32) := rfl
theorem varKernel_apply (h : Mat n d) (j : Fin d) :
    varKernel h j = Ideal.div (∑ r : Fin n, h r j * h r j) (Ideal.ofBits .f32 0x47C35000#32) - mean h j * mean h j := rfl
theorem varReference_apply (h : Mat n d) (j : Fin d) :
    varReference h j
      = Ideal.div (∑ r : Fin n, (h r j - mean h j) * (h r j - mean h j)) (Ideal.ofBits .f32 0x47C35000#32) := rfl

/-- Normalise with a given mean row and variance row: (h - mu) * rsqrt (v + eps) * gamma + beta. -/
def normalizeWith (h : Mat n d) (mu v gamma beta : Row d) : Mat n d :=
  fun r j => (h r j - mu j) * Ideal.rsqrt (v j + Ideal.ofBits .f32 0x3727C5AC#32) * gamma j + beta j

theorem normalizeWith_apply (h : Mat n d) (mu v gamma beta : Row d) (r : Fin n) (j : Fin d) :
    normalizeWith h mu v gamma beta r j
      = (h r j - mu j) * Ideal.rsqrt (v j + Ideal.ofBits .f32 0x3727C5AC#32) * gamma j + beta j := rfl

/-- Normalise about the column mean of h itself. -/
def normalize (h : Mat n d) (v gamma beta : Row d) : Mat n d := normalizeWith h (mean h) v gamma beta

theorem normalize_apply (h : Mat n d) (v gamma beta : Row d) (r : Fin n) (j : Fin d) :
    normalize h v gamma beta r j
      = (h r j - mean h j) * Ideal.rsqrt (v j + Ideal.ofBits .f32 0x3727C5AC#32) * gamma j + beta j := rfl

/-- One layer from the aggregated features, with the variance as the mean of squares less the squared mean. -/
def layerKernel (a : Mat n d₀) (W1 : Mat d₀ d₁) (b1 : Row d₁) (W2 : Mat d₁ d₂) (b2 gamma beta : Row d₂) : Mat n d₂ :=
  normalize (hidden a W1 b1 W2 b2) (varKernel (hidden a W1 b1 W2 b2)) gamma beta

/-- One layer from the aggregated features, with the variance as the mean of squared deviations. -/
def layerReference (a : Mat n d₀) (W1 : Mat d₀ d₁) (b1 : Row d₁) (W2 : Mat d₁ d₂) (b2 gamma beta : Row d₂) : Mat n d₂ :=
  normalize (hidden a W1 b1 W2 b2) (varReference (hidden a W1 b1 W2 b2)) gamma beta

end Cert.Spec

end
-- ==== Proof.LibNormForms.lean ====
/-
  Two spellings of batch normalisation, joined on the reals.

  A column z of n numbers with mean μ = (∑ z) / n has variance (∑ (z − μ)²) / n; a kernel that accumulates ∑ z and
  ∑ z² instead computes (∑ z²)·n⁻¹ − ((∑ z)·n⁻¹)², the same number.  With w = variance + ε > 0, the normalised value
  g·(z − μ)/√w + b is also z·s + (b − μ·s) for the folded scale s = g·w^(−1/2): the form that needs one multiply and
  one add per element.  Both identities are stated for real numbers read as extended reals, with the square root,
  the reciprocal square root and the quotient those the ideal float instance uses, so that they apply where every
  quantity is known finite.  Also: the coercion of a finite sum of reals is the sum of the coercions.
-/
import Idealize.ShloMosaic.PureOps.Ideal
import Mathlib.Tactic

namespace Cert.NormForms

open Idealize.ShloMosaic

/-- A finite sum of reals, read as an extended real, is the sum of the terms read so. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of the squares less the square of the mean is the mean of the squared deviations from the mean
    (n the number of terms, given as a nonzero real). -/
theorem var_forms {ι : Type*} [Fintype ι] (z : ι → ℝ) (n : ℝ) (hn : n ≠ 0) (hc : (Fintype.card ι : ℝ) = n) :
    (∑ i, z i * z i) * n⁻¹ - ((∑ i, z i) * n⁻¹) * ((∑ i, z i) * n⁻¹)
      = (∑ i, (z i - (∑ j, z j) / n) * (z i - (∑ j, z j) / n)) / n := by
  have h : ∀ i, (z i - (∑ j, z j) / n) * (z i - (∑ j, z j) / n)
      = z i * z i - 2 * ((∑ j, z j) / n) * z i + ((∑ j, z j) / n) * ((∑ j, z j) / n) := fun i => by ring
  simp only [h, Finset.sum_add_distrib, Finset.sum_sub_distrib, ← Finset.mul_sum, Finset.sum_const, Finset.card_univ,
    nsmul_eq_mul, hc]
  field_simp
  ring

/-- The mean of squared deviations is not negative. -/
theorem var_nonneg {ι : Type*} [Fintype ι] (z : ι → ℝ) (μ n : ℝ) (hn : 0 < n) :
    0 ≤ (∑ i, (z i - μ) * (z i - μ)) / n :=
  div_nonneg (Finset.sum_nonneg fun i _ => mul_self_nonneg _) hn.le

/-- Scale-and-shift against subtract-divide: for w > 0, z·(g·w^(−1/2)) + (b − μ·(g·w^(−1/2))) = g·(z − μ)/√w + b,
    on reals read as extended reals. -/
theorem affine_forms (g b z μ w : ℝ) (hw : 0 < w) :
    (z : EReal) * ((g : EReal) * Ideal.rsqrt (w : EReal)) + ((b : EReal) - (μ : EReal) * ((g : EReal) * Ideal.rsqrt (w : EReal)))
      = Ideal.div ((g : EReal) * ((z : EReal) - (μ : EReal))) (Ideal.sqrt (w : EReal)) + (b : EReal) := by
  have hs : 0 < Real.sqrt w := Real.sqrt_pos.mpr hw
  rw [Ideal.rsqrt_coe, Ideal.sqrt_coe]
  simp only [if_neg (not_lt.mpr hw.le), if_neg hw.ne']
  rw [Ideal.div_coe hs.ne']
  simp only [← EReal.coe_mul, ← EReal.coe_sub, ← EReal.coe_add]
  congr 1
  field_simp
  ring

end Cert.NormForms
-- ==== Proof.MathForms.lean ====
/-
  The two variances are one number on finite entries, and a layer keeps its entries finite.

  The float word 0x47C35000 is the real 100000 and the word 0x3727C5AC a positive real. On a matrix of 100000 rows
  whose entries are reals, dividing by the first word is the real quotient, so the column mean is a real, both
  variances are reals, and they are equal: the mean of the squares less the squared mean is the mean of the squared
  deviations (expand the square; the cross term is twice the squared mean). The variance is a mean of squares, so it
  is not negative; adding the positive word keeps it positive, its reciprocal square root is then a real, and the
  normalised entries are reals. The dense maps are sums of products, sums and maxima of reals. So a layer of real
  inputs has real outputs, and the layer stated with either variance is the same matrix.
-/
import proofs.«100772_j6322191859838_1_alg».proof.Proof.Spec
import proofs.«100772_j6322191859838_1_alg».proof.Proof.LibNormForms
import Mathlib.Tactic

noncomputable section

open scoped BigOperators

namespace Cert.Spec

open Idealize.ShloMosaic Cert.NormForms

/-! ## The two words -/

/-- The word 0x47C35000 is the real 100000. -/
theorem nWord_eq : Ideal.ofBits .f32 0x47C35000#32 = ((100000 : ℝ) : EReal) := by
  simp [Ideal.ofBits, Ideal.ieee, -EReal.coe_mul]; norm_num

/-- The word 0x3727C5AC is a positive real. -/
theorem epsWord_eq : Ideal.ofBits .f32 0x3727C5AC#32 = (((10995116 : ℝ) * (2 : ℝ) ^ (-40 : Int) : ℝ) : EReal) := by
  simp [Ideal.ofBits, Ideal.ieee, -EReal.coe_mul]

theorem epsWord_pos : ∃ e : ℝ, 0 < e ∧ Ideal.ofBits .f32 0x3727C5AC#32 = (e : EReal) :=
  ⟨(10995116 : ℝ) * (2 : ℝ) ^ (-40 : Int), by positivity, epsWord_eq⟩

/-- A real divided by the word for 100000 is the real quotient. -/
theorem div_nWord (x : ℝ) : Ideal.div (x : EReal) (Ideal.ofBits .f32 0x47C35000#32) = ((x / 100000 : ℝ) : EReal) := by
  rw [nWord_eq, Ideal.div_coe (by norm_num : (100000 : ℝ) ≠ 0), ← EReal.coe_mul]
  congr 1
  ring

/-! ## Real entries -/

/-- An extended real that is a real number. -/
def IsReal (x : EReal) : Prop := ∃ r : ℝ, x = (r : EReal)

/-- Every entry of a matrix is a real. -/
def RealMat {n d : ℕ} (h : Mat n d) : Prop := ∀ r j, IsReal (h r j)

/-- Every entry of a row is a real. -/
def RealRow {d : ℕ} (b : Row d) : Prop := ∀ j, IsReal (b j)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩
theorem IsReal.sum {ι : Type*} (s : Finset ι) (f : ι → EReal) (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))
theorem IsReal.div_nWord {x : EReal} (hx : IsReal x) : IsReal (Ideal.div x (Ideal.ofBits .f32 0x47C35000#32)) := by
  obtain ⟨a, rfl⟩ := hx; exact ⟨a / 100000, Spec.div_nWord a⟩

variable {n d₀ d₁ d₂ d : ℕ}

/-- A dense map of real operands has real entries. -/
theorem realMat_dense {x : Mat n d₀} {W : Mat d₀ d₁} {b : Row d₁} (hx : RealMat x) (hW : RealMat W) (hb : RealRow b) :
    RealMat (dense x W b) := fun r j =>
  ((IsReal.sum _ _ fun i _ => (hx r i).mul (hW i j)).add (hb j)).max isReal_zero

/-- The hidden features of real operands are real. -/
theorem realMat_hidden {a : Mat n d₀} {W1 : Mat d₀ d₁} {b1 : Row d₁} {W2 : Mat d₁ d₂} {b2 : Row d₂}
    (ha : RealMat a) (hW1 : RealMat W1) (hb1 : RealRow b1) (hW2 : RealMat W2) (hb2 : RealRow b2) :
    RealMat (hidden a W1 b1 W2 b2) :=
  realMat_dense (realMat_dense ha hW1 hb1) hW2 hb2

/-- The column mean of a real matrix is real. -/
theorem realRow_mean {h : Mat n d} (hh : RealMat h) : RealRow (mean h) := fun j =>
  (IsReal.sum _ _ fun r _ => hh r j).div_nWord

/-! ## The two variances -/

/-- On 100000 rows of reals, the column mean, and both variances, as reals: the variances are one number, not negative. -/
theorem var_real (h : Mat 100000 d) (hh : RealMat h) (j : Fin d) :
    ∃ v : ℝ, 0 ≤ v ∧ varKernel h j = (v : EReal) ∧ varReference h j = (v : EReal) := by
  choose f hf using hh
  have hm : mean h j = (((∑ r : Fin 100000, f r j) / 100000 : ℝ) : EReal) := by
    rw [mean_apply]
    simp only [hf, ← coe_sum]
    exact div_nWord _
  refine ⟨(∑ r : Fin 100000, (f r j - (∑ s : Fin 100000, f s j) / 100000) * (f r j - (∑ s : Fin 100000, f s j) / 100000)) / 100000,
    var_nonneg (fun r => f r j) _ 100000 (by norm_num), ?_, ?_⟩
  · rw [varKernel_apply, hm]
    simp only [hf, ← EReal.coe_mul, ← coe_sum]
    rw [div_nWord, ← EReal.coe_sub]
    congr 1
    have := var_forms (fun r : Fin 100000 => f r j) 100000 (by norm_num) (by simp)
    simp only [div_eq_mul_inv] at this ⊢
    exact this
  · rw [varReference_apply, hm]
    simp only [hf, ← EReal.coe_sub, ← EReal.coe_mul, ← coe_sum]
    exact div_nWord _

/-- On 100000 rows of reals the two variances agree. -/
theorem varKernel_eq_varReference (h : Mat 100000 d) (hh : RealMat h) : varKernel h = varReference h := by
  funext j
  obtain ⟨v, _, hk, hr⟩ := var_real h hh j
  rw [hk, hr]

/-- The reciprocal square root of a non-negative real plus the eps word is a real. -/
theorem isReal_rsqrt_add_eps {v : ℝ} (hv : 0 ≤ v) :
    IsReal (Ideal.rsqrt ((v : EReal) + Ideal.ofBits .f32 0x3727C5AC#32)) := by
  obtain ⟨e, he, hw⟩ := epsWord_pos
  rw [hw, ← EReal.coe_add, Ideal.rsqrt_coe]
  have hp : 0 < v + e := by linarith
  rw [if_neg (not_lt.mpr hp.le), if_neg hp.ne']
  exact ⟨_, rfl⟩

/-- Normalising a real matrix about real means by a variance row of non-negative reals gives real entries. -/
theorem realMat_normalizeWith {h : Mat n d} {mu v gamma beta : Row d} (hh : RealMat h) (hmu : RealRow mu)
    (hv : ∀ j, ∃ x : ℝ, 0 ≤ x ∧ v j = (x : EReal)) (hg : RealRow gamma) (hb : RealRow beta) :
    RealMat (normalizeWith h mu v gamma beta) := fun r j => by
  obtain ⟨x, hx, hvj⟩ := hv j
  rw [normalizeWith_apply, hvj]
  exact ((((hh r j).sub (hmu j)).mul (isReal_rsqrt_add_eps hx)).mul (hg j)).add (hb j)

/-! ## A layer -/

/-- On real operands over 100000 rows the layer stated with either variance is the same matrix. -/
theorem layerKernel_eq_layerReference (a : Mat 100000 d₀) (W1 : Mat d₀ d₁) (b1 : Row d₁) (W2 : Mat d₁ d₂) (b2 gamma beta : Row d₂)
    (ha : RealMat a) (hW1 : RealMat W1) (hb1 : RealRow b1) (hW2 : RealMat W2) (hb2 : RealRow b2) :
    layerKernel a W1 b1 W2 b2 gamma beta = layerReference a W1 b1 W2 b2 gamma beta := by
  unfold layerKernel layerReference
  rw [varKernel_eq_varReference _ (realMat_hidden ha hW1 hb1 hW2 hb2)]

/-- On real operands over 100000 rows a layer's output is real. -/
theorem realMat_layerReference (a : Mat 100000 d₀) (W1 : Mat d₀ d₁) (b1 : Row d₁) (W2 : Mat d₁ d₂) (b2 gamma beta : Row d₂)
    (ha : RealMat a) (hW1 : RealMat W1) (hb1 : RealRow b1) (hW2 : RealMat W2) (hb2 : RealRow b2)
    (hg : RealRow gamma) (hb : RealRow beta) :
    RealMat (layerReference a W1 b1 W2 b2 gamma beta) := by
  have hh := realMat_hidden ha hW1 hb1 hW2 hb2
  exact realMat_normalizeWith hh (realRow_mean hh)
    (fun j => let ⟨v, hv, _, hr⟩ := var_real _ hh j; ⟨v, hv, hr⟩) hg hb

theorem realMat_layerKernel (a : Mat 100000 d₀) (W1 : Mat d₀ d₁) (b1 : Row d₁) (W2 : Mat d₁ d₂) (b2 gamma beta : Row d₂)
    (ha : RealMat a) (hW1 : RealMat W1) (hb1 : RealRow b1) (hW2 : RealMat W2) (hb2 : RealRow b2)
    (hg : RealRow gamma) (hb : RealRow beta) :
    RealMat (layerKernel a W1 b1 W2 b2 gamma beta) := by
  rw [layerKernel_eq_layerReference a W1 b1 W2 b2 gamma beta ha hW1 hb1 hW2 hb2]
  exact realMat_layerReference a W1 b1 W2 b2 gamma beta ha hW1 hb1 hW2 hb2 hg hb

end Cert.Spec

end
-- ==== Proof.LibHostLayout.lean ====
/-
  Host layout operations read at coordinates: broadcast_in_dim between ranks 1, 2 and 3, a scalar splat, and a pad
  that extends the last axis on its high side. A broadcast_in_dim copies the operand along the new axes and along
  its own unit axes, so an entry of the result is the operand's entry at the coordinates the dimension map keeps
  (0 on a unit axis). A high-side pad of the last axis keeps the operand where the last coordinate is inside the
  operand's extent and holds the padding value beyond it. General in the extents and in the element type.
-/
import Idealize.ShloMosaic.Lib.Pipeline.Value
import Idealize.ShloMosaic.Lib.ValueIdx
import Idealize.ShloMosaic.Lib.KernelVsHost

namespace Cert.HostLayout

open Idealize.ShloMosaic Idealize.ShloMosaic.ValueIdx

variable {α : Type}

/-- A rank-zero operand splat to any shape reads its one entry everywhere. -/
theorem bid_scalar_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun ax => ax.elim0

/-- [a, b] → [a, b, 1] along axes 0, 1: entry (p, q, u) is entry (p, q). -/
theorem bid_ab_ab1_apply {a b : ℕ} (p : Fin a) (q : Fin b) (u : Fin 1) (x : (⟨2, ![a, b]⟩ : Shape).Idx → α)
    (h : (⟨2, ![a, b]⟩ : Shape).BroadcastsInDim ⟨3, ![a, b, 1]⟩ ![0, 1]) :
    broadcastInDim ⟨3, ![a, b, 1]⟩ ![0, 1] h x (ix3 p q u) = x (ix2 p q) := by
  refine broadcastInDim_apply ![0, 1] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- [a, b, 1] → [a, b, c] along axes 0, 1, 2: entry (p, q, r) is entry (p, q, 0). -/
theorem bid_ab1_abc_apply {a b c : ℕ} (p : Fin a) (q : Fin b) (r : Fin c) (x : (⟨3, ![a, b, 1]⟩ : Shape).Idx → α)
    (h : (⟨3, ![a, b, 1]⟩ : Shape).BroadcastsInDim ⟨3, ![a, b, c]⟩ ![0, 1, 2]) :
    broadcastInDim ⟨3, ![a, b, c]⟩ ![0, 1, 2] h x (ix3 p q r) = x (ix3 p q (0 : Fin 1)) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show 0 = if 1 = 1 then 0 else r.val
    exact (if_pos rfl).symm

/-- [c] → [1, 1, c] along axis 2: entry (u, v, r) is entry r. -/
theorem bid_c_11c_apply {c : ℕ} (u v : Fin 1) (r : Fin c) (x : (⟨1, ![c]⟩ : Shape).Idx → α)
    (h : (⟨1, ![c]⟩ : Shape).BroadcastsInDim ⟨3, ![1, 1, c]⟩ ![2]) :
    broadcastInDim ⟨3, ![1, 1, c]⟩ ![2] h x (ix3 u v r) = x (ix1 r) := by
  refine broadcastInDim_apply ![2] h x _ _ fun ax => ?_
  match ax with
  | ⟨0, _⟩ =>
    show r.val = if c = 1 then 0 else r.val
    split
    · have := r.isLt; omega
    · rfl

/-- [1, 1, c] → [a, b, c] along axes 0, 1, 2: entry (p, q, r) is entry (0, 0, r). -/
theorem bid_11c_abc_apply {a b c : ℕ} (p : Fin a) (q : Fin b) (r : Fin c) (x : (⟨3, ![1, 1, c]⟩ : Shape).Idx → α)
    (h : (⟨3, ![1, 1, c]⟩ : Shape).BroadcastsInDim ⟨3, ![a, b, c]⟩ ![0, 1, 2]) :
    broadcastInDim ⟨3, ![a, b, c]⟩ ![0, 1, 2] h x (ix3 p q r) = x (ix3 (0 : Fin 1) (0 : Fin 1) r) := by
  refine broadcastInDim_apply ![0, 1, 2] h x _ _ fun ax => ?_
  match ax with
  | ⟨0, _⟩ =>
    show 0 = if 1 = 1 then 0 else p.val
    exact (if_pos rfl).symm
  | ⟨1, _⟩ =>
    show 0 = if 1 = 1 then 0 else q.val
    exact (if_pos rfl).symm
  | ⟨2, _⟩ =>
    show r.val = if c = 1 then 0 else r.val
    split
    · have := r.isLt; omega
    · rfl

/-- [a, c] → [a, 1, c] along axes 0, 2: entry (p, u, r) is entry (p, r). -/
theorem bid_ac_a1c_apply {a c : ℕ} (p : Fin a) (u : Fin 1) (r : Fin c) (x : (⟨2, ![a, c]⟩ : Shape).Idx → α)
    (h : (⟨2, ![a, c]⟩ : Shape).BroadcastsInDim ⟨3, ![a, 1, c]⟩ ![0, 2]) :
    broadcastInDim ⟨3, ![a, 1, c]⟩ ![0, 2] h x (ix3 p u r) = x (ix2 p r) := by
  refine broadcastInDim_apply ![0, 2] h x _ _ fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- [a, 1, c] → [a, b, c] along axes 0, 1, 2: entry (p, q, r) is entry (p, 0, r). -/
theorem bid_a1c_abc_apply {a b c : ℕ} (p : Fin a) (q : Fin b) (r : Fin c) (x : (⟨3, ![a, 1, c]⟩ : Shape).Idx → α)
    (h : (⟨3, ![a, 1, c]⟩ : Shape).BroadcastsInDim ⟨3, ![a, b, c]⟩ ![0, 1, 2]) :
    broadcastInDim ⟨3, ![a, b, c]⟩ ![0, 1, 2] h x (ix3 p q r) = x (ix3 p (0 : Fin 1) r) := by
  refine broadcastInDim_apply ![0, 1, 2] h x _ _ fun ax => ?_
  match ax with
  | ⟨0, _⟩ =>
    show p.val = if a = 1 then 0 else p.val
    split
    · have := p.isLt; omega
    · rfl
  | ⟨1, _⟩ =>
    show 0 = if 1 = 1 then 0 else q.val
    exact (if_pos rfl).symm
  | ⟨2, _⟩ =>
    show r.val = if c = 1 then 0 else r.val
    split
    · have := r.isLt; omega
    · rfl

/-- [c] → [1, c] along axis 1: entry (u, r) is entry r. -/
theorem bid_c_1c_apply {c : ℕ} (u : Fin 1) (r : Fin c) (x : (⟨1, ![c]⟩ : Shape).Idx → α)
    (h : (⟨1, ![c]⟩ : Shape).BroadcastsInDim ⟨2, ![1, c]⟩ ![1]) :
    broadcastInDim ⟨2, ![1, c]⟩ ![1] h x (ix2 u r) = x (ix1 r) := by
  refine broadcastInDim_apply ![1] h x _ _ fun ax => ?_
  match ax with
  | ⟨0, _⟩ =>
    show r.val = if c = 1 then 0 else r.val
    split
    · have := r.isLt; omega
    · rfl

/-- [1, c] → [a, c] along axes 0, 1: entry (p, r) is entry (0, r). -/
theorem bid_1c_ac_apply {a c : ℕ} (p : Fin a) (r : Fin c) (x : (⟨2, ![1, c]⟩ : Shape).Idx → α)
    (h : (⟨2, ![1, c]⟩ : Shape).BroadcastsInDim ⟨2, ![a, c]⟩ ![0, 1]) :
    broadcastInDim ⟨2, ![a, c]⟩ ![0, 1] h x (ix2 p r) = x (ix2 (0 : Fin 1) r) := by
  refine broadcastInDim_apply ![0, 1] h x _ _ fun ax => ?_
  match ax with
  | ⟨0, _⟩ =>
    show 0 = if 1 = 1 then 0 else p.val
    exact (if_pos rfl).symm
  | ⟨1, _⟩ =>
    show r.val = if c = 1 then 0 else r.val
    split
    · have := r.isLt; omega
    · rfl

/-! ## The last axis padded on its high side -/

/-- A vector of n entries padded to N on the high side: entry j inside the operand is the operand's. -/
theorem pad1_inside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : j.val < n) :
    pad ⟨1, ![N]⟩ ![0] ![p] ![0] x v h hu (ix1 j) = x (ix1 (⟨j.val, hj⟩ : Fin n)) :=
  pad_apply_of_inside ![0] ![p] ![0] x v h hu _ _ fun ax => by
    match ax with
    | ⟨0, _⟩ => show j.val = 0 + j.val * (0 + 1); omega

/-- Beyond the operand it is the padding value. -/
theorem pad1_outside {n N p : ℕ} {u : Shape} (x : (⟨1, ![n]⟩ : Shape).Idx → α) (v : u.Idx → α)
    (h : (⟨1, ![n]⟩ : Shape).Pads ![0] ![p] ![0] ⟨1, ![N]⟩) (hu : 0 < u.numel) (j : Fin N) (hj : ¬j.val < n) :
    pad ⟨1, ![N]⟩ ![0] ![p] ![0] x v h hu (ix1 j) = v (Shape.Idx.first hu) :=
  pad_apply_of_not_inside ![0] ![p] ![0] x v h hu _ (0 : Fin 1) fun hh => hj (by
    have h3 : (j.val - 0) / (0 + 1) < n := hh.2.2
    simpa using h3)

/-- A matrix [a, n] whose rows are padded to N on the high side: entry (i, j) with j inside is the operand's. -/
theorem pad2_inside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : j.val < n) :
    pad ⟨2, ![a, N]⟩ ![0, 0] ![0, p] ![0, 0] x v h hu (ix2 i j) = x (ix2 i (⟨j.val, hj⟩ : Fin n)) :=
  pad_apply_of_inside ![0, 0] ![0, p] ![0, 0] x v h hu _ _ fun ax => by
    match ax with
    | ⟨0, _⟩ => show i.val = 0 + i.val * (0 + 1); omega
    | ⟨1, _⟩ => show j.val = 0 + j.val * (0 + 1); omega

/-- Beyond the rows' extent it is the padding value. -/
theorem pad2_outside {a n N p : ℕ} {u : Shape} (x : (⟨2, ![a, n]⟩ : Shape).Idx → α) (v : u.Idx → α)
    (h : (⟨2, ![a, n]⟩ : Shape).Pads ![0, 0] ![0, p] ![0, 0] ⟨2, ![a, N]⟩) (hu : 0 < u.numel) (i : Fin a) (j : Fin N)
    (hj : ¬j.val < n) :
    pad ⟨2, ![a, N]⟩ ![0, 0] ![0, p] ![0, 0] x v h hu (ix2 i j) = v (Shape.Idx.first hu) :=
  pad_apply_of_not_inside ![0, 0] ![0, p] ![0, 0] x v h hu _ (1 : Fin 2) fun hh => hj (by
    have h3 : (j.val - 0) / (0 + 1) < n := hh.2.2
    simpa using h3)

end Cert.HostLayout
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.LibHostDotPlain.lean ====
/-
  A plain host matrix product read at an index.

  A host `dot_general` of a left operand `[M, K]` by a right operand `[K, N]` that contracts the left operand's
  second axis against the right operand's first, with no batch axis, is at the exact values the textbook product:
  entry `(p, o)` is the sum over `k : Fin K` of `l (p, k) * r (k, o)`, whatever the schedule key. It is the same
  sum a `tpu.matmul` of that layout started from zero computes, so a product computed row block by row block and a
  product computed whole agree entry by entry. Stated for any record whose six axis lists are
  `[1] [0] [0] [1] [] []` (on a printed record each hypothesis is `rfl`), general in the three extents and in the
  operands' float formats.
-/
import Idealize.ShloMosaic.PureOps.Ideal.Laws
import Idealize.ShloMosaic.Lib.ValueIdx
import proofs.«100772_j6322191859838_1_alg».proof.Proof.LibMatmulPlain

noncomputable section

open scoped BigOperators

namespace Cert.HostDotPlain

open Idealize.ShloMosaic Idealize.ShloMosaic.ValueIdx Cert.MatmulPlain

variable {M K N : ℕ}

/-- A plain host matrix product read at `(p, o)`: `∑ k, l (p, k) * r (k, o)`. -/
theorem dotGeneral_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (p : Fin M) (o : Fin N) :
    FloatOps.dotGeneral d prec sched l r (ix2 p o) = ∑ k : Fin K, l (ix2 p k) * r (ix2 k o) := by
  rw [Ideal.dotGeneral_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.HostDotPlain

end
-- ==== Proof.LibColumnSums.lean ====
/-
  Sums along the FIRST axis of a matrix, and a middle unit axis dropped, each read at an index given by its
  coordinates.

  A sum along the first axis of a matrix [a, b], read at the column q, ranges over the entries (k, q) of that column:
  the reduced index q has its row coordinate k put back. It is the counterpart, for the other axis, of a row sum
  read at a row.

  An array [a, 1, b] and the matrix [a, b] hold the same entries in the same row-major order: the entry (i, j) of the
  matrix is the entry (i, 0, j) of the array, the unit coordinate contributing nothing to the position i * b + j.
  General in the extents, and the cast in the element type.
-/
import Idealize.ShloMosaic.Lib.Pipeline.Value
import Idealize.ShloMosaic.Lib.ValueIdx
import Idealize.ShloMosaic.PureOps.Ideal.Laws

namespace Cert.ColumnSums

open Idealize.ShloMosaic Idealize.ShloMosaic.ValueIdx

variable {α : Type}

/-! ## The reduced index with the row coordinate put back -/

/-- The index of a matrix [a, b] whose column coordinate is the reduced index's and whose row coordinate is k. -/
theorem lift_rows {a b : ℕ} (h : (⟨2, ![a, b]⟩ : Shape).Reduces [0] ⟨1, ![b]⟩) (q : Fin b)
    (k : Fin ((⟨2, ![a, b]⟩ : Shape).size 0)) : h.lift (ix1 q) k = ix2 (⟨k.val, k.isLt⟩ : Fin a) q := by
  funext c; apply Fin.ext
  fin_cases c <;> rfl

/-! ## Sums along the first axis (an f32 sum over the rows from the zero accumulator) -/

/-- Along the rows of [a, b], at column q: the sum over k of the entries (k, q). -/
theorem sum_rows {a b : ℕ} (src : FVec Ideal ⟨2, ![a, b]⟩ .f32) (h : (⟨2, ![a, b]⟩ : Shape).Reduces [0] ⟨1, ![b]⟩) (q : Fin b) :
    multiReduction .add [0] ⟨1, ![b]⟩ src 0x00000000#32 h (.inl rfl) rfl (ix1 q) = ∑ k : Fin a, src (ix2 k q) :=
  (Ideal.multiReduction_add_single src 0x00000000#32 h (.inl rfl) rfl (ix1 q)).trans
    (Finset.sum_congr rfl fun k _ => congrArg src (lift_rows h q k))

/-! ## A middle unit axis dropped -/

/-- [a, 1, b] cast to [a, b] reads, at (i, j), the operand at (i, 0, j): both indices have row-major position
    i * b + j. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.ColumnSums
-- ==== Proof.LibAllReal.lean ====
/-
  Real-valued arrays. An array of extended reals is "all real" when each entry is (the image of) a real
  number. The elementwise operations, the layout operations (which only move entries around), gathers,
  scatters, finite sums and products of sums preserve the property; the reciprocal square root does so on
  arrays whose entries are positive reals, and the exponential on all real arrays.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

namespace Cert.Decode

open Idealize.ShloMosaic
open scoped BigOperators

/-- Every entry is a real number. -/
def AllReal {S : Shape} (v : S.Idx → EReal) : Prop := ∀ i, ∃ r : ℝ, v i = (r : EReal)

/-- Every entry is a positive real number. -/
def AllPos {S : Shape} (v : S.Idx → EReal) : Prop := ∀ i, ∃ r : ℝ, 0 < r ∧ v i = (r : EReal)

theorem AllPos.allReal {S : Shape} {v : S.Idx → EReal} (h : AllPos v) : AllReal v :=
  fun i => let ⟨r, _, hr⟩ := h i; ⟨r, hr⟩

/-! ## Scalars -/

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  rcases le_total a b with h | h
  · exact ⟨b, max_eq_right (EReal.coe_le_coe_iff.2 h)⟩
  · exact ⟨a, max_eq_left (EReal.coe_le_coe_iff.2 h)⟩

/-- The maximum of a real and a positive real is a positive real. -/
theorem pos_max {x y : EReal} (hx : ∃ r : ℝ, x = (r : EReal)) (hy : ∃ r : ℝ, 0 < r ∧ y = (r : EReal)) :
    ∃ r : ℝ, 0 < r ∧ max x y = (r : EReal) := by
  obtain ⟨a, rfl⟩ := hx; obtain ⟨b, hb, rfl⟩ := hy
  rcases le_total a b with h | h
  · exact ⟨b, hb, max_eq_right (EReal.coe_le_coe_iff.2 h)⟩
  · exact ⟨a, lt_of_lt_of_le hb h, max_eq_left (EReal.coe_le_coe_iff.2 h)⟩

/-- A finite sum of reals is real. -/
theorem real_sum {ι : Type} (s : Finset ι) (f : ι → EReal) (h : ∀ k ∈ s, ∃ r : ℝ, f k = (r : EReal)) :
    ∃ r : ℝ, ∑ k ∈ s, f k = (r : EReal) := by
  classical
  induction s using Finset.induction_on with
  | empty => exact ⟨0, by simp⟩
  | insert a s ha ih =>
    rw [Finset.sum_insert ha]
    exact real_add (h a (Finset.mem_insert_self a s)) (ih fun k hk => h k (Finset.mem_insert_of_mem hk))

/-! ## Constants -/

theorem ofBits_tiny_f32 :
    Ideal.ofBits .f32 0x2B8CBCCC#32 = (((9223372 : ℝ) * (2 : ℝ) ^ (-63 : Int) : ℝ) : EReal) := by
  simp [Ideal.ofBits, Ideal.ieee, -EReal.coe_mul]

theorem allReal_constant_zero (S : Shape) : AllReal (constant (F := Ideal) S .f32 0x00000000#32) :=
  fun _ => ⟨0, by show Ideal.ofBits .f32 0x00000000#32 = _; rw [Ideal.ofBits_zero_f32]; rfl⟩

theorem allReal_constant_one (S : Shape) : AllReal (constant (F := Ideal) S .f32 0x3F800000#32) :=
  fun _ => ⟨1, by show Ideal.ofBits .f32 0x3F800000#32 = _; rw [Ideal.ofBits_one_f32]; rfl⟩

theorem allPos_constant_tiny (S : Shape) : AllPos (constant (F := Ideal) S .f32 0x2B8CBCCC#32) :=
  fun _ => ⟨(9223372 : ℝ) * (2 : ℝ) ^ (-63 : Int), by positivity, ofBits_tiny_f32⟩

/-! ## Elementwise operations -/

section Elementwise
variable {S : Shape} {φ : FTy}

theorem allReal_addf {x y : FVec Ideal S φ} (hx : AllReal x) (hy : AllReal y) : AllReal (addf x y) :=
  fun i => real_add (hx i) (hy i)

theorem allReal_subf {x y : FVec Ideal S φ} (hx : AllReal x) (hy : AllReal y) : AllReal (subf x y) :=
  fun i => real_sub (hx i) (hy i)

theorem allReal_mulf {x y : FVec Ideal S φ} (hx : AllReal x) (hy : AllReal y) : AllReal (mulf x y) :=
  fun i => real_mul (hx i) (hy i)

theorem allReal_maximumf {x y : FVec Ideal S φ} (hx : AllReal x) (hy : AllReal y) : AllReal (maximumf x y) :=
  fun i => real_max (hx i) (hy i)

theorem allPos_maximumf {x y : FVec Ideal S φ} (hx : AllReal x) (hy : AllPos y) : AllPos (maximumf x y) :=
  fun i => pos_max (hx i) (hy i)

/-- The reciprocal square root of a positive real is real. -/
theorem allReal_rsqrt {x : FVec Ideal S φ} (hx : AllPos x) : AllReal (Host.rsqrt x) := by
  intro i
  obtain ⟨r, hr, hxi⟩ := hx i
  refine ⟨(Real.sqrt r)⁻¹, ?_⟩
  show Ideal.rsqrt (x i) = _
  rw [hxi, Ideal.rsqrt_coe, if_neg (not_lt.mpr hr.le), if_neg hr.ne']

/-- The exponential of a real is real. -/
theorem allReal_exp {x : FVec Ideal S φ} (hx : AllReal x) : AllReal (Host.exp x) := by
  intro i
  obtain ⟨r, hr⟩ := hx i
  refine ⟨Real.exp r, ?_⟩
  show Ideal.exp (x i) = _
  rw [hr, Ideal.exp_coe]

/-- A selection takes each entry from one of its two operands. -/
theorem allReal_select (c : IVec S 1) {a b : S.Idx → EReal} (ha : AllReal a) (hb : AllReal b) :
    AllReal (select c a b) := by
  intro i
  show ∃ r : ℝ, (if c i = 1 then a i else b i) = (r : EReal)
  split
  · exact ha i
  · exact hb i

end Elementwise

/-! ## Layout operations: every entry of the result is an entry of an operand -/

theorem allReal_broadcastInDim {s t : Shape} (dims : Fin s.rank → Fin t.rank) (h : s.BroadcastsInDim t dims)
    {x : s.Idx → EReal} (hx : AllReal x) : AllReal (broadcastInDim t dims h x) :=
  fun _ => hx _

theorem allPos_broadcastInDim {s t : Shape} (dims : Fin s.rank → Fin t.rank) (h : s.BroadcastsInDim t dims)
    {x : s.Idx → EReal} (hx : AllPos x) : AllPos (broadcastInDim t dims h x) :=
  fun _ => hx _

theorem allReal_gather {s si t : Shape} {w : Nat} (d : GatherDims s si t) {x : s.Idx → EReal} (idx : IVec si w)
    (hx : AllReal x) : AllReal (Host.gather d x idx) :=
  fun _ => hx _

theorem allReal_concatenate {t : Shape} (a : Fin t.rank) (xs : List ((s : Shape) × (s.Idx → EReal)))
    (h : Shape.Concatenates (xs.map (·.1)) t a) (hxs : ∀ p ∈ xs, AllReal p.2) :
    AllReal (concatenate t a xs h) := by
  intro j
  unfold concatenate
  exact hxs _ (List.getElem_mem _) _

theorem allReal_concatenate_pair {t s₁ s₂ : Shape} (a : Fin t.rank) {x₁ : s₁.Idx → EReal} {x₂ : s₂.Idx → EReal}
    (h : Shape.Concatenates (([⟨s₁, x₁⟩, ⟨s₂, x₂⟩] : List ((s : Shape) × (s.Idx → EReal))).map (·.1)) t a)
    (h₁ : AllReal x₁) (h₂ : AllReal x₂) : AllReal (concatenate t a [⟨s₁, x₁⟩, ⟨s₂, x₂⟩] h) := by
  refine allReal_concatenate a _ h ?_
  intro p hp
  simp only [List.mem_cons, List.mem_nil_iff, or_false] at hp
  rcases hp with rfl | rfl
  · exact h₁
  · exact h₂

/-! ## Sums -/

/-- A scatter that adds: each entry is the operand's entry plus a finite sum of update entries. -/
theorem allReal_scatterAdd {s si u : Shape} {w : Nat} {φ : FTy} (d : ScatterDims s si u) {x : FVec Ideal s φ}
    (idx : IVec si w) {upd : FVec Ideal u φ} (hx : AllReal x) (hu : AllReal upd) :
    AllReal (Host.scatterAdd d x idx upd) := by
  intro i
  show ∃ r : ℝ, Ideal.hostScatterAdd d x idx upd i = (r : EReal)
  unfold Ideal.hostScatterAdd
  exact real_add (hx i) (real_sum _ _ fun j _ => hu j)

/-- A contraction: each entry is a finite sum of products of the operands' entries. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := by
  intro j
  show ∃ r : ℝ, FloatOps.dotGeneral d prec .single lhs rhs j = (r : EReal)
  rw [Ideal.dotGeneral_apply]
  exact real_sum _ _ fun k _ => real_mul (hl _) (hr _)

/-! ## A scatter that overwrites -/

/-- With the combiner that returns the update, every entry of the result is an entry of the operand or of
    the updates; so a property of all those entries is a property of all the result's. -/
theorem scatter_set_forall {α : Type} {s si u : Shape} {w : Nat} (P : α → Prop) (d : ScatterDims s si u)
    (x : s.Idx → α) (idx : IVec si w) (upd : u.Idx → α) (hx : ∀ i, P (x i)) (hu : ∀ j, P (upd j)) :
    ∀ i, P (Host.scatter d (fun _ b => b) x idx upd i) := by
  unfold Host.scatter
  generalize List.finRange u.numel = l
  induction l generalizing x with
  | nil => exact hx
  | cons n l ih =>
    rw [List.foldl_cons]
    refine ih _ ?_
    intro i'
    cases hres : d.resultIdx? (u.rowMajor.symm n) idx with
    | none => exact hx i'
    | some i =>
      show P (if i' = i then upd (u.rowMajor.symm n) else x i')
      split
      · exact hu _
      · exact hx i'

theorem allReal_scatter_set {s si u : Shape} {w : Nat} (d : ScatterDims s si u) {x : s.Idx → EReal}
    (idx : IVec si w) {upd : u.Idx → EReal} (hx : AllReal x) (hu : AllReal upd) :
    AllReal (Host.scatter d (fun _ b => b) x idx upd) :=
  scatter_set_forall (fun v => ∃ r : ℝ, v = (r : EReal)) d x idx upd hx hu

end Cert.Decode
-- ==== Proof.RefRead.lean ====
/-
  The reference's layer read at an index.

  Entry (r, j) of a layer's output is the index-level layer of the specification applied to the aggregated features
  z + (sum of the neighbours' z) read as a matrix: the host product is the sum over the contracted index, the
  bias rows are broadcast along the rows, the rectifier is the maximum with zero, the host sum along the rows from a zero
  initial value is the column sum, the quotient by the broadcast word for 100000 is the column mean, and the outlined
  variance's selection takes its first branch because its count, 100000 less the float of the integer 0, is positive.
  Real-valued operands give a real-valued layer.
-/
import proofs.«100772_j6322191859838_1_alg».proof.Proof.RefTerms
import proofs.«100772_j6322191859838_1_alg».proof.Proof.Spec
import proofs.«100772_j6322191859838_1_alg».proof.Proof.MathForms
import proofs.«100772_j6322191859838_1_alg».proof.Proof.LibHostLayout
import proofs.«100772_j6322191859838_1_alg».proof.Proof.LibHostDotPlain
import proofs.«100772_j6322191859838_1_alg».proof.Proof.LibColumnSums
import proofs.«100772_j6322191859838_1_alg».proof.Proof.LibAllReal

noncomputable section

open scoped BigOperators

namespace Cert.ReferenceIdeal.RefVal

open Cert.ReferenceIdeal Cert.ReferenceIdeal.Gen Idealize.ShloMosaic Idealize.ShloMosaic.ValueIdx Cert.Decode

/-! ## The host sum along the rows -/

/-- The host's sum along the rows of [a, b], at column q: the initial value plus the sum of the column's entries. -/
theorem hostSum_rows {a b : ℕ} (x : FVec Ideal ⟨2, ![a, b]⟩ .f32) (init : FVec Ideal ⟨0, ![]⟩ .f32)
    (h' : (⟨2, ![a, b]⟩ : Shape).ReducesTo [0] ⟨1, ![b]⟩) (h : (⟨2, ![a, b]⟩ : Shape).Reduces [0] ⟨1, ![b]⟩)
    (hu : 0 < (⟨0, ![]⟩ : Shape).numel) (q : Fin b) :
    Host.reduceAdd (F := Ideal) x init h' hu (ix1 q) = init ix0 + ∑ k : Fin a, x (ix2 k q) := by
  simp only [Host.reduceAdd, Ideal.hostReduceAdd_def]
  rw [Ideal.hostReduceAdd_single h' h]
  have e0 : Shape.Idx.first hu = ix0 := funext fun d => d.elim0
  rw [e0]
  exact congrArg (init ix0 + ·) (Finset.sum_congr rfl fun k _ => congrArg x (Cert.ColumnSums.lift_rows h q k))

theorem reduces_rows : S100000x128.Reduces [0] S128 := by decide

/-! ## The pieces at an index -/

theorem rowsT_apply (b : FVec Ideal S128 .f32) (r : Fin 100000) (j : Fin 128) : rowsT b (ix2 r j) = b (ix1 j) := by
  unfold rowsT row1T
  rw [Cert.HostLayout.bid_1c_ac_apply, Cert.HostLayout.bid_c_1c_apply]

theorem reluT_apply (x : FVec Ideal S100000x128 .f32) (i : S100000x128.Idx) : reluT x i = max (x i) 0 := by
  unfold reluT
  rw [maximumf_apply, Cert.HostLayout.bid_scalar_apply, constant_apply, Ideal.ofBits_zero_f32]

/-- One dense map of the reference is the specification's, on the operands read as matrices. -/
theorem denseT_mat (x : FVec Ideal S100000x128 .f32) (W : FVec Ideal S128x128 .f32) (b : FVec Ideal S128 .f32) :
    Spec.mat (denseT x W b) = Spec.dense (Spec.mat x) (Spec.mat W) (Spec.row b) := by
  funext r j
  rw [Spec.mat_apply, Spec.dense_apply]
  unfold denseT
  rw [reluT_apply, addf_apply, rowsT_apply]
  show max (FloatOps.dotGeneral dot_S100000x128_S128x128_S100000x128_1_0_0_1_n_n none .single x W (ix2 r j) + b (ix1 j)) 0 = _
  rw [Cert.HostDotPlain.dotGeneral_plain_apply _ rfl rfl rfl rfl rfl rfl]
  rfl

/-- The hidden features of the reference are the specification's, on the aggregated features read as a matrix. -/
theorem hiddenT_mat (z aggr : FVec Ideal S100000x128 .f32) (W1 : FVec Ideal S128x128 .f32) (b1 : FVec Ideal S128 .f32)
    (W2 : FVec Ideal S128x128 .f32) (b2 : FVec Ideal S128 .f32) :
    Spec.mat (hiddenT z aggr W1 b1 W2 b2)
      = Spec.hidden (Spec.mat (addf z aggr)) (Spec.mat W1) (Spec.row b1) (Spec.mat W2) (Spec.row b2) := by
  unfold hiddenT Spec.hidden
  rw [denseT_mat, denseT_mat]

theorem sumT_apply (h : FVec Ideal S100000x128 .f32) (j : Fin 128) : sumT h (ix1 j) = ∑ r : Fin 100000, h (ix2 r j) := by
  unfold sumT
  rw [hostSum_rows h _ reducesTo_S100000x128_S128_d0 reduces_rows h_S_ j, constant_apply, Ideal.ofBits_zero_f32, zero_add]

theorem meanT_apply (h : FVec Ideal S100000x128 .f32) (j : Fin 128) : meanT h (ix1 j) = Spec.mean (Spec.mat h) j := by
  unfold meanT
  show Ideal.div (sumT h (ix1 j)) (broadcastInDim S128 ![] bcast_S_S128 (constant (F := Ideal) S_ .f32 0x47C35000#32) (ix1 j)) = _
  rw [sumT_apply, Cert.HostLayout.bid_scalar_apply, constant_apply]
  rfl

theorem devT_apply (h : FVec Ideal S100000x128 .f32) (r : Fin 100000) (j : Fin 128) :
    devT h (ix2 r j) = h (ix2 r j) - Spec.mean (Spec.mat h) j := by
  unfold devT
  rw [subf_apply, Cert.HostLayout.bid_1c_ac_apply]
  show h (ix2 r j) - Ideal.div (broadcastInDim S1x128 ![1] bcast_S128_S1x128_1 (sumT h) (ix2 (0 : Fin 1) j))
      (broadcastInDim S1x128 ![] bcast_S_S1x128 (constant (F := Ideal) S_ .f32 0x47C35000#32) (ix2 (0 : Fin 1) j)) = _
  rw [Cert.HostLayout.bid_c_1c_apply, Cert.HostLayout.bid_scalar_apply, constant_apply, sumT_apply]
  rfl

/-- The outlined variance's count is the word for 100000: the float of the integer 0 is 0. -/
theorem countT_eq : countT ix0 = Ideal.ofBits .f32 0x47C35000#32 := by
  show Ideal.ofBits .f32 0x47C35000#32 - ((((0#32 : BitVec 32).toInt : ℤ) : ℝ) : EReal) = _
  simp

/-- The outlined variance's test holds: the count is positive. -/
theorem count_pos (j : Fin 128) :
    broadcastInDim S128 ![] bcast_S_S128 (cmpf .ogt countT (constant (F := Ideal) S_ .f32 0x00000000#32)) (ix1 j) = 1#1 := by
  rw [Cert.HostLayout.bid_scalar_apply, cmpf_apply, countT_eq, constant_apply, Ideal.ofBits_zero_f32, Spec.nWord_eq]
  show Ideal.cmp .ogt ((100000 : ℝ) : EReal) 0 = 1#1
  unfold Ideal.cmp
  have : (0 : EReal) < ((100000 : ℝ) : EReal) := by exact_mod_cast (by norm_num : (0 : ℝ) < 100000)
  simp [this]

theorem varT_apply (h : FVec Ideal S100000x128 .f32) (j : Fin 128) :
    varT h (ix1 j) = Spec.varReference (Spec.mat h) j := by
  unfold varT
  rw [select_apply, count_pos, select_one]
  show Ideal.div (Host.reduceAdd (F := Ideal) (mulf (devT h) (devT h)) (constant (F := Ideal) S_ .f32 0x00000000#32)
      reducesTo_S100000x128_S128_d0 h_S_ (ix1 j)) (broadcastInDim S128 ![] bcast_S_S128 countT (ix1 j)) = _
  rw [hostSum_rows _ _ reducesTo_S100000x128_S128_d0 reduces_rows h_S_ j, constant_apply, Ideal.ofBits_zero_f32, zero_add,
    Cert.HostLayout.bid_scalar_apply, countT_eq]
  simp only [mulf_apply, devT_apply]
  rfl

theorem scaledT_apply (h : FVec Ideal S100000x128 .f32) (gamma : FVec Ideal S128 .f32) (r : Fin 100000) (j : Fin 128) :
    scaledT h gamma (ix2 r j)
      = (h (ix2 r j) - Spec.mean (Spec.mat h) j)
          * Ideal.rsqrt (Spec.varReference (Spec.mat h) j + Ideal.ofBits .f32 0x3727C5AC#32) * gamma (ix1 j) := by
  unfold scaledT
  rw [mulf_apply, mulf_apply, subf_apply, rowsT_apply, rowsT_apply, rowsT_apply, meanT_apply]
  show _ * Ideal.rsqrt (addf (varT h) (broadcastInDim S128 ![] bcast_S_S128 (constant (F := Ideal) S_ .f32 0x3727C5AC#32)) (ix1 j)) * _ = _
  rw [addf_apply, varT_apply, Cert.HostLayout.bid_scalar_apply, constant_apply]

/-- The reference's batch normalisation is the specification's with the variance as the mean of squared deviations. -/
theorem bnT_mat (h : FVec Ideal S100000x128 .f32) (gamma beta : FVec Ideal S128 .f32) :
    Spec.mat (bnT h gamma beta)
      = Spec.normalize (Spec.mat h) (Spec.varReference (Spec.mat h)) (Spec.row gamma) (Spec.row beta) := by
  funext r j
  rw [Spec.mat_apply, Spec.normalize_apply]
  unfold bnT
  rw [addf_apply, scaledT_apply, rowsT_apply]
  rfl

/-- One layer of the reference is the specification's reference-form layer of the aggregated features. -/
theorem layerT_mat (z : FVec Ideal S100000x128 .f32) (src dst : IVec S1600000 32) (W1 : FVec Ideal S128x128 .f32)
    (b1 : FVec Ideal S128 .f32) (W2 : FVec Ideal S128x128 .f32) (b2 gamma beta : FVec Ideal S128 .f32) :
    Spec.mat (layerT z src dst W1 b1 W2 b2 gamma beta)
      = Spec.layerReference (Spec.mat (addf z (aggrT z src dst))) (Spec.mat W1) (Spec.row b1) (Spec.mat W2) (Spec.row b2)
          (Spec.row gamma) (Spec.row beta) := by
  unfold layerT Spec.layerReference
  rw [bnT_mat, hiddenT_mat]

/-! ## Real entries -/

theorem realMat_of_allReal {a b : ℕ} {x : (⟨2, ![a, b]⟩ : Shape).Idx → EReal} (hx : AllReal x) : Spec.RealMat (Spec.mat x) :=
  fun r j => hx (ix2 r j)

theorem realRow_of_allReal {b : ℕ} {x : (⟨1, ![b]⟩ : Shape).Idx → EReal} (hx : AllReal x) : Spec.RealRow (Spec.row x) :=
  fun j => hx (ix1 j)

theorem allReal_of_realMat {a b : ℕ} {x : (⟨2, ![a, b]⟩ : Shape).Idx → EReal} (hx : Spec.RealMat (Spec.mat x)) : AllReal x := by
  intro i
  rw [eq_ix2 i]
  exact hx (i 0) (i 1)

/-- Two arrays with the same matrix are the same array. -/
theorem eq_of_mat_eq {a b : ℕ} {x y : (⟨2, ![a, b]⟩ : Shape).Idx → EReal} (h : Spec.mat x = Spec.mat y) : x = y := by
  funext i
  rw [eq_ix2 i]
  exact congrFun (congrFun h (i 0)) (i 1)

/-- The aggregated features of real features are real. -/
theorem allReal_aggregated {z : FVec Ideal S100000x128 .f32} (src dst : IVec S1600000 32) (hz : AllReal z) :
    AllReal (addf z (aggrT z src dst)) := by
  refine allReal_addf hz ?_
  unfold aggrT
  exact allReal_scatterAdd _ _ (allReal_broadcastInDim _ _ (allReal_constant_zero _)) (allReal_gather _ _ hz)

/-- A layer of real features and real parameters is real. -/
theorem allReal_layerT {z : FVec Ideal S100000x128 .f32} (src dst : IVec S1600000 32) {W1 : FVec Ideal S128x128 .f32}
    {b1 : FVec Ideal S128 .f32} {W2 : FVec Ideal S128x128 .f32} {b2 gamma beta : FVec Ideal S128 .f32}
    (hz : AllReal z) (hW1 : AllReal W1) (hb1 : AllReal b1) (hW2 : AllReal W2) (hb2 : AllReal b2)
    (hg : AllReal gamma) (hb : AllReal beta) : AllReal (layerT z src dst W1 b1 W2 b2 gamma beta) := by
  refine allReal_of_realMat ?_
  rw [layerT_mat]
  exact Spec.realMat_layerReference _ _ _ _ _ _ _ (realMat_of_allReal (allReal_aggregated src dst hz))
    (realMat_of_allReal hW1) (realRow_of_allReal hb1) (realMat_of_allReal hW2) (realRow_of_allReal hb2)
    (realRow_of_allReal hg) (realRow_of_allReal hb)

/-- An array that the kernel-form layer describes, on real operands, is the reference's layer. -/
theorem eq_layerT_of_layerKernel {y z : FVec Ideal S100000x128 .f32} (src dst : IVec S1600000 32) {W1 : FVec Ideal S128x128 .f32}
    {b1 : FVec Ideal S128 .f32} {W2 : FVec Ideal S128x128 .f32} {b2 gamma beta : FVec Ideal S128 .f32}
    (hz : AllReal z) (hW1 : AllReal W1) (hb1 : AllReal b1) (hW2 : AllReal W2) (hb2 : AllReal b2)
    (hy : Spec.mat y = Spec.layerKernel (Spec.mat (addf z (aggrT z src dst))) (Spec.mat W1) (Spec.row b1) (Spec.mat W2)
      (Spec.row b2) (Spec.row gamma) (Spec.row beta)) :
    y = layerT z src dst W1 b1 W2 b2 gamma beta := by
  refine eq_of_mat_eq ?_
  rw [hy, layerT_mat]
  exact Spec.layerKernel_eq_layerReference _ _ _ _ _ _ _ (realMat_of_allReal (allReal_aggregated src dst hz))
    (realMat_of_allReal hW1) (realRow_of_allReal hb1) (realMat_of_allReal hW2) (realRow_of_allReal hb2)

/-- The parameter slices of real parameters are real: every entry of a slice is an entry of the parameter. -/
theorem allReal_mat0T {W : FVec Ideal S3x128x128 .f32} (hW : AllReal W) : AllReal (mat0T W) := fun _ => hW _
theorem allReal_mat1T {W : FVec Ideal S3x128x128 .f32} (hW : AllReal W) : AllReal (mat1T W) := fun _ => hW _
theorem allReal_mat2T {W : FVec Ideal S3x128x128 .f32} (hW : AllReal W) : AllReal (mat2T W) := fun _ => hW _
theorem allReal_vec0T {b : FVec Ideal S3x128 .f32} (hb : AllReal b) : AllReal (vec0T b) := fun _ => hb _
theorem allReal_vec1T {b : FVec Ideal S3x128 .f32} (hb : AllReal b) : AllReal (vec1T b) := fun _ => hb _
theorem allReal_vec2T {b : FVec Ideal S3x128 .f32} (hb : AllReal b) : AllReal (vec2T b) := fun _ => hb _

end Cert.ReferenceIdeal.RefVal

end
-- ==== Proof.RefChain.lean ====
/-
  The three layers agree.

  Start from real features and real stacked parameters. If three arrays are described, entry by entry, by the
  kernel-form layer (variance as the mean of squares less the squared mean) — the first of the input features, each
  next one of the array before, all with the same edge endpoints and with the layer's own parameter slices — then they
  are the reference's three layers: the first layer's operands are real, so the two forms of the layer agree on it and
  its output is real; that output is the second layer's input, and so on.
-/
import proofs.«100772_j6322191859838_1_alg».proof.Proof.RefRead

noncomputable section

namespace Cert.ReferenceIdeal.RefVal

open Cert.ReferenceIdeal Cert.ReferenceIdeal.Gen Idealize.ShloMosaic Idealize.ShloMosaic.ValueIdx Cert.Decode

/-- The reference's first, second and third layer as functions of the features, the edge endpoints and the stacked parameters. -/
def chain1 (x : FVec Ideal S100000x128 .f32) (src dst : IVec S1600000 32) (W1 : FVec Ideal S3x128x128 .f32) (b1 : FVec Ideal S3x128 .f32)
    (W2 : FVec Ideal S3x128x128 .f32) (b2 gamma beta : FVec Ideal S3x128 .f32) : FVec Ideal S100000x128 .f32 :=
  layerT x src dst (mat0T W1) (vec0T b1) (mat0T W2) (vec0T b2) (vec0T gamma) (vec0T beta)
def chain2 (x : FVec Ideal S100000x128 .f32) (src dst : IVec S1600000 32) (W1 : FVec Ideal S3x128x128 .f32) (b1 : FVec Ideal S3x128 .f32)
    (W2 : FVec Ideal S3x128x128 .f32) (b2 gamma beta : FVec Ideal S3x128 .f32) : FVec Ideal S100000x128 .f32 :=
  layerT (chain1 x src dst W1 b1 W2 b2 gamma beta) src dst (mat1T W1) (vec1T b1) (mat1T W2) (vec1T b2) (vec1T gamma) (vec1T beta)
def chain3 (x : FVec Ideal S100000x128 .f32) (src dst : IVec S1600000 32) (W1 : FVec Ideal S3x128x128 .f32) (b1 : FVec Ideal S3x128 .f32)
    (W2 : FVec Ideal S3x128x128 .f32) (b2 gamma beta : FVec Ideal S3x128 .f32) : FVec Ideal S100000x128 .f32 :=
  layerT (chain2 x src dst W1 b1 W2 b2 gamma beta) src dst (mat2T W1) (vec2T b1) (mat2T W2) (vec2T b2) (vec2T gamma) (vec2T beta)

section
variable {x : FVec Ideal S100000x128 .f32} (src dst : IVec S1600000 32) {W1 : FVec Ideal S3x128x128 .f32} {b1 : FVec Ideal S3x128 .f32}
  {W2 : FVec Ideal S3x128x128 .f32} {b2 gamma beta : FVec Ideal S3x128 .f32}
  (hx : AllReal x) (hW1 : AllReal W1) (hb1 : AllReal b1) (hW2 : AllReal W2) (hb2 : AllReal b2) (hg : AllReal gamma) (hb : AllReal beta)
include hx hW1 hb1 hW2 hb2 hg hb

/-- Each layer of the reference on real arguments is real. -/
theorem allReal_chain1 : AllReal (chain1 x src dst W1 b1 W2 b2 gamma beta) :=
  allReal_layerT src dst hx (allReal_mat0T hW1) (allReal_vec0T hb1) (allReal_mat0T hW2) (allReal_vec0T hb2) (allReal_vec0T hg) (allReal_vec0T hb)
theorem allReal_chain2 : AllReal (chain2 x src dst W1 b1 W2 b2 gamma beta) :=
  allReal_layerT src dst (allReal_chain1 src dst hx hW1 hb1 hW2 hb2 hg hb)
    (allReal_mat1T hW1) (allReal_vec1T hb1) (allReal_mat1T hW2) (allReal_vec1T hb2) (allReal_vec1T hg) (allReal_vec1T hb)
theorem allReal_chain3 : AllReal (chain3 x src dst W1 b1 W2 b2 gamma beta) :=
  allReal_layerT src dst (allReal_chain2 src dst hx hW1 hb1 hW2 hb2 hg hb)
    (allReal_mat2T hW1) (allReal_vec2T hb1) (allReal_mat2T hW2) (allReal_vec2T hb2) (allReal_vec2T hg) (allReal_vec2T hb)

/-- Three arrays that the kernel-form layer describes, each from the one before, are the reference's three layers. -/
theorem chain_agree (y1 y2 y3 : FVec Ideal S100000x128 .f32)
    (h1 : Spec.mat y1 = Spec.layerKernel (Spec.mat (addf x (aggrT x src dst))) (Spec.mat (mat0T W1)) (Spec.row (vec0T b1))
      (Spec.mat (mat0T W2)) (Spec.row (vec0T b2)) (Spec.row (vec0T gamma)) (Spec.row (vec0T beta)))
    (h2 : Spec.mat y2 = Spec.layerKernel (Spec.mat (addf y1 (aggrT y1 src dst))) (Spec.mat (mat1T W1)) (Spec.row (vec1T b1))
      (Spec.mat (mat1T W2)) (Spec.row (vec1T b2)) (Spec.row (vec1T gamma)) (Spec.row (vec1T beta)))
    (h3 : Spec.mat y3 = Spec.layerKernel (Spec.mat (addf y2 (aggrT y2 src dst))) (Spec.mat (mat2T W1)) (Spec.row (vec2T b1))
      (Spec.mat (mat2T W2)) (Spec.row (vec2T b2)) (Spec.row (vec2T gamma)) (Spec.row (vec2T beta))) :
    y1 = chain1 x src dst W1 b1 W2 b2 gamma beta ∧ y2 = chain2 x src dst W1 b1 W2 b2 gamma beta
      ∧ y3 = chain3 x src dst W1 b1 W2 b2 gamma beta := by
  have e1 : y1 = chain1 x src dst W1 b1 W2 b2 gamma beta :=
    eq_layerT_of_layerKernel src dst hx (allReal_mat0T hW1) (allReal_vec0T hb1) (allReal_mat0T hW2) (allReal_vec0T hb2) h1
  subst e1
  have e2 : y2 = chain2 x src dst W1 b1 W2 b2 gamma beta :=
    eq_layerT_of_layerKernel src dst (allReal_chain1 src dst hx hW1 hb1 hW2 hb2 hg hb)
      (allReal_mat1T hW1) (allReal_vec1T hb1) (allReal_mat1T hW2) (allReal_vec1T hb2) h2
  subst e2
  have e3 : y3 = chain3 x src dst W1 b1 W2 b2 gamma beta :=
    eq_layerT_of_layerKernel src dst (allReal_chain2 src dst hx hW1 hb1 hW2 hb2 hg hb)
      (allReal_mat2T hW1) (allReal_vec2T hb1) (allReal_mat2T hW2) (allReal_vec2T hb2) h3
  exact ⟨rfl, rfl, e3⟩

end

end Cert.ReferenceIdeal.RefVal

end
-- ==== Proof.RefResult.lean ====
/-
  The reference's two results as functions of its arguments: the three layers' outputs side by side, and their
  per-graph sums side by side, the layers being the chain of the one layer function over the input features, the
  edge endpoints and the stacked parameters.
-/
import proofs.«100772_j6322191859838_1_alg».proof.Proof.RefValue3
import proofs.«100772_j6322191859838_1_alg».proof.Proof.RefChain

noncomputable section

namespace Cert.ReferenceIdeal.RefVal

open Cert.ReferenceIdeal Cert.ReferenceIdeal.Gen Cert.ReferenceIdeal.RefRun Idealize.ShloMosaic Idealize.ShloMosaic.TcCoe Idealize.SL.Sem Idealize.ShloMosaic.StableHlo

theorem z1_chain (V : Val) : z1 V = chain1 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8)) := rfl
theorem z2_chain (V : Val) : z2 V = chain2 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8)) := rfl
theorem z3_chain (V : Val) : z3 V = chain3 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8)) := rfl

/-- The reference's first result. -/
theorem ref_nodes_chain (V : Val) :
    after ops V (Proc.devRef .tc main_v169)
      = catNodesT (chain1 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8))) (chain2 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8))) (chain3 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8))) :=
  ref_nodes V

/-- The reference's second result. -/
theorem ref_graphs_chain (V : Val) :
    after ops V (Proc.devRef .tc main_v170)
      = catGraphsT (poolT (chain1 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg2))) (poolT (chain2 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg2))) (poolT (chain3 (V (Proc.devRef .tc main_arg0)) (src V) (dst V) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg2))) :=
  ref_graphs V

end Cert.ReferenceIdeal.RefVal

end
-- ==== Proof.MathPre.lean ====
/-
  The precondition decoded: every float argument has only real entries.

  The precondition is a conjunction, one conjunct per float argument, each saying that the array "absolute value is
  below the +inf word" is all ones. An "and" of one-bit words is one exactly when both are; a reduction by "and" into
  a single result is one only if every element is; and an extended real whose absolute value is below +inf is
  neither infinity, hence a real.
-/
import proofs.«100772_j6322191859838_1_alg».proof.Pre_finite_inputs
import proofs.«100772_j6322191859838_1_alg».proof.Proof.LibAllReal
import Idealize.ShloMosaic.Lib.ReduceAll
import Idealize.ShloMosaic.Lib.ValueIdx

namespace Cert.PreDecode

open Idealize.ShloMosaic Cert.Pre_finite_inputs Cert.Decode

instance : Subsingleton S_.Idx := ⟨fun _ _ => funext fun d => d.elim0⟩

/-- An extended real whose absolute value is below the word for +inf is a real. -/
theorem real_of_abs_lt_inf (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  unfold Ideal.cmp at h
  induction x using EReal.rec with
  | bot => simp at h
  | coe r => exact ⟨r, rfl⟩
  | top => simp at h

/-- An array whose "absolute value below +inf" test is all ones has only real entries. -/
theorem allReal_of_all_abs_lt_inf {S : Shape} {axes : List (Fin S.rank)} (a : FVec Ideal S .f32)
    (hb : S_.BroadcastsInDim S (![] : Fin 0 → Fin S.rank)) (hr : S.ReducesTo axes S_) (hu : 0 < S_.numel)
    (h : Host.reduce IntOp.andi (cmpf .olt (Host.absf a) (broadcastInDim S ![] hb (constant (F := Ideal) S_ .f32 0x7F800000#32)))
      (constantI S_ 1 1#1) hr hu ValueIdx.ix0 = 1#1) : AllReal a := by
  intro i
  have hi := Host.reduce_andi_all _ _ hr hu _ h i
  exact real_of_abs_lt_inf (a i) hi

variable [Cert.Pre_finite_inputs.Facts]

/-- Under the precondition every float argument has only real entries. -/
theorem allReal_of_pre (a0 : FVec Ideal S100000x128 .f32) (a1 : IVec S2x1600000 32) (a2 : IVec S100000 32)
    (a3 : FVec Ideal S3x128x128 .f32) (a4 : FVec Ideal S3x128 .f32) (a5 : FVec Ideal S3x128x128 .f32)
    (a6 a7 a8 : FVec Ideal S3x128 .f32)
    (h : Cert.Pre_finite_inputs.fn (F := Ideal) a0 a1 a2 a3 a4 a5 a6 a7 a8 = fun _ => 1#1) :
    AllReal a0 ∧ AllReal a3 ∧ AllReal a4 ∧ AllReal a5 ∧ AllReal a6 ∧ AllReal a7 ∧ AllReal a8 := by
  have h0 := congrFun h ValueIdx.ix0
  dsimp only [fn, fn_part1] at h0
  obtain ⟨h28, h32⟩ := IntOp.andi_eq_one.mp h0
  obtain ⟨h23, h27⟩ := IntOp.andi_eq_one.mp h28
  obtain ⟨h18, h22⟩ := IntOp.andi_eq_one.mp h23
  obtain ⟨h13, h17⟩ := IntOp.andi_eq_one.mp h18
  obtain ⟨h8, h12⟩ := IntOp.andi_eq_one.mp h13
  obtain ⟨h3, h7⟩ := IntOp.andi_eq_one.mp h8
  exact ⟨allReal_of_all_abs_lt_inf a0 _ _ _ h3, allReal_of_all_abs_lt_inf a3 _ _ _ h7,
    allReal_of_all_abs_lt_inf a4 _ _ _ h12, allReal_of_all_abs_lt_inf a5 _ _ _ h17,
    allReal_of_all_abs_lt_inf a6 _ _ _ h22, allReal_of_all_abs_lt_inf a7 _ _ _ h27,
    allReal_of_all_abs_lt_inf a8 _ _ _ h32⟩

end Cert.PreDecode
-- ==== Proof.KerHost.lean ====
/-
  The kernel program's host pieces, one named function each.

  Between its six regions the kernel program's @main runs host operations: it slices the edge list into sources and
  destinations and the stacked parameters into each layer's matrices and rows; before each dense region it sums the
  neighbours' features (a gather of the rows at the edges' sources, negative indices wrapped by the row count, and a
  scatter-add at the destinations); at the end it pools each layer's output per graph (a scatter-add by the graph
  index) and sets the three outputs, and the three pooled outputs, side by side. Each function here is the
  operations' own term at the exact values, kept as a name.
-/
import proofs.«100772_j6322191859838_1_alg».proof.Proof.Gen.KernelIdeal
import Idealize.ShloMosaic.PureOps.Ideal

noncomputable section

namespace Cert.KerVal

open Cert.KernelIdeal Cert.KernelIdeal.Gen Idealize.ShloMosaic

/-- The edge endpoints of row k of the edge list, as a flat vector. -/
def srcK (e : IVec S2x1600000 32) : IVec S1600000 32 :=
  shapeCast S1600000 (extractStridedSlice S1x1600000 ![0, 0] e slices_S2x1600000_S1x1600000_0_0) shapeCasts_S1x1600000_S1600000
def dstK (e : IVec S2x1600000 32) : IVec S1600000 32 :=
  shapeCast S1600000 (extractStridedSlice S1x1600000 ![1, 0] e slices_S2x1600000_S1x1600000_1_0) shapeCasts_S1x1600000_S1600000

/-- Layer k's matrix out of the stacked [3, 128, 128] parameter. -/
def matK0 (W : FVec Ideal S3x128x128 .f32) : FVec Ideal S128x128 .f32 :=
  shapeCast S128x128 (extractStridedSlice S1x128x128 ![0, 0, 0] W slices_S3x128x128_S1x128x128_0_0_0) shapeCasts_S1x128x128_S128x128
def matK1 (W : FVec Ideal S3x128x128 .f32) : FVec Ideal S128x128 .f32 :=
  shapeCast S128x128 (extractStridedSlice S1x128x128 ![1, 0, 0] W slices_S3x128x128_S1x128x128_1_0_0) shapeCasts_S1x128x128_S128x128
def matK2 (W : FVec Ideal S3x128x128 .f32) : FVec Ideal S128x128 .f32 :=
  shapeCast S128x128 (extractStridedSlice S1x128x128 ![2, 0, 0] W slices_S3x128x128_S1x128x128_2_0_0) shapeCasts_S1x128x128_S128x128

/-- Layer k's row out of a stacked [3, 128] parameter. -/
def vecK0 (b : FVec Ideal S3x128 .f32) : FVec Ideal S128 .f32 :=
  shapeCast S128 (extractStridedSlice S1x128 ![0, 0] b slices_S3x128_S1x128_0_0) shapeCasts_S1x128_S128
def vecK1 (b : FVec Ideal S3x128 .f32) : FVec Ideal S128 .f32 :=
  shapeCast S128 (extractStridedSlice S1x128 ![1, 0] b slices_S3x128_S1x128_1_0) shapeCasts_S1x128_S128
def vecK2 (b : FVec Ideal S3x128 .f32) : FVec Ideal S128 .f32 :=
  shapeCast S128 (extractStridedSlice S1x128 ![2, 0] b slices_S3x128_S1x128_2_0) shapeCasts_S1x128_S128

/-- Source indices with a negative entry wrapped by the row count. -/
def wrapK (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The sum of the neighbours' features: gather the rows at the edges' sources, scatter-add them at the destinations. -/
def aggrK (z : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 z
      (broadcastInDim S1600000x1 ![0] bcast_S1600000_S1600000x1_0 (wrapK src)))

/-- The per-graph sums of a layer's output. -/
def poolK (z : FVec Ideal S100000x128 .f32) (batch : IVec S100000 32) : FVec Ideal S128x128 .f32 :=
  Host.scatterAdd (F := Ideal) scatter_S128x128_S100000x1_S100000x128_1_0_0_1
    (broadcastInDim S128x128 ![] bcast_S_S128x128 (constant (F := Ideal) S_ .f32 0x00000000#32))
    (broadcastInDim S100000x1 ![0] bcast_S100000_S100000x1_0 batch) z

/-- The three layers' outputs side by side. -/
def catNodesK (z1 z2 z3 : FVec Ideal S100000x128 .f32) : FVec Ideal S100000x384 .f32 :=
  concatenate S100000x384 1 [⟨S100000x128, z1⟩, ⟨S100000x128, z2⟩, ⟨S100000x128, z3⟩] concatenates_S100000x128_S100000x128_S100000x128_S100000x384_d1

/-- The three pooled outputs side by side. -/
def catGraphsK (g1 g2 g3 : FVec Ideal S128x128 .f32) : FVec Ideal S128x384 .f32 :=
  concatenate S128x384 1 [⟨S128x128, g1⟩, ⟨S128x128, g2⟩, ⟨S128x128, g3⟩] concatenates_S128x128_S128x128_S128x128_S128x384_d1

end Cert.KerVal

end
-- ==== Proof.KerChainA.lean ====
/-
  The buffers the kernel program never rewrites, at every boundary of its run.

  A host stretch leaves a buffer it does not write as it was; a region leaves a buffer that is not one of its arrays,
  and each of its input arrays, as it was. So the nine arguments hold the launch contents at every boundary, and the
  two flat vectors of edge endpoints, formed in the first host stretch, stay as formed.
-/
import proofs.«100772_j6322191859838_1_alg».proof.Proof.KI_Run
import proofs.«100772_j6322191859838_1_alg».proof.Proof.KerHost
import Idealize.ShloMosaic.Lib.StableHlo.Run
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

open Idealize.ShloMosaic.StableHlo

variable (m : (ℓ : Loc nD τ sig) → Buf (Elt Ideal) ℓ) (ρ : Dev nD → PrngReg)

/-! ## The arguments -/
abbrev a0 (c : Dev nD) : S100000x128.Idx → EReal := m ((c : Thread nD τ).loc main_arg0)
abbrev a1 (c : Dev nD) : IVec S2x1600000 32 := m ((c : Thread nD τ).loc main_arg1)
abbrev a2 (c : Dev nD) : IVec S100000 32 := m ((c : Thread nD τ).loc main_arg2)
abbrev a3 (c : Dev nD) : FVec Ideal S3x128x128 .f32 := m ((c : Thread nD τ).loc main_arg3)
abbrev a4 (c : Dev nD) : FVec Ideal S3x128 .f32 := m ((c : Thread nD τ).loc main_arg4)
abbrev a5 (c : Dev nD) : FVec Ideal S3x128x128 .f32 := m ((c : Thread nD τ).loc main_arg5)
abbrev a6 (c : Dev nD) : FVec Ideal S3x128 .f32 := m ((c : Thread nD τ).loc main_arg6)
abbrev a7 (c : Dev nD) : FVec Ideal S3x128 .f32 := m ((c : Thread nD τ).loc main_arg7)
abbrev a8 (c : Dev nD) : FVec Ideal S3x128 .f32 := m ((c : Thread nD τ).loc main_arg8)

/-! ## What each segment leaves unchanged -/

theorem keepH0 (c : Dev nD) (r : Ref sig .tc) (h : r ∉ (hostOps0_W : List (Ref sig .tc))) :
    W1 m ρ c (Proc.devRef .tc r) = W0 m ρ c (Proc.devRef .tc r) :=
  StableHlo.after_of_writes_sub hostOps0 _ hostOps0_writes h

theorem keepH1 (c : Dev nD) (r : Ref sig .tc) (h : r ∉ (hostOps1_W : List (Ref sig .tc))) :
    W3 m ρ c (Proc.devRef .tc r) = W2 m ρ c (Proc.devRef .tc r) :=
  StableHlo.after_of_writes_sub hostOps1 _ hostOps1_writes h

theorem keepH2 (c : Dev nD) (r : Ref sig .tc) (h : r ∉ (hostOps2_W : List (Ref sig .tc))) :
    W5 m ρ c (Proc.devRef .tc r) = W4 m ρ c (Proc.devRef .tc r) :=
  StableHlo.after_of_writes_sub hostOps2 _ hostOps2_writes h

theorem keepH3 (c : Dev nD) (r : Ref sig .tc) (h : r ∉ (hostOps3_W : List (Ref sig .tc))) :
    W7 m ρ c (Proc.devRef .tc r) = W6 m ρ c (Proc.devRef .tc r) :=
  StableHlo.after_of_writes_sub hostOps3 _ hostOps3_writes h

theorem keepH4 (c : Dev nD) (r : Ref sig .tc) (h : r ∉ (hostOps4_W : List (Ref sig .tc))) :
    W9 m ρ c (Proc.devRef .tc r) = W8 m ρ c (Proc.devRef .tc r) :=
  StableHlo.after_of_writes_sub hostOps4 _ hostOps4_writes h

theorem keepH5 (c : Dev nD) (r : Ref sig .tc) (h : r ∉ (hostOps5_W : List (Ref sig .tc))) :
    W11 m ρ c (Proc.devRef .tc r) = W10 m ρ c (Proc.devRef .tc r) :=
  StableHlo.after_of_writes_sub hostOps5 _ hostOps5_writes h

theorem keepH6 (c : Dev nD) (r : Ref sig .tc) (h : r ∉ (hostOps6_W : List (Ref sig .tc))) :
    W13 m ρ c (Proc.devRef .tc r) = W12 m ρ c (Proc.devRef .tc r) :=
  StableHlo.after_of_writes_sub hostOps6 _ hostOps6_writes h

theorem keepR0 (c : Dev nD) (r : Ref sig .tc) (h : ∀ w, Pipeline.arrRef spec0 w ≠ r) :
    W2 m ρ c (Proc.devRef .tc r) = W1 m ρ c (Proc.devRef .tc r) := W2_of_ne m ρ c r h

theorem keepIn0 (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (Ent1 m ρ) c).arrAt_in w hin _).trans (A_eq0 (Ent1 m ρ) c w))

theorem keepR1 (c : Dev nD) (r : Ref sig .tc) (h : ∀ w, Pipeline.arrRef spec1 w ≠ r) :
    W4 m ρ c (Proc.devRef .tc r) = W3 m ρ c (Proc.devRef .tc r) := W4_of_ne m ρ c r h

theorem keepIn1 (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (Ent3 m ρ) c).arrAt_in w hin _).trans (A_eq1 (Ent3 m ρ) c w))

theorem keepR2 (c : Dev nD) (r : Ref sig .tc) (h : ∀ w, Pipeline.arrRef spec2 w ≠ r) :
    W6 m ρ c (Proc.devRef .tc r) = W5 m ρ c (Proc.devRef .tc r) := W6_of_ne m ρ c r h

theorem keepIn2 (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (Ent5 m ρ) c).arrAt_in w hin _).trans (A_eq2 (Ent5 m ρ) c w))

theorem keepR3 (c : Dev nD) (r : Ref sig .tc) (h : ∀ w, Pipeline.arrRef spec3 w ≠ r) :
    W8 m ρ c (Proc.devRef .tc r) = W7 m ρ c (Proc.devRef .tc r) := W8_of_ne m ρ c r h

theorem keepIn3 (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (Ent7 m ρ) c).arrAt_in w hin _).trans (A_eq3 (Ent7 m ρ) c w))

theorem keepR4 (c : Dev nD) (r : Ref sig .tc) (h : ∀ w, Pipeline.arrRef spec4 w ≠ r) :
    W10 m ρ c (Proc.devRef .tc r) = W9 m ρ c (Proc.devRef .tc r) := W10_of_ne m ρ c r h

theorem keepIn4 (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (Ent9 m ρ) c).arrAt_in w hin _).trans (A_eq4 (Ent9 m ρ) c w))

theorem keepR5 (c : Dev nD) (r : Ref sig .tc) (h : ∀ w, Pipeline.arrRef spec5 w ≠ r) :
    W12 m ρ c (Proc.devRef .tc r) = W11 m ρ c (Proc.devRef .tc r) := W12_of_ne m ρ c r h

theorem keepIn5 (c : Dev nD) (w : Fin cfg5.W) (hin : (cfg5.win w).isOut = false) :
    W12 m ρ c (Proc.devRef .tc (Pipeline.arrRef spec5 w)) = W11 m ρ c (Proc.devRef .tc (Pipeline.arrRef spec5 w)) :=
  (W12_arr m ρ c w).trans (((dat5 (Ent11 m ρ) c).arrAt_in w hin _).trans (A_eq5 (Ent11 m ρ) c w))

/-! ## The arguments at every boundary -/

theorem W0_arg1 (c : Dev nD) : (W0 m ρ c (Proc.devRef .tc main_arg1) : IVec S2x1600000 32) = a1 m c := rfl
theorem W1_arg1 (c : Dev nD) : (W1 m ρ c (Proc.devRef .tc main_arg1) : IVec S2x1600000 32) = a1 m c := (keepH0 m ρ c main_arg1 (by decide)).trans (W0_arg1 m ρ c)
theorem W2_arg1 (c : Dev nD) : (W2 m ρ c (Proc.devRef .tc main_arg1) : IVec S2x1600000 32) = a1 m c := (keepR0 m ρ c main_arg1 (by decide)).trans (W1_arg1 m ρ c)
theorem W3_arg1 (c : Dev nD) : (W3 m ρ c (Proc.devRef .tc main_arg1) : IVec S2x1600000 32) = a1 m c := (keepH1 m ρ c main_arg1 (by decide)).trans (W2_arg1 m ρ c)
theorem W4_arg1 (c : Dev nD) : (W4 m ρ c (Proc.devRef .tc main_arg1) : IVec S2x1600000 32) = a1 m c := (keepR1 m ρ c main_arg1 (by decide)).trans (W3_arg1 m ρ c)
theorem W5_arg1 (c : Dev nD) : (W5 m ρ c (Proc.devRef .tc main_arg1) : IVec S2x1600000 32) = a1 m c := (keepH2 m ρ c main_arg1 (by decide)).trans (W4_arg1 m ρ c)
theorem W6_arg1 (c : Dev nD) : (W6 m ρ c (Proc.devRef .tc main_arg1) : IVec S2x1600000 32) = a1 m c := (keepR2 m ρ c main_arg1 (by decide)).trans (W5_arg1 m ρ c)
theorem W7_arg1 (c : Dev nD) : (W7 m ρ c (Proc.devRef .tc main_arg1) : IVec S2x1600000 32) = a1 m c := (keepH3 m ρ c main_arg1 (by decide)).trans (W6_arg1 m ρ c)
theorem W8_arg1 (c : Dev nD) : (W8 m ρ c (Proc.devRef .tc main_arg1) : IVec S2x1600000 32) = a1 m c := (keepR3 m ρ c main_arg1 (by decide)).trans (W7_arg1 m ρ c)
theorem W9_arg1 (c : Dev nD) : (W9 m ρ c (Proc.devRef .tc main_arg1) : IVec S2x1600000 32) = a1 m c := (keepH4 m ρ c main_arg1 (by decide)).trans (W8_arg1 m ρ c)
theorem W10_arg1 (c : Dev nD) : (W10 m ρ c (Proc.devRef .tc main_arg1) : IVec S2x1600000 32) = a1 m c := (keepR4 m ρ c main_arg1 (by decide)).trans (W9_arg1 m ρ c)
theorem W11_arg1 (c : Dev nD) : (W11 m ρ c (Proc.devRef .tc main_arg1) : IVec S2x1600000 32) = a1 m c := (keepH5 m ρ c main_arg1 (by decide)).trans (W10_arg1 m ρ c)
theorem W12_arg1 (c : Dev nD) : (W12 m ρ c (Proc.devRef .tc main_arg1) : IVec S2x1600000 32) = a1 m c := (keepR5 m ρ c main_arg1 (by decide)).trans (W11_arg1 m ρ c)

theorem W0_arg2 (c : Dev nD) : (W0 m ρ c (Proc.devRef .tc main_arg2) : IVec S100000 32) = a2 m c := rfl
theorem W1_arg2 (c : Dev nD) : (W1 m ρ c (Proc.devRef .tc main_arg2) : IVec S100000 32) = a2 m c := (keepH0 m ρ c main_arg2 (by decide)).trans (W0_arg2 m ρ c)
theorem W2_arg2 (c : Dev nD) : (W2 m ρ c (Proc.devRef .tc main_arg2) : IVec S100000 32) = a2 m c := (keepR0 m ρ c main_arg2 (by decide)).trans (W1_arg2 m ρ c)
theorem W3_arg2 (c : Dev nD) : (W3 m ρ c (Proc.devRef .tc main_arg2) : IVec S100000 32) = a2 m c := (keepH1 m ρ c main_arg2 (by decide)).trans (W2_arg2 m ρ c)
theorem W4_arg2 (c : Dev nD) : (W4 m ρ c (Proc.devRef .tc main_arg2) : IVec S100000 32) = a2 m c := (keepR1 m ρ c main_arg2 (by decide)).trans (W3_arg2 m ρ c)
theorem W5_arg2 (c : Dev nD) : (W5 m ρ c (Proc.devRef .tc main_arg2) : IVec S100000 32) = a2 m c := (keepH2 m ρ c main_arg2 (by decide)).trans (W4_arg2 m ρ c)
theorem W6_arg2 (c : Dev nD) : (W6 m ρ c (Proc.devRef .tc main_arg2) : IVec S100000 32) = a2 m c := (keepR2 m ρ c main_arg2 (by decide)).trans (W5_arg2 m ρ c)
theorem W7_arg2 (c : Dev nD) : (W7 m ρ c (Proc.devRef .tc main_arg2) : IVec S100000 32) = a2 m c := (keepH3 m ρ c main_arg2 (by decide)).trans (W6_arg2 m ρ c)
theorem W8_arg2 (c : Dev nD) : (W8 m ρ c (Proc.devRef .tc main_arg2) : IVec S100000 32) = a2 m c := (keepR3 m ρ c main_arg2 (by decide)).trans (W7_arg2 m ρ c)
theorem W9_arg2 (c : Dev nD) : (W9 m ρ c (Proc.devRef .tc main_arg2) : IVec S100000 32) = a2 m c := (keepH4 m ρ c main_arg2 (by decide)).trans (W8_arg2 m ρ c)
theorem W10_arg2 (c : Dev nD) : (W10 m ρ c (Proc.devRef .tc main_arg2) : IVec S100000 32) = a2 m c := (keepR4 m ρ c main_arg2 (by decide)).trans (W9_arg2 m ρ c)
theorem W11_arg2 (c : Dev nD) : (W11 m ρ c (Proc.devRef .tc main_arg2) : IVec S100000 32) = a2 m c := (keepH5 m ρ c main_arg2 (by decide)).trans (W10_arg2 m ρ c)
theorem W12_arg2 (c : Dev nD) : (W12 m ρ c (Proc.devRef .tc main_arg2) : IVec S100000 32) = a2 m c := (keepR5 m ρ c main_arg2 (by decide)).trans (W11_arg2 m ρ c)

theorem W0_arg3 (c : Dev nD) : (W0 m ρ c (Proc.devRef .tc main_arg3) : FVec Ideal S3x128x128 .f32) = a3 m c := rfl
theorem W1_arg3 (c : Dev nD) : (W1 m ρ c (Proc.devRef .tc main_arg3) : FVec Ideal S3x128x128 .f32) = a3 m c := (keepH0 m ρ c main_arg3 (by decide)).trans (W0_arg3 m ρ c)
theorem W2_arg3 (c : Dev nD) : (W2 m ρ c (Proc.devRef .tc main_arg3) : FVec Ideal S3x128x128 .f32) = a3 m c := (keepR0 m ρ c main_arg3 (by decide)).trans (W1_arg3 m ρ c)
theorem W3_arg3 (c : Dev nD) : (W3 m ρ c (Proc.devRef .tc main_arg3) : FVec Ideal S3x128x128 .f32) = a3 m c := (keepH1 m ρ c main_arg3 (by decide)).trans (W2_arg3 m ρ c)
theorem W4_arg3 (c : Dev nD) : (W4 m ρ c (Proc.devRef .tc main_arg3) : FVec Ideal S3x128x128 .f32) = a3 m c := (keepR1 m ρ c main_arg3 (by decide)).trans (W3_arg3 m ρ c)
theorem W5_arg3 (c : Dev nD) : (W5 m ρ c (Proc.devRef .tc main_arg3) : FVec Ideal S3x128x128 .f32) = a3 m c := (keepH2 m ρ c main_arg3 (by decide)).trans (W4_arg3 m ρ c)
theorem W6_arg3 (c : Dev nD) : (W6 m ρ c (Proc.devRef .tc main_arg3) : FVec Ideal S3x128x128 .f32) = a3 m c := (keepR2 m ρ c main_arg3 (by decide)).trans (W5_arg3 m ρ c)
theorem W7_arg3 (c : Dev nD) : (W7 m ρ c (Proc.devRef .tc main_arg3) : FVec Ideal S3x128x128 .f32) = a3 m c := (keepH3 m ρ c main_arg3 (by decide)).trans (W6_arg3 m ρ c)
theorem W8_arg3 (c : Dev nD) : (W8 m ρ c (Proc.devRef .tc main_arg3) : FVec Ideal S3x128x128 .f32) = a3 m c := (keepR3 m ρ c main_arg3 (by decide)).trans (W7_arg3 m ρ c)
theorem W9_arg3 (c : Dev nD) : (W9 m ρ c (Proc.devRef .tc main_arg3) : FVec Ideal S3x128x128 .f32) = a3 m c := (keepH4 m ρ c main_arg3 (by decide)).trans (W8_arg3 m ρ c)
theorem W10_arg3 (c : Dev nD) : (W10 m ρ c (Proc.devRef .tc main_arg3) : FVec Ideal S3x128x128 .f32) = a3 m c := (keepR4 m ρ c main_arg3 (by decide)).trans (W9_arg3 m ρ c)
theorem W11_arg3 (c : Dev nD) : (W11 m ρ c (Proc.devRef .tc main_arg3) : FVec Ideal S3x128x128 .f32) = a3 m c := (keepH5 m ρ c main_arg3 (by decide)).trans (W10_arg3 m ρ c)
theorem W12_arg3 (c : Dev nD) : (W12 m ρ c (Proc.devRef .tc main_arg3) : FVec Ideal S3x128x128 .f32) = a3 m c := (keepR5 m ρ c main_arg3 (by decide)).trans (W11_arg3 m ρ c)

theorem W0_arg4 (c : Dev nD) : (W0 m ρ c (Proc.devRef .tc main_arg4) : FVec Ideal S3x128 .f32) = a4 m c := rfl
theorem W1_arg4 (c : Dev nD) : (W1 m ρ c (Proc.devRef .tc main_arg4) : FVec Ideal S3x128 .f32) = a4 m c := (keepH0 m ρ c main_arg4 (by decide)).trans (W0_arg4 m ρ c)
theorem W2_arg4 (c : Dev nD) : (W2 m ρ c (Proc.devRef .tc main_arg4) : FVec Ideal S3x128 .f32) = a4 m c := (keepR0 m ρ c main_arg4 (by decide)).trans (W1_arg4 m ρ c)
theorem W3_arg4 (c : Dev nD) : (W3 m ρ c (Proc.devRef .tc main_arg4) : FVec Ideal S3x128 .f32) = a4 m c := (keepH1 m ρ c main_arg4 (by decide)).trans (W2_arg4 m ρ c)
theorem W4_arg4 (c : Dev nD) : (W4 m ρ c (Proc.devRef .tc main_arg4) : FVec Ideal S3x128 .f32) = a4 m c := (keepR1 m ρ c main_arg4 (by decide)).trans (W3_arg4 m ρ c)
theorem W5_arg4 (c : Dev nD) : (W5 m ρ c (Proc.devRef .tc main_arg4) : FVec Ideal S3x128 .f32) = a4 m c := (keepH2 m ρ c main_arg4 (by decide)).trans (W4_arg4 m ρ c)
theorem W6_arg4 (c : Dev nD) : (W6 m ρ c (Proc.devRef .tc main_arg4) : FVec Ideal S3x128 .f32) = a4 m c := (keepR2 m ρ c main_arg4 (by decide)).trans (W5_arg4 m ρ c)
theorem W7_arg4 (c : Dev nD) : (W7 m ρ c (Proc.devRef .tc main_arg4) : FVec Ideal S3x128 .f32) = a4 m c := (keepH3 m ρ c main_arg4 (by decide)).trans (W6_arg4 m ρ c)
theorem W8_arg4 (c : Dev nD) : (W8 m ρ c (Proc.devRef .tc main_arg4) : FVec Ideal S3x128 .f32) = a4 m c := (keepR3 m ρ c main_arg4 (by decide)).trans (W7_arg4 m ρ c)
theorem W9_arg4 (c : Dev nD) : (W9 m ρ c (Proc.devRef .tc main_arg4) : FVec Ideal S3x128 .f32) = a4 m c := (keepH4 m ρ c main_arg4 (by decide)).trans (W8_arg4 m ρ c)
theorem W10_arg4 (c : Dev nD) : (W10 m ρ c (Proc.devRef .tc main_arg4) : FVec Ideal S3x128 .f32) = a4 m c := (keepR4 m ρ c main_arg4 (by decide)).trans (W9_arg4 m ρ c)
theorem W11_arg4 (c : Dev nD) : (W11 m ρ c (Proc.devRef .tc main_arg4) : FVec Ideal S3x128 .f32) = a4 m c := (keepH5 m ρ c main_arg4 (by decide)).trans (W10_arg4 m ρ c)
theorem W12_arg4 (c : Dev nD) : (W12 m ρ c (Proc.devRef .tc main_arg4) : FVec Ideal S3x128 .f32) = a4 m c := (keepR5 m ρ c main_arg4 (by decide)).trans (W11_arg4 m ρ c)

theorem W0_arg5 (c : Dev nD) : (W0 m ρ c (Proc.devRef .tc main_arg5) : FVec Ideal S3x128x128 .f32) = a5 m c := rfl
theorem W1_arg5 (c : Dev nD) : (W1 m ρ c (Proc.devRef .tc main_arg5) : FVec Ideal S3x128x128 .f32) = a5 m c := (keepH0 m ρ c main_arg5 (by decide)).trans (W0_arg5 m ρ c)
theorem W2_arg5 (c : Dev nD) : (W2 m ρ c (Proc.devRef .tc main_arg5) : FVec Ideal S3x128x128 .f32) = a5 m c := (keepR0 m ρ c main_arg5 (by decide)).trans (W1_arg5 m ρ c)
theorem W3_arg5 (c : Dev nD) : (W3 m ρ c (Proc.devRef .tc main_arg5) : FVec Ideal S3x128x128 .f32) = a5 m c := (keepH1 m ρ c main_arg5 (by decide)).trans (W2_arg5 m ρ c)
theorem W4_arg5 (c : Dev nD) : (W4 m ρ c (Proc.devRef .tc main_arg5) : FVec Ideal S3x128x128 .f32) = a5 m c := (keepR1 m ρ c main_arg5 (by decide)).trans (W3_arg5 m ρ c)
theorem W5_arg5 (c : Dev nD) : (W5 m ρ c (Proc.devRef .tc main_arg5) : FVec Ideal S3x128x128 .f32) = a5 m c := (keepH2 m ρ c main_arg5 (by decide)).trans (W4_arg5 m ρ c)
theorem W6_arg5 (c : Dev nD) : (W6 m ρ c (Proc.devRef .tc main_arg5) : FVec Ideal S3x128x128 .f32) = a5 m c := (keepR2 m ρ c main_arg5 (by decide)).trans (W5_arg5 m ρ c)
theorem W7_arg5 (c : Dev nD) : (W7 m ρ c (Proc.devRef .tc main_arg5) : FVec Ideal S3x128x128 .f32) = a5 m c := (keepH3 m ρ c main_arg5 (by decide)).trans (W6_arg5 m ρ c)
theorem W8_arg5 (c : Dev nD) : (W8 m ρ c (Proc.devRef .tc main_arg5) : FVec Ideal S3x128x128 .f32) = a5 m c := (keepR3 m ρ c main_arg5 (by decide)).trans (W7_arg5 m ρ c)
theorem W9_arg5 (c : Dev nD) : (W9 m ρ c (Proc.devRef .tc main_arg5) : FVec Ideal S3x128x128 .f32) = a5 m c := (keepH4 m ρ c main_arg5 (by decide)).trans (W8_arg5 m ρ c)
theorem W10_arg5 (c : Dev nD) : (W10 m ρ c (Proc.devRef .tc main_arg5) : FVec Ideal S3x128x128 .f32) = a5 m c := (keepR4 m ρ c main_arg5 (by decide)).trans (W9_arg5 m ρ c)
theorem W11_arg5 (c : Dev nD) : (W11 m ρ c (Proc.devRef .tc main_arg5) : FVec Ideal S3x128x128 .f32) = a5 m c := (keepH5 m ρ c main_arg5 (by decide)).trans (W10_arg5 m ρ c)
theorem W12_arg5 (c : Dev nD) : (W12 m ρ c (Proc.devRef .tc main_arg5) : FVec Ideal S3x128x128 .f32) = a5 m c := (keepR5 m ρ c main_arg5 (by decide)).trans (W11_arg5 m ρ c)

theorem W0_arg6 (c : Dev nD) : (W0 m ρ c (Proc.devRef .tc main_arg6) : FVec Ideal S3x128 .f32) = a6 m c := rfl
theorem W1_arg6 (c : Dev nD) : (W1 m ρ c (Proc.devRef .tc main_arg6) : FVec Ideal S3x128 .f32) = a6 m c := (keepH0 m ρ c main_arg6 (by decide)).trans (W0_arg6 m ρ c)
theorem W2_arg6 (c : Dev nD) : (W2 m ρ c (Proc.devRef .tc main_arg6) : FVec Ideal S3x128 .f32) = a6 m c := (keepR0 m ρ c main_arg6 (by decide)).trans (W1_arg6 m ρ c)
theorem W3_arg6 (c : Dev nD) : (W3 m ρ c (Proc.devRef .tc main_arg6) : FVec Ideal S3x128 .f32) = a6 m c := (keepH1 m ρ c main_arg6 (by decide)).trans (W2_arg6 m ρ c)
theorem W4_arg6 (c : Dev nD) : (W4 m ρ c (Proc.devRef .tc main_arg6) : FVec Ideal S3x128 .f32) = a6 m c := (keepR1 m ρ c main_arg6 (by decide)).trans (W3_arg6 m ρ c)
theorem W5_arg6 (c : Dev nD) : (W5 m ρ c (Proc.devRef .tc main_arg6) : FVec Ideal S3x128 .f32) = a6 m c := (keepH2 m ρ c main_arg6 (by decide)).trans (W4_arg6 m ρ c)
theorem W6_arg6 (c : Dev nD) : (W6 m ρ c (Proc.devRef .tc main_arg6) : FVec Ideal S3x128 .f32) = a6 m c := (keepR2 m ρ c main_arg6 (by decide)).trans (W5_arg6 m ρ c)
theorem W7_arg6 (c : Dev nD) : (W7 m ρ c (Proc.devRef .tc main_arg6) : FVec Ideal S3x128 .f32) = a6 m c := (keepH3 m ρ c main_arg6 (by decide)).trans (W6_arg6 m ρ c)
theorem W8_arg6 (c : Dev nD) : (W8 m ρ c (Proc.devRef .tc main_arg6) : FVec Ideal S3x128 .f32) = a6 m c := (keepR3 m ρ c main_arg6 (by decide)).trans (W7_arg6 m ρ c)
theorem W9_arg6 (c : Dev nD) : (W9 m ρ c (Proc.devRef .tc main_arg6) : FVec Ideal S3x128 .f32) = a6 m c := (keepH4 m ρ c main_arg6 (by decide)).trans (W8_arg6 m ρ c)
theorem W10_arg6 (c : Dev nD) : (W10 m ρ c (Proc.devRef .tc main_arg6) : FVec Ideal S3x128 .f32) = a6 m c := (keepR4 m ρ c main_arg6 (by decide)).trans (W9_arg6 m ρ c)
theorem W11_arg6 (c : Dev nD) : (W11 m ρ c (Proc.devRef .tc main_arg6) : FVec Ideal S3x128 .f32) = a6 m c := (keepH5 m ρ c main_arg6 (by decide)).trans (W10_arg6 m ρ c)
theorem W12_arg6 (c : Dev nD) : (W12 m ρ c (Proc.devRef .tc main_arg6) : FVec Ideal S3x128 .f32) = a6 m c := (keepR5 m ρ c main_arg6 (by decide)).trans (W11_arg6 m ρ c)

theorem W0_arg7 (c : Dev nD) : (W0 m ρ c (Proc.devRef .tc main_arg7) : FVec Ideal S3x128 .f32) = a7 m c := rfl
theorem W1_arg7 (c : Dev nD) : (W1 m ρ c (Proc.devRef .tc main_arg7) : FVec Ideal S3x128 .f32) = a7 m c := (keepH0 m ρ c main_arg7 (by decide)).trans (W0_arg7 m ρ c)
theorem W2_arg7 (c : Dev nD) : (W2 m ρ c (Proc.devRef .tc main_arg7) : FVec Ideal S3x128 .f32) = a7 m c := (keepR0 m ρ c main_arg7 (by decide)).trans (W1_arg7 m ρ c)
theorem W3_arg7 (c : Dev nD) : (W3 m ρ c (Proc.devRef .tc main_arg7) : FVec Ideal S3x128 .f32) = a7 m c := (keepH1 m ρ c main_arg7 (by decide)).trans (W2_arg7 m ρ c)
theorem W4_arg7 (c : Dev nD) : (W4 m ρ c (Proc.devRef .tc main_arg7) : FVec Ideal S3x128 .f32) = a7 m c := (keepR1 m ρ c main_arg7 (by decide)).trans (W3_arg7 m ρ c)
theorem W5_arg7 (c : Dev nD) : (W5 m ρ c (Proc.devRef .tc main_arg7) : FVec Ideal S3x128 .f32) = a7 m c := (keepH2 m ρ c main_arg7 (by decide)).trans (W4_arg7 m ρ c)
theorem W6_arg7 (c : Dev nD) : (W6 m ρ c (Proc.devRef .tc main_arg7) : FVec Ideal S3x128 .f32) = a7 m c := (keepR2 m ρ c main_arg7 (by decide)).trans (W5_arg7 m ρ c)
theorem W7_arg7 (c : Dev nD) : (W7 m ρ c (Proc.devRef .tc main_arg7) : FVec Ideal S3x128 .f32) = a7 m c := (keepH3 m ρ c main_arg7 (by decide)).trans (W6_arg7 m ρ c)
theorem W8_arg7 (c : Dev nD) : (W8 m ρ c (Proc.devRef .tc main_arg7) : FVec Ideal S3x128 .f32) = a7 m c := (keepR3 m ρ c main_arg7 (by decide)).trans (W7_arg7 m ρ c)
theorem W9_arg7 (c : Dev nD) : (W9 m ρ c (Proc.devRef .tc main_arg7) : FVec Ideal S3x128 .f32) = a7 m c := (keepH4 m ρ c main_arg7 (by decide)).trans (W8_arg7 m ρ c)
theorem W10_arg7 (c : Dev nD) : (W10 m ρ c (Proc.devRef .tc main_arg7) : FVec Ideal S3x128 .f32) = a7 m c := (keepR4 m ρ c main_arg7 (by decide)).trans (W9_arg7 m ρ c)
theorem W11_arg7 (c : Dev nD) : (W11 m ρ c (Proc.devRef .tc main_arg7) : FVec Ideal S3x128 .f32) = a7 m c := (keepH5 m ρ c main_arg7 (by decide)).trans (W10_arg7 m ρ c)
theorem W12_arg7 (c : Dev nD) : (W12 m ρ c (Proc.devRef .tc main_arg7) : FVec Ideal S3x128 .f32) = a7 m c := (keepR5 m ρ c main_arg7 (by decide)).trans (W11_arg7 m ρ c)

theorem W0_arg8 (c : Dev nD) : (W0 m ρ c (Proc.devRef .tc main_arg8) : FVec Ideal S3x128 .f32) = a8 m c := rfl
theorem W1_arg8 (c : Dev nD) : (W1 m ρ c (Proc.devRef .tc main_arg8) : FVec Ideal S3x128 .f32) = a8 m c := (keepH0 m ρ c main_arg8 (by decide)).trans (W0_arg8 m ρ c)
theorem W2_arg8 (c : Dev nD) : (W2 m ρ c (Proc.devRef .tc main_arg8) : FVec Ideal S3x128 .f32) = a8 m c := (keepR0 m ρ c main_arg8 (by decide)).trans (W1_arg8 m ρ c)
theorem W3_arg8 (c : Dev nD) : (W3 m ρ c (Proc.devRef .tc main_arg8) : FVec Ideal S3x128 .f32) = a8 m c := (keepH1 m ρ c main_arg8 (by decide)).trans (W2_arg8 m ρ c)
theorem W4_arg8 (c : Dev nD) : (W4 m ρ c (Proc.devRef .tc main_arg8) : FVec Ideal S3x128 .f32) = a8 m c := (keepR1 m ρ c main_arg8 (by decide)).trans (W3_arg8 m ρ c)
theorem W5_arg8 (c : Dev nD) : (W5 m ρ c (Proc.devRef .tc main_arg8) : FVec Ideal S3x128 .f32) = a8 m c := (keepH2 m ρ c main_arg8 (by decide)).trans (W4_arg8 m ρ c)
theorem W6_arg8 (c : Dev nD) : (W6 m ρ c (Proc.devRef .tc main_arg8) : FVec Ideal S3x128 .f32) = a8 m c := (keepR2 m ρ c main_arg8 (by decide)).trans (W5_arg8 m ρ c)
theorem W7_arg8 (c : Dev nD) : (W7 m ρ c (Proc.devRef .tc main_arg8) : FVec Ideal S3x128 .f32) = a8 m c := (keepH3 m ρ c main_arg8 (by decide)).trans (W6_arg8 m ρ c)
theorem W8_arg8 (c : Dev nD) : (W8 m ρ c (Proc.devRef .tc main_arg8) : FVec Ideal S3x128 .f32) = a8 m c := (keepR3 m ρ c main_arg8 (by decide)).trans (W7_arg8 m ρ c)
theorem W9_arg8 (c : Dev nD) : (W9 m ρ c (Proc.devRef .tc main_arg8) : FVec Ideal S3x128 .f32) = a8 m c := (keepH4 m ρ c main_arg8 (by decide)).trans (W8_arg8 m ρ c)
theorem W10_arg8 (c : Dev nD) : (W10 m ρ c (Proc.devRef .tc main_arg8) : FVec Ideal S3x128 .f32) = a8 m c := (keepR4 m ρ c main_arg8 (by decide)).trans (W9_arg8 m ρ c)
theorem W11_arg8 (c : Dev nD) : (W11 m ρ c (Proc.devRef .tc main_arg8) : FVec Ideal S3x128 .f32) = a8 m c := (keepH5 m ρ c main_arg8 (by decide)).trans (W10_arg8 m ρ c)
theorem W12_arg8 (c : Dev nD) : (W12 m ρ c (Proc.devRef .tc main_arg8) : FVec Ideal S3x128 .f32) = a8 m c := (keepR5 m ρ c main_arg8 (by decide)).trans (W11_arg8 m ρ c)

theorem W0_arg0 (c : Dev nD) : (W0 m ρ c (Proc.devRef .tc main_arg0) : S100000x128.Idx → EReal) = a0 m c := rfl
theorem W1_arg0 (c : Dev nD) : (W1 m ρ c (Proc.devRef .tc main_arg0) : S100000x128.Idx → EReal) = a0 m c := (keepH0 m ρ c main_arg0 (by decide)).trans (W0_arg0 m ρ c)

/-! ## The first host stretch: the edge endpoints, the first slices of the parameters, the first neighbour sums -/

theorem W1_v1 (c : Dev nD) : (W1 m ρ c (Proc.devRef .tc main_v1) : IVec S1600000 32) = srcK (a1 m c) := by
  show StableHlo.after hostOps0 (W0 m ρ c) (Proc.devRef .tc main_v1) = _
  after_results
  rfl

theorem W1_v3 (c : Dev nD) : (W1 m ρ c (Proc.devRef .tc main_v3) : IVec S1600000 32) = dstK (a1 m c) := by
  show StableHlo.after hostOps0 (W0 m ρ c) (Proc.devRef .tc main_v3) = _
  after_results
  rfl
theorem W2_v1 (c : Dev nD) : (W2 m ρ c (Proc.devRef .tc main_v1) : IVec S1600000 32) = srcK (a1 m c) := (keepR0 m ρ c main_v1 (by decide)).trans (W1_v1 m ρ c)
theorem W3_v1 (c : Dev nD) : (W3 m ρ c (Proc.devRef .tc main_v1) : IVec S1600000 32) = srcK (a1 m c) := (keepH1 m ρ c main_v1 (by decide)).trans (W2_v1 m ρ c)
theorem W4_v1 (c : Dev nD) : (W4 m ρ c (Proc.devRef .tc main_v1) : IVec S1600000 32) = srcK (a1 m c) := (keepR1 m ρ c main_v1 (by decide)).trans (W3_v1 m ρ c)
theorem W5_v1 (c : Dev nD) : (W5 m ρ c (Proc.devRef .tc main_v1) : IVec S1600000 32) = srcK (a1 m c) := (keepH2 m ρ c main_v1 (by decide)).trans (W4_v1 m ρ c)
theorem W6_v1 (c : Dev nD) : (W6 m ρ c (Proc.devRef .tc main_v1) : IVec S1600000 32) = srcK (a1 m c) := (keepR2 m ρ c main_v1 (by decide)).trans (W5_v1 m ρ c)
theorem W7_v1 (c : Dev nD) : (W7 m ρ c (Proc.devRef .tc main_v1) : IVec S1600000 32) = srcK (a1 m c) := (keepH3 m ρ c main_v1 (by decide)).trans (W6_v1 m ρ c)
theorem W8_v1 (c : Dev nD) : (W8 m ρ c (Proc.devRef .tc main_v1) : IVec S1600000 32) = srcK (a1 m c) := (keepR3 m ρ c main_v1 (by decide)).trans (W7_v1 m ρ c)
theorem W2_v3 (c : Dev nD) : (W2 m ρ c (Proc.devRef .tc main_v3) : IVec S1600000 32) = dstK (a1 m c) := (keepR0 m ρ c main_v3 (by decide)).trans (W1_v3 m ρ c)
theorem W3_v3 (c : Dev nD) : (W3 m ρ c (Proc.devRef .tc main_v3) : IVec S1600000 32) = dstK (a1 m c) := (keepH1 m ρ c main_v3 (by decide)).trans (W2_v3 m ρ c)
theorem W4_v3 (c : Dev nD) : (W4 m ρ c (Proc.devRef .tc main_v3) : IVec S1600000 32) = dstK (a1 m c) := (keepR1 m ρ c main_v3 (by decide)).trans (W3_v3 m ρ c)
theorem W5_v3 (c : Dev nD) : (W5 m ρ c (Proc.devRef .tc main_v3) : IVec S1600000 32) = dstK (a1 m c) := (keepH2 m ρ c main_v3 (by decide)).trans (W4_v3 m ρ c)
theorem W6_v3 (c : Dev nD) : (W6 m ρ c (Proc.devRef .tc main_v3) : IVec S1600000 32) = dstK (a1 m c) := (keepR2 m ρ c main_v3 (by decide)).trans (W5_v3 m ρ c)
theorem W7_v3 (c : Dev nD) : (W7 m ρ c (Proc.devRef .tc main_v3) : IVec S1600000 32) = dstK (a1 m c) := (keepH3 m ρ c main_v3 (by decide)).trans (W6_v3 m ρ c)
theorem W8_v3 (c : Dev nD) : (W8 m ρ c (Proc.devRef .tc main_v3) : IVec S1600000 32) = dstK (a1 m c) := (keepR3 m ρ c main_v3 (by decide)).trans (W7_v3 m ρ c)

end Cert.KerVal

end
-- ==== Proof.KerRead0.lean ====
/-
  What each case of the dense region's body leaves in each buffer, as the payloads of the loaded blocks.

  A point of the grid is the first, a middle one or the last. In each case the body's run stores one value into the
  output block, the block of hidden features, and one into each of the two running rows, the row before the point
  (the zero row at the first point) plus the block's column sums, resp. the column sums of its squares; at the last
  point it also copies the two running rows into the two row outputs. Each stored list is read here as the
  skeleton's payload of the blocks the body loaded, at any float instance.
-/
import proofs.«100772_j6322191859838_1_alg».proof.Proof.KI_MlpRun0
import Idealize.ShloMosaic.Lib.Pipeline.Value

set_option maxRecDepth 16384
set_option pp.maxSteps 20000
set_option pp.deepTerms false

noncomputable section

namespace Cert.KerVal

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

theorem hz0 : (![0, 0] : Fin 2 → Nat) = fun _ => 0 := funext fun a => by fin_cases a <;> rfl

theorem run0_F_L7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst0 i) (hc2 : ¬condLast0 i) (x0 x1 : Vec F S2000x128 .f32) (x2 : Vec F S128x128 .f32) (x3 : Vec F S1x128 .f32) (x4 : Vec F S128x128 .f32) (x5 : Vec F S1x128 .f32) :
    View.canon (run0_F (F := F) c i arg1 harg1 arg2 harg2 arg3 harg3 arg4 harg4 arg5 harg5 arg6 harg6 arg7 harg7 arg8 harg8 arg9 harg9 arg10 harg10 arg11 harg11 hc1 hc2 x0 x1 x2 x3 x4 x5).1 = k0_pay5 x0 x1 x2 x3 x4 x5 := by
  unfold run0_F
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_F_L10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst0 i) (hc2 : ¬condLast0 i) (x0 x1 : Vec F S2000x128 .f32) (x2 : Vec F S128x128 .f32) (x3 : Vec F S1x128 .f32) (x4 : Vec F S128x128 .f32) (x5 : Vec F S1x128 .f32) :
    View.canon (run0_F (F := F) c i arg1 harg1 arg2 harg2 arg3 harg3 arg4 harg4 arg5 harg5 arg6 harg6 arg7 harg7 arg8 harg8 arg9 harg9 arg10 harg10 arg11 harg11 hc1 hc2 x0 x1 x2 x3 x4 x5).2.1 = k0_pay1 (k0_pay6 x0 x1 x2 x3 x4 x5 k0_pay3) := by
  unfold run0_F
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_F_L11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst0 i) (hc2 : ¬condLast0 i) (x0 x1 : Vec F S2000x128 .f32) (x2 : Vec F S128x128 .f32) (x3 : Vec F S1x128 .f32) (x4 : Vec F S128x128 .f32) (x5 : Vec F S1x128 .f32) :
    View.canon (run0_F (F := F) c i arg1 harg1 arg2 harg2 arg3 harg3 arg4 harg4 arg5 harg5 arg6 harg6 arg7 harg7 arg8 harg8 arg9 harg9 arg10 harg10 arg11 harg11 hc1 hc2 x0 x1 x2 x3 x4 x5).2.2.1 = k0_pay2 (k0_pay5 x0 x1 x2 x3 x4 x5) k0_pay4 := by
  unfold run0_F
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_M_L7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run0_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).1 = k0_pay5 x0 x1 x2 x3 x4 x5 := by
  unfold run0_M
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_M_L10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run0_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 = k0_pay1 (k0_pay6 x0 x1 x2 x3 x4 x5 s0) := by
  unfold run0_M
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_M_L11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : ¬condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run0_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 = k0_pay2 (k0_pay5 x0 x1 x2 x3 x4 x5) s1 := by
  unfold run0_M
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_L_L7 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run0_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).1 = k0_pay5 x0 x1 x2 x3 x4 x5 := by
  unfold run0_L
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_L_L8 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run0_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 = k0_pay1 (k0_pay6 x0 x1 x2 x3 x4 x5 s0) := by
  unfold run0_L
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_L_L9 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run0_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 = k0_pay2 (k0_pay5 x0 x1 x2 x3 x4 x5) s1 := by
  unfold run0_L
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_L_L10 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run0_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 = k0_pay1 (k0_pay6 x0 x1 x2 x3 x4 x5 s0) := by
  unfold run0_L
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

theorem run0_L_L11 (c : Dev nD) (i : grid0.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst0 i) (hc2 : condLast0 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run0_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 = k0_pay2 (k0_pay5 x0 x1 x2 x3 x4 x5) s1 := by
  unfold run0_L
  dsimp only
  sl_unfold_words
  rw [View.canon_cons_unit_zero hz0]
  simp only [View.readAt_eq_ld, View.readCov_unit_zero (S := S1x128) _ hz0, harg1.read_unread, harg2.read_unread, harg3.read_unread,
    harg4.read_unread, harg5.read_unread, harg6.read_unread, harg10.read_unread, harg11.read_unread,
    View.ld_unit_zero (S := S2000x128) hz0, View.ld_unit_zero (S := S128x128) hz0, View.ld_unit_zero (S := S1x128) hz0]
  all_goals (try rfl)

end Cert.KerVal

end
-- ==== Proof.LibPlainProduct.lean ====
/-
  The plain matrix product as one function, and its three spellings.

  `mm x w` is the textbook product of `x : [M, K]` and `w : [K, N]` over the extended reals: entry `(p, o)` is the sum
  over `k` of `x (p, k) * w (k, o)`. At the exact values it is what a kernel's `tpu.matmul` from the zero accumulator
  computes and what the host's `dot_general` computes, for any dimension record that contracts the left operand's
  second axis against the right operand's first. When the right operand is two matrices side by side, `[W₁ | W₂]`,
  the left columns of the product are the product with `W₁` and the right columns the product with `W₂`: each entry
  of the product reads one column of the right operand. General in the extents and the float formats.
-/
import Idealize.ShloMosaic.Lib.Pipeline.Value
import proofs.«100772_j6322191859838_1_alg».proof.Proof.LibMatmulPlain
import proofs.«100772_j6322191859838_1_alg».proof.Proof.LibHostDotPlain

noncomputable section

open scoped BigOperators

namespace Cert.PlainProduct

open Idealize.ShloMosaic Idealize.ShloMosaic.ValueIdx Cert.MatmulPlain Cert.HostDotPlain

variable {M K N : ℕ}

/-- The textbook product over the extended reals. -/
def mm (x : (⟨2, ![M, K]⟩ : Shape).Idx → EReal) (w : (⟨2, ![K, N]⟩ : Shape).Idx → EReal) :
    (⟨2, ![M, N]⟩ : Shape).Idx → EReal :=
  fun j => ∑ k : Fin K, x (ix2 (j 0) k) * w (ix2 k (j 1))

theorem mm_apply (x : (⟨2, ![M, K]⟩ : Shape).Idx → EReal) (w : (⟨2, ![K, N]⟩ : Shape).Idx → EReal) (p : Fin M) (o : Fin N) :
    mm x w (ix2 p o) = ∑ k : Fin K, x (ix2 p k) * w (ix2 k o) := rfl

/-- A kernel's matrix product from the zero accumulator is `mm`. -/
theorem matmul_zero_eq_mm {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) :
    FloatOps.matmul d prec l r (constant (F := Ideal) ⟨2, ![M, N]⟩ .f32 0x00000000#32) = mm l r := by
  funext j
  obtain ⟨p, o, rfl⟩ : ∃ (p : Fin M) (o : Fin N), j = ix2 p o := ⟨j 0, j 1, eq_ix2 j⟩
  exact matmul_plain_apply d hlc hrc hln hrn hlb hrb prec l r p o

/-- The host's matrix product is `mm`. -/
theorem dotGeneral_eq_mm {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) :
    FloatOps.dotGeneral d prec sched l r = mm l r := by
  funext j
  obtain ⟨p, o, rfl⟩ : ∃ (p : Fin M) (o : Fin N), j = ix2 p o := ⟨j 0, j 1, eq_ix2 j⟩
  exact dotGeneral_plain_apply d hlc hrc hln hrn hlb hrb prec sched l r p o

variable {N₁ N₂ : ℕ}

/-- The left columns of a product with `[W₁ | W₂]` are the product with `W₁`. -/
theorem mm_sideBySide_left (x : (⟨2, ![M, K]⟩ : Shape).Idx → EReal)
    (w₁ : (⟨2, ![K, N₁]⟩ : Shape).Idx → EReal) (w₂ : (⟨2, ![K, N₂]⟩ : Shape).Idx → EReal)
    (h : Shape.Concatenates [(⟨2, ![K, N₁]⟩ : Shape), ⟨2, ![K, N₂]⟩] ⟨2, ![K, N]⟩ (1 : Fin 2))
    (p : Fin M) (c : Fin N₁) (o : Fin N) (ho : o.val = c.val) :
    mm x (concatenate ⟨2, ![K, N]⟩ (1 : Fin 2) [⟨⟨2, ![K, N₁]⟩, w₁⟩, ⟨⟨2, ![K, N₂]⟩, w₂⟩] h) (ix2 p o) = mm x w₁ (ix2 p c) := by
  rw [mm_apply, mm_apply]
  refine Finset.sum_congr rfl fun k _ => ?_
  congr 1
  exact concatenate_pair_apply_left (1 : Fin 2) w₁ w₂ h (ix2 k o) rfl (ix2 k c) (fun b => by
    match b with
    | ⟨0, _⟩ => rfl
    | ⟨1, _⟩ => exact ho.symm)

/-- The right columns of a product with `[W₁ | W₂]` are the product with `W₂`. -/
theorem mm_sideBySide_right (x : (⟨2, ![M, K]⟩ : Shape).Idx → EReal)
    (w₁ : (⟨2, ![K, N₁]⟩ : Shape).Idx → EReal) (w₂ : (⟨2, ![K, N₂]⟩ : Shape).Idx → EReal)
    (h : Shape.Concatenates [(⟨2, ![K, N₁]⟩ : Shape), ⟨2, ![K, N₂]⟩] ⟨2, ![K, N]⟩ (1 : Fin 2))
    (p : Fin M) (c : Fin N₂) (o : Fin N) (ho : o.val = N₁ + c.val) :
    mm x (concatenate ⟨2, ![K, N]⟩ (1 : Fin 2) [⟨⟨2, ![K, N₁]⟩, w₁⟩, ⟨⟨2, ![K, N₂]⟩, w₂⟩] h) (ix2 p o) = mm x w₂ (ix2 p c) := by
  rw [mm_apply, mm_apply]
  refine Finset.sum_congr rfl fun k _ => ?_
  congr 1
  exact concatenate_pair_apply_right (1 : Fin 2) w₁ w₂ h (ix2 k o) rfl rfl (ix2 k c) (fun b hb => by
    match b with
    | ⟨0, _⟩ => rfl
    | ⟨1, _⟩ => exact absurd rfl hb)
    (by show c.val + N₁ = o.val; omega)

end Cert.PlainProduct

end
-- ==== Proof.LibDenseLayer.lean ====
/-
  The two dense pieces of one graph-convolution layer, each as one whole-array function over the extended reals.

  The transform is the textbook product `mm x w` (entry `(p, o)` is `∑ k, x (p, k) * w (k, o)`). The activation is
  `biasRelu agg r`: entry `(p, q)` is `max (agg (p, q) + r (0, q)) 0`, the bias row `r : [1, b]` added to every row
  and the result rectified. Both spellings of the activation are that function: a kernel's row broadcast, sum and
  maximum against a splat of the zero word, and the host's `broadcast_in_dim` of the row, sum and maximum against a
  broadcast zero. Both read one row of the left operand per output row, so a block of rows of the result is the same
  function of that block of rows of the operand (`mm_rows`, `biasRelu_rows`). General in the extents.
-/
import Idealize.ShloMosaic.Lib.Pipeline.Value
import Idealize.ShloMosaic.Lib.ValueIdx
import Idealize.ShloMosaic.Lib.ValueLayout
import Idealize.ShloMosaic.PureOps.Ideal.Laws
import proofs.«100772_j6322191859838_1_alg».proof.Proof.LibPlainProduct

noncomputable section

open scoped BigOperators

namespace Cert.Gcn

open Idealize.ShloMosaic Idealize.ShloMosaic.ValueIdx Cert.PlainProduct

variable {a b : ℕ}

/-- Bias then rectify: entry `(p, q)` is `max (agg (p, q) + r (0, q)) 0`. -/
def biasRelu (agg : (⟨2, ![a, b]⟩ : Shape).Idx → EReal) (r : (⟨2, ![1, b]⟩ : Shape).Idx → EReal) :
    (⟨2, ![a, b]⟩ : Shape).Idx → EReal :=
  fun i => max (agg i + r (ix2 (0 : Fin 1) (i 1))) 0

theorem biasRelu_apply (agg : (⟨2, ![a, b]⟩ : Shape).Idx → EReal) (r : (⟨2, ![1, b]⟩ : Shape).Idx → EReal)
    (p : Fin a) (q : Fin b) : biasRelu agg r (ix2 p q) = max (agg (ix2 p q) + r (ix2 (0 : Fin 1) q)) 0 := rfl

/-- A kernel's spelling: the row broadcast over the rows, added, and the maximum with a splat of the zero word. -/
theorem kernel_biasRelu (x : FVec Ideal ⟨2, ![a, b]⟩ .f32) (r : FVec Ideal ⟨2, ![1, b]⟩ .f32)
    (h : (⟨2, ![1, b]⟩ : Shape).Broadcasts ⟨2, ![a, b]⟩) :
    maximumf (addf x (broadcastTo ⟨2, ![a, b]⟩ r h))
      (broadcast ⟨2, ![a, b]⟩ (Scalar.ofBits (F := Ideal) .f32 0x00000000#32)) = biasRelu x r := by
  funext j
  obtain ⟨p, q, rfl⟩ : ∃ (p : Fin a) (q : Fin b), j = ix2 p q := ⟨j 0, j 1, eq_ix2 j⟩
  rw [biasRelu_apply, maximumf_apply, addf_apply, broadcast_apply, broadcastTo_1b_ab_apply]
  show max _ (Ideal.ofBits .f32 0x00000000#32) = _
  rw [Ideal.ofBits_zero_f32]

/-- The host's spelling: the row sent to every row by `broadcast_in_dim`, added, and the maximum with a broadcast zero. -/
theorem host_biasRelu (x : FVec Ideal ⟨2, ![a, b]⟩ .f32) (r : FVec Ideal ⟨2, ![1, b]⟩ .f32)
    (h : (⟨2, ![1, b]⟩ : Shape).BroadcastsInDim ⟨2, ![a, b]⟩ (![0, 1] : Fin 2 → Fin 2))
    (h0 : (⟨0, ![]⟩ : Shape).BroadcastsInDim ⟨2, ![a, b]⟩ (![] : Fin 0 → Fin 2)) :
    maximumf (addf x (broadcastInDim ⟨2, ![a, b]⟩ ![0, 1] h r))
      (broadcastInDim ⟨2, ![a, b]⟩ ![] h0 (constant (F := Ideal) ⟨0, ![]⟩ .f32 0x00000000#32)) = biasRelu x r := by
  funext j
  obtain ⟨p, q, rfl⟩ : ∃ (p : Fin a) (q : Fin b), j = ix2 p q := ⟨j 0, j 1, eq_ix2 j⟩
  rw [biasRelu_apply, maximumf_apply, addf_apply,
    broadcastInDim_apply ![0, 1] h r (ix2 p q) (ix2 (0 : Fin 1) q) (fun ax => by
      match ax with
      | ⟨0, _⟩ => rfl
      | ⟨1, _⟩ =>
        show q.val = if b = 1 then 0 else q.val
        split
        · have := q.isLt; omega
        · rfl),
    broadcastInDim_apply ![] h0 (constant (F := Ideal) ⟨0, ![]⟩ .f32 0x00000000#32) (ix2 p q) ix0 (fun ax => ax.elim0),
    constant_apply, Ideal.ofBits_zero_f32]

variable {A K N : ℕ}

/-- A row of the product reads that row of the left operand: if `xb`'s row `p` is `X`'s row `r`, entry `(p, o)` of
    `xb · w` is entry `(r, o)` of `X · w`. -/
theorem mm_rows (X : (⟨2, ![A, K]⟩ : Shape).Idx → EReal) (xb : (⟨2, ![a, K]⟩ : Shape).Idx → EReal)
    (w : (⟨2, ![K, N]⟩ : Shape).Idx → EReal) (p : Fin a) (r : Fin A) (o : Fin N)
    (hx : ∀ k : Fin K, xb (ix2 p k) = X (ix2 r k)) :
    mm xb w (ix2 p o) = mm X w (ix2 r o) := by
  rw [mm_apply, mm_apply]
  exact Finset.sum_congr rfl fun k _ => by rw [hx k]

/-- A row of the activation reads that row of the aggregate. -/
theorem biasRelu_rows (X : (⟨2, ![A, b]⟩ : Shape).Idx → EReal) (xb : (⟨2, ![a, b]⟩ : Shape).Idx → EReal)
    (r : (⟨2, ![1, b]⟩ : Shape).Idx → EReal) (p : Fin a) (s : Fin A) (q : Fin b)
    (hx : xb (ix2 p q) = X (ix2 s q)) :
    biasRelu xb r (ix2 p q) = biasRelu X r (ix2 s q) := by
  rw [biasRelu_apply, biasRelu_apply, hx]

end Cert.Gcn

end
-- ==== Proof.KerPayMlp.lean ====
/-
  The values the dense kernel stores, read at an entry.

  At a grid point the body of each dense region loads a block z of 2000 rows of the features, the block a of the
  aggregated neighbours, two weight matrices and two bias rows. With x = z + a it forms
      h = max (max (x W1 + b1) 0 W2 + b2) 0,
  each product a matrix product from the zero accumulator (the narrowing of the operands to a 16-bit format is the
  identity on exact values), and stores h. It then adds to a running row the column sums of h, and to a second
  running row the column sums of h * h (each a sum along the rows from the zero word, the 128 sums reshaped to one
  row of 128). At the first point the two running rows are set to the zero row; at the last they are copied out.

  Entry (p, q) of h is the specification's hidden at row p, column q, of the block x and the four parameters. The
  running rows after a point are the rows before it plus the block's column sums. The first region prints one
  spelling of this text, the second and third another (a reshape of z to its own shape, and the running sum added
  where it is stored, not where it is carried); the two spellings are one function of the same operands.
-/
import proofs.«100772_j6322191859838_1_alg».proof.Proof.Gen.KernelIdeal.Skeleton
import proofs.«100772_j6322191859838_1_alg».proof.Proof.Spec
import proofs.«100772_j6322191859838_1_alg».proof.Proof.LibMatmulPlain
import proofs.«100772_j6322191859838_1_alg».proof.Proof.LibDenseLayer
import proofs.«100772_j6322191859838_1_alg».proof.Proof.LibColumnSums
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerPay

open Cert.KernelIdeal Cert.KernelIdeal.Gen
open Idealize.ShloMosaic Idealize.ShloMosaic.ValueIdx

/-- A row of b numbers reshaped to the one row of a [1, b] array reads, at (0, q), the row at q. -/
theorem shapeCast_b_1b_apply {α : Type} {b : ℕ} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    rw [Nat.zero_mul, Nat.zero_add])

/-- The zero word splat over a row is the zero row. -/
theorem zero_row_apply (j : S1x128.Idx) :
    shapeCast S1x128 (broadcast S1x128 (Scalar.ofBits (F := Ideal) .f32 0x00000000#32)) shapeCasts_S1x128_S1x128 j = 0 := by
  rw [shapeCast_self, broadcast_apply]
  exact Ideal.ofBits_zero_f32

/-! ## The first dense region -/

/-- The stored block of hidden features at entry (p, q): the two dense maps of z + a. -/
theorem k0_pay5_apply (z a : Vec Ideal S2000x128 .f32) (W1 : Vec Ideal S128x128 .f32) (b1 : Vec Ideal S1x128 .f32)
    (W2 : Vec Ideal S128x128 .f32) (b2 : Vec Ideal S1x128 .f32) (p : Fin 2000) (q : Fin 128) :
    k0_pay5 (F := Ideal) z a W1 b1 W2 b2 (ix2 p q)
      = Spec.hidden (fun r i => z (ix2 r i) + a (ix2 r i)) (Spec.mat W1) (Spec.row1 b1) (Spec.mat W2) (Spec.row1 b2) p q := by
  unfold k0_pay5
  simp only [shapeCast_self, matmul]
  rw [Gcn.kernel_biasRelu, Gcn.biasRelu_apply, MatmulPlain.matmul_plain_apply _ rfl rfl rfl rfl rfl rfl,
    Spec.hidden_apply]
  refine congrArg (fun s => max (s + b2 (ix2 (0 : Fin 1) q)) 0) (Finset.sum_congr rfl fun k _ => ?_)
  rw [truncf_apply, truncf_apply, Gcn.kernel_biasRelu, Gcn.biasRelu_apply,
    MatmulPlain.matmul_plain_apply _ rfl rfl rfl rfl rfl rfl]
  refine congrArg (fun s => max (s + b1 (ix2 (0 : Fin 1) k)) 0 * W2 (ix2 k q)) (Finset.sum_congr rfl fun i _ => ?_)
  rw [truncf_apply, truncf_apply, addf_apply]
  rfl

/-- The running row of column sums after a point: the row before it plus the column sums of the block. -/
theorem k0_pay6_apply (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k0_pay6 (F := Ideal) z a W1 b1 W2 b2 s (ix2 (0 : Fin 1) q)
      = s (ix2 (0 : Fin 1) q) + ∑ p : Fin 2000, k0_pay5 (F := Ideal) z a W1 b1 W2 b2 (ix2 p q) := by
  unfold k0_pay6
  simp only [shapeCast_self]
  rw [addf_apply, shapeCast_b_1b_apply, ColumnSums.sum_rows]

/-- The same, with the block's column sums those of the specification's hidden features. -/
theorem k0_pay6_spec (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k0_pay6 (F := Ideal) z a W1 b1 W2 b2 s (ix2 (0 : Fin 1) q)
      = s (ix2 (0 : Fin 1) q)
        + Spec.colSum (Spec.hidden (fun r i => z (ix2 r i) + a (ix2 r i)) (Spec.mat W1) (Spec.row1 b1) (Spec.mat W2) (Spec.row1 b2)) q := by
  rw [k0_pay6_apply, Spec.colSum_apply]
  exact congrArg (fun t => s (ix2 (0 : Fin 1) q) + t) (Finset.sum_congr rfl fun p _ => k0_pay5_apply z a W1 b1 W2 b2 p q)

/-- The running row of column sums of squares after a point: the row before it plus the column sums of h * h. -/
theorem k0_pay2_apply (h : FVec Ideal S2000x128 .f32) (s : Vec Ideal S1x128 .f32) (q : Fin 128) :
    k0_pay2 (F := Ideal) h s (ix2 (0 : Fin 1) q) = s (ix2 (0 : Fin 1) q) + ∑ p : Fin 2000, h (ix2 p q) * h (ix2 p q) := by
  unfold k0_pay2
  simp only [shapeCast_self]
  rw [addf_apply, shapeCast_b_1b_apply, ColumnSums.sum_rows]
  rfl

/-- The value copied out at the last point is the running row itself. -/
theorem k0_pay1_eq (s : FVec Ideal S1x128 .f32) : k0_pay1 (F := Ideal) s = s := by
  unfold k0_pay1
  exact shapeCast_self _ _

/-- The two running rows start from the zero row. -/
theorem k0_pay3_apply (j : S1x128.Idx) : k0_pay3 (F := Ideal) j = 0 := by
  unfold k0_pay3
  exact zero_row_apply j

theorem k0_pay4_apply (j : S1x128.Idx) : k0_pay4 (F := Ideal) j = 0 := by
  unfold k0_pay4
  exact zero_row_apply j

/-! ## The second dense region -/

/-- The stored block of hidden features at entry (p, q): the two dense maps of z + a. -/
theorem k2_pay5_apply (z a : Vec Ideal S2000x128 .f32) (W1 : Vec Ideal S128x128 .f32) (b1 : Vec Ideal S1x128 .f32)
    (W2 : Vec Ideal S128x128 .f32) (b2 : Vec Ideal S1x128 .f32) (p : Fin 2000) (q : Fin 128) :
    k2_pay5 (F := Ideal) z a W1 b1 W2 b2 (ix2 p q)
      = Spec.hidden (fun r i => z (ix2 r i) + a (ix2 r i)) (Spec.mat W1) (Spec.row1 b1) (Spec.mat W2) (Spec.row1 b2) p q := by
  unfold k2_pay5
  simp only [shapeCast_self, matmul]
  rw [Gcn.kernel_biasRelu, Gcn.biasRelu_apply, MatmulPlain.matmul_plain_apply _ rfl rfl rfl rfl rfl rfl,
    Spec.hidden_apply]
  refine congrArg (fun s => max (s + b2 (ix2 (0 : Fin 1) q)) 0) (Finset.sum_congr rfl fun k _ => ?_)
  rw [truncf_apply, truncf_apply, Gcn.kernel_biasRelu, Gcn.biasRelu_apply,
    MatmulPlain.matmul_plain_apply _ rfl rfl rfl rfl rfl rfl]
  refine congrArg (fun s => max (s + b1 (ix2 (0 : Fin 1) k)) 0 * W2 (ix2 k q)) (Finset.sum_congr rfl fun i _ => ?_)
  rw [truncf_apply, truncf_apply, addf_apply]
  rfl

/-- The block's column sums, as one row. -/
theorem k2_pay6_apply (z a : Vec Ideal S2000x128 .f32) (W1 : Vec Ideal S128x128 .f32) (b1 : Vec Ideal S1x128 .f32)
    (W2 : Vec Ideal S128x128 .f32) (b2 : Vec Ideal S1x128 .f32) (q : Fin 128) :
    k2_pay6 (F := Ideal) z a W1 b1 W2 b2 (ix2 (0 : Fin 1) q)
      = ∑ p : Fin 2000, k2_pay5 (F := Ideal) z a W1 b1 W2 b2 (ix2 p q) := by
  unfold k2_pay6
  simp only [shapeCast_self]
  rw [shapeCast_b_1b_apply, ColumnSums.sum_rows]

theorem k2_pay6_spec (z a : Vec Ideal S2000x128 .f32) (W1 : Vec Ideal S128x128 .f32) (b1 : Vec Ideal S1x128 .f32)
    (W2 : Vec Ideal S128x128 .f32) (b2 : Vec Ideal S1x128 .f32) (q : Fin 128) :
    k2_pay6 (F := Ideal) z a W1 b1 W2 b2 (ix2 (0 : Fin 1) q)
      = Spec.colSum (Spec.hidden (fun r i => z (ix2 r i) + a (ix2 r i)) (Spec.mat W1) (Spec.row1 b1) (Spec.mat W2) (Spec.row1 b2)) q := by
  rw [k2_pay6_apply, Spec.colSum_apply]
  exact Finset.sum_congr rfl fun p _ => k2_pay5_apply z a W1 b1 W2 b2 p q

/-- The running row of column sums stored at a point: the row before it plus the block's column sums. -/
theorem k2_pay1_apply (s : Vec Ideal S1x128 .f32) (c : FVec Ideal S1x128 .f32) (j : S1x128.Idx) :
    k2_pay1 (F := Ideal) s c j = s j + c j := by
  unfold k2_pay1
  simp only [shapeCast_self]
  rfl

/-- The running row of column sums of squares after a point. -/
theorem k2_pay2_apply (h : FVec Ideal S2000x128 .f32) (s : Vec Ideal S1x128 .f32) (q : Fin 128) :
    k2_pay2 (F := Ideal) h s (ix2 (0 : Fin 1) q) = s (ix2 (0 : Fin 1) q) + ∑ p : Fin 2000, h (ix2 p q) * h (ix2 p q) := by
  unfold k2_pay2
  simp only [shapeCast_self]
  rw [addf_apply, shapeCast_b_1b_apply, ColumnSums.sum_rows]
  rfl

theorem k2_pay3_apply (j : S1x128.Idx) : k2_pay3 (F := Ideal) j = 0 := by
  unfold k2_pay3
  exact zero_row_apply j

theorem k2_pay4_apply (j : S1x128.Idx) : k2_pay4 (F := Ideal) j = 0 := by
  unfold k2_pay4
  exact zero_row_apply j

/-! ## The third dense region prints the second one's text -/

theorem k4_pay1_eq : @k4_pay1 Ideal _ = @k2_pay1 Ideal _ := rfl
theorem k4_pay2_eq : @k4_pay2 Ideal _ = @k2_pay2 Ideal _ := rfl
theorem k4_pay3_eq : @k4_pay3 Ideal _ = @k2_pay3 Ideal _ := rfl
theorem k4_pay4_eq : @k4_pay4 Ideal _ = @k2_pay4 Ideal _ := rfl
theorem k4_pay5_eq : @k4_pay5 Ideal _ = @k2_pay5 Ideal _ := rfl
theorem k4_pay6_eq : @k4_pay6 Ideal _ = @k2_pay6 Ideal _ := rfl

theorem k4_pay5_apply (z a : Vec Ideal S2000x128 .f32) (W1 : Vec Ideal S128x128 .f32) (b1 : Vec Ideal S1x128 .f32)
    (W2 : Vec Ideal S128x128 .f32) (b2 : Vec Ideal S1x128 .f32) (p : Fin 2000) (q : Fin 128) :
    k4_pay5 (F := Ideal) z a W1 b1 W2 b2 (ix2 p q)
      = Spec.hidden (fun r i => z (ix2 r i) + a (ix2 r i)) (Spec.mat W1) (Spec.row1 b1) (Spec.mat W2) (Spec.row1 b2) p q := by
  rw [k4_pay5_eq]; exact k2_pay5_apply z a W1 b1 W2 b2 p q

theorem k4_pay6_apply (z a : Vec Ideal S2000x128 .f32) (W1 : Vec Ideal S128x128 .f32) (b1 : Vec Ideal S1x128 .f32)
    (W2 : Vec Ideal S128x128 .f32) (b2 : Vec Ideal S1x128 .f32) (q : Fin 128) :
    k4_pay6 (F := Ideal) z a W1 b1 W2 b2 (ix2 (0 : Fin 1) q)
      = ∑ p : Fin 2000, k4_pay5 (F := Ideal) z a W1 b1 W2 b2 (ix2 p q) := by
  rw [k4_pay6_eq, k4_pay5_eq]; exact k2_pay6_apply z a W1 b1 W2 b2 q

theorem k4_pay6_spec (z a : Vec Ideal S2000x128 .f32) (W1 : Vec Ideal S128x128 .f32) (b1 : Vec Ideal S1x128 .f32)
    (W2 : Vec Ideal S128x128 .f32) (b2 : Vec Ideal S1x128 .f32) (q : Fin 128) :
    k4_pay6 (F := Ideal) z a W1 b1 W2 b2 (ix2 (0 : Fin 1) q)
      = Spec.colSum (Spec.hidden (fun r i => z (ix2 r i) + a (ix2 r i)) (Spec.mat W1) (Spec.row1 b1) (Spec.mat W2) (Spec.row1 b2)) q := by
  rw [k4_pay6_eq]; exact k2_pay6_spec z a W1 b1 W2 b2 q

theorem k4_pay1_apply (s : Vec Ideal S1x128 .f32) (c : FVec Ideal S1x128 .f32) (j : S1x128.Idx) :
    k4_pay1 (F := Ideal) s c j = s j + c j := by
  rw [k4_pay1_eq]; exact k2_pay1_apply s c j

theorem k4_pay2_apply (h : FVec Ideal S2000x128 .f32) (s : Vec Ideal S1x128 .f32) (q : Fin 128) :
    k4_pay2 (F := Ideal) h s (ix2 (0 : Fin 1) q) = s (ix2 (0 : Fin 1) q) + ∑ p : Fin 2000, h (ix2 p q) * h (ix2 p q) := by
  rw [k4_pay2_eq]; exact k2_pay2_apply h s q

theorem k4_pay3_apply (j : S1x128.Idx) : k4_pay3 (F := Ideal) j = 0 := by
  rw [k4_pay3_eq]; exact k2_pay3_apply j

theorem k4_pay4_apply (j : S1x128.Idx) : k4_pay4 (F := Ideal) j = 0 := by
  rw [k4_pay4_eq]; exact k2_pay4_apply j

end Cert.KerPay

end
-- ==== Proof.KerPayAcc.lean ====
/-
  One step of the two running rows of a dense region, in the specification's terms.

  With h the block's hidden features (the specification's hidden of the block z + a and the four parameters), a
  point of the grid turns the running row s of column sums into s + (column sums of h over the block's 2000 rows)
  and the running row of column sums of squares into s + (column sums of h * h); at the first point the row before
  is the zero row, so the rows after it are the block's sums themselves. Stated for the value the body stores, in
  each of the two spellings the three dense regions print.
-/
import proofs.«100772_j6322191859838_1_alg».proof.Proof.KerPayMlp

noncomputable section

open scoped BigOperators

namespace Cert.KerPay

open Cert.KernelIdeal Cert.KernelIdeal.Gen
open Idealize.ShloMosaic Idealize.ShloMosaic.ValueIdx

/-! ## Dense region one -/

/-- The running row of column sums after a point, from the row s before it. -/
theorem sum_step0 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k0_pay1 (F := Ideal) (k0_pay6 (F := Ideal) z a W1 b1 W2 b2 s) (ix2 (0 : Fin 1) q)
      = s (ix2 (0 : Fin 1) q) + ∑ p : Fin 2000, (Spec.hidden (fun r i => z (ix2 r i) + a (ix2 r i)) (Spec.mat W1) (Spec.row1 b1) (Spec.mat W2) (Spec.row1 b2)) p q := by
  rw [k0_pay1_eq, k0_pay6_apply]
  exact congrArg (fun t => s (ix2 (0 : Fin 1) q) + t) (Finset.sum_congr rfl fun p _ => k0_pay5_apply z a W1 b1 W2 b2 p q)

/-- After the first point, where the row before is the zero row. -/
theorem sum_first0 (z a : Vec Ideal S2000x128 .f32) (W1 : Vec Ideal S128x128 .f32) (b1 : Vec Ideal S1x128 .f32)
    (W2 : Vec Ideal S128x128 .f32) (b2 : Vec Ideal S1x128 .f32) (q : Fin 128) :
    k0_pay1 (F := Ideal) (k0_pay6 (F := Ideal) z a W1 b1 W2 b2 (k0_pay3 (F := Ideal))) (ix2 (0 : Fin 1) q)
      = ∑ p : Fin 2000, (Spec.hidden (fun r i => z (ix2 r i) + a (ix2 r i)) (Spec.mat W1) (Spec.row1 b1) (Spec.mat W2) (Spec.row1 b2)) p q := by
  rw [sum_step0, k0_pay3_apply, zero_add]

/-- The running row of column sums of squares after a point, from the row s before it. -/
theorem sq_step0 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k0_pay2 (F := Ideal) (k0_pay5 (F := Ideal) z a W1 b1 W2 b2) s (ix2 (0 : Fin 1) q)
      = s (ix2 (0 : Fin 1) q) + ∑ p : Fin 2000, (Spec.hidden (fun r i => z (ix2 r i) + a (ix2 r i)) (Spec.mat W1) (Spec.row1 b1) (Spec.mat W2) (Spec.row1 b2)) p q * (Spec.hidden (fun r i => z (ix2 r i) + a (ix2 r i)) (Spec.mat W1) (Spec.row1 b1) (Spec.mat W2) (Spec.row1 b2)) p q := by
  rw [k0_pay2_apply]
  exact congrArg (fun t => s (ix2 (0 : Fin 1) q) + t)
    (Finset.sum_congr rfl fun p _ => by rw [k0_pay5_apply z a W1 b1 W2 b2 p q])

/-- After the first point. -/
theorem sq_first0 (z a : Vec Ideal S2000x128 .f32) (W1 : Vec Ideal S128x128 .f32) (b1 : Vec Ideal S1x128 .f32)
    (W2 : Vec Ideal S128x128 .f32) (b2 : Vec Ideal S1x128 .f32) (q : Fin 128) :
    k0_pay2 (F := Ideal) (k0_pay5 (F := Ideal) z a W1 b1 W2 b2) (k0_pay4 (F := Ideal)) (ix2 (0 : Fin 1) q)
      = ∑ p : Fin 2000, (Spec.hidden (fun r i => z (ix2 r i) + a (ix2 r i)) (Spec.mat W1) (Spec.row1 b1) (Spec.mat W2) (Spec.row1 b2)) p q * (Spec.hidden (fun r i => z (ix2 r i) + a (ix2 r i)) (Spec.mat W1) (Spec.row1 b1) (Spec.mat W2) (Spec.row1 b2)) p q := by
  rw [sq_step0, k0_pay4_apply, zero_add]

/-! ## Dense region two -/

/-- The running row of column sums after a point, from the row s before it. -/
theorem sum_step2 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k2_pay1 (F := Ideal) s (k2_pay6 (F := Ideal) z a W1 b1 W2 b2) (ix2 (0 : Fin 1) q)
      = s (ix2 (0 : Fin 1) q) + ∑ p : Fin 2000, (Spec.hidden (fun r i => z (ix2 r i) + a (ix2 r i)) (Spec.mat W1) (Spec.row1 b1) (Spec.mat W2) (Spec.row1 b2)) p q := by
  rw [k2_pay1_apply, k2_pay6_apply]
  exact congrArg (fun t => s (ix2 (0 : Fin 1) q) + t) (Finset.sum_congr rfl fun p _ => k2_pay5_apply z a W1 b1 W2 b2 p q)

/-- After the first point, where the row before is the zero row. -/
theorem sum_first2 (z a : Vec Ideal S2000x128 .f32) (W1 : Vec Ideal S128x128 .f32) (b1 : Vec Ideal S1x128 .f32)
    (W2 : Vec Ideal S128x128 .f32) (b2 : Vec Ideal S1x128 .f32) (q : Fin 128) :
    k2_pay1 (F := Ideal) (k2_pay3 (F := Ideal)) (k2_pay6 (F := Ideal) z a W1 b1 W2 b2) (ix2 (0 : Fin 1) q)
      = ∑ p : Fin 2000, (Spec.hidden (fun r i => z (ix2 r i) + a (ix2 r i)) (Spec.mat W1) (Spec.row1 b1) (Spec.mat W2) (Spec.row1 b2)) p q := by
  rw [sum_step2, k2_pay3_apply, zero_add]

/-- The running row of column sums of squares after a point, from the row s before it. -/
theorem sq_step2 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k2_pay2 (F := Ideal) (k2_pay5 (F := Ideal) z a W1 b1 W2 b2) s (ix2 (0 : Fin 1) q)
      = s (ix2 (0 : Fin 1) q) + ∑ p : Fin 2000, (Spec.hidden (fun r i => z (ix2 r i) + a (ix2 r i)) (Spec.mat W1) (Spec.row1 b1) (Spec.mat W2) (Spec.row1 b2)) p q * (Spec.hidden (fun r i => z (ix2 r i) + a (ix2 r i)) (Spec.mat W1) (Spec.row1 b1) (Spec.mat W2) (Spec.row1 b2)) p q := by
  rw [k2_pay2_apply]
  exact congrArg (fun t => s (ix2 (0 : Fin 1) q) + t)
    (Finset.sum_congr rfl fun p _ => by rw [k2_pay5_apply z a W1 b1 W2 b2 p q])

/-- After the first point. -/
theorem sq_first2 (z a : Vec Ideal S2000x128 .f32) (W1 : Vec Ideal S128x128 .f32) (b1 : Vec Ideal S1x128 .f32)
    (W2 : Vec Ideal S128x128 .f32) (b2 : Vec Ideal S1x128 .f32) (q : Fin 128) :
    k2_pay2 (F := Ideal) (k2_pay5 (F := Ideal) z a W1 b1 W2 b2) (k2_pay4 (F := Ideal)) (ix2 (0 : Fin 1) q)
      = ∑ p : Fin 2000, (Spec.hidden (fun r i => z (ix2 r i) + a (ix2 r i)) (Spec.mat W1) (Spec.row1 b1) (Spec.mat W2) (Spec.row1 b2)) p q * (Spec.hidden (fun r i => z (ix2 r i) + a (ix2 r i)) (Spec.mat W1) (Spec.row1 b1) (Spec.mat W2) (Spec.row1 b2)) p q := by
  rw [sq_step2, k2_pay4_apply, zero_add]

/-! ## Dense region three -/

/-- The running row of column sums after a point, from the row s before it. -/
theorem sum_step4 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k4_pay1 (F := Ideal) s (k4_pay6 (F := Ideal) z a W1 b1 W2 b2) (ix2 (0 : Fin 1) q)
      = s (ix2 (0 : Fin 1) q) + ∑ p : Fin 2000, (Spec.hidden (fun r i => z (ix2 r i) + a (ix2 r i)) (Spec.mat W1) (Spec.row1 b1) (Spec.mat W2) (Spec.row1 b2)) p q := by
  rw [k4_pay1_apply, k4_pay6_apply]
  exact congrArg (fun t => s (ix2 (0 : Fin 1) q) + t) (Finset.sum_congr rfl fun p _ => k4_pay5_apply z a W1 b1 W2 b2 p q)

/-- After the first point, where the row before is the zero row. -/
theorem sum_first4 (z a : Vec Ideal S2000x128 .f32) (W1 : Vec Ideal S128x128 .f32) (b1 : Vec Ideal S1x128 .f32)
    (W2 : Vec Ideal S128x128 .f32) (b2 : Vec Ideal S1x128 .f32) (q : Fin 128) :
    k4_pay1 (F := Ideal) (k4_pay3 (F := Ideal)) (k4_pay6 (F := Ideal) z a W1 b1 W2 b2) (ix2 (0 : Fin 1) q)
      = ∑ p : Fin 2000, (Spec.hidden (fun r i => z (ix2 r i) + a (ix2 r i)) (Spec.mat W1) (Spec.row1 b1) (Spec.mat W2) (Spec.row1 b2)) p q := by
  rw [sum_step4, k4_pay3_apply, zero_add]

/-- The running row of column sums of squares after a point, from the row s before it. -/
theorem sq_step4 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k4_pay2 (F := Ideal) (k4_pay5 (F := Ideal) z a W1 b1 W2 b2) s (ix2 (0 : Fin 1) q)
      = s (ix2 (0 : Fin 1) q) + ∑ p : Fin 2000, (Spec.hidden (fun r i => z (ix2 r i) + a (ix2 r i)) (Spec.mat W1) (Spec.row1 b1) (Spec.mat W2) (Spec.row1 b2)) p q * (Spec.hidden (fun r i => z (ix2 r i) + a (ix2 r i)) (Spec.mat W1) (Spec.row1 b1) (Spec.mat W2) (Spec.row1 b2)) p q := by
  rw [k4_pay2_apply]
  exact congrArg (fun t => s (ix2 (0 : Fin 1) q) + t)
    (Finset.sum_congr rfl fun p _ => by rw [k4_pay5_apply z a W1 b1 W2 b2 p q])

/-- After the first point. -/
theorem sq_first4 (z a : Vec Ideal S2000x128 .f32) (W1 : Vec Ideal S128x128 .f32) (b1 : Vec Ideal S1x128 .f32)
    (W2 : Vec Ideal S128x128 .f32) (b2 : Vec Ideal S1x128 .f32) (q : Fin 128) :
    k4_pay2 (F := Ideal) (k4_pay5 (F := Ideal) z a W1 b1 W2 b2) (k4_pay4 (F := Ideal)) (ix2 (0 : Fin 1) q)
      = ∑ p : Fin 2000, (Spec.hidden (fun r i => z (ix2 r i) + a (ix2 r i)) (Spec.mat W1) (Spec.row1 b1) (Spec.mat W2) (Spec.row1 b2)) p q * (Spec.hidden (fun r i => z (ix2 r i) + a (ix2 r i)) (Spec.mat W1) (Spec.row1 b1) (Spec.mat W2) (Spec.row1 b2)) p q := by
  rw [sq_step4, k4_pay4_apply, zero_add]

/-- The same four facts with the block's hidden features left as the stored payload. -/
theorem sum_stepP0 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k0_pay1 (F := Ideal) (k0_pay6 (F := Ideal) z a W1 b1 W2 b2 s) (ix2 (0 : Fin 1) q) = s (ix2 (0 : Fin 1) q) + ∑ p : Fin 2000, k0_pay5 (F := Ideal) z a W1 b1 W2 b2 (ix2 p q) := by
  rw [k0_pay1_eq, k0_pay6_apply]

theorem sum_firstP0 (z a : Vec Ideal S2000x128 .f32) (W1 : Vec Ideal S128x128 .f32) (b1 : Vec Ideal S1x128 .f32)
    (W2 : Vec Ideal S128x128 .f32) (b2 : Vec Ideal S1x128 .f32) (q : Fin 128) :
    k0_pay1 (F := Ideal) (k0_pay6 (F := Ideal) z a W1 b1 W2 b2 (k0_pay3 (F := Ideal))) (ix2 (0 : Fin 1) q) = ∑ p : Fin 2000, k0_pay5 (F := Ideal) z a W1 b1 W2 b2 (ix2 p q) := by
  rw [sum_stepP0, k0_pay3_apply, zero_add]

theorem sq_stepP0 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k0_pay2 (F := Ideal) (k0_pay5 (F := Ideal) z a W1 b1 W2 b2) s (ix2 (0 : Fin 1) q) = s (ix2 (0 : Fin 1) q) + ∑ p : Fin 2000, k0_pay5 (F := Ideal) z a W1 b1 W2 b2 (ix2 p q) * k0_pay5 (F := Ideal) z a W1 b1 W2 b2 (ix2 p q) := by
  rw [k0_pay2_apply]

theorem sq_firstP0 (z a : Vec Ideal S2000x128 .f32) (W1 : Vec Ideal S128x128 .f32) (b1 : Vec Ideal S1x128 .f32)
    (W2 : Vec Ideal S128x128 .f32) (b2 : Vec Ideal S1x128 .f32) (q : Fin 128) :
    k0_pay2 (F := Ideal) (k0_pay5 (F := Ideal) z a W1 b1 W2 b2) (k0_pay4 (F := Ideal)) (ix2 (0 : Fin 1) q) = ∑ p : Fin 2000, k0_pay5 (F := Ideal) z a W1 b1 W2 b2 (ix2 p q) * k0_pay5 (F := Ideal) z a W1 b1 W2 b2 (ix2 p q) := by
  rw [sq_stepP0, k0_pay4_apply, zero_add]

/-- The same four facts with the block's hidden features left as the stored payload. -/
theorem sum_stepP2 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k2_pay1 (F := Ideal) s (k2_pay6 (F := Ideal) z a W1 b1 W2 b2) (ix2 (0 : Fin 1) q) = s (ix2 (0 : Fin 1) q) + ∑ p : Fin 2000, k2_pay5 (F := Ideal) z a W1 b1 W2 b2 (ix2 p q) := by
  rw [k2_pay1_apply, k2_pay6_apply]

theorem sum_firstP2 (z a : Vec Ideal S2000x128 .f32) (W1 : Vec Ideal S128x128 .f32) (b1 : Vec Ideal S1x128 .f32)
    (W2 : Vec Ideal S128x128 .f32) (b2 : Vec Ideal S1x128 .f32) (q : Fin 128) :
    k2_pay1 (F := Ideal) (k2_pay3 (F := Ideal)) (k2_pay6 (F := Ideal) z a W1 b1 W2 b2) (ix2 (0 : Fin 1) q) = ∑ p : Fin 2000, k2_pay5 (F := Ideal) z a W1 b1 W2 b2 (ix2 p q) := by
  rw [sum_stepP2, k2_pay3_apply, zero_add]

theorem sq_stepP2 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k2_pay2 (F := Ideal) (k2_pay5 (F := Ideal) z a W1 b1 W2 b2) s (ix2 (0 : Fin 1) q) = s (ix2 (0 : Fin 1) q) + ∑ p : Fin 2000, k2_pay5 (F := Ideal) z a W1 b1 W2 b2 (ix2 p q) * k2_pay5 (F := Ideal) z a W1 b1 W2 b2 (ix2 p q) := by
  rw [k2_pay2_apply]

theorem sq_firstP2 (z a : Vec Ideal S2000x128 .f32) (W1 : Vec Ideal S128x128 .f32) (b1 : Vec Ideal S1x128 .f32)
    (W2 : Vec Ideal S128x128 .f32) (b2 : Vec Ideal S1x128 .f32) (q : Fin 128) :
    k2_pay2 (F := Ideal) (k2_pay5 (F := Ideal) z a W1 b1 W2 b2) (k2_pay4 (F := Ideal)) (ix2 (0 : Fin 1) q) = ∑ p : Fin 2000, k2_pay5 (F := Ideal) z a W1 b1 W2 b2 (ix2 p q) * k2_pay5 (F := Ideal) z a W1 b1 W2 b2 (ix2 p q) := by
  rw [sq_stepP2, k2_pay4_apply, zero_add]

/-- The same four facts with the block's hidden features left as the stored payload. -/
theorem sum_stepP4 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k4_pay1 (F := Ideal) s (k4_pay6 (F := Ideal) z a W1 b1 W2 b2) (ix2 (0 : Fin 1) q) = s (ix2 (0 : Fin 1) q) + ∑ p : Fin 2000, k4_pay5 (F := Ideal) z a W1 b1 W2 b2 (ix2 p q) := by
  rw [k4_pay1_apply, k4_pay6_apply]

theorem sum_firstP4 (z a : Vec Ideal S2000x128 .f32) (W1 : Vec Ideal S128x128 .f32) (b1 : Vec Ideal S1x128 .f32)
    (W2 : Vec Ideal S128x128 .f32) (b2 : Vec Ideal S1x128 .f32) (q : Fin 128) :
    k4_pay1 (F := Ideal) (k4_pay3 (F := Ideal)) (k4_pay6 (F := Ideal) z a W1 b1 W2 b2) (ix2 (0 : Fin 1) q) = ∑ p : Fin 2000, k4_pay5 (F := Ideal) z a W1 b1 W2 b2 (ix2 p q) := by
  rw [sum_stepP4, k4_pay3_apply, zero_add]

theorem sq_stepP4 (z a : Vec Ideal S2000x128 .f32) (W1 : Vec Ideal S128x128 .f32) (b1 : Vec Ideal S1x128 .f32)
    (W2 : Vec Ideal S128x128 .f32) (b2 : Vec Ideal S1x128 .f32) (s : Vec Ideal S1x128 .f32) (q : Fin 128) :
    k4_pay2 (F := Ideal) (k4_pay5 (F := Ideal) z a W1 b1 W2 b2) s (ix2 (0 : Fin 1) q) = s (ix2 (0 : Fin 1) q) + ∑ p : Fin 2000, k4_pay5 (F := Ideal) z a W1 b1 W2 b2 (ix2 p q) * k4_pay5 (F := Ideal) z a W1 b1 W2 b2 (ix2 p q) := by
  rw [k4_pay2_apply]

theorem sq_firstP4 (z a : Vec Ideal S2000x128 .f32) (W1 : Vec Ideal S128x128 .f32) (b1 : Vec Ideal S1x128 .f32)
    (W2 : Vec Ideal S128x128 .f32) (b2 : Vec Ideal S1x128 .f32) (q : Fin 128) :
    k4_pay2 (F := Ideal) (k4_pay5 (F := Ideal) z a W1 b1 W2 b2) (k4_pay4 (F := Ideal)) (ix2 (0 : Fin 1) q) = ∑ p : Fin 2000, k4_pay5 (F := Ideal) z a W1 b1 W2 b2 (ix2 p q) * k4_pay5 (F := Ideal) z a W1 b1 W2 b2 (ix2 p q) := by
  rw [sq_stepP4, k4_pay4_apply, zero_add]

end Cert.KerPay

end
-- ==== Proof.KerBlockSum.lean ====
/-
  A sum over the rows of a tall matrix, taken block by block.

  The n = B * R rows are cut into B consecutive blocks of R rows: row r lies in block r / R at place r % R, and row
  p of block t is row t * R + p. In a commutative additive monoid the sum over all rows is the sum over the blocks
  of the sum over each block's rows. A running total that starts at zero and adds one block's sum per step holds,
  after N steps, the sum of the first N blocks' sums. Together: a total accumulated block by block over all B
  blocks is the sum over all n rows.
-/
import Mathlib.Algebra.BigOperators.Fin
import Mathlib.Algebra.BigOperators.Group.Finset.Basic
import Mathlib.Logic.Equiv.Fin.Basic

open scoped BigOperators

namespace Cert.BlockSum

variable {M : Type*} [AddCommMonoid M]

/-- Row p of block t is a row of the matrix. -/
theorem row_lt {B R n : ℕ} (h : B * R = n) (t : Fin B) (p : Fin R) : t.val * R + p.val < n := by
  subst h
  calc t.val * R + p.val < t.val * R + R := Nat.add_lt_add_left p.isLt _
    _ = (t.val + 1) * R := by rw [Nat.add_mul, Nat.one_mul]
    _ ≤ B * R := Nat.mul_le_mul_right R t.isLt

/-- Row p of block t, as a row of the matrix. -/
def rowOf {B R n : ℕ} (h : B * R = n) (t : Fin B) (p : Fin R) : Fin n := ⟨t.val * R + p.val, row_lt h t p⟩

@[simp] theorem rowOf_val {B R n : ℕ} (h : B * R = n) (t : Fin B) (p : Fin R) : (rowOf h t p).val = t.val * R + p.val := rfl

/-- The block of a row, and its place in the block. -/
def blockOf {B R n : ℕ} (h : B * R = n) (hR : 0 < R) (r : Fin n) : Fin B :=
  ⟨r.val / R, by subst h; exact (Nat.div_lt_iff_lt_mul hR).mpr r.isLt⟩

def placeOf {R n : ℕ} (hR : 0 < R) (r : Fin n) : Fin R := ⟨r.val % R, Nat.mod_lt _ hR⟩

/-- Every row is the row at its place in its block. -/
theorem rowOf_blockOf_placeOf {B R n : ℕ} (h : B * R = n) (hR : 0 < R) (r : Fin n) :
    rowOf h (blockOf h hR r) (placeOf hR r) = r :=
  Fin.ext (by show r.val / R * R + r.val % R = r.val; exact Nat.div_add_mod' r.val R)

/-- The sum over all rows is the sum over the blocks of the sum over a block's rows. -/
theorem sum_rows_eq_sum_blocks {B R n : ℕ} (h : B * R = n) (f : Fin n → M) :
    ∑ r : Fin n, f r = ∑ t : Fin B, ∑ p : Fin R, f (rowOf h t p) := by
  subst h
  rw [← Equiv.sum_comp finProdFinEquiv f, Fintype.sum_prod_type]
  refine Finset.sum_congr rfl fun t _ => Finset.sum_congr rfl fun p _ => congrArg f (Fin.ext ?_)
  show p.val + R * t.val = t.val * R + p.val
  rw [Nat.mul_comm, Nat.add_comm]

/-- A running total from zero that adds b t at step t holds, after N steps, the sum of b over the first N steps. -/
theorem running_total (b acc : ℕ → M) (h0 : acc 0 = 0) (hs : ∀ t, acc (t + 1) = acc t + b t) (N : ℕ) :
    acc N = ∑ t ∈ Finset.range N, b t := by
  induction N with
  | zero => rw [h0, Finset.sum_range_zero]
  | succ k ih => rw [hs, ih, Finset.sum_range_succ]

/-- The same over the first N of B steps, the steps indexed by Fin B. -/
theorem running_total_fin {B : ℕ} (b : Fin B → M) (acc : ℕ → M) (h0 : acc 0 = 0)
    (hs : ∀ (t : ℕ) (ht : t < B), acc (t + 1) = acc t + b ⟨t, ht⟩) : acc B = ∑ t : Fin B, b t := by
  have key : ∀ N (hN : N ≤ B), acc N = ∑ t : Fin N, b ⟨t.val, lt_of_lt_of_le t.isLt hN⟩ := by
    intro N
    induction N with
    | zero => intro _; rw [h0]; rfl
    | succ k ih =>
      intro hN
      rw [hs k hN, ih (Nat.le_of_succ_le hN), Fin.sum_univ_castSucc]
      rfl
  exact key B (le_refl B)

/-- A total accumulated block by block over all B blocks of R rows is the sum over all n = B * R rows. -/
theorem accumulated_eq_sum_rows {B R n : ℕ} (h : B * R = n) (f : Fin n → M) (acc : ℕ → M) (h0 : acc 0 = 0)
    (hs : ∀ (t : ℕ) (ht : t < B), acc (t + 1) = acc t + ∑ p : Fin R, f (rowOf h ⟨t, ht⟩ p)) :
    acc B = ∑ r : Fin n, f r := by
  rw [sum_rows_eq_sum_blocks h f]
  exact running_total_fin (fun t => ∑ p : Fin R, f (rowOf h t p)) acc h0 hs

/-- A running total kept only at the points of a grid of N points: the first point leaves b 0, each later point
    adds its own b to what the point before left. After point n it is the sum of b over the points up to n. -/
theorem running_total_lt {N : ℕ} (b : Fin N → M) (acc : (n : ℕ) → n < N → M)
    (h0 : ∀ h : 0 < N, acc 0 h = b ⟨0, h⟩)
    (hs : ∀ (n : ℕ) (h : n + 1 < N), acc (n + 1) h = acc n (Nat.lt_of_succ_lt h) + b ⟨n + 1, h⟩) :
    ∀ (n : ℕ) (h : n < N), acc n h = ∑ t : Fin (n + 1), b ⟨t.val, lt_of_lt_of_le t.isLt h⟩ := by
  intro n
  induction n with
  | zero =>
    intro h
    rw [h0 h, Fin.sum_univ_one]
    rfl
  | succ k ih =>
    intro h
    rw [hs k h, ih (Nat.lt_of_succ_lt h), Fin.sum_univ_castSucc (n := k + 1)]
    rfl

/-- After the last point it is the sum over all the points. -/
theorem running_total_last {N : ℕ} (b : Fin (N + 1) → M) (acc : (n : ℕ) → n < N + 1 → M)
    (h0 : ∀ h : 0 < N + 1, acc 0 h = b ⟨0, h⟩)
    (hs : ∀ (n : ℕ) (h : n + 1 < N + 1), acc (n + 1) h = acc n (Nat.lt_of_succ_lt h) + b ⟨n + 1, h⟩) :
    acc N (Nat.lt_succ_self N) = ∑ t : Fin (N + 1), b t :=
  running_total_lt b acc h0 hs N (Nat.lt_succ_self N)

/-- Accumulated block by block over a grid of B + 1 blocks of R rows, the total after the last point is the sum
    over all n = (B + 1) * R rows. -/
theorem accumulated_last_eq_sum_rows {B R n : ℕ} (h : (B + 1) * R = n) (f : Fin n → M) (acc : (k : ℕ) → k < B + 1 → M)
    (h0 : ∀ hk : 0 < B + 1, acc 0 hk = ∑ p : Fin R, f (rowOf h ⟨0, hk⟩ p))
    (hs : ∀ (k : ℕ) (hk : k + 1 < B + 1),
      acc (k + 1) hk = acc k (Nat.lt_of_succ_lt hk) + ∑ p : Fin R, f (rowOf h ⟨k + 1, hk⟩ p)) :
    acc B (Nat.lt_succ_self B) = ∑ r : Fin n, f r := by
  rw [sum_rows_eq_sum_blocks h f]
  exact running_total_last (fun t => ∑ p : Fin R, f (rowOf h t p)) acc h0 hs

end Cert.BlockSum
-- ==== Proof.KerSpecBlocks.lean ====
/-
  The specification's layer read block by block.

  The hidden features of a row are a function of that row of the aggregated features alone, so a block of rows of
  the hidden features is the hidden features of that block of rows. The column sums of a matrix of n = B * R rows,
  and of its squares, are the sums over the B blocks of the column sums over each block's R rows.
-/
import proofs.«100772_j6322191859838_1_alg».proof.Proof.Spec
import proofs.«100772_j6322191859838_1_alg».proof.Proof.KerBlockSum

noncomputable section

open scoped BigOperators

namespace Cert.SpecBlocks

open Cert.Spec

variable {n n' d₀ d₁ d₂ d : ℕ}

/-- A row of a dense map reads that row of its operand. -/
theorem dense_row_congr (x : Mat n d₀) (x' : Mat n' d₀) (W : Mat d₀ d₁) (b : Row d₁) (r : Fin n) (r' : Fin n')
    (h : ∀ i, x r i = x' r' i) (j : Fin d₁) : dense x W b r j = dense x' W b r' j := by
  rw [dense_apply, dense_apply]
  exact congrArg (fun s => max (s + b j) 0) (Finset.sum_congr rfl fun i _ => by rw [h i])

/-- A row of the hidden features reads that row of the aggregated features. -/
theorem hidden_row_congr (a : Mat n d₀) (a' : Mat n' d₀) (W1 : Mat d₀ d₁) (b1 : Row d₁) (W2 : Mat d₁ d₂) (b2 : Row d₂)
    (r : Fin n) (r' : Fin n') (h : ∀ i, a r i = a' r' i) (j : Fin d₂) :
    hidden a W1 b1 W2 b2 r j = hidden a' W1 b1 W2 b2 r' j :=
  dense_row_congr _ _ W2 b2 r r' (fun k => dense_row_congr a a' W1 b1 r r' h k) j

/-- The column sums, block by block. -/
theorem colSum_blocks {B R : ℕ} (hBR : B * R = n) (h : Mat n d) (j : Fin d) :
    colSum h j = ∑ t : Fin B, ∑ p : Fin R, h (BlockSum.rowOf hBR t p) j :=
  BlockSum.sum_rows_eq_sum_blocks hBR fun r => h r j

/-- The column sums of squares, block by block. -/
theorem colSumSq_blocks {B R : ℕ} (hBR : B * R = n) (h : Mat n d) (j : Fin d) :
    colSumSq h j = ∑ t : Fin B, ∑ p : Fin R, h (BlockSum.rowOf hBR t p) j * h (BlockSum.rowOf hBR t p) j :=
  BlockSum.sum_rows_eq_sum_blocks hBR fun r => h r j * h r j

/-- A running row that holds, after the first block, that block's column sums and after each later block what it
    held plus that block's column sums, holds after the last block the column sums of the matrix. -/
theorem colSum_of_running {B R : ℕ} (hBR : (B + 1) * R = n) (h : Mat n d) (j : Fin d) (acc : (k : ℕ) → k < B + 1 → EReal)
    (h0 : ∀ hk : 0 < B + 1, acc 0 hk = ∑ p : Fin R, h (BlockSum.rowOf hBR ⟨0, hk⟩ p) j)
    (hs : ∀ (k : ℕ) (hk : k + 1 < B + 1),
      acc (k + 1) hk = acc k (Nat.lt_of_succ_lt hk) + ∑ p : Fin R, h (BlockSum.rowOf hBR ⟨k + 1, hk⟩ p) j) :
    acc B (Nat.lt_succ_self B) = colSum h j :=
  BlockSum.accumulated_last_eq_sum_rows hBR (fun r => h r j) acc h0 hs

/-- The same for the column sums of squares. -/
theorem colSumSq_of_running {B R : ℕ} (hBR : (B + 1) * R = n) (h : Mat n d) (j : Fin d) (acc : (k : ℕ) → k < B + 1 → EReal)
    (h0 : ∀ hk : 0 < B + 1, acc 0 hk = ∑ p : Fin R, h (BlockSum.rowOf hBR ⟨0, hk⟩ p) j * h (BlockSum.rowOf hBR ⟨0, hk⟩ p) j)
    (hs : ∀ (k : ℕ) (hk : k + 1 < B + 1),
      acc (k + 1) hk = acc k (Nat.lt_of_succ_lt hk)
        + ∑ p : Fin R, h (BlockSum.rowOf hBR ⟨k + 1, hk⟩ p) j * h (BlockSum.rowOf hBR ⟨k + 1, hk⟩ p) j) :
    acc B (Nat.lt_succ_self B) = colSumSq h j :=
  BlockSum.accumulated_last_eq_sum_rows hBR (fun r => h r j * h r j) acc h0 hs

end Cert.SpecBlocks

end
-- ==== Proof.KerValMlpCore.lean ====
/-
  The three output arrays of a dense region as functions of the region's six input arrays.

  With z, a : [100000, 128] the features and the neighbour sums, and W1, b1, W2, b2 the parameters, H is the
  specification's hidden features of z + a; the tall output holds H entry by entry, the two row outputs the column
  sums of H and of its squares.
-/
import proofs.«100772_j6322191859838_1_alg».proof.Proof.Gen.KernelIdeal
import proofs.«100772_j6322191859838_1_alg».proof.Proof.Spec
import proofs.«100772_j6322191859838_1_alg».proof.Proof.KerBlockSum
import Idealize.ShloMosaic.Lib.Pipeline.Value
import Idealize.ShloMosaic.Lib.ValueIdx
import Idealize.ShloMosaic.PureOps.Ideal.Laws

noncomputable section

namespace Cert.KerVal

open Cert.KernelIdeal Cert.KernelIdeal.Gen
open Idealize.ShloMosaic Idealize.ShloMosaic.ValueIdx

/-- Fifty blocks of 2000 rows are the 100000 rows. -/
theorem h50 : (49 + 1) * 2000 = 100000 := by norm_num

/-- The row and the column of an index of a tall array; the column of an index of a row array. -/
abbrev rowIx (i : S100000x128.Idx) : Fin 100000 := ⟨(i 0).val, idx2_lt0 i⟩
abbrev colIx (i : S100000x128.Idx) : Fin 128 := ⟨(i 1).val, idx2_lt1 i⟩
abbrev colIx1 (i : S1x128.Idx) : Fin 128 := ⟨(i 1).val, idx2_lt1 i⟩

/-- The hidden features of the whole arrays. -/
abbrev HH (z a : S100000x128.Idx → EReal) (W1 : S128x128.Idx → EReal) (b1 : S1x128.Idx → EReal)
    (W2 : S128x128.Idx → EReal) (b2 : S1x128.Idx → EReal) : Spec.Mat 100000 128 :=
  Spec.hidden (fun r i => z (ix2 r i) + a (ix2 r i)) (Spec.mat W1) (Spec.row1 b1) (Spec.mat W2) (Spec.row1 b2)

/-- The tall output array. -/
abbrev GH (z a : S100000x128.Idx → EReal) (W1 : S128x128.Idx → EReal) (b1 : S1x128.Idx → EReal)
    (W2 : S128x128.Idx → EReal) (b2 : S1x128.Idx → EReal) : S100000x128.Idx → EReal :=
  fun i => HH z a W1 b1 W2 b2 (rowIx i) (colIx i)

/-- The row of column sums, and of column sums of squares, of a matrix. -/
abbrev GS (h : Spec.Mat 100000 128) : S1x128.Idx → EReal := fun i => Spec.colSum h (colIx1 i)
abbrev GQ (h : Spec.Mat 100000 128) : S1x128.Idx → EReal := fun i => Spec.colSumSq h (colIx1 i)

theorem GH_at (z a : S100000x128.Idx → EReal) (W1 : S128x128.Idx → EReal) (b1 : S1x128.Idx → EReal)
    (W2 : S128x128.Idx → EReal) (b2 : S1x128.Idx → EReal) (i : S100000x128.Idx) (r : Fin 100000) (q : Fin 128)
    (hr : rowIx i = r) (hc : colIx i = q) : HH z a W1 b1 W2 b2 r q = GH z a W1 b1 W2 b2 i := by
  subst hr hc; rfl

theorem GS_at (h : Spec.Mat 100000 128) (i : S1x128.Idx) (q : Fin 128) (hc : colIx1 i = q) :
    Spec.colSum h q = GS h i := by subst hc; rfl

theorem GQ_at (h : Spec.Mat 100000 128) (i : S1x128.Idx) (q : Fin 128) (hc : colIx1 i = q) :
    Spec.colSumSq h q = GQ h i := by subst hc; rfl

theorem GH_apply (z a : S100000x128.Idx → EReal) (W1 : S128x128.Idx → EReal) (b1 : S1x128.Idx → EReal)
    (W2 : S128x128.Idx → EReal) (b2 : S1x128.Idx → EReal) (r : Fin 100000) (j : Fin 128) :
    GH z a W1 b1 W2 b2 (ix2 r j) = HH z a W1 b1 W2 b2 r j := rfl

theorem GS_apply (h : Spec.Mat 100000 128) (q : Fin 128) : GS h (ix2 (0 : Fin 1) q) = Spec.colSum h q := rfl
theorem GQ_apply (h : Spec.Mat 100000 128) (q : Fin 128) : GQ h (ix2 (0 : Fin 1) q) = Spec.colSumSq h q := rfl

end Cert.KerVal

end
-- ==== Proof.KerValMlp0.lean ====
/-
  The dense region's three output arrays, entry by entry.

  The region's grid has 50 points; point t reads rows 2000 t … 2000 t + 1999 of the features z and of the neighbour
  sums a, and the four parameters whole. With H the specification's hidden features of the whole arrays
  (hidden (z + a) W1 b1 W2 b2 : 100000 rows), the block of hidden features a point stores is rows 2000 t … of H, since
  a row of H reads that row of z + a alone; the blocks tile the output array, which therefore ends holding H. The
  two running rows hold, after point n, the column sums of H, resp. of its squares, over the rows of the blocks up
  to n (induction on n); the last point copies them to the two row outputs, written back only there, which
  therefore end holding the column sums of H and of its squares over all 100000 rows.
-/
import proofs.«100772_j6322191859838_1_alg».proof.Proof.KI_Mlp0
import proofs.«100772_j6322191859838_1_alg».proof.Proof.KerRead0
import proofs.«100772_j6322191859838_1_alg».proof.Proof.KerPayAcc
import proofs.«100772_j6322191859838_1_alg».proof.Proof.KerSpecBlocks
import proofs.«100772_j6322191859838_1_alg».proof.Proof.KerValMlpCore
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the two tall inputs and the tall output move one block of rows per point,
    the parameters and the two row outputs stay at their one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- A point's index is below 50. -/
theorem pt_lt0 (t : Fin cfg0.N) : t.val < 49 + 1 := lt_of_lt_of_eq t.isLt N_0

/-- Row p of the block of point t, as a row of the tall arrays. -/
abbrev rowAt0 (t : Fin cfg0.N) (p : Fin 2000) : Fin 100000 := BlockSum.rowOf h50 ⟨t.val, pt_lt0 t⟩ p

/-- Row p of window 0's block at point t is row 2000 t + p of its array. -/
theorem iblk0_0_row (c : Dev nD) (t : Fin cfg0.N) (p : Fin 2000) (i : Fin 128) :
    (iblk0 V c 0 t : S2000x128.Idx → EReal) (ix2 p i) = V c main_arg0 (ix2 (rowAt0 t p) i) := by
  obtain ⟨e00, e01, e10, e11, e20, e21, e30, e31, e40, e41, e50, e51, e60, e61, e70, e71, e80, e81⟩ := idx_facts0 t
  show V c main_arg0 (((cfg0.win 0).blk t).view.emb (ix2 p i)) = V c main_arg0 (ix2 (rowAt0 t p) i)
  refine congrArg (V c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * i.val = i.val; omega

/-- Row p of window 1's block at point t is row 2000 t + p of its array. -/
theorem iblk0_1_row (c : Dev nD) (t : Fin cfg0.N) (p : Fin 2000) (i : Fin 128) :
    (iblk0 V c 1 t : S2000x128.Idx → EReal) (ix2 p i) = V c main_v25 (ix2 (rowAt0 t p) i) := by
  obtain ⟨e00, e01, e10, e11, e20, e21, e30, e31, e40, e41, e50, e51, e60, e61, e70, e71, e80, e81⟩ := idx_facts0 t
  show V c main_v25 (((cfg0.win 1).blk t).view.emb (ix2 p i)) = V c main_v25 (ix2 (rowAt0 t p) i)
  refine congrArg (V c main_v25) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * i.val = i.val; omega

/-- Window 2's block is its whole array at every point. -/
theorem iblk0_2_eq (c : Dev nD) (t : Fin cfg0.N) : (iblk0 V c 2 t : S128x128.Idx → EReal) = V c main_v5 := by
  obtain ⟨e00, e01, e10, e11, e20, e21, e30, e31, e40, e41, e50, e51, e60, e61, e70, e71, e80, e81⟩ := idx_facts0 t
  funext j
  show V c main_v5 (((cfg0.win 2).blk t).view.emb j) = V c main_v5 j
  refine congrArg (V c main_v5) (funext fun a => Fin.ext ?_)
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- Window 3's block is its whole array at every point. -/
theorem iblk0_3_eq (c : Dev nD) (t : Fin cfg0.N) : (iblk0 V c 3 t : S1x128.Idx → EReal) = V c main_v26 := by
  obtain ⟨e00, e01, e10, e11, e20, e21, e30, e31, e40, e41, e50, e51, e60, e61, e70, e71, e80, e81⟩ := idx_facts0 t
  funext j
  show V c main_v26 (((cfg0.win 3).blk t).view.emb j) = V c main_v26 j
  refine congrArg (V c main_v26) (funext fun a => Fin.ext ?_)
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- Window 4's block is its whole array at every point. -/
theorem iblk0_4_eq (c : Dev nD) (t : Fin cfg0.N) : (iblk0 V c 4 t : S128x128.Idx → EReal) = V c main_v9 := by
  obtain ⟨e00, e01, e10, e11, e20, e21, e30, e31, e40, e41, e50, e51, e60, e61, e70, e71, e80, e81⟩ := idx_facts0 t
  funext j
  show V c main_v9 (((cfg0.win 4).blk t).view.emb j) = V c main_v9 j
  refine congrArg (V c main_v9) (funext fun a => Fin.ext ?_)
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- Window 5's block is its whole array at every point. -/
theorem iblk0_5_eq (c : Dev nD) (t : Fin cfg0.N) : (iblk0 V c 5 t : S1x128.Idx → EReal) = V c main_v27 := by
  obtain ⟨e00, e01, e10, e11, e20, e21, e30, e31, e40, e41, e50, e51, e60, e61, e70, e71, e80, e81⟩ := idx_facts0 t
  funext j
  show V c main_v27 (((cfg0.win 5).blk t).view.emb j) = V c main_v27 j
  refine congrArg (V c main_v27) (funext fun a => Fin.ext ?_)
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- The hidden features of a block whose rows are rows of the tall arrays and whose parameters are the arrays'
    are those rows of the arrays' hidden features. -/
theorem hidden_block0 (z a : S100000x128.Idx → EReal) (W1 : S128x128.Idx → EReal) (b1 : S1x128.Idx → EReal)
    (W2 : S128x128.Idx → EReal) (b2 : S1x128.Idx → EReal) (zb ab : S2000x128.Idx → EReal) (W1b : S128x128.Idx → EReal)
    (b1b : S1x128.Idx → EReal) (W2b : S128x128.Idx → EReal) (b2b : S1x128.Idx → EReal) (r : Fin 100000) (p : Fin 2000) (q : Fin 128)
    (hz : ∀ i : Fin 128, zb (ix2 p i) = z (ix2 r i)) (ha : ∀ i : Fin 128, ab (ix2 p i) = a (ix2 r i))
    (hW1 : W1b = W1) (hb1 : b1b = b1) (hW2 : W2b = W2) (hb2 : b2b = b2) :
    Spec.hidden (fun r i => zb (ix2 r i) + ab (ix2 r i)) (Spec.mat W1b) (Spec.row1 b1b) (Spec.mat W2b) (Spec.row1 b2b) p q
      = HH z a W1 b1 W2 b2 r q := by
  subst hW1 hb1 hW2 hb2
  exact SpecBlocks.hidden_row_congr _ _ _ _ _ _ p r (fun i => by
    show zb (ix2 p i) + ab (ix2 p i) = z (ix2 r i) + a (ix2 r i)
    rw [hz i, ha i]) q

/-- THE BLOCK OF HIDDEN FEATURES a point stores is the point's rows of the whole arrays' hidden features. -/
theorem blockH0 (c : Dev nD) (t : Fin cfg0.N) (p : Fin 2000) (q : Fin 128) :
    k0_pay5 (F := Ideal) (iblk0 V c 0 t) (iblk0 V c 1 t) (iblk0 V c 2 t) (iblk0 V c 3 t) (iblk0 V c 4 t) (iblk0 V c 5 t) (ix2 p q) = HH (V c main_arg0) (V c main_v25) (V c main_v5) (V c main_v26) (V c main_v9) (V c main_v27) (rowAt0 t p) q :=
  (KerPay.k0_pay5_apply (iblk0 V c 0 t) (iblk0 V c 1 t) (iblk0 V c 2 t) (iblk0 V c 3 t) (iblk0 V c 4 t) (iblk0 V c 5 t) p q).trans
    (hidden_block0 (V c main_arg0) (V c main_v25) (V c main_v5) (V c main_v26) (V c main_v9) (V c main_v27) (iblk0 V c 0 t) (iblk0 V c 1 t) (iblk0 V c 2 t) (iblk0 V c 3 t) (iblk0 V c 4 t) (iblk0 V c 5 t)
      (rowAt0 t p) p q (iblk0_0_row V c t p) (iblk0_1_row V c t p) (iblk0_2_eq V c t) (iblk0_3_eq V c t) (iblk0_4_eq V c t) (iblk0_5_eq V c t))

/-! ## What the three carried values are at each point -/

theorem stepF0_eq (c : Dev nD) (t : Fin cfg0.N) (hc1 : condFirst0 (grid0.coords t)) (hc2 : ¬condLast0 (grid0.coords t)) :
    stepF0 V c t hc1 hc2 = (k0_pay5 (F := Ideal) (iblk0 V c 0 t) (iblk0 V c 1 t) (iblk0 V c 2 t) (iblk0 V c 3 t) (iblk0 V c 4 t) (iblk0 V c 5 t), k0_pay1 (F := Ideal) (k0_pay6 (F := Ideal) (iblk0 V c 0 t) (iblk0 V c 1 t) (iblk0 V c 2 t) (iblk0 V c 3 t) (iblk0 V c 4 t) (iblk0 V c 5 t) (k0_pay3 (F := Ideal))), k0_pay2 (F := Ideal) (k0_pay5 (F := Ideal) (iblk0 V c 0 t) (iblk0 V c 1 t) (iblk0 V c 2 t) (iblk0 V c 3 t) (iblk0 V c 4 t) (iblk0 V c 5 t)) (k0_pay4 (F := Ideal))) := by
  unfold stepF0
  refine Prod.ext ?_ (Prod.ext ?_ ?_)
  · dsimp only
    exact run0_F_L7 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)
  · dsimp only
    exact run0_F_L10 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)
  · dsimp only
    exact run0_F_L11 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t)

theorem stepM0_eq (c : Dev nD) (t : Fin cfg0.N) (hc1 : ¬condFirst0 (grid0.coords t)) (hc2 : ¬condLast0 (grid0.coords t)) (s0 s1 : Vec Ideal S1x128 .f32) :
    stepM0 V c t hc1 hc2 s0 s1 = (k0_pay5 (F := Ideal) (iblk0 V c 0 t) (iblk0 V c 1 t) (iblk0 V c 2 t) (iblk0 V c 3 t) (iblk0 V c 4 t) (iblk0 V c 5 t), k0_pay1 (F := Ideal) (k0_pay6 (F := Ideal) (iblk0 V c 0 t) (iblk0 V c 1 t) (iblk0 V c 2 t) (iblk0 V c 3 t) (iblk0 V c 4 t) (iblk0 V c 5 t) s0), k0_pay2 (F := Ideal) (k0_pay5 (F := Ideal) (iblk0 V c 0 t) (iblk0 V c 1 t) (iblk0 V c 2 t) (iblk0 V c 3 t) (iblk0 V c 4 t) (iblk0 V c 5 t)) s1) := by
  unfold stepM0
  refine Prod.ext ?_ (Prod.ext ?_ ?_)
  · dsimp only
    exact run0_M_L7 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1
  · dsimp only
    exact run0_M_L10 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1
  · dsimp only
    exact run0_M_L11 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1

theorem stepL0_eq (c : Dev nD) (t : Fin cfg0.N) (hc1 : ¬condFirst0 (grid0.coords t)) (hc2 : condLast0 (grid0.coords t)) (s0 s1 : Vec Ideal S1x128 .f32) :
    stepL0 V c t hc1 hc2 s0 s1 = (k0_pay5 (F := Ideal) (iblk0 V c 0 t) (iblk0 V c 1 t) (iblk0 V c 2 t) (iblk0 V c 3 t) (iblk0 V c 4 t) (iblk0 V c 5 t), k0_pay1 (F := Ideal) (k0_pay6 (F := Ideal) (iblk0 V c 0 t) (iblk0 V c 1 t) (iblk0 V c 2 t) (iblk0 V c 3 t) (iblk0 V c 4 t) (iblk0 V c 5 t) s0), k0_pay2 (F := Ideal) (k0_pay5 (F := Ideal) (iblk0 V c 0 t) (iblk0 V c 1 t) (iblk0 V c 2 t) (iblk0 V c 3 t) (iblk0 V c 4 t) (iblk0 V c 5 t)) s1) := by
  unfold stepL0
  refine Prod.ext ?_ (Prod.ext ?_ ?_)
  · dsimp only
    exact run0_L_L7 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1
  · dsimp only
    exact run0_L_L10 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1
  · dsimp only
    exact run0_L_L11 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1

theorem rowsL0_eq (c : Dev nD) (t : Fin cfg0.N) (hc1 : ¬condFirst0 (grid0.coords t)) (hc2 : condLast0 (grid0.coords t))
    (s0 s1 : Vec Ideal S1x128 .f32) :
    rowsL0 V c t hc1 hc2 s0 s1 = (k0_pay1 (F := Ideal) (k0_pay6 (F := Ideal) (iblk0 V c 0 t) (iblk0 V c 1 t) (iblk0 V c 2 t) (iblk0 V c 3 t) (iblk0 V c 4 t) (iblk0 V c 5 t) s0), k0_pay2 (F := Ideal) (k0_pay5 (F := Ideal) (iblk0 V c 0 t) (iblk0 V c 1 t) (iblk0 V c 2 t) (iblk0 V c 3 t) (iblk0 V c 4 t) (iblk0 V c 5 t)) s1) := by
  unfold rowsL0
  refine Prod.ext ?_ ?_
  · dsimp only
    exact run0_L_L8 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1
  · dsimp only
    exact run0_L_L9 (F := Ideal) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) sc0_0 (Memref.isWhole_whole _) sc0_1 (Memref.isWhole_whole _) hc1 hc2 (iblk0 V c 0 t) (iblk0 V c 1 t) (iblk0 V c 2 t) (iblk0 V c 3 t) (iblk0 V c 4 t) (iblk0 V c 5 t) s0 s1

/-- The output block after any point is the payload of the point's blocks. -/
theorem st0_fst (c : Dev nD) (t : Fin cfg0.N) :
    (stAt0 V c t.val t.isLt).1 = k0_pay5 (F := Ideal) (iblk0 V c 0 t) (iblk0 V c 1 t) (iblk0 V c 2 t) (iblk0 V c 3 t) (iblk0 V c 4 t) (iblk0 V c 5 t) := by
  by_cases h0 : t.val = 0
  · exact (congrArg Prod.fst (stAt0_F V c t h0)).trans (congrArg Prod.fst (stepF0_eq V c t _ _))
  · by_cases h49 : t.val = 49
    · exact (congrArg Prod.fst (stAt0_L V c t h49)).trans (congrArg Prod.fst (stepL0_eq V c t _ _ _ _))
    · exact (congrArg Prod.fst (stAt0_M V c t h0 h49)).trans (congrArg Prod.fst (stepM0_eq V c t _ _ _ _))

/-- The first running row after the first point. -/
theorem st0_sum_F (c : Dev nD) (t : Fin cfg0.N) (h0 : t.val = 0) :
    (stAt0 V c t.val t.isLt).2.1 = k0_pay1 (F := Ideal) (k0_pay6 (F := Ideal) (iblk0 V c 0 t) (iblk0 V c 1 t) (iblk0 V c 2 t) (iblk0 V c 3 t) (iblk0 V c 4 t) (iblk0 V c 5 t) (k0_pay3 (F := Ideal))) :=
  (congrArg (fun x => x.2.1) (stAt0_F V c t h0)).trans (congrArg (fun x => x.2.1) (stepF0_eq V c t _ _))

/-- The first running row after a later point, from what the point before left. -/
theorem st0_sum_S (c : Dev nD) (t : Fin cfg0.N) (h0 : t.val ≠ 0) :
    (stAt0 V c t.val t.isLt).2.1 = k0_pay1 (F := Ideal) (k0_pay6 (F := Ideal) (iblk0 V c 0 t) (iblk0 V c 1 t) (iblk0 V c 2 t) (iblk0 V c 3 t) (iblk0 V c 4 t) (iblk0 V c 5 t) (stAt0 V c (t.val - 1) (Nat.lt_of_le_of_lt (Nat.sub_le _ _) t.isLt)).2.1) := by
  by_cases h49 : t.val = 49
  · exact (congrArg (fun x => x.2.1) (stAt0_L V c t h49)).trans (congrArg (fun x => x.2.1) (stepL0_eq V c t _ _ _ _))
  · exact (congrArg (fun x => x.2.1) (stAt0_M V c t h0 h49)).trans (congrArg (fun x => x.2.1) (stepM0_eq V c t _ _ _ _))

/-- The second running row after the first point. -/
theorem st0_sq_F (c : Dev nD) (t : Fin cfg0.N) (h0 : t.val = 0) :
    (stAt0 V c t.val t.isLt).2.2 = k0_pay2 (F := Ideal) (k0_pay5 (F := Ideal) (iblk0 V c 0 t) (iblk0 V c 1 t) (iblk0 V c 2 t) (iblk0 V c 3 t) (iblk0 V c 4 t) (iblk0 V c 5 t)) (k0_pay4 (F := Ideal)) :=
  (congrArg (fun x => x.2.2) (stAt0_F V c t h0)).trans (congrArg (fun x => x.2.2) (stepF0_eq V c t _ _))

/-- The second running row after a later point. -/
theorem st0_sq_S (c : Dev nD) (t : Fin cfg0.N) (h0 : t.val ≠ 0) :
    (stAt0 V c t.val t.isLt).2.2 = k0_pay2 (F := Ideal) (k0_pay5 (F := Ideal) (iblk0 V c 0 t) (iblk0 V c 1 t) (iblk0 V c 2 t) (iblk0 V c 3 t) (iblk0 V c 4 t) (iblk0 V c 5 t)) (stAt0 V c (t.val - 1) (Nat.lt_of_le_of_lt (Nat.sub_le _ _) t.isLt)).2.2 := by
  by_cases h49 : t.val = 49
  · exact (congrArg (fun x => x.2.2) (stAt0_L V c t h49)).trans (congrArg (fun x => x.2.2) (stepL0_eq V c t _ _ _ _))
  · exact (congrArg (fun x => x.2.2) (stAt0_M V c t h0 h49)).trans (congrArg (fun x => x.2.2) (stepM0_eq V c t _ _ _ _))

/-- The two row outputs at the last point are the two running rows after it. -/
theorem o780_last (c : Dev nD) (t : Fin cfg0.N) (h49 : t.val = 49) :
    (o78At0 V c t).1 = (stAt0 V c t.val t.isLt).2.1 ∧ (o78At0 V c t).2 = (stAt0 V c t.val t.isLt).2.2 := by
  have e1 : o78At0 V c t = rowsL0 V c t (fun h => by have := (hcondFirst0 t).mp h; omega) ((hcondLast0 t).mpr h49) (stAt0 V c (t.val - 1) (Nat.lt_of_le_of_lt (Nat.sub_le _ _) t.isLt)).2.1 (stAt0 V c (t.val - 1) (Nat.lt_of_le_of_lt (Nat.sub_le _ _) t.isLt)).2.2 := by
    unfold o78At0; exact dif_pos h49
  rw [e1, rowsL0_eq, stAt0_L V c t h49, stepL0_eq]
  exact ⟨rfl, rfl⟩

/-! ## The running rows as sums over the rows seen so far -/

/-- At column q the first running row after point t is the row before it plus the column sums of H over the point's rows;
    after the first point, those sums alone. -/
theorem sum_first0 (c : Dev nD) (t : Fin cfg0.N) (h0 : t.val = 0) (q : Fin 128) :
    ((stAt0 V c t.val t.isLt).2.1 : S1x128.Idx → EReal) (ix2 (0 : Fin 1) q) = ∑ p : Fin 2000, HH (V c main_arg0) (V c main_v25) (V c main_v5) (V c main_v26) (V c main_v9) (V c main_v27) (rowAt0 t p) q :=
  (congrFun (st0_sum_F V c t h0) (ix2 (0 : Fin 1) q)).trans
    ((KerPay.sum_firstP0 (iblk0 V c 0 t) (iblk0 V c 1 t) (iblk0 V c 2 t) (iblk0 V c 3 t) (iblk0 V c 4 t) (iblk0 V c 5 t) q).trans (Finset.sum_congr rfl fun p _ => blockH0 V c t p q))

theorem sum_step0 (c : Dev nD) (t : Fin cfg0.N) (h0 : t.val ≠ 0) (q : Fin 128) :
    ((stAt0 V c t.val t.isLt).2.1 : S1x128.Idx → EReal) (ix2 (0 : Fin 1) q)
      = ((stAt0 V c (t.val - 1) (Nat.lt_of_le_of_lt (Nat.sub_le _ _) t.isLt)).2.1 : S1x128.Idx → EReal) (ix2 (0 : Fin 1) q) + ∑ p : Fin 2000, HH (V c main_arg0) (V c main_v25) (V c main_v5) (V c main_v26) (V c main_v9) (V c main_v27) (rowAt0 t p) q :=
  (congrFun (st0_sum_S V c t h0) (ix2 (0 : Fin 1) q)).trans
    ((KerPay.sum_stepP0 (iblk0 V c 0 t) (iblk0 V c 1 t) (iblk0 V c 2 t) (iblk0 V c 3 t) (iblk0 V c 4 t) (iblk0 V c 5 t) (stAt0 V c (t.val - 1) (Nat.lt_of_le_of_lt (Nat.sub_le _ _) t.isLt)).2.1 q).trans
      (congrArg (fun s => ((stAt0 V c (t.val - 1) (Nat.lt_of_le_of_lt (Nat.sub_le _ _) t.isLt)).2.1 : S1x128.Idx → EReal) (ix2 (0 : Fin 1) q) + s) (Finset.sum_congr rfl fun p _ => blockH0 V c t p q)))

theorem sq_first0 (c : Dev nD) (t : Fin cfg0.N) (h0 : t.val = 0) (q : Fin 128) :
    ((stAt0 V c t.val t.isLt).2.2 : S1x128.Idx → EReal) (ix2 (0 : Fin 1) q)
      = ∑ p : Fin 2000, HH (V c main_arg0) (V c main_v25) (V c main_v5) (V c main_v26) (V c main_v9) (V c main_v27) (rowAt0 t p) q * HH (V c main_arg0) (V c main_v25) (V c main_v5) (V c main_v26) (V c main_v9) (V c main_v27) (rowAt0 t p) q :=
  (congrFun (st0_sq_F V c t h0) (ix2 (0 : Fin 1) q)).trans
    ((KerPay.sq_firstP0 (iblk0 V c 0 t) (iblk0 V c 1 t) (iblk0 V c 2 t) (iblk0 V c 3 t) (iblk0 V c 4 t) (iblk0 V c 5 t) q).trans (Finset.sum_congr rfl fun p _ => by rw [blockH0 V c t p q]))

theorem sq_step0 (c : Dev nD) (t : Fin cfg0.N) (h0 : t.val ≠ 0) (q : Fin 128) :
    ((stAt0 V c t.val t.isLt).2.2 : S1x128.Idx → EReal) (ix2 (0 : Fin 1) q)
      = ((stAt0 V c (t.val - 1) (Nat.lt_of_le_of_lt (Nat.sub_le _ _) t.isLt)).2.2 : S1x128.Idx → EReal) (ix2 (0 : Fin 1) q)
        + ∑ p : Fin 2000, HH (V c main_arg0) (V c main_v25) (V c main_v5) (V c main_v26) (V c main_v9) (V c main_v27) (rowAt0 t p) q * HH (V c main_arg0) (V c main_v25) (V c main_v5) (V c main_v26) (V c main_v9) (V c main_v27) (rowAt0 t p) q :=
  (congrFun (st0_sq_S V c t h0) (ix2 (0 : Fin 1) q)).trans
    ((KerPay.sq_stepP0 (iblk0 V c 0 t) (iblk0 V c 1 t) (iblk0 V c 2 t) (iblk0 V c 3 t) (iblk0 V c 4 t) (iblk0 V c 5 t) (stAt0 V c (t.val - 1) (Nat.lt_of_le_of_lt (Nat.sub_le _ _) t.isLt)).2.2 q).trans
      (congrArg (fun s => ((stAt0 V c (t.val - 1) (Nat.lt_of_le_of_lt (Nat.sub_le _ _) t.isLt)).2.2 : S1x128.Idx → EReal) (ix2 (0 : Fin 1) q) + s)
        (Finset.sum_congr rfl fun p _ => by rw [blockH0 V c t p q])))

/-- The step equations with the point given by its number, and the totals after the last point. -/

theorem sum_zero0 (c : Dev nD) (h : 0 < cfg0.N) (q : Fin 128) :
    ((stAt0 V c 0 h).2.1 : S1x128.Idx → EReal) (ix2 (0 : Fin 1) q)
      = ∑ p : Fin 2000, HH (V c main_arg0) (V c main_v25) (V c main_v5) (V c main_v26) (V c main_v9) (V c main_v27) (BlockSum.rowOf h50 ⟨0, lt_of_lt_of_eq h N_0⟩ p) q := by
  have e := sum_first0 V c ⟨0, h⟩ rfl q
  dsimp only at e
  exact e

theorem sum_succ0 (c : Dev nD) (k : ℕ) (hk : k + 1 < cfg0.N) (q : Fin 128) :
    ((stAt0 V c (k + 1) hk).2.1 : S1x128.Idx → EReal) (ix2 (0 : Fin 1) q)
      = ((stAt0 V c k (Nat.lt_of_succ_lt hk)).2.1 : S1x128.Idx → EReal) (ix2 (0 : Fin 1) q)
        + ∑ p : Fin 2000, HH (V c main_arg0) (V c main_v25) (V c main_v5) (V c main_v26) (V c main_v9) (V c main_v27) (BlockSum.rowOf h50 ⟨k + 1, lt_of_lt_of_eq hk N_0⟩ p) q := by
  have e := sum_step0 V c ⟨k + 1, hk⟩ (Nat.succ_ne_zero k) q
  dsimp only at e
  rw [stAt0_irrel V c (k + 1 - 1) k (Nat.add_sub_cancel k 1) _ (Nat.lt_of_succ_lt hk)] at e
  exact e

/-- After the last point the running row holds the sums over all 100000 rows. -/
theorem sum_total0 (c : Dev nD) (q : Fin 128) (h : 49 < cfg0.N) :
    ((stAt0 V c 49 h).2.1 : S1x128.Idx → EReal) (ix2 (0 : Fin 1) q) = Spec.colSum (HH (V c main_arg0) (V c main_v25) (V c main_v5) (V c main_v26) (V c main_v9) (V c main_v27)) q := by
  have h0 : ∀ hz : 0 < cfg0.N, ((stAt0 V c 0 hz).2.1 : S1x128.Idx → EReal) (ix2 (0 : Fin 1) q)
      = ∑ p : Fin 2000, HH (V c main_arg0) (V c main_v25) (V c main_v5) (V c main_v26) (V c main_v9) (V c main_v27) (BlockSum.rowOf h50 ⟨0, lt_of_lt_of_eq hz N_0⟩ p) q := fun hz => sum_zero0 V c hz q
  have hs : ∀ (k : ℕ) (hk : k + 1 < cfg0.N), ((stAt0 V c (k + 1) hk).2.1 : S1x128.Idx → EReal) (ix2 (0 : Fin 1) q)
      = ((stAt0 V c k (Nat.lt_of_succ_lt hk)).2.1 : S1x128.Idx → EReal) (ix2 (0 : Fin 1) q)
        + ∑ p : Fin 2000, HH (V c main_arg0) (V c main_v25) (V c main_v5) (V c main_v26) (V c main_v9) (V c main_v27) (BlockSum.rowOf h50 ⟨k + 1, lt_of_lt_of_eq hk N_0⟩ p) q := fun k hk => sum_succ0 V c k hk q
  revert h h0 hs
  generalize stAt0 V c = S
  intro h h0 hs
  have key := SpecBlocks.colSum_of_running h50 (HH (V c main_arg0) (V c main_v25) (V c main_v5) (V c main_v26) (V c main_v9) (V c main_v27)) q
    (fun n hn => ((S n (lt_of_lt_of_eq hn N_0.symm)).2.1 : S1x128.Idx → EReal) (ix2 (0 : Fin 1) q))
    (fun hk => h0 (lt_of_lt_of_eq hk N_0.symm)) (fun k hk => hs k (lt_of_lt_of_eq hk N_0.symm))
  exact key

theorem sq_zero0 (c : Dev nD) (h : 0 < cfg0.N) (q : Fin 128) :
    ((stAt0 V c 0 h).2.2 : S1x128.Idx → EReal) (ix2 (0 : Fin 1) q)
      = ∑ p : Fin 2000, HH (V c main_arg0) (V c main_v25) (V c main_v5) (V c main_v26) (V c main_v9) (V c main_v27) (BlockSum.rowOf h50 ⟨0, lt_of_lt_of_eq h N_0⟩ p) q * HH (V c main_arg0) (V c main_v25) (V c main_v5) (V c main_v26) (V c main_v9) (V c main_v27) (BlockSum.rowOf h50 ⟨0, lt_of_lt_of_eq h N_0⟩ p) q := by
  have e := sq_first0 V c ⟨0, h⟩ rfl q
  dsimp only at e
  exact e

theorem sq_succ0 (c : Dev nD) (k : ℕ) (hk : k + 1 < cfg0.N) (q : Fin 128) :
    ((stAt0 V c (k + 1) hk).2.2 : S1x128.Idx → EReal) (ix2 (0 : Fin 1) q)
      = ((stAt0 V c k (Nat.lt_of_succ_lt hk)).2.2 : S1x128.Idx → EReal) (ix2 (0 : Fin 1) q)
        + ∑ p : Fin 2000, HH (V c main_arg0) (V c main_v25) (V c main_v5) (V c main_v26) (V c main_v9) (V c main_v27) (BlockSum.rowOf h50 ⟨k + 1, lt_of_lt_of_eq hk N_0⟩ p) q * HH (V c main_arg0) (V c main_v25) (V c main_v5) (V c main_v26) (V c main_v9) (V c main_v27) (BlockSum.rowOf h50 ⟨k + 1, lt_of_lt_of_eq hk N_0⟩ p) q := by
  have e := sq_step0 V c ⟨k + 1, hk⟩ (Nat.succ_ne_zero k) q
  dsimp only at e
  rw [stAt0_irrel V c (k + 1 - 1) k (Nat.add_sub_cancel k 1) _ (Nat.lt_of_succ_lt hk)] at e
  exact e

/-- After the last point the running row holds the sums over all 100000 rows. -/
theorem sq_total0 (c : Dev nD) (q : Fin 128) (h : 49 < cfg0.N) :
    ((stAt0 V c 49 h).2.2 : S1x128.Idx → EReal) (ix2 (0 : Fin 1) q) = Spec.colSumSq (HH (V c main_arg0) (V c main_v25) (V c main_v5) (V c main_v26) (V c main_v9) (V c main_v27)) q := by
  have h0 : ∀ hz : 0 < cfg0.N, ((stAt0 V c 0 hz).2.2 : S1x128.Idx → EReal) (ix2 (0 : Fin 1) q)
      = ∑ p : Fin 2000, HH (V c main_arg0) (V c main_v25) (V c main_v5) (V c main_v26) (V c main_v9) (V c main_v27) (BlockSum.rowOf h50 ⟨0, lt_of_lt_of_eq hz N_0⟩ p) q * HH (V c main_arg0) (V c main_v25) (V c main_v5) (V c main_v26) (V c main_v9) (V c main_v27) (BlockSum.rowOf h50 ⟨0, lt_of_lt_of_eq hz N_0⟩ p) q := fun hz => sq_zero0 V c hz q
  have hs : ∀ (k : ℕ) (hk : k + 1 < cfg0.N), ((stAt0 V c (k + 1) hk).2.2 : S1x128.Idx → EReal) (ix2 (0 : Fin 1) q)
      = ((stAt0 V c k (Nat.lt_of_succ_lt hk)).2.2 : S1x128.Idx → EReal) (ix2 (0 : Fin 1) q)
        + ∑ p : Fin 2000, HH (V c main_arg0) (V c main_v25) (V c main_v5) (V c main_v26) (V c main_v9) (V c main_v27) (BlockSum.rowOf h50 ⟨k + 1, lt_of_lt_of_eq hk N_0⟩ p) q * HH (V c main_arg0) (V c main_v25) (V c main_v5) (V c main_v26) (V c main_v9) (V c main_v27) (BlockSum.rowOf h50 ⟨k + 1, lt_of_lt_of_eq hk N_0⟩ p) q := fun k hk => sq_succ0 V c k hk q
  revert h h0 hs
  generalize stAt0 V c = S
  intro h h0 hs
  have key := SpecBlocks.colSumSq_of_running h50 (HH (V c main_arg0) (V c main_v25) (V c main_v5) (V c main_v26) (V c main_v9) (V c main_v27)) q
    (fun n hn => ((S n (lt_of_lt_of_eq hn N_0.symm)).2.2 : S1x128.Idx → EReal) (ix2 (0 : Fin 1) q))
    (fun hk => h0 (lt_of_lt_of_eq hk N_0.symm)) (fun k hk => hs k (lt_of_lt_of_eq hk N_0.symm))
  exact key

/-- The same at the last point under its own name. -/
theorem sum_last0 (c : Dev nD) (t : Fin cfg0.N) (h49 : t.val = 49) (q : Fin 128) :
    ((stAt0 V c t.val t.isLt).2.1 : S1x128.Idx → EReal) (ix2 (0 : Fin 1) q) = Spec.colSum (HH (V c main_arg0) (V c main_v25) (V c main_v5) (V c main_v26) (V c main_v9) (V c main_v27)) q := by
  rw [stAt0_irrel V c t.val 49 h49 t.isLt (lt_of_eq_of_lt h49.symm t.isLt)]
  exact sum_total0 V c q _

theorem sq_last0 (c : Dev nD) (t : Fin cfg0.N) (h49 : t.val = 49) (q : Fin 128) :
    ((stAt0 V c t.val t.isLt).2.2 : S1x128.Idx → EReal) (ix2 (0 : Fin 1) q) = Spec.colSumSq (HH (V c main_arg0) (V c main_v25) (V c main_v5) (V c main_v26) (V c main_v9) (V c main_v27)) q := by
  rw [stAt0_irrel V c t.val 49 h49 t.isLt (lt_of_eq_of_lt h49.symm t.isLt)]
  exact sq_total0 V c q _

/-! ## The output array of hidden features -/

theorem flushed0_6_eq (c : Dev nD) (t : Fin cfg0.N) :
    (dat0 V c).flushed 6 t = ((cfg0.win 6).blk t).view.read (Elt Ideal) (GH (V c main_arg0) (V c main_v25) (V c main_v5) (V c main_v26) (V c main_v9) (V c main_v27)) := by
  show (cfg0.win 6).cut (grid0.coords t) ((dat0 V c).after 6 t) = _
  rw [after0_6, st0_fst V c t]
  obtain ⟨e00, e01, e10, e11, e20, e21, e30, e31, e40, e41, e50, e51, e60, e61, e70, e71, e80, e81⟩ := idx_facts0 t
  funext j
  obtain ⟨p, q, rfl⟩ : ∃ (p : Fin 2000) (q : Fin 128), j = ix2 p q := ⟨j 0, j 1, eq_ix2 j⟩
  show k0_pay5 (F := Ideal) (iblk0 V c 0 t) (iblk0 V c 1 t) (iblk0 V c 2 t) (iblk0 V c 3 t) (iblk0 V c 4 t) (iblk0 V c 5 t) (ix2 p q) = GH (V c main_arg0) (V c main_v25) (V c main_v5) (V c main_v26) (V c main_v9) (V c main_v27) (((cfg0.win 6).blk t).view.emb (ix2 p q))
  refine (blockH0 V c t p q).trans ?_
  refine GH_at (V c main_arg0) (V c main_v25) (V c main_v5) (V c main_v26) (V c main_v9) (V c main_v27) (((cfg0.win 6).blk t).view.emb (ix2 p q)) (rowAt0 t p) q (Fin.ext ?_) (Fin.ext ?_)
  · show win0_6.index t (0 : Fin 2) * 2000 + 1 * p.val = t.val * 2000 + p.val; omega
  · show win0_6.index t (1 : Fin 2) * 128 + 1 * q.val = q.val; omega

theorem mem_blk0_6 (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v28_0).slice (win0_6.rect t)).set ↔ _
  rw [View.set_slice_whole, Rect.mem_set_unit]
  exact Iff.rfl

theorem tiles0_6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_6 _, ?_⟩
  rw [mem_blk0_6]
  obtain ⟨e00, e01, e10, e11, e20, e21, e30, e31, e40, e41, e50, e51, e60, e61, e70, e71, e80, e81⟩ := idx_facts0 ⟨(i 0).val / 2000, by rw [hN]; omega⟩
  intro a
  match a with
  | ⟨0, _⟩ =>
    show win0_6.index _ (0 : Fin 2) * 2000 ≤ (i 0).val ∧ (i 0).val < win0_6.index _ (0 : Fin 2) * 2000 + 2000
    rw [e60]; show (i 0).val / 2000 * 2000 ≤ (i 0).val ∧ (i 0).val < (i 0).val / 2000 * 2000 + 2000; omega
  | ⟨1, _⟩ =>
    show win0_6.index _ (1 : Fin 2) * 128 ≤ (i 1).val ∧ (i 1).val < win0_6.index _ (1 : Fin 2) * 128 + 128
    rw [e61]; omega

/-- The array of hidden features after the region is H of the input arrays as the region finds them. -/
theorem final0_6 (c : Dev nD) : (dat0 V c).arrAt 6 cfg0.N = GH (V c main_arg0) (V c main_v25) (V c main_v5) (V c main_v26) (V c main_v9) (V c main_v27) :=
  (dat0 V c).arrAt_eq_of_cover 6 _ (fun t _ => flushed0_6_eq V c t) tiles0_6

theorem final0_6_apply (c : Dev nD) (r : Fin 100000) (j : Fin 128) :
    (dat0 V c).arrAt 6 cfg0.N (ix2 r j) = HH (V c main_arg0) (V c main_v25) (V c main_v5) (V c main_v26) (V c main_v9) (V c main_v27) r j :=
  congrFun (final0_6 V c) (ix2 r j)

/-! ## The two row outputs -/

theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v28_1).slice (win0_7.rect t)).set ↔ _
  rw [View.set_slice_whole, Rect.mem_set_unit]
  exact Iff.rfl

theorem mem_blk0_8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v28_2).slice (win0_8.rect t)).set ↔ _
  rw [View.set_slice_whole, Rect.mem_set_unit]
  exact Iff.rfl

set_option maxRecDepth 200000 in
theorem flushed0_7_eq (c : Dev nD) (t : Fin cfg0.N) (hf : (cfg0.win 7).flush t = true) :
    (dat0 V c).flushed 7 t = ((cfg0.win 7).blk t).view.read (Elt Ideal) (GS (HH (V c main_arg0) (V c main_v25) (V c main_v5) (V c main_v26) (V c main_v9) (V c main_v27))) := by
  have h49 : t.val = 49 := by have := (flush0_7 t).mp hf; have := pt_lt0 t; omega
  show (cfg0.win 7).cut (grid0.coords t) ((dat0 V c).after 7 t) = _
  rw [after0_7, (o780_last V c t h49).1]
  obtain ⟨e00, e01, e10, e11, e20, e21, e30, e31, e40, e41, e50, e51, e60, e61, e70, e71, e80, e81⟩ := idx_facts0 t
  funext j
  obtain ⟨u, q, rfl⟩ : ∃ (u : Fin 1) (q : Fin 128), j = ix2 u q := ⟨j 0, j 1, eq_ix2 j⟩
  obtain rfl : u = 0 := Subsingleton.elim _ _
  show ((stAt0 V c t.val t.isLt).2.1 : S1x128.Idx → EReal) (ix2 (0 : Fin 1) q) = GS (HH (V c main_arg0) (V c main_v25) (V c main_v5) (V c main_v26) (V c main_v9) (V c main_v27)) (((cfg0.win 7).blk t).view.emb (ix2 (0 : Fin 1) q))
  refine (sum_last0 V c t h49 q).trans (GS_at (HH (V c main_arg0) (V c main_v25) (V c main_v5) (V c main_v26) (V c main_v9) (V c main_v27)) _ q (Fin.ext ?_))
  show win0_7.index t (1 : Fin 2) * 128 + 1 * q.val = q.val; omega

set_option maxRecDepth 200000 in
theorem flushed0_8_eq (c : Dev nD) (t : Fin cfg0.N) (hf : (cfg0.win 8).flush t = true) :
    (dat0 V c).flushed 8 t = ((cfg0.win 8).blk t).view.read (Elt Ideal) (GQ (HH (V c main_arg0) (V c main_v25) (V c main_v5) (V c main_v26) (V c main_v9) (V c main_v27))) := by
  have h49 : t.val = 49 := by have := (flush0_8 t).mp hf; have := pt_lt0 t; omega
  show (cfg0.win 8).cut (grid0.coords t) ((dat0 V c).after 8 t) = _
  rw [after0_8, (o780_last V c t h49).2]
  obtain ⟨e00, e01, e10, e11, e20, e21, e30, e31, e40, e41, e50, e51, e60, e61, e70, e71, e80, e81⟩ := idx_facts0 t
  funext j
  obtain ⟨u, q, rfl⟩ : ∃ (u : Fin 1) (q : Fin 128), j = ix2 u q := ⟨j 0, j 1, eq_ix2 j⟩
  obtain rfl : u = 0 := Subsingleton.elim _ _
  show ((stAt0 V c t.val t.isLt).2.2 : S1x128.Idx → EReal) (ix2 (0 : Fin 1) q) = GQ (HH (V c main_arg0) (V c main_v25) (V c main_v5) (V c main_v26) (V c main_v9) (V c main_v27)) (((cfg0.win 8).blk t).view.emb (ix2 (0 : Fin 1) q))
  refine (sq_last0 V c t h49 q).trans (GQ_at (HH (V c main_arg0) (V c main_v25) (V c main_v5) (V c main_v26) (V c main_v9) (V c main_v27)) _ q (Fin.ext ?_))
  show win0_8.index t (1 : Fin 2) * 128 + 1 * q.val = q.val; omega

theorem tiles0_7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 50 := N_0
  refine ⟨⟨49, by rw [hN]; omega⟩, (flush0_7 _).mpr rfl, ?_⟩
  rw [mem_blk0_7]
  obtain ⟨e00, e01, e10, e11, e20, e21, e30, e31, e40, e41, e50, e51, e60, e61, e70, e71, e80, e81⟩ := idx_facts0 ⟨49, by rw [hN]; omega⟩
  intro a
  match a with
  | ⟨0, _⟩ =>
    show win0_7.index _ (0 : Fin 2) * 1 ≤ (i 0).val ∧ (i 0).val < win0_7.index _ (0 : Fin 2) * 1 + 1
    rw [e70]; omega
  | ⟨1, _⟩ =>
    show win0_7.index _ (1 : Fin 2) * 128 ≤ (i 1).val ∧ (i 1).val < win0_7.index _ (1 : Fin 2) * 128 + 128
    rw [e71]; omega

theorem tiles0_8 (i : S1x128.Idx) : ∃ t : Fin cfg0.N, (cfg0.win 8).flush t = true ∧ i ∈ ((cfg0.win 8).blk t).view.set := by
  have hi0 : (i 0).val < 1 := (i 0).isLt
  have hi1 : (i 1).val < 128 := (i 1).isLt
  have hN : cfg0.N = 50 := N_0
  refine ⟨⟨49, by rw [hN]; omega⟩, (flush0_8 _).mpr rfl, ?_⟩
  rw [mem_blk0_8]
  obtain ⟨e00, e01, e10, e11, e20, e21, e30, e31, e40, e41, e50, e51, e60, e61, e70, e71, e80, e81⟩ := idx_facts0 ⟨49, by rw [hN]; omega⟩
  intro a
  match a with
  | ⟨0, _⟩ =>
    show win0_8.index _ (0 : Fin 2) * 1 ≤ (i 0).val ∧ (i 0).val < win0_8.index _ (0 : Fin 2) * 1 + 1
    rw [e80]; omega
  | ⟨1, _⟩ =>
    show win0_8.index _ (1 : Fin 2) * 128 ≤ (i 1).val ∧ (i 1).val < win0_8.index _ (1 : Fin 2) * 128 + 128
    rw [e81]; omega

/-- The row of column sums after the region. -/
theorem final0_7 (c : Dev nD) : (dat0 V c).arrAt 7 cfg0.N = GS (HH (V c main_arg0) (V c main_v25) (V c main_v5) (V c main_v26) (V c main_v9) (V c main_v27)) :=
  (dat0 V c).arrAt_eq_of_cover 7 _ (fun t hf => flushed0_7_eq V c t hf) tiles0_7

/-- The row of column sums of squares after the region. -/
theorem final0_8 (c : Dev nD) : (dat0 V c).arrAt 8 cfg0.N = GQ (HH (V c main_arg0) (V c main_v25) (V c main_v5) (V c main_v26) (V c main_v9) (V c main_v27)) :=
  (dat0 V c).arrAt_eq_of_cover 8 _ (fun t hf => flushed0_8_eq V c t hf) tiles0_8

theorem final0_7_apply (c : Dev nD) (q : Fin 128) :
    (dat0 V c).arrAt 7 cfg0.N (ix2 (0 : Fin 1) q) = Spec.colSum (HH (V c main_arg0) (V c main_v25) (V c main_v5) (V c main_v26) (V c main_v9) (V c main_v27)) q :=
  congrFun (final0_7 V c) (ix2 (0 : Fin 1) q)

theorem final0_8_apply (c : Dev nD) (q : Fin 128) :
    (dat0 V c).arrAt 8 cfg0.N (ix2 (0 : Fin 1) q) = Spec.colSumSq (HH (V c main_arg0) (V c main_v25) (V c main_v5) (V c main_v26) (V c main_v9) (V c main_v27)) q :=
  congrFun (final0_8 V c) (ix2 (0 : Fin 1) q)

end Cert.KerVal

end
-- ==== Proof.KerRead2.lean ====
/-
  What each case of the dense region's body leaves in each buffer, as the payloads of the loaded blocks.

  A point of the grid is the first, a middle one or the last. In each case the body's run stores one value into the
  output block, the block of hidden features, and one into each of the two running rows, the row before the point
  (the zero row at the first point) plus the block's column sums, resp. the column sums of its squares; at the last
  point it also copies the two running rows into the two row outputs. Each stored list is read here as the
  skeleton's payload of the blocks the body loaded, at any float instance.
-/
import proofs.«100772_j6322191859838_1_alg».proof.Proof.KI_MlpRun2
import Idealize.ShloMosaic.Lib.Pipeline.Value

set_option maxRecDepth 16384
set_option pp.maxSteps 20000
set_option pp.deepTerms false

noncomputable section

namespace Cert.KerVal

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

theorem hz2 : (![0, 0] : Fin 2 → Nat) = fun _ => 0 := funext fun a => by fin_cases a <;> rfl

theorem run2_F_L7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst2 i) (hc2 : ¬condLast2 i) (x0 x1 : Vec F S2000x128 .f32) (x2 : Vec F S128x128 .f32) (x3 : Vec F S1x128 .f32) (x4 : Vec F S128x128 .f32) (x5 : Vec F S1x128 .f32) :
    View.canon (run2_F (F := F) c i arg1 harg1 arg2 harg2 arg3 harg3 arg4 harg4 arg5 harg5 arg6 harg6 arg7 harg7 arg8 harg8 arg9 harg9 arg10 harg10 arg11 harg11 hc1 hc2 x0 x1 x2 x3 x4 x5).1 = k2_pay5 x0 x1 x2 x3 x4 x5 := by
  unfold run2_F
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_F_L10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst2 i) (hc2 : ¬condLast2 i) (x0 x1 : Vec F S2000x128 .f32) (x2 : Vec F S128x128 .f32) (x3 : Vec F S1x128 .f32) (x4 : Vec F S128x128 .f32) (x5 : Vec F S1x128 .f32) :
    View.canon (run2_F (F := F) c i arg1 harg1 arg2 harg2 arg3 harg3 arg4 harg4 arg5 harg5 arg6 harg6 arg7 harg7 arg8 harg8 arg9 harg9 arg10 harg10 arg11 harg11 hc1 hc2 x0 x1 x2 x3 x4 x5).2.1 = k2_pay1 k2_pay3 (k2_pay6 x0 x1 x2 x3 x4 x5) := by
  unfold run2_F
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_F_L11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst2 i) (hc2 : ¬condLast2 i) (x0 x1 : Vec F S2000x128 .f32) (x2 : Vec F S128x128 .f32) (x3 : Vec F S1x128 .f32) (x4 : Vec F S128x128 .f32) (x5 : Vec F S1x128 .f32) :
    View.canon (run2_F (F := F) c i arg1 harg1 arg2 harg2 arg3 harg3 arg4 harg4 arg5 harg5 arg6 harg6 arg7 harg7 arg8 harg8 arg9 harg9 arg10 harg10 arg11 harg11 hc1 hc2 x0 x1 x2 x3 x4 x5).2.2.1 = k2_pay2 (k2_pay5 x0 x1 x2 x3 x4 x5) k2_pay4 := by
  unfold run2_F
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_M_L7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run2_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).1 = k2_pay5 x0 x1 x2 x3 x4 x5 := by
  unfold run2_M
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_M_L10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run2_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 = k2_pay1 s0 (k2_pay6 x0 x1 x2 x3 x4 x5) := by
  unfold run2_M
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_M_L11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : ¬condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run2_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 = k2_pay2 (k2_pay5 x0 x1 x2 x3 x4 x5) s1 := by
  unfold run2_M
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_L_L7 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run2_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).1 = k2_pay5 x0 x1 x2 x3 x4 x5 := by
  unfold run2_L
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_L_L8 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run2_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 = k2_pay1 s0 (k2_pay6 x0 x1 x2 x3 x4 x5) := by
  unfold run2_L
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_L_L9 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run2_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 = k2_pay2 (k2_pay5 x0 x1 x2 x3 x4 x5) s1 := by
  unfold run2_L
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_L_L10 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run2_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 = k2_pay1 s0 (k2_pay6 x0 x1 x2 x3 x4 x5) := by
  unfold run2_L
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

theorem run2_L_L11 (c : Dev nD) (i : grid2.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst2 i) (hc2 : condLast2 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run2_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 = k2_pay2 (k2_pay5 x0 x1 x2 x3 x4 x5) s1 := by
  unfold run2_L
  dsimp only
  sl_unfold_words
  rw [View.canon_cons_unit_zero hz2]
  simp only [View.readAt_eq_ld, View.readCov_unit_zero (S := S1x128) _ hz2, harg1.read_unread, harg2.read_unread, harg3.read_unread,
    harg4.read_unread, harg5.read_unread, harg6.read_unread, harg10.read_unread, harg11.read_unread,
    View.ld_unit_zero (S := S2000x128) hz2, View.ld_unit_zero (S := S128x128) hz2, View.ld_unit_zero (S := S1x128) hz2]
  all_goals (try rfl)

end Cert.KerVal

end
-- ==== Proof.KerValMlp2.lean ====
/-
  The dense region's three output arrays, entry by entry.

  The region's grid has 50 points; point t reads rows 2000 t … 2000 t + 1999 of the features z and of the neighbour
  sums a, and the four parameters whole. With H the specification's hidden features of the whole arrays
  (hidden (z + a) W1 b1 W2 b2 : 100000 rows), the block of hidden features a point stores is rows 2000 t … of H, since
  a row of H reads that row of z + a alone; the blocks tile the output array, which therefore ends holding H. The
  two running rows hold, after point n, the column sums of H, resp. of its squares, over the rows of the blocks up
  to n (induction on n); the last point copies them to the two row outputs, written back only there, which
  therefore end holding the column sums of H and of its squares over all 100000 rows.
-/
import proofs.«100772_j6322191859838_1_alg».proof.Proof.KI_Mlp2
import proofs.«100772_j6322191859838_1_alg».proof.Proof.KerRead2
import proofs.«100772_j6322191859838_1_alg».proof.Proof.KerPayAcc
import proofs.«100772_j6322191859838_1_alg».proof.Proof.KerSpecBlocks
import proofs.«100772_j6322191859838_1_alg».proof.Proof.KerValMlpCore
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the two tall inputs and the tall output move one block of rows per point,
    the parameters and the two row outputs stay at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- A point's index is below 50. -/
theorem pt_lt2 (t : Fin cfg2.N) : t.val < 49 + 1 := lt_of_lt_of_eq t.isLt N_2

/-- Row p of the block of point t, as a row of the tall arrays. -/
abbrev rowAt2 (t : Fin cfg2.N) (p : Fin 2000) : Fin 100000 := BlockSum.rowOf h50 ⟨t.val, pt_lt2 t⟩ p

/-- Row p of window 0's block at point t is row 2000 t + p of its array. -/
theorem iblk2_0_row (c : Dev nD) (t : Fin cfg2.N) (p : Fin 2000) (i : Fin 128) :
    (iblk2 V c 0 t : S2000x128.Idx → EReal) (ix2 p i) = V c main_v41 (ix2 (rowAt2 t p) i) := by
  obtain ⟨e00, e01, e10, e11, e20, e21, e30, e31, e40, e41, e50, e51, e60, e61, e70, e71, e80, e81⟩ := idx_facts2 t
  show V c main_v41 (((cfg2.win 0).blk t).view.emb (ix2 p i)) = V c main_v41 (ix2 (rowAt2 t p) i)
  refine congrArg (V c main_v41) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * i.val = i.val; omega

/-- Row p of window 1's block at point t is row 2000 t + p of its array. -/
theorem iblk2_1_row (c : Dev nD) (t : Fin cfg2.N) (p : Fin 2000) (i : Fin 128) :
    (iblk2 V c 1 t : S2000x128.Idx → EReal) (ix2 p i) = V c main_v63 (ix2 (rowAt2 t p) i) := by
  obtain ⟨e00, e01, e10, e11, e20, e21, e30, e31, e40, e41, e50, e51, e60, e61, e70, e71, e80, e81⟩ := idx_facts2 t
  show V c main_v63 (((cfg2.win 1).blk t).view.emb (ix2 p i)) = V c main_v63 (ix2 (rowAt2 t p) i)
  refine congrArg (V c main_v63) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * i.val = i.val; omega

/-- Window 2's block is its whole array at every point. -/
theorem iblk2_2_eq (c : Dev nD) (t : Fin cfg2.N) : (iblk2 V c 2 t : S128x128.Idx → EReal) = V c main_v43 := by
  obtain ⟨e00, e01, e10, e11, e20, e21, e30, e31, e40, e41, e50, e51, e60, e61, e70, e71, e80, e81⟩ := idx_facts2 t
  funext j
  show V c main_v43 (((cfg2.win 2).blk t).view.emb j) = V c main_v43 j
  refine congrArg (V c main_v43) (funext fun a => Fin.ext ?_)
  match a with
  | ⟨0, _⟩ => show win2_2.index t (0 : Fin 2) * 128 + 1 * (j 0).val = (j 0).val; omega
  | ⟨1, _⟩ => show win2_2.index t (1 : Fin 2) * 128 + 1 * (j 1).val = (j 1).val; omega

/-- Window 3's block is its whole array at every point. -/
theorem iblk2_3_eq (c : Dev nD) (t : Fin cfg2.N) : (iblk2 V c 3 t : S1x128.Idx → EReal) = V c main_v64 := by
  obtain ⟨e00, e01, e10, e11, e20, e21, e30, e31, e40, e41, e50, e51, e60, e61, e70, e71, e80, e81⟩ := idx_facts2 t
  funext j
  show V c main_v64 (((cfg2.win 3).blk t).view.emb j) = V c main_v64 j
  refine congrArg (V c main_v64) (funext fun a => Fin.ext ?_)
  match a with
  | ⟨0, _⟩ => show win2_3.index t (0 : Fin 2) * 1 + 1 * (j 0).val = (j 0).val; omega
  | ⟨1, _⟩ => show win2_3.index t (1 : Fin 2) * 128 + 1 * (j 1).val = (j 1).val; omega

/-- Window 4's block is its whole array at every point. -/
theorem iblk2_4_eq (c : Dev nD) (t : Fin cfg2.N) : (iblk2 V c 4 t : S128x128.Idx → EReal) = V c main_v47 := by
  obtain ⟨e00, e01, e10, e11, e20, e21, e30, e31, e40, e41, e50, e51, e60, e61, e70, e71, e80, e81⟩ := idx_facts2 t
  funext j
  show V c main_v47 (((cfg2.win 4).blk t).view.emb j) = V c main_v47 j
  refine congrArg (V c main_v47) (funext fun a => Fin.ext ?_)
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- Window 5's block is its whole array at every point. -/
theorem iblk2_5_eq (c : Dev nD) (t : Fin cfg2.N) : (iblk2 V c 5 t : S1x128.Idx → EReal) = V c main_v65 := by
  obtain ⟨e00, e01, e10, e11, e20, e21, e30, e31, e40, e41, e50, e51, e60, e61, e70, e71, e80, e81⟩ := idx_facts2 t
  funext j
  show V c main_v65 (((cfg2.win 5).blk t).view.emb j) = V c main_v65 j
  refine congrArg (V c main_v65) (funext fun a => Fin.ext ?_)
  match a with
  | ⟨0, _⟩ => show win2_5.index t (0 : Fin 2) * 1 + 1 * (j 0).val = (j 0).val; omega
  | ⟨1, _⟩ => show win2_5.index t (1 : Fin 2) * 128 + 1 * (j 1).val = (j 1).val; omega

/-- The hidden features of a block whose rows are rows of the tall arrays and whose parameters are the arrays'
    are those rows of the arrays' hidden features. -/
theorem hidden_block2 (z a : S100000x128.Idx → EReal) (W1 : S128x128.Idx → EReal) (b1 : S1x128.Idx → EReal)
    (W2 : S128x128.Idx → EReal) (b2 : S1x128.Idx → EReal) (zb ab : S2000x128.Idx → EReal) (W1b : S128x128.Idx → EReal)
    (b1b : S1x128.Idx → EReal) (W2b : S128x128.Idx → EReal) (b2b : S1x128.Idx → EReal) (r : Fin 100000) (p : Fin 2000) (q : Fin 128)
    (hz : ∀ i : Fin 128, zb (ix2 p i) = z (ix2 r i)) (ha : ∀ i : Fin 128, ab (ix2 p i) = a (ix2 r i))
    (hW1 : W1b = W1) (hb1 : b1b = b1) (hW2 : W2b = W2) (hb2 : b2b = b2) :
    Spec.hidden (fun r i => zb (ix2 r i) + ab (ix2 r i)) (Spec.mat W1b) (Spec.row1 b1b) (Spec.mat W2b) (Spec.row1 b2b) p q
      = HH z a W1 b1 W2 b2 r q := by
  subst hW1 hb1 hW2 hb2
  exact SpecBlocks.hidden_row_congr _ _ _ _ _ _ p r (fun i => by
    show zb (ix2 p i) + ab (ix2 p i) = z (ix2 r i) + a (ix2 r i)
    rw [hz i, ha i]) q

/-- THE BLOCK OF HIDDEN FEATURES a point stores is the point's rows of the whole arrays' hidden features. -/
theorem blockH2 (c : Dev nD) (t : Fin cfg2.N) (p : Fin 2000) (q : Fin 128) :
    k2_pay5 (F := Ideal) (iblk2 V c 0 t) (iblk2 V c 1 t) (iblk2 V c 2 t) (iblk2 V c 3 t) (iblk2 V c 4 t) (iblk2 V c 5 t) (ix2 p q) = HH (V c main_v41) (V c main_v63) (V c main_v43) (V c main_v64) (V c main_v47) (V c main_v65) (rowAt2 t p) q :=
  (KerPay.k2_pay5_apply (iblk2 V c 0 t) (iblk2 V c 1 t) (iblk2 V c 2 t) (iblk2 V c 3 t) (iblk2 V c 4 t) (iblk2 V c 5 t) p q).trans
    (hidden_block2 (V c main_v41) (V c main_v63) (V c main_v43) (V c main_v64) (V c main_v47) (V c main_v65) (iblk2 V c 0 t) (iblk2 V c 1 t) (iblk2 V c 2 t) (iblk2 V c 3 t) (iblk2 V c 4 t) (iblk2 V c 5 t)
      (rowAt2 t p) p q (iblk2_0_row V c t p) (iblk2_1_row V c t p) (iblk2_2_eq V c t) (iblk2_3_eq V c t) (iblk2_4_eq V c t) (iblk2_5_eq V c t))

/-! ## What the three carried values are at each point -/

theorem stepF2_eq (c : Dev nD) (t : Fin cfg2.N) (hc1 : condFirst2 (grid2.coords t)) (hc2 : ¬condLast2 (grid2.coords t)) :
    stepF2 V c t hc1 hc2 = (k2_pay5 (F := Ideal) (iblk2 V c 0 t) (iblk2 V c 1 t) (iblk2 V c 2 t) (iblk2 V c 3 t) (iblk2 V c 4 t) (iblk2 V c 5 t), k2_pay1 (F := Ideal) (k2_pay3 (F := Ideal)) (k2_pay6 (F := Ideal) (iblk2 V c 0 t) (iblk2 V c 1 t) (iblk2 V c 2 t) (iblk2 V c 3 t) (iblk2 V c 4 t) (iblk2 V c 5 t)), k2_pay2 (F := Ideal) (k2_pay5 (F := Ideal) (iblk2 V c 0 t) (iblk2 V c 1 t) (iblk2 V c 2 t) (iblk2 V c 3 t) (iblk2 V c 4 t) (iblk2 V c 5 t)) (k2_pay4 (F := Ideal))) := by
  unfold stepF2
  refine Prod.ext ?_ (Prod.ext ?_ ?_)
  · dsimp only
    exact run2_F_L7 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)
  · dsimp only
    exact run2_F_L10 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)
  · dsimp only
    exact run2_F_L11 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t)

theorem stepM2_eq (c : Dev nD) (t : Fin cfg2.N) (hc1 : ¬condFirst2 (grid2.coords t)) (hc2 : ¬condLast2 (grid2.coords t)) (s0 s1 : Vec Ideal S1x128 .f32) :
    stepM2 V c t hc1 hc2 s0 s1 = (k2_pay5 (F := Ideal) (iblk2 V c 0 t) (iblk2 V c 1 t) (iblk2 V c 2 t) (iblk2 V c 3 t) (iblk2 V c 4 t) (iblk2 V c 5 t), k2_pay1 (F := Ideal) s0 (k2_pay6 (F := Ideal) (iblk2 V c 0 t) (iblk2 V c 1 t) (iblk2 V c 2 t) (iblk2 V c 3 t) (iblk2 V c 4 t) (iblk2 V c 5 t)), k2_pay2 (F := Ideal) (k2_pay5 (F := Ideal) (iblk2 V c 0 t) (iblk2 V c 1 t) (iblk2 V c 2 t) (iblk2 V c 3 t) (iblk2 V c 4 t) (iblk2 V c 5 t)) s1) := by
  unfold stepM2
  refine Prod.ext ?_ (Prod.ext ?_ ?_)
  · dsimp only
    exact run2_M_L7 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1
  · dsimp only
    exact run2_M_L10 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1
  · dsimp only
    exact run2_M_L11 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1

theorem stepL2_eq (c : Dev nD) (t : Fin cfg2.N) (hc1 : ¬condFirst2 (grid2.coords t)) (hc2 : condLast2 (grid2.coords t)) (s0 s1 : Vec Ideal S1x128 .f32) :
    stepL2 V c t hc1 hc2 s0 s1 = (k2_pay5 (F := Ideal) (iblk2 V c 0 t) (iblk2 V c 1 t) (iblk2 V c 2 t) (iblk2 V c 3 t) (iblk2 V c 4 t) (iblk2 V c 5 t), k2_pay1 (F := Ideal) s0 (k2_pay6 (F := Ideal) (iblk2 V c 0 t) (iblk2 V c 1 t) (iblk2 V c 2 t) (iblk2 V c 3 t) (iblk2 V c 4 t) (iblk2 V c 5 t)), k2_pay2 (F := Ideal) (k2_pay5 (F := Ideal) (iblk2 V c 0 t) (iblk2 V c 1 t) (iblk2 V c 2 t) (iblk2 V c 3 t) (iblk2 V c 4 t) (iblk2 V c 5 t)) s1) := by
  unfold stepL2
  refine Prod.ext ?_ (Prod.ext ?_ ?_)
  · dsimp only
    exact run2_L_L7 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1
  · dsimp only
    exact run2_L_L10 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1
  · dsimp only
    exact run2_L_L11 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1

theorem rowsL2_eq (c : Dev nD) (t : Fin cfg2.N) (hc1 : ¬condFirst2 (grid2.coords t)) (hc2 : condLast2 (grid2.coords t))
    (s0 s1 : Vec Ideal S1x128 .f32) :
    rowsL2 V c t hc1 hc2 s0 s1 = (k2_pay1 (F := Ideal) s0 (k2_pay6 (F := Ideal) (iblk2 V c 0 t) (iblk2 V c 1 t) (iblk2 V c 2 t) (iblk2 V c 3 t) (iblk2 V c 4 t) (iblk2 V c 5 t)), k2_pay2 (F := Ideal) (k2_pay5 (F := Ideal) (iblk2 V c 0 t) (iblk2 V c 1 t) (iblk2 V c 2 t) (iblk2 V c 3 t) (iblk2 V c 4 t) (iblk2 V c 5 t)) s1) := by
  unfold rowsL2
  refine Prod.ext ?_ ?_
  · dsimp only
    exact run2_L_L8 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1
  · dsimp only
    exact run2_L_L9 (F := Ideal) c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (st2_8 t) (hstage2_8 ((cfg2.slots t 8).cast nbuf2_8)) sc2_0 (Memref.isWhole_whole _) sc2_1 (Memref.isWhole_whole _) hc1 hc2 (iblk2 V c 0 t) (iblk2 V c 1 t) (iblk2 V c 2 t) (iblk2 V c 3 t) (iblk2 V c 4 t) (iblk2 V c 5 t) s0 s1

/-- The output block after any point is the payload of the point's blocks. -/
theorem st2_fst (c : Dev nD) (t : Fin cfg2.N) :
    (stAt2 V c t.val t.isLt).1 = k2_pay5 (F := Ideal) (iblk2 V c 0 t) (iblk2 V c 1 t) (iblk2 V c 2 t) (iblk2 V c 3 t) (iblk2 V c 4 t) (iblk2 V c 5 t) := by
  by_cases h0 : t.val = 0
  · exact (congrArg Prod.fst (stAt2_F V c t h0)).trans (congrArg Prod.fst (stepF2_eq V c t _ _))
  · by_cases h49 : t.val = 49
    · exact (congrArg Prod.fst (stAt2_L V c t h49)).trans (congrArg Prod.fst (stepL2_eq V c t _ _ _ _))
    · exact (congrArg Prod.fst (stAt2_M V c t h0 h49)).trans (congrArg Prod.fst (stepM2_eq V c t _ _ _ _))

/-- The first running row after the first point. -/
theorem st2_sum_F (c : Dev nD) (t : Fin cfg2.N) (h0 : t.val = 0) :
    (stAt2 V c t.val t.isLt).2.1 = k2_pay1 (F := Ideal) (k2_pay3 (F := Ideal)) (k2_pay6 (F := Ideal) (iblk2 V c 0 t) (iblk2 V c 1 t) (iblk2 V c 2 t) (iblk2 V c 3 t) (iblk2 V c 4 t) (iblk2 V c 5 t)) :=
  (congrArg (fun x => x.2.1) (stAt2_F V c t h0)).trans (congrArg (fun x => x.2.1) (stepF2_eq V c t _ _))

/-- The first running row after a later point, from what the point before left. -/
theorem st2_sum_S (c : Dev nD) (t : Fin cfg2.N) (h0 : t.val ≠ 0) :
    (stAt2 V c t.val t.isLt).2.1 = k2_pay1 (F := Ideal) (stAt2 V c (t.val - 1) (Nat.lt_of_le_of_lt (Nat.sub_le _ _) t.isLt)).2.1 (k2_pay6 (F := Ideal) (iblk2 V c 0 t) (iblk2 V c 1 t) (iblk2 V c 2 t) (iblk2 V c 3 t) (iblk2 V c 4 t) (iblk2 V c 5 t)) := by
  by_cases h49 : t.val = 49
  · exact (congrArg (fun x => x.2.1) (stAt2_L V c t h49)).trans (congrArg (fun x => x.2.1) (stepL2_eq V c t _ _ _ _))
  · exact (congrArg (fun x => x.2.1) (stAt2_M V c t h0 h49)).trans (congrArg (fun x => x.2.1) (stepM2_eq V c t _ _ _ _))

/-- The second running row after the first point. -/
theorem st2_sq_F (c : Dev nD) (t : Fin cfg2.N) (h0 : t.val = 0) :
    (stAt2 V c t.val t.isLt).2.2 = k2_pay2 (F := Ideal) (k2_pay5 (F := Ideal) (iblk2 V c 0 t) (iblk2 V c 1 t) (iblk2 V c 2 t) (iblk2 V c 3 t) (iblk2 V c 4 t) (iblk2 V c 5 t)) (k2_pay4 (F := Ideal)) :=
  (congrArg (fun x => x.2.2) (stAt2_F V c t h0)).trans (congrArg (fun x => x.2.2) (stepF2_eq V c t _ _))

/-- The second running row after a later point. -/
theorem st2_sq_S (c : Dev nD) (t : Fin cfg2.N) (h0 : t.val ≠ 0) :
    (stAt2 V c t.val t.isLt).2.2 = k2_pay2 (F := Ideal) (k2_pay5 (F := Ideal) (iblk2 V c 0 t) (iblk2 V c 1 t) (iblk2 V c 2 t) (iblk2 V c 3 t) (iblk2 V c 4 t) (iblk2 V c 5 t)) (stAt2 V c (t.val - 1) (Nat.lt_of_le_of_lt (Nat.sub_le _ _) t.isLt)).2.2 := by
  by_cases h49 : t.val = 49
  · exact (congrArg (fun x => x.2.2) (stAt2_L V c t h49)).trans (congrArg (fun x => x.2.2) (stepL2_eq V c t _ _ _ _))
  · exact (congrArg (fun x => x.2.2) (stAt2_M V c t h0 h49)).trans (congrArg (fun x => x.2.2) (stepM2_eq V c t _ _ _ _))

/-- The two row outputs at the last point are the two running rows after it. -/
theorem o782_last (c : Dev nD) (t : Fin cfg2.N) (h49 : t.val = 49) :
    (o78At2 V c t).1 = (stAt2 V c t.val t.isLt).2.1 ∧ (o78At2 V c t).2 = (stAt2 V c t.val t.isLt).2.2 := by
  have e1 : o78At2 V c t = rowsL2 V c t (fun h => by have := (hcondFirst2 t).mp h; omega) ((hcondLast2 t).mpr h49) (stAt2 V c (t.val - 1) (Nat.lt_of_le_of_lt (Nat.sub_le _ _) t.isLt)).2.1 (stAt2 V c (t.val - 1) (Nat.lt_of_le_of_lt (Nat.sub_le _ _) t.isLt)).2.2 := by
    unfold o78At2; exact dif_pos h49
  rw [e1, rowsL2_eq, stAt2_L V c t h49, stepL2_eq]
  exact ⟨rfl, rfl⟩

/-! ## The running rows as sums over the rows seen so far -/

/-- At column q the first running row after point t is the row before it plus the column sums of H over the point's rows;
    after the first point, those sums alone. -/
theorem sum_first2 (c : Dev nD) (t : Fin cfg2.N) (h0 : t.val = 0) (q : Fin 128) :
    ((stAt2 V c t.val t.isLt).2.1 : S1x128.Idx → EReal) (ix2 (0 : Fin 1) q) = ∑ p : Fin 2000, HH (V c main_v41) (V c main_v63) (V c main_v43) (V c main_v64) (V c main_v47) (V c main_v65) (rowAt2 t p) q :=
  (congrFun (st2_sum_F V c t h0) (ix2 (0 : Fin 1) q)).trans
    ((KerPay.sum_firstP2 (iblk2 V c 0 t) (iblk2 V c 1 t) (iblk2 V c 2 t) (iblk2 V c 3 t) (iblk2 V c 4 t) (iblk2 V c 5 t) q).trans (Finset.sum_congr rfl fun p _ => blockH2 V c t p q))

theorem sum_step2 (c : Dev nD) (t : Fin cfg2.N) (h0 : t.val ≠ 0) (q : Fin 128) :
    ((stAt2 V c t.val t.isLt).2.1 : S1x128.Idx → EReal) (ix2 (0 : Fin 1) q)
      = ((stAt2 V c (t.val - 1) (Nat.lt_of_le_of_lt (Nat.sub_le _ _) t.isLt)).2.1 : S1x128.Idx → EReal) (ix2 (0 : Fin 1) q) + ∑ p : Fin 2000, HH (V c main_v41) (V c main_v63) (V c main_v43) (V c main_v64) (V c main_v47) (V c main_v65) (rowAt2 t p) q :=
  (congrFun (st2_sum_S V c t h0) (ix2 (0 : Fin 1) q)).trans
    ((KerPay.sum_stepP2 (iblk2 V c 0 t) (iblk2 V c 1 t) (iblk2 V c 2 t) (iblk2 V c 3 t) (iblk2 V c 4 t) (iblk2 V c 5 t) (stAt2 V c (t.val - 1) (Nat.lt_of_le_of_lt (Nat.sub_le _ _) t.isLt)).2.1 q).trans
      (congrArg (fun s => ((stAt2 V c (t.val - 1) (Nat.lt_of_le_of_lt (Nat.sub_le _ _) t.isLt)).2.1 : S1x128.Idx → EReal) (ix2 (0 : Fin 1) q) + s) (Finset.sum_congr rfl fun p _ => blockH2 V c t p q)))

theorem sq_first2 (c : Dev nD) (t : Fin cfg2.N) (h0 : t.val = 0) (q : Fin 128) :
    ((stAt2 V c t.val t.isLt).2.2 : S1x128.Idx → EReal) (ix2 (0 : Fin 1) q)
      = ∑ p : Fin 2000, HH (V c main_v41) (V c main_v63) (V c main_v43) (V c main_v64) (V c main_v47) (V c main_v65) (rowAt2 t p) q * HH (V c main_v41) (V c main_v63) (V c main_v43) (V c main_v64) (V c main_v47) (V c main_v65) (rowAt2 t p) q :=
  (congrFun (st2_sq_F V c t h0) (ix2 (0 : Fin 1) q)).trans
    ((KerPay.sq_firstP2 (iblk2 V c 0 t) (iblk2 V c 1 t) (iblk2 V c 2 t) (iblk2 V c 3 t) (iblk2 V c 4 t) (iblk2 V c 5 t) q).trans (Finset.sum_congr rfl fun p _ => by rw [blockH2 V c t p q]))

theorem sq_step2 (c : Dev nD) (t : Fin cfg2.N) (h0 : t.val ≠ 0) (q : Fin 128) :
    ((stAt2 V c t.val t.isLt).2.2 : S1x128.Idx → EReal) (ix2 (0 : Fin 1) q)
      = ((stAt2 V c (t.val - 1) (Nat.lt_of_le_of_lt (Nat.sub_le _ _) t.isLt)).2.2 : S1x128.Idx → EReal) (ix2 (0 : Fin 1) q)
        + ∑ p : Fin 2000, HH (V c main_v41) (V c main_v63) (V c main_v43) (V c main_v64) (V c main_v47) (V c main_v65) (rowAt2 t p) q * HH (V c main_v41) (V c main_v63) (V c main_v43) (V c main_v64) (V c main_v47) (V c main_v65) (rowAt2 t p) q :=
  (congrFun (st2_sq_S V c t h0) (ix2 (0 : Fin 1) q)).trans
    ((KerPay.sq_stepP2 (iblk2 V c 0 t) (iblk2 V c 1 t) (iblk2 V c 2 t) (iblk2 V c 3 t) (iblk2 V c 4 t) (iblk2 V c 5 t) (stAt2 V c (t.val - 1) (Nat.lt_of_le_of_lt (Nat.sub_le _ _) t.isLt)).2.2 q).trans
      (congrArg (fun s => ((stAt2 V c (t.val - 1) (Nat.lt_of_le_of_lt (Nat.sub_le _ _) t.isLt)).2.2 : S1x128.Idx → EReal) (ix2 (0 : Fin 1) q) + s)
        (Finset.sum_congr rfl fun p _ => by rw [blockH2 V c t p q])))

/-- The step equations with the point given by its number, and the totals after the last point. -/

theorem sum_zero2 (c : Dev nD) (h : 0 < cfg2.N) (q : Fin 128) :
    ((stAt2 V c 0 h).2.1 : S1x128.Idx → EReal) (ix2 (0 : Fin 1) q)
      = ∑ p : Fin 2000, HH (V c main_v41) (V c main_v63) (V c main_v43) (V c main_v64) (V c main_v47) (V c main_v65) (BlockSum.rowOf h50 ⟨0, lt_of_lt_of_eq h N_2⟩ p) q := by
  have e := sum_first2 V c ⟨0, h⟩ rfl q
  dsimp only at e
  exact e

theorem sum_succ2 (c : Dev nD) (k : ℕ) (hk : k + 1 < cfg2.N) (q : Fin 128) :
    ((stAt2 V c (k + 1) hk).2.1 : S1x128.Idx → EReal) (ix2 (0 : Fin 1) q)
      = ((stAt2 V c k (Nat.lt_of_succ_lt hk)).2.1 : S1x128.Idx → EReal) (ix2 (0 : Fin 1) q)
        + ∑ p : Fin 2000, HH (V c main_v41) (V c main_v63) (V c main_v43) (V c main_v64) (V c main_v47) (V c main_v65) (BlockSum.rowOf h50 ⟨k + 1, lt_of_lt_of_eq hk N_2⟩ p) q := by
  have e := sum_step2 V c ⟨k + 1, hk⟩ (Nat.succ_ne_zero k) q
  dsimp only at e
  rw [stAt2_irrel V c (k + 1 - 1) k (Nat.add_sub_cancel k 1) _ (Nat.lt_of_succ_lt hk)] at e
  exact e

/-- After the last point the running row holds the sums over all 100000 rows. -/
theorem sum_total2 (c : Dev nD) (q : Fin 128) (h : 49 < cfg2.N) :
    ((stAt2 V c 49 h).2.1 : S1x128.Idx → EReal) (ix2 (0 : Fin 1) q) = Spec.colSum (HH (V c main_v41) (V c main_v63) (V c main_v43) (V c main_v64) (V c main_v47) (V c main_v65)) q := by
  have h0 : ∀ hz : 0 < cfg2.N, ((stAt2 V c 0 hz).2.1 : S1x128.Idx → EReal) (ix2 (0 : Fin 1) q)
      = ∑ p : Fin 2000, HH (V c main_v41) (V c main_v63) (V c main_v43) (V c main_v64) (V c main_v47) (V c main_v65) (BlockSum.rowOf h50 ⟨0, lt_of_lt_of_eq hz N_2⟩ p) q := fun hz => sum_zero2 V c hz q
  have hs : ∀ (k : ℕ) (hk : k + 1 < cfg2.N), ((stAt2 V c (k + 1) hk).2.1 : S1x128.Idx → EReal) (ix2 (0 : Fin 1) q)
      = ((stAt2 V c k (Nat.lt_of_succ_lt hk)).2.1 : S1x128.Idx → EReal) (ix2 (0 : Fin 1) q)
        + ∑ p : Fin 2000, HH (V c main_v41) (V c main_v63) (V c main_v43) (V c main_v64) (V c main_v47) (V c main_v65) (BlockSum.rowOf h50 ⟨k + 1, lt_of_lt_of_eq hk N_2⟩ p) q := fun k hk => sum_succ2 V c k hk q
  revert h h0 hs
  generalize stAt2 V c = S
  intro h h0 hs
  have key := SpecBlocks.colSum_of_running h50 (HH (V c main_v41) (V c main_v63) (V c main_v43) (V c main_v64) (V c main_v47) (V c main_v65)) q
    (fun n hn => ((S n (lt_of_lt_of_eq hn N_2.symm)).2.1 : S1x128.Idx → EReal) (ix2 (0 : Fin 1) q))
    (fun hk => h0 (lt_of_lt_of_eq hk N_2.symm)) (fun k hk => hs k (lt_of_lt_of_eq hk N_2.symm))
  exact key

theorem sq_zero2 (c : Dev nD) (h : 0 < cfg2.N) (q : Fin 128) :
    ((stAt2 V c 0 h).2.2 : S1x128.Idx → EReal) (ix2 (0 : Fin 1) q)
      = ∑ p : Fin 2000, HH (V c main_v41) (V c main_v63) (V c main_v43) (V c main_v64) (V c main_v47) (V c main_v65) (BlockSum.rowOf h50 ⟨0, lt_of_lt_of_eq h N_2⟩ p) q * HH (V c main_v41) (V c main_v63) (V c main_v43) (V c main_v64) (V c main_v47) (V c main_v65) (BlockSum.rowOf h50 ⟨0, lt_of_lt_of_eq h N_2⟩ p) q := by
  have e := sq_first2 V c ⟨0, h⟩ rfl q
  dsimp only at e
  exact e

theorem sq_succ2 (c : Dev nD) (k : ℕ) (hk : k + 1 < cfg2.N) (q : Fin 128) :
    ((stAt2 V c (k + 1) hk).2.2 : S1x128.Idx → EReal) (ix2 (0 : Fin 1) q)
      = ((stAt2 V c k (Nat.lt_of_succ_lt hk)).2.2 : S1x128.Idx → EReal) (ix2 (0 : Fin 1) q)
        + ∑ p : Fin 2000, HH (V c main_v41) (V c main_v63) (V c main_v43) (V c main_v64) (V c main_v47) (V c main_v65) (BlockSum.rowOf h50 ⟨k + 1, lt_of_lt_of_eq hk N_2⟩ p) q * HH (V c main_v41) (V c main_v63) (V c main_v43) (V c main_v64) (V c main_v47) (V c main_v65) (BlockSum.rowOf h50 ⟨k + 1, lt_of_lt_of_eq hk N_2⟩ p) q := by
  have e := sq_step2 V c ⟨k + 1, hk⟩ (Nat.succ_ne_zero k) q
  dsimp only at e
  rw [stAt2_irrel V c (k + 1 - 1) k (Nat.add_sub_cancel k 1) _ (Nat.lt_of_succ_lt hk)] at e
  exact e

/-- After the last point the running row holds the sums over all 100000 rows. -/
theorem sq_total2 (c : Dev nD) (q : Fin 128) (h : 49 < cfg2.N) :
    ((stAt2 V c 49 h).2.2 : S1x128.Idx → EReal) (ix2 (0 : Fin 1) q) = Spec.colSumSq (HH (V c main_v41) (V c main_v63) (V c main_v43) (V c main_v64) (V c main_v47) (V c main_v65)) q := by
  have h0 : ∀ hz : 0 < cfg2.N, ((stAt2 V c 0 hz).2.2 : S1x128.Idx → EReal) (ix2 (0 : Fin 1) q)
      = ∑ p : Fin 2000, HH (V c main_v41) (V c main_v63) (V c main_v43) (V c main_v64) (V c main_v47) (V c main_v65) (BlockSum.rowOf h50 ⟨0, lt_of_lt_of_eq hz N_2⟩ p) q * HH (V c main_v41) (V c main_v63) (V c main_v43) (V c main_v64) (V c main_v47) (V c main_v65) (BlockSum.rowOf h50 ⟨0, lt_of_lt_of_eq hz N_2⟩ p) q := fun hz => sq_zero2 V c hz q
  have hs : ∀ (k : ℕ) (hk : k + 1 < cfg2.N), ((stAt2 V c (k + 1) hk).2.2 : S1x128.Idx → EReal) (ix2 (0 : Fin 1) q)
      = ((stAt2 V c k (Nat.lt_of_succ_lt hk)).2.2 : S1x128.Idx → EReal) (ix2 (0 : Fin 1) q)
        + ∑ p : Fin 2000, HH (V c main_v41) (V c main_v63) (V c main_v43) (V c main_v64) (V c main_v47) (V c main_v65) (BlockSum.rowOf h50 ⟨k + 1, lt_of_lt_of_eq hk N_2⟩ p) q * HH (V c main_v41) (V c main_v63) (V c main_v43) (V c main_v64) (V c main_v47) (V c main_v65) (BlockSum.rowOf h50 ⟨k + 1, lt_of_lt_of_eq hk N_2⟩ p) q := fun k hk => sq_succ2 V c k hk q
  revert h h0 hs
  generalize stAt2 V c = S
  intro h h0 hs
  have key := SpecBlocks.colSumSq_of_running h50 (HH (V c main_v41) (V c main_v63) (V c main_v43) (V c main_v64) (V c main_v47) (V c main_v65)) q
    (fun n hn => ((S n (lt_of_lt_of_eq hn N_2.symm)).2.2 : S1x128.Idx → EReal) (ix2 (0 : Fin 1) q))
    (fun hk => h0 (lt_of_lt_of_eq hk N_2.symm)) (fun k hk => hs k (lt_of_lt_of_eq hk N_2.symm))
  exact key

/-- The same at the last point under its own name. -/
theorem sum_last2 (c : Dev nD) (t : Fin cfg2.N) (h49 : t.val = 49) (q : Fin 128) :
    ((stAt2 V c t.val t.isLt).2.1 : S1x128.Idx → EReal) (ix2 (0 : Fin 1) q) = Spec.colSum (HH (V c main_v41) (V c main_v63) (V c main_v43) (V c main_v64) (V c main_v47) (V c main_v65)) q := by
  rw [stAt2_irrel V c t.val 49 h49 t.isLt (lt_of_eq_of_lt h49.symm t.isLt)]
  exact sum_total2 V c q _

theorem sq_last2 (c : Dev nD) (t : Fin cfg2.N) (h49 : t.val = 49) (q : Fin 128) :
    ((stAt2 V c t.val t.isLt).2.2 : S1x128.Idx → EReal) (ix2 (0 : Fin 1) q) = Spec.colSumSq (HH (V c main_v41) (V c main_v63) (V c main_v43) (V c main_v64) (V c main_v47) (V c main_v65)) q := by
  rw [stAt2_irrel V c t.val 49 h49 t.isLt (lt_of_eq_of_lt h49.symm t.isLt)]
  exact sq_total2 V c q _

/-! ## The output array of hidden features -/

theorem flushed2_6_eq (c : Dev nD) (t : Fin cfg2.N) :
    (dat2 V c).flushed 6 t = ((cfg2.win 6).blk t).view.read (Elt Ideal) (GH (V c main_v41) (V c main_v63) (V c main_v43) (V c main_v64) (V c main_v47) (V c main_v65)) := by
  show (cfg2.win 6).cut (grid2.coords t) ((dat2 V c).after 6 t) = _
  rw [after2_6, st2_fst V c t]
  obtain ⟨e00, e01, e10, e11, e20, e21, e30, e31, e40, e41, e50, e51, e60, e61, e70, e71, e80, e81⟩ := idx_facts2 t
  funext j
  obtain ⟨p, q, rfl⟩ : ∃ (p : Fin 2000) (q : Fin 128), j = ix2 p q := ⟨j 0, j 1, eq_ix2 j⟩
  show k2_pay5 (F := Ideal) (iblk2 V c 0 t) (iblk2 V c 1 t) (iblk2 V c 2 t) (iblk2 V c 3 t) (iblk2 V c 4 t) (iblk2 V c 5 t) (ix2 p q) = GH (V c main_v41) (V c main_v63) (V c main_v43) (V c main_v64) (V c main_v47) (V c main_v65) (((cfg2.win 6).blk t).view.emb (ix2 p q))
  refine (blockH2 V c t p q).trans ?_
  refine GH_at (V c main_v41) (V c main_v63) (V c main_v43) (V c main_v64) (V c main_v47) (V c main_v65) (((cfg2.win 6).blk t).view.emb (ix2 p q)) (rowAt2 t p) q (Fin.ext ?_) (Fin.ext ?_)
  · show win2_6.index t (0 : Fin 2) * 2000 + 1 * p.val = t.val * 2000 + p.val; omega
  · show win2_6.index t (1 : Fin 2) * 128 + 1 * q.val = q.val; omega

theorem mem_blk2_6 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v66_0).slice (win2_6.rect t)).set ↔ _
  rw [View.set_slice_whole, Rect.mem_set_unit]
  exact Iff.rfl

theorem tiles2_6 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 50 := N_2
  refine ⟨⟨(i 0).val / 2000, by rw [hN]; omega⟩, flush2_6 _, ?_⟩
  rw [mem_blk2_6]
  obtain ⟨e00, e01, e10, e11, e20, e21, e30, e31, e40, e41, e50, e51, e60, e61, e70, e71, e80, e81⟩ := idx_facts2 ⟨(i 0).val / 2000, by rw [hN]; omega⟩
  intro a
  match a with
  | ⟨0, _⟩ =>
    show win2_6.index _ (0 : Fin 2) * 2000 ≤ (i 0).val ∧ (i 0).val < win2_6.index _ (0 : Fin 2) * 2000 + 2000
    rw [e60]; show (i 0).val / 2000 * 2000 ≤ (i 0).val ∧ (i 0).val < (i 0).val / 2000 * 2000 + 2000; omega
  | ⟨1, _⟩ =>
    show win2_6.index _ (1 : Fin 2) * 128 ≤ (i 1).val ∧ (i 1).val < win2_6.index _ (1 : Fin 2) * 128 + 128
    rw [e61]; omega

/-- The array of hidden features after the region is H of the input arrays as the region finds them. -/
theorem final2_6 (c : Dev nD) : (dat2 V c).arrAt 6 cfg2.N = GH (V c main_v41) (V c main_v63) (V c main_v43) (V c main_v64) (V c main_v47) (V c main_v65) :=
  (dat2 V c).arrAt_eq_of_cover 6 _ (fun t _ => flushed2_6_eq V c t) tiles2_6

theorem final2_6_apply (c : Dev nD) (r : Fin 100000) (j : Fin 128) :
    (dat2 V c).arrAt 6 cfg2.N (ix2 r j) = HH (V c main_v41) (V c main_v63) (V c main_v43) (V c main_v64) (V c main_v47) (V c main_v65) r j :=
  congrFun (final2_6 V c) (ix2 r j)

/-! ## The two row outputs -/

theorem mem_blk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v66_1).slice (win2_7.rect t)).set ↔ _
  rw [View.set_slice_whole, Rect.mem_set_unit]
  exact Iff.rfl

theorem mem_blk2_8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v66_2).slice (win2_8.rect t)).set ↔ _
  rw [View.set_slice_whole, Rect.mem_set_unit]
  exact Iff.rfl

set_option maxRecDepth 200000 in
theorem flushed2_7_eq (c : Dev nD) (t : Fin cfg2.N) (hf : (cfg2.win 7).flush t = true) :
    (dat2 V c).flushed 7 t = ((cfg2.win 7).blk t).view.read (Elt Ideal) (GS (HH (V c main_v41) (V c main_v63) (V c main_v43) (V c main_v64) (V c main_v47) (V c main_v65))) := by
  have h49 : t.val = 49 := by have := (flush2_7 t).mp hf; have := pt_lt2 t; omega
  show (cfg2.win 7).cut (grid2.coords t) ((dat2 V c).after 7 t) = _
  rw [after2_7, (o782_last V c t h49).1]
  obtain ⟨e00, e01, e10, e11, e20, e21, e30, e31, e40, e41, e50, e51, e60, e61, e70, e71, e80, e81⟩ := idx_facts2 t
  funext j
  obtain ⟨u, q, rfl⟩ : ∃ (u : Fin 1) (q : Fin 128), j = ix2 u q := ⟨j 0, j 1, eq_ix2 j⟩
  obtain rfl : u = 0 := Subsingleton.elim _ _
  show ((stAt2 V c t.val t.isLt).2.1 : S1x128.Idx → EReal) (ix2 (0 : Fin 1) q) = GS (HH (V c main_v41) (V c main_v63) (V c main_v43) (V c main_v64) (V c main_v47) (V c main_v65)) (((cfg2.win 7).blk t).view.emb (ix2 (0 : Fin 1) q))
  refine (sum_last2 V c t h49 q).trans (GS_at (HH (V c main_v41) (V c main_v63) (V c main_v43) (V c main_v64) (V c main_v47) (V c main_v65)) _ q (Fin.ext ?_))
  show win2_7.index t (1 : Fin 2) * 128 + 1 * q.val = q.val; omega

set_option maxRecDepth 200000 in
theorem flushed2_8_eq (c : Dev nD) (t : Fin cfg2.N) (hf : (cfg2.win 8).flush t = true) :
    (dat2 V c).flushed 8 t = ((cfg2.win 8).blk t).view.read (Elt Ideal) (GQ (HH (V c main_v41) (V c main_v63) (V c main_v43) (V c main_v64) (V c main_v47) (V c main_v65))) := by
  have h49 : t.val = 49 := by have := (flush2_8 t).mp hf; have := pt_lt2 t; omega
  show (cfg2.win 8).cut (grid2.coords t) ((dat2 V c).after 8 t) = _
  rw [after2_8, (o782_last V c t h49).2]
  obtain ⟨e00, e01, e10, e11, e20, e21, e30, e31, e40, e41, e50, e51, e60, e61, e70, e71, e80, e81⟩ := idx_facts2 t
  funext j
  obtain ⟨u, q, rfl⟩ : ∃ (u : Fin 1) (q : Fin 128), j = ix2 u q := ⟨j 0, j 1, eq_ix2 j⟩
  obtain rfl : u = 0 := Subsingleton.elim _ _
  show ((stAt2 V c t.val t.isLt).2.2 : S1x128.Idx → EReal) (ix2 (0 : Fin 1) q) = GQ (HH (V c main_v41) (V c main_v63) (V c main_v43) (V c main_v64) (V c main_v47) (V c main_v65)) (((cfg2.win 8).blk t).view.emb (ix2 (0 : Fin 1) q))
  refine (sq_last2 V c t h49 q).trans (GQ_at (HH (V c main_v41) (V c main_v63) (V c main_v43) (V c main_v64) (V c main_v47) (V c main_v65)) _ q (Fin.ext ?_))
  show win2_8.index t (1 : Fin 2) * 128 + 1 * q.val = q.val; omega

theorem tiles2_7 (i : S1x128.Idx) : ∃ t : Fin cfg2.N, (cfg2.win 7).flush t = true ∧ i ∈ ((cfg2.win 7).blk t).view.set := by
  have hi0 : (i 0).val < 1 := (i 0).isLt
  have hi1 : (i 1).val < 128 := (i 1).isLt
  have hN : cfg2.N = 50 := N_2
  refine ⟨⟨49, by rw [hN]; omega⟩, (flush2_7 _).mpr rfl, ?_⟩
  rw [mem_blk2_7]
  obtain ⟨e00, e01, e10, e11, e20, e21, e30, e31, e40, e41, e50, e51, e60, e61, e70, e71, e80, e81⟩ := idx_facts2 ⟨49, by rw [hN]; omega⟩
  intro a
  match a with
  | ⟨0, _⟩ =>
    show win2_7.index _ (0 : Fin 2) * 1 ≤ (i 0).val ∧ (i 0).val < win2_7.index _ (0 : Fin 2) * 1 + 1
    rw [e70]; omega
  | ⟨1, _⟩ =>
    show win2_7.index _ (1 : Fin 2) * 128 ≤ (i 1).val ∧ (i 1).val < win2_7.index _ (1 : Fin 2) * 128 + 128
    rw [e71]; omega

theorem tiles2_8 (i : S1x128.Idx) : ∃ t : Fin cfg2.N, (cfg2.win 8).flush t = true ∧ i ∈ ((cfg2.win 8).blk t).view.set := by
  have hi0 : (i 0).val < 1 := (i 0).isLt
  have hi1 : (i 1).val < 128 := (i 1).isLt
  have hN : cfg2.N = 50 := N_2
  refine ⟨⟨49, by rw [hN]; omega⟩, (flush2_8 _).mpr rfl, ?_⟩
  rw [mem_blk2_8]
  obtain ⟨e00, e01, e10, e11, e20, e21, e30, e31, e40, e41, e50, e51, e60, e61, e70, e71, e80, e81⟩ := idx_facts2 ⟨49, by rw [hN]; omega⟩
  intro a
  match a with
  | ⟨0, _⟩ =>
    show win2_8.index _ (0 : Fin 2) * 1 ≤ (i 0).val ∧ (i 0).val < win2_8.index _ (0 : Fin 2) * 1 + 1
    rw [e80]; omega
  | ⟨1, _⟩ =>
    show win2_8.index _ (1 : Fin 2) * 128 ≤ (i 1).val ∧ (i 1).val < win2_8.index _ (1 : Fin 2) * 128 + 128
    rw [e81]; omega

/-- The row of column sums after the region. -/
theorem final2_7 (c : Dev nD) : (dat2 V c).arrAt 7 cfg2.N = GS (HH (V c main_v41) (V c main_v63) (V c main_v43) (V c main_v64) (V c main_v47) (V c main_v65)) :=
  (dat2 V c).arrAt_eq_of_cover 7 _ (fun t hf => flushed2_7_eq V c t hf) tiles2_7

/-- The row of column sums of squares after the region. -/
theorem final2_8 (c : Dev nD) : (dat2 V c).arrAt 8 cfg2.N = GQ (HH (V c main_v41) (V c main_v63) (V c main_v43) (V c main_v64) (V c main_v47) (V c main_v65)) :=
  (dat2 V c).arrAt_eq_of_cover 8 _ (fun t hf => flushed2_8_eq V c t hf) tiles2_8

theorem final2_7_apply (c : Dev nD) (q : Fin 128) :
    (dat2 V c).arrAt 7 cfg2.N (ix2 (0 : Fin 1) q) = Spec.colSum (HH (V c main_v41) (V c main_v63) (V c main_v43) (V c main_v64) (V c main_v47) (V c main_v65)) q :=
  congrFun (final2_7 V c) (ix2 (0 : Fin 1) q)

theorem final2_8_apply (c : Dev nD) (q : Fin 128) :
    (dat2 V c).arrAt 8 cfg2.N (ix2 (0 : Fin 1) q) = Spec.colSumSq (HH (V c main_v41) (V c main_v63) (V c main_v43) (V c main_v64) (V c main_v47) (V c main_v65)) q :=
  congrFun (final2_8 V c) (ix2 (0 : Fin 1) q)

end Cert.KerVal

end
-- ==== Proof.KerRead4.lean ====
/-
  What each case of the dense region's body leaves in each buffer, as the payloads of the loaded blocks.

  A point of the grid is the first, a middle one or the last. In each case the body's run stores one value into the
  output block, the block of hidden features, and one into each of the two running rows, the row before the point
  (the zero row at the first point) plus the block's column sums, resp. the column sums of its squares; at the last
  point it also copies the two running rows into the two row outputs. Each stored list is read here as the
  skeleton's payload of the blocks the body loaded, at any float instance.
-/
import proofs.«100772_j6322191859838_1_alg».proof.Proof.KI_MlpRun4
import Idealize.ShloMosaic.Lib.Pipeline.Value

set_option maxRecDepth 16384
set_option pp.maxSteps 20000
set_option pp.deepTerms false

noncomputable section

namespace Cert.KerVal

open Cert.KernelIdeal Cert.KernelIdeal.Gen Cert.KernelIdeal.Hand
open Idealize.ShloMosaic Idealize.ShloMosaic.TcCoe Idealize.ShloMosaic.Tactic
open Idealize.SL.Sem

variable {F : FTy → Type} [FloatOps F]

theorem hz4 : (![0, 0] : Fin 2 → Nat) = fun _ => 0 := funext fun a => by fin_cases a <;> rfl

theorem run4_F_L7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst4 i) (hc2 : ¬condLast4 i) (x0 x1 : Vec F S2000x128 .f32) (x2 : Vec F S128x128 .f32) (x3 : Vec F S1x128 .f32) (x4 : Vec F S128x128 .f32) (x5 : Vec F S1x128 .f32) :
    View.canon (run4_F (F := F) c i arg1 harg1 arg2 harg2 arg3 harg3 arg4 harg4 arg5 harg5 arg6 harg6 arg7 harg7 arg8 harg8 arg9 harg9 arg10 harg10 arg11 harg11 hc1 hc2 x0 x1 x2 x3 x4 x5).1 = k4_pay5 x0 x1 x2 x3 x4 x5 := by
  unfold run4_F
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_F_L10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst4 i) (hc2 : ¬condLast4 i) (x0 x1 : Vec F S2000x128 .f32) (x2 : Vec F S128x128 .f32) (x3 : Vec F S1x128 .f32) (x4 : Vec F S128x128 .f32) (x5 : Vec F S1x128 .f32) :
    View.canon (run4_F (F := F) c i arg1 harg1 arg2 harg2 arg3 harg3 arg4 harg4 arg5 harg5 arg6 harg6 arg7 harg7 arg8 harg8 arg9 harg9 arg10 harg10 arg11 harg11 hc1 hc2 x0 x1 x2 x3 x4 x5).2.1 = k4_pay1 k4_pay3 (k4_pay6 x0 x1 x2 x3 x4 x5) := by
  unfold run4_F
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_F_L11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : condFirst4 i) (hc2 : ¬condLast4 i) (x0 x1 : Vec F S2000x128 .f32) (x2 : Vec F S128x128 .f32) (x3 : Vec F S1x128 .f32) (x4 : Vec F S128x128 .f32) (x5 : Vec F S1x128 .f32) :
    View.canon (run4_F (F := F) c i arg1 harg1 arg2 harg2 arg3 harg3 arg4 harg4 arg5 harg5 arg6 harg6 arg7 harg7 arg8 harg8 arg9 harg9 arg10 harg10 arg11 harg11 hc1 hc2 x0 x1 x2 x3 x4 x5).2.2.1 = k4_pay2 (k4_pay5 x0 x1 x2 x3 x4 x5) k4_pay4 := by
  unfold run4_F
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_M_L7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run4_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).1 = k4_pay5 x0 x1 x2 x3 x4 x5 := by
  unfold run4_M
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_M_L10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run4_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 = k4_pay1 s0 (k4_pay6 x0 x1 x2 x3 x4 x5) := by
  unfold run4_M
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_M_L11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : ¬condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run4_M (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 = k4_pay2 (k4_pay5 x0 x1 x2 x3 x4 x5) s1 := by
  unfold run4_M
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_L_L7 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run4_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).1 = k4_pay5 x0 x1 x2 x3 x4 x5 := by
  unfold run4_L
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_L_L8 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run4_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.1 = k4_pay1 s0 (k4_pay6 x0 x1 x2 x3 x4 x5) := by
  unfold run4_L
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_L_L9 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run4_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.1 = k4_pay2 (k4_pay5 x0 x1 x2 x3 x4 x5) s1 := by
  unfold run4_L
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_L_L10 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run4_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.1 = k4_pay1 s0 (k4_pay6 x0 x1 x2 x3 x4 x5) := by
  unfold run4_L
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

theorem run4_L_L11 (c : Dev nD) (i : grid4.Coords) (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole) (arg8 : Memref sig .tc .vmem S1x128 .f32) (harg8 : arg8.IsWhole)
    (arg9 : Memref sig .tc .vmem S1x128 .f32) (harg9 : arg9.IsWhole) (arg10 : Memref sig .tc .vmem S1x128 .f32) (harg10 : arg10.IsWhole)
    (arg11 : Memref sig .tc .vmem S1x128 .f32) (harg11 : arg11.IsWhole)
    (hc1 : ¬condFirst4 i) (hc2 : condLast4 i) (x0 x1 : Vec F S2000x128 .f32) (x2 : Vec F S128x128 .f32) (x3 : Vec F S1x128 .f32) (x4 : Vec F S128x128 .f32) (x5 : Vec F S1x128 .f32) (s0 s1 : Vec F S1x128 .f32) :
    View.canon (run4_L (F := F) c i arg1 harg1 arg2 harg2 arg3 harg3 arg4 harg4 arg5 harg5 arg6 harg6 arg7 harg7 arg8 harg8 arg9 harg9 arg10 harg10 arg11 harg11 hc1 hc2 x0 x1 x2 x3 x4 x5 s0 s1).2.2.2.2.1 = k4_pay2 (k4_pay5 x0 x1 x2 x3 x4 x5) s1 := by
  unfold run4_L
  dsimp only
  sl_unfold_words
  rw [View.canon_cons_unit_zero hz4]
  simp only [View.readAt_eq_ld, View.readCov_unit_zero (S := S1x128) _ hz4, harg1.read_unread, harg2.read_unread, harg3.read_unread,
    harg4.read_unread, harg5.read_unread, harg6.read_unread, harg10.read_unread, harg11.read_unread,
    View.ld_unit_zero (S := S2000x128) hz4, View.ld_unit_zero (S := S128x128) hz4, View.ld_unit_zero (S := S1x128) hz4]
  all_goals (try rfl)

end Cert.KerVal

end
-- ==== Proof.KerValMlp4.lean ====
/-
  The dense region's three output arrays, entry by entry.

  The region's grid has 50 points; point t reads rows 2000 t … 2000 t + 1999 of the features z and of the neighbour
  sums a, and the four parameters whole. With H the specification's hidden features of the whole arrays
  (hidden (z + a) W1 b1 W2 b2 : 100000 rows), the block of hidden features a point stores is rows 2000 t … of H, since
  a row of H reads that row of z + a alone; the blocks tile the output array, which therefore ends holding H. The
  two running rows hold, after point n, the column sums of H, resp. of its squares, over the rows of the blocks up
  to n (induction on n); the last point copies them to the two row outputs, written back only there, which
  therefore end holding the column sums of H and of its squares over all 100000 rows.
-/
import proofs.«100772_j6322191859838_1_alg».proof.Proof.KI_Mlp4
import proofs.«100772_j6322191859838_1_alg».proof.Proof.KerRead4
import proofs.«100772_j6322191859838_1_alg».proof.Proof.KerPayAcc
import proofs.«100772_j6322191859838_1_alg».proof.Proof.KerSpecBlocks
import proofs.«100772_j6322191859838_1_alg».proof.Proof.KerValMlpCore
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The printed index maps over the grid: the two tall inputs and the tall output move one block of rows per point,
    the parameters and the two row outputs stay at their one block. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0 :=
  (by decide +kernel : ∀ t : Fin grid4.N, _)

/-- A point's index is below 50. -/
theorem pt_lt4 (t : Fin cfg4.N) : t.val < 49 + 1 := lt_of_lt_of_eq t.isLt N_4

/-- Row p of the block of point t, as a row of the tall arrays. -/
abbrev rowAt4 (t : Fin cfg4.N) (p : Fin 2000) : Fin 100000 := BlockSum.rowOf h50 ⟨t.val, pt_lt4 t⟩ p

/-- Row p of window 0's block at point t is row 2000 t + p of its array. -/
theorem iblk4_0_row (c : Dev nD) (t : Fin cfg4.N) (p : Fin 2000) (i : Fin 128) :
    (iblk4 V c 0 t : S2000x128.Idx → EReal) (ix2 p i) = V c main_v79 (ix2 (rowAt4 t p) i) := by
  obtain ⟨e00, e01, e10, e11, e20, e21, e30, e31, e40, e41, e50, e51, e60, e61, e70, e71, e80, e81⟩ := idx_facts4 t
  show V c main_v79 (((cfg4.win 0).blk t).view.emb (ix2 p i)) = V c main_v79 (ix2 (rowAt4 t p) i)
  refine congrArg (V c main_v79) (funext fun a => Fin.ext ?_)
  match a with
  | ⟨0, _⟩ => show win4_0.index t (0 : Fin 2) * 2000 + 1 * p.val = t.val * 2000 + p.val; omega
  | ⟨1, _⟩ => show win4_0.index t (1 : Fin 2) * 128 + 1 * i.val = i.val; omega

/-- Row p of window 1's block at point t is row 2000 t + p of its array. -/
theorem iblk4_1_row (c : Dev nD) (t : Fin cfg4.N) (p : Fin 2000) (i : Fin 128) :
    (iblk4 V c 1 t : S2000x128.Idx → EReal) (ix2 p i) = V c main_v101 (ix2 (rowAt4 t p) i) := by
  obtain ⟨e00, e01, e10, e11, e20, e21, e30, e31, e40, e41, e50, e51, e60, e61, e70, e71, e80, e81⟩ := idx_facts4 t
  show V c main_v101 (((cfg4.win 1).blk t).view.emb (ix2 p i)) = V c main_v101 (ix2 (rowAt4 t p) i)
  refine congrArg (V c main_v101) (funext fun a => Fin.ext ?_)
  match a with
  | ⟨0, _⟩ => show win4_1.index t (0 : Fin 2) * 2000 + 1 * p.val = t.val * 2000 + p.val; omega
  | ⟨1, _⟩ => show win4_1.index t (1 : Fin 2) * 128 + 1 * i.val = i.val; omega

/-- Window 2's block is its whole array at every point. -/
theorem iblk4_2_eq (c : Dev nD) (t : Fin cfg4.N) : (iblk4 V c 2 t : S128x128.Idx → EReal) = V c main_v81 := by
  obtain ⟨e00, e01, e10, e11, e20, e21, e30, e31, e40, e41, e50, e51, e60, e61, e70, e71, e80, e81⟩ := idx_facts4 t
  funext j
  show V c main_v81 (((cfg4.win 2).blk t).view.emb j) = V c main_v81 j
  refine congrArg (V c main_v81) (funext fun a => Fin.ext ?_)
  match a with
  | ⟨0, _⟩ => show win4_2.index t (0 : Fin 2) * 128 + 1 * (j 0).val = (j 0).val; omega
  | ⟨1, _⟩ => show win4_2.index t (1 : Fin 2) * 128 + 1 * (j 1).val = (j 1).val; omega

/-- Window 3's block is its whole array at every point. -/
theorem iblk4_3_eq (c : Dev nD) (t : Fin cfg4.N) : (iblk4 V c 3 t : S1x128.Idx → EReal) = V c main_v102 := by
  obtain ⟨e00, e01, e10, e11, e20, e21, e30, e31, e40, e41, e50, e51, e60, e61, e70, e71, e80, e81⟩ := idx_facts4 t
  funext j
  show V c main_v102 (((cfg4.win 3).blk t).view.emb j) = V c main_v102 j
  refine congrArg (V c main_v102) (funext fun a => Fin.ext ?_)
  match a with
  | ⟨0, _⟩ => show win4_3.index t (0 : Fin 2) * 1 + 1 * (j 0).val = (j 0).val; omega
  | ⟨1, _⟩ => show win4_3.index t (1 : Fin 2) * 128 + 1 * (j 1).val = (j 1).val; omega

/-- Window 4's block is its whole array at every point. -/
theorem iblk4_4_eq (c : Dev nD) (t : Fin cfg4.N) : (iblk4 V c 4 t : S128x128.Idx → EReal) = V c main_v85 := by
  obtain ⟨e00, e01, e10, e11, e20, e21, e30, e31, e40, e41, e50, e51, e60, e61, e70, e71, e80, e81⟩ := idx_facts4 t
  funext j
  show V c main_v85 (((cfg4.win 4).blk t).view.emb j) = V c main_v85 j
  refine congrArg (V c main_v85) (funext fun a => Fin.ext ?_)
  match a with
  | ⟨0, _⟩ => show win4_4.index t (0 : Fin 2) * 128 + 1 * (j 0).val = (j 0).val; omega
  | ⟨1, _⟩ => show win4_4.index t (1 : Fin 2) * 128 + 1 * (j 1).val = (j 1).val; omega

/-- Window 5's block is its whole array at every point. -/
theorem iblk4_5_eq (c : Dev nD) (t : Fin cfg4.N) : (iblk4 V c 5 t : S1x128.Idx → EReal) = V c main_v103 := by
  obtain ⟨e00, e01, e10, e11, e20, e21, e30, e31, e40, e41, e50, e51, e60, e61, e70, e71, e80, e81⟩ := idx_facts4 t
  funext j
  show V c main_v103 (((cfg4.win 5).blk t).view.emb j) = V c main_v103 j
  refine congrArg (V c main_v103) (funext fun a => Fin.ext ?_)
  match a with
  | ⟨0, _⟩ => show win4_5.index t (0 : Fin 2) * 1 + 1 * (j 0).val = (j 0).val; omega
  | ⟨1, _⟩ => show win4_5.index t (1 : Fin 2) * 128 + 1 * (j 1).val = (j 1).val; omega

/-- The hidden features of a block whose rows are rows of the tall arrays and whose parameters are the arrays'
    are those rows of the arrays' hidden features. -/
theorem hidden_block4 (z a : S100000x128.Idx → EReal) (W1 : S128x128.Idx → EReal) (b1 : S1x128.Idx → EReal)
    (W2 : S128x128.Idx → EReal) (b2 : S1x128.Idx → EReal) (zb ab : S2000x128.Idx → EReal) (W1b : S128x128.Idx → EReal)
    (b1b : S1x128.Idx → EReal) (W2b : S128x128.Idx → EReal) (b2b : S1x128.Idx → EReal) (r : Fin 100000) (p : Fin 2000) (q : Fin 128)
    (hz : ∀ i : Fin 128, zb (ix2 p i) = z (ix2 r i)) (ha : ∀ i : Fin 128, ab (ix2 p i) = a (ix2 r i))
    (hW1 : W1b = W1) (hb1 : b1b = b1) (hW2 : W2b = W2) (hb2 : b2b = b2) :
    Spec.hidden (fun r i => zb (ix2 r i) + ab (ix2 r i)) (Spec.mat W1b) (Spec.row1 b1b) (Spec.mat W2b) (Spec.row1 b2b) p q
      = HH z a W1 b1 W2 b2 r q := by
  subst hW1 hb1 hW2 hb2
  exact SpecBlocks.hidden_row_congr _ _ _ _ _ _ p r (fun i => by
    show zb (ix2 p i) + ab (ix2 p i) = z (ix2 r i) + a (ix2 r i)
    rw [hz i, ha i]) q

/-- THE BLOCK OF HIDDEN FEATURES a point stores is the point's rows of the whole arrays' hidden features. -/
theorem blockH4 (c : Dev nD) (t : Fin cfg4.N) (p : Fin 2000) (q : Fin 128) :
    k4_pay5 (F := Ideal) (iblk4 V c 0 t) (iblk4 V c 1 t) (iblk4 V c 2 t) (iblk4 V c 3 t) (iblk4 V c 4 t) (iblk4 V c 5 t) (ix2 p q) = HH (V c main_v79) (V c main_v101) (V c main_v81) (V c main_v102) (V c main_v85) (V c main_v103) (rowAt4 t p) q :=
  (KerPay.k4_pay5_apply (iblk4 V c 0 t) (iblk4 V c 1 t) (iblk4 V c 2 t) (iblk4 V c 3 t) (iblk4 V c 4 t) (iblk4 V c 5 t) p q).trans
    (hidden_block4 (V c main_v79) (V c main_v101) (V c main_v81) (V c main_v102) (V c main_v85) (V c main_v103) (iblk4 V c 0 t) (iblk4 V c 1 t) (iblk4 V c 2 t) (iblk4 V c 3 t) (iblk4 V c 4 t) (iblk4 V c 5 t)
      (rowAt4 t p) p q (iblk4_0_row V c t p) (iblk4_1_row V c t p) (iblk4_2_eq V c t) (iblk4_3_eq V c t) (iblk4_4_eq V c t) (iblk4_5_eq V c t))

/-! ## What the three carried values are at each point -/

theorem stepF4_eq (c : Dev nD) (t : Fin cfg4.N) (hc1 : condFirst4 (grid4.coords t)) (hc2 : ¬condLast4 (grid4.coords t)) :
    stepF4 V c t hc1 hc2 = (k4_pay5 (F := Ideal) (iblk4 V c 0 t) (iblk4 V c 1 t) (iblk4 V c 2 t) (iblk4 V c 3 t) (iblk4 V c 4 t) (iblk4 V c 5 t), k4_pay1 (F := Ideal) (k4_pay3 (F := Ideal)) (k4_pay6 (F := Ideal) (iblk4 V c 0 t) (iblk4 V c 1 t) (iblk4 V c 2 t) (iblk4 V c 3 t) (iblk4 V c 4 t) (iblk4 V c 5 t)), k4_pay2 (F := Ideal) (k4_pay5 (F := Ideal) (iblk4 V c 0 t) (iblk4 V c 1 t) (iblk4 V c 2 t) (iblk4 V c 3 t) (iblk4 V c 4 t) (iblk4 V c 5 t)) (k4_pay4 (F := Ideal))) := by
  unfold stepF4
  refine Prod.ext ?_ (Prod.ext ?_ ?_)
  · dsimp only
    exact run4_F_L7 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)
  · dsimp only
    exact run4_F_L10 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)
  · dsimp only
    exact run4_F_L11 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t)

theorem stepM4_eq (c : Dev nD) (t : Fin cfg4.N) (hc1 : ¬condFirst4 (grid4.coords t)) (hc2 : ¬condLast4 (grid4.coords t)) (s0 s1 : Vec Ideal S1x128 .f32) :
    stepM4 V c t hc1 hc2 s0 s1 = (k4_pay5 (F := Ideal) (iblk4 V c 0 t) (iblk4 V c 1 t) (iblk4 V c 2 t) (iblk4 V c 3 t) (iblk4 V c 4 t) (iblk4 V c 5 t), k4_pay1 (F := Ideal) s0 (k4_pay6 (F := Ideal) (iblk4 V c 0 t) (iblk4 V c 1 t) (iblk4 V c 2 t) (iblk4 V c 3 t) (iblk4 V c 4 t) (iblk4 V c 5 t)), k4_pay2 (F := Ideal) (k4_pay5 (F := Ideal) (iblk4 V c 0 t) (iblk4 V c 1 t) (iblk4 V c 2 t) (iblk4 V c 3 t) (iblk4 V c 4 t) (iblk4 V c 5 t)) s1) := by
  unfold stepM4
  refine Prod.ext ?_ (Prod.ext ?_ ?_)
  · dsimp only
    exact run4_M_L7 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1
  · dsimp only
    exact run4_M_L10 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1
  · dsimp only
    exact run4_M_L11 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1

theorem stepL4_eq (c : Dev nD) (t : Fin cfg4.N) (hc1 : ¬condFirst4 (grid4.coords t)) (hc2 : condLast4 (grid4.coords t)) (s0 s1 : Vec Ideal S1x128 .f32) :
    stepL4 V c t hc1 hc2 s0 s1 = (k4_pay5 (F := Ideal) (iblk4 V c 0 t) (iblk4 V c 1 t) (iblk4 V c 2 t) (iblk4 V c 3 t) (iblk4 V c 4 t) (iblk4 V c 5 t), k4_pay1 (F := Ideal) s0 (k4_pay6 (F := Ideal) (iblk4 V c 0 t) (iblk4 V c 1 t) (iblk4 V c 2 t) (iblk4 V c 3 t) (iblk4 V c 4 t) (iblk4 V c 5 t)), k4_pay2 (F := Ideal) (k4_pay5 (F := Ideal) (iblk4 V c 0 t) (iblk4 V c 1 t) (iblk4 V c 2 t) (iblk4 V c 3 t) (iblk4 V c 4 t) (iblk4 V c 5 t)) s1) := by
  unfold stepL4
  refine Prod.ext ?_ (Prod.ext ?_ ?_)
  · dsimp only
    exact run4_L_L7 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1
  · dsimp only
    exact run4_L_L10 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1
  · dsimp only
    exact run4_L_L11 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1

theorem rowsL4_eq (c : Dev nD) (t : Fin cfg4.N) (hc1 : ¬condFirst4 (grid4.coords t)) (hc2 : condLast4 (grid4.coords t))
    (s0 s1 : Vec Ideal S1x128 .f32) :
    rowsL4 V c t hc1 hc2 s0 s1 = (k4_pay1 (F := Ideal) s0 (k4_pay6 (F := Ideal) (iblk4 V c 0 t) (iblk4 V c 1 t) (iblk4 V c 2 t) (iblk4 V c 3 t) (iblk4 V c 4 t) (iblk4 V c 5 t)), k4_pay2 (F := Ideal) (k4_pay5 (F := Ideal) (iblk4 V c 0 t) (iblk4 V c 1 t) (iblk4 V c 2 t) (iblk4 V c 3 t) (iblk4 V c 4 t) (iblk4 V c 5 t)) s1) := by
  unfold rowsL4
  refine Prod.ext ?_ ?_
  · dsimp only
    exact run4_L_L8 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1
  · dsimp only
    exact run4_L_L9 (F := Ideal) c (grid4.coords t) (st4_0 t) (hstage4_0 ((cfg4.slots t 0).cast nbuf4_0)) (st4_1 t) (hstage4_1 ((cfg4.slots t 1).cast nbuf4_1)) (st4_2 t) (hstage4_2 ((cfg4.slots t 2).cast nbuf4_2)) (st4_3 t) (hstage4_3 ((cfg4.slots t 3).cast nbuf4_3)) (st4_4 t) (hstage4_4 ((cfg4.slots t 4).cast nbuf4_4)) (st4_5 t) (hstage4_5 ((cfg4.slots t 5).cast nbuf4_5)) (st4_6 t) (hstage4_6 ((cfg4.slots t 6).cast nbuf4_6)) (st4_7 t) (hstage4_7 ((cfg4.slots t 7).cast nbuf4_7)) (st4_8 t) (hstage4_8 ((cfg4.slots t 8).cast nbuf4_8)) sc4_0 (Memref.isWhole_whole _) sc4_1 (Memref.isWhole_whole _) hc1 hc2 (iblk4 V c 0 t) (iblk4 V c 1 t) (iblk4 V c 2 t) (iblk4 V c 3 t) (iblk4 V c 4 t) (iblk4 V c 5 t) s0 s1

/-- The output block after any point is the payload of the point's blocks. -/
theorem st4_fst (c : Dev nD) (t : Fin cfg4.N) :
    (stAt4 V c t.val t.isLt).1 = k4_pay5 (F := Ideal) (iblk4 V c 0 t) (iblk4 V c 1 t) (iblk4 V c 2 t) (iblk4 V c 3 t) (iblk4 V c 4 t) (iblk4 V c 5 t) := by
  by_cases h0 : t.val = 0
  · exact (congrArg Prod.fst (stAt4_F V c t h0)).trans (congrArg Prod.fst (stepF4_eq V c t _ _))
  · by_cases h49 : t.val = 49
    · exact (congrArg Prod.fst (stAt4_L V c t h49)).trans (congrArg Prod.fst (stepL4_eq V c t _ _ _ _))
    · exact (congrArg Prod.fst (stAt4_M V c t h0 h49)).trans (congrArg Prod.fst (stepM4_eq V c t _ _ _ _))

/-- The first running row after the first point. -/
theorem st4_sum_F (c : Dev nD) (t : Fin cfg4.N) (h0 : t.val = 0) :
    (stAt4 V c t.val t.isLt).2.1 = k4_pay1 (F := Ideal) (k4_pay3 (F := Ideal)) (k4_pay6 (F := Ideal) (iblk4 V c 0 t) (iblk4 V c 1 t) (iblk4 V c 2 t) (iblk4 V c 3 t) (iblk4 V c 4 t) (iblk4 V c 5 t)) :=
  (congrArg (fun x => x.2.1) (stAt4_F V c t h0)).trans (congrArg (fun x => x.2.1) (stepF4_eq V c t _ _))

/-- The first running row after a later point, from what the point before left. -/
theorem st4_sum_S (c : Dev nD) (t : Fin cfg4.N) (h0 : t.val ≠ 0) :
    (stAt4 V c t.val t.isLt).2.1 = k4_pay1 (F := Ideal) (stAt4 V c (t.val - 1) (Nat.lt_of_le_of_lt (Nat.sub_le _ _) t.isLt)).2.1 (k4_pay6 (F := Ideal) (iblk4 V c 0 t) (iblk4 V c 1 t) (iblk4 V c 2 t) (iblk4 V c 3 t) (iblk4 V c 4 t) (iblk4 V c 5 t)) := by
  by_cases h49 : t.val = 49
  · exact (congrArg (fun x => x.2.1) (stAt4_L V c t h49)).trans (congrArg (fun x => x.2.1) (stepL4_eq V c t _ _ _ _))
  · exact (congrArg (fun x => x.2.1) (stAt4_M V c t h0 h49)).trans (congrArg (fun x => x.2.1) (stepM4_eq V c t _ _ _ _))

/-- The second running row after the first point. -/
theorem st4_sq_F (c : Dev nD) (t : Fin cfg4.N) (h0 : t.val = 0) :
    (stAt4 V c t.val t.isLt).2.2 = k4_pay2 (F := Ideal) (k4_pay5 (F := Ideal) (iblk4 V c 0 t) (iblk4 V c 1 t) (iblk4 V c 2 t) (iblk4 V c 3 t) (iblk4 V c 4 t) (iblk4 V c 5 t)) (k4_pay4 (F := Ideal)) :=
  (congrArg (fun x => x.2.2) (stAt4_F V c t h0)).trans (congrArg (fun x => x.2.2) (stepF4_eq V c t _ _))

/-- The second running row after a later point. -/
theorem st4_sq_S (c : Dev nD) (t : Fin cfg4.N) (h0 : t.val ≠ 0) :
    (stAt4 V c t.val t.isLt).2.2 = k4_pay2 (F := Ideal) (k4_pay5 (F := Ideal) (iblk4 V c 0 t) (iblk4 V c 1 t) (iblk4 V c 2 t) (iblk4 V c 3 t) (iblk4 V c 4 t) (iblk4 V c 5 t)) (stAt4 V c (t.val - 1) (Nat.lt_of_le_of_lt (Nat.sub_le _ _) t.isLt)).2.2 := by
  by_cases h49 : t.val = 49
  · exact (congrArg (fun x => x.2.2) (stAt4_L V c t h49)).trans (congrArg (fun x => x.2.2) (stepL4_eq V c t _ _ _ _))
  · exact (congrArg (fun x => x.2.2) (stAt4_M V c t h0 h49)).trans (congrArg (fun x => x.2.2) (stepM4_eq V c t _ _ _ _))

/-- The two row outputs at the last point are the two running rows after it. -/
theorem o784_last (c : Dev nD) (t : Fin cfg4.N) (h49 : t.val = 49) :
    (o78At4 V c t).1 = (stAt4 V c t.val t.isLt).2.1 ∧ (o78At4 V c t).2 = (stAt4 V c t.val t.isLt).2.2 := by
  have e1 : o78At4 V c t = rowsL4 V c t (fun h => by have := (hcondFirst4 t).mp h; omega) ((hcondLast4 t).mpr h49) (stAt4 V c (t.val - 1) (Nat.lt_of_le_of_lt (Nat.sub_le _ _) t.isLt)).2.1 (stAt4 V c (t.val - 1) (Nat.lt_of_le_of_lt (Nat.sub_le _ _) t.isLt)).2.2 := by
    unfold o78At4; exact dif_pos h49
  rw [e1, rowsL4_eq, stAt4_L V c t h49, stepL4_eq]
  exact ⟨rfl, rfl⟩

/-! ## The running rows as sums over the rows seen so far -/

/-- At column q the first running row after point t is the row before it plus the column sums of H over the point's rows;
    after the first point, those sums alone. -/
theorem sum_first4 (c : Dev nD) (t : Fin cfg4.N) (h0 : t.val = 0) (q : Fin 128) :
    ((stAt4 V c t.val t.isLt).2.1 : S1x128.Idx → EReal) (ix2 (0 : Fin 1) q) = ∑ p : Fin 2000, HH (V c main_v79) (V c main_v101) (V c main_v81) (V c main_v102) (V c main_v85) (V c main_v103) (rowAt4 t p) q :=
  (congrFun (st4_sum_F V c t h0) (ix2 (0 : Fin 1) q)).trans
    ((KerPay.sum_firstP4 (iblk4 V c 0 t) (iblk4 V c 1 t) (iblk4 V c 2 t) (iblk4 V c 3 t) (iblk4 V c 4 t) (iblk4 V c 5 t) q).trans (Finset.sum_congr rfl fun p _ => blockH4 V c t p q))

theorem sum_step4 (c : Dev nD) (t : Fin cfg4.N) (h0 : t.val ≠ 0) (q : Fin 128) :
    ((stAt4 V c t.val t.isLt).2.1 : S1x128.Idx → EReal) (ix2 (0 : Fin 1) q)
      = ((stAt4 V c (t.val - 1) (Nat.lt_of_le_of_lt (Nat.sub_le _ _) t.isLt)).2.1 : S1x128.Idx → EReal) (ix2 (0 : Fin 1) q) + ∑ p : Fin 2000, HH (V c main_v79) (V c main_v101) (V c main_v81) (V c main_v102) (V c main_v85) (V c main_v103) (rowAt4 t p) q :=
  (congrFun (st4_sum_S V c t h0) (ix2 (0 : Fin 1) q)).trans
    ((KerPay.sum_stepP4 (iblk4 V c 0 t) (iblk4 V c 1 t) (iblk4 V c 2 t) (iblk4 V c 3 t) (iblk4 V c 4 t) (iblk4 V c 5 t) (stAt4 V c (t.val - 1) (Nat.lt_of_le_of_lt (Nat.sub_le _ _) t.isLt)).2.1 q).trans
      (congrArg (fun s => ((stAt4 V c (t.val - 1) (Nat.lt_of_le_of_lt (Nat.sub_le _ _) t.isLt)).2.1 : S1x128.Idx → EReal) (ix2 (0 : Fin 1) q) + s) (Finset.sum_congr rfl fun p _ => blockH4 V c t p q)))

theorem sq_first4 (c : Dev nD) (t : Fin cfg4.N) (h0 : t.val = 0) (q : Fin 128) :
    ((stAt4 V c t.val t.isLt).2.2 : S1x128.Idx → EReal) (ix2 (0 : Fin 1) q)
      = ∑ p : Fin 2000, HH (V c main_v79) (V c main_v101) (V c main_v81) (V c main_v102) (V c main_v85) (V c main_v103) (rowAt4 t p) q * HH (V c main_v79) (V c main_v101) (V c main_v81) (V c main_v102) (V c main_v85) (V c main_v103) (rowAt4 t p) q :=
  (congrFun (st4_sq_F V c t h0) (ix2 (0 : Fin 1) q)).trans
    ((KerPay.sq_firstP4 (iblk4 V c 0 t) (iblk4 V c 1 t) (iblk4 V c 2 t) (iblk4 V c 3 t) (iblk4 V c 4 t) (iblk4 V c 5 t) q).trans (Finset.sum_congr rfl fun p _ => by rw [blockH4 V c t p q]))

theorem sq_step4 (c : Dev nD) (t : Fin cfg4.N) (h0 : t.val ≠ 0) (q : Fin 128) :
    ((stAt4 V c t.val t.isLt).2.2 : S1x128.Idx → EReal) (ix2 (0 : Fin 1) q)
      = ((stAt4 V c (t.val - 1) (Nat.lt_of_le_of_lt (Nat.sub_le _ _) t.isLt)).2.2 : S1x128.Idx → EReal) (ix2 (0 : Fin 1) q)
        + ∑ p : Fin 2000, HH (V c main_v79) (V c main_v101) (V c main_v81) (V c main_v102) (V c main_v85) (V c main_v103) (rowAt4 t p) q * HH (V c main_v79) (V c main_v101) (V c main_v81) (V c main_v102) (V c main_v85) (V c main_v103) (rowAt4 t p) q :=
  (congrFun (st4_sq_S V c t h0) (ix2 (0 : Fin 1) q)).trans
    ((KerPay.sq_stepP4 (iblk4 V c 0 t) (iblk4 V c 1 t) (iblk4 V c 2 t) (iblk4 V c 3 t) (iblk4 V c 4 t) (iblk4 V c 5 t) (stAt4 V c (t.val - 1) (Nat.lt_of_le_of_lt (Nat.sub_le _ _) t.isLt)).2.2 q).trans
      (congrArg (fun s => ((stAt4 V c (t.val - 1) (Nat.lt_of_le_of_lt (Nat.sub_le _ _) t.isLt)).2.2 : S1x128.Idx → EReal) (ix2 (0 : Fin 1) q) + s)
        (Finset.sum_congr rfl fun p _ => by rw [blockH4 V c t p q])))

/-- The step equations with the point given by its number, and the totals after the last point. -/

theorem sum_zero4 (c : Dev nD) (h : 0 < cfg4.N) (q : Fin 128) :
    ((stAt4 V c 0 h).2.1 : S1x128.Idx → EReal) (ix2 (0 : Fin 1) q)
      = ∑ p : Fin 2000, HH (V c main_v79) (V c main_v101) (V c main_v81) (V c main_v102) (V c main_v85) (V c main_v103) (BlockSum.rowOf h50 ⟨0, lt_of_lt_of_eq h N_4⟩ p) q := by
  have e := sum_first4 V c ⟨0, h⟩ rfl q
  dsimp only at e
  exact e

theorem sum_succ4 (c : Dev nD) (k : ℕ) (hk : k + 1 < cfg4.N) (q : Fin 128) :
    ((stAt4 V c (k + 1) hk).2.1 : S1x128.Idx → EReal) (ix2 (0 : Fin 1) q)
      = ((stAt4 V c k (Nat.lt_of_succ_lt hk)).2.1 : S1x128.Idx → EReal) (ix2 (0 : Fin 1) q)
        + ∑ p : Fin 2000, HH (V c main_v79) (V c main_v101) (V c main_v81) (V c main_v102) (V c main_v85) (V c main_v103) (BlockSum.rowOf h50 ⟨k + 1, lt_of_lt_of_eq hk N_4⟩ p) q := by
  have e := sum_step4 V c ⟨k + 1, hk⟩ (Nat.succ_ne_zero k) q
  dsimp only at e
  rw [stAt4_irrel V c (k + 1 - 1) k (Nat.add_sub_cancel k 1) _ (Nat.lt_of_succ_lt hk)] at e
  exact e

/-- After the last point the running row holds the sums over all 100000 rows. -/
theorem sum_total4 (c : Dev nD) (q : Fin 128) (h : 49 < cfg4.N) :
    ((stAt4 V c 49 h).2.1 : S1x128.Idx → EReal) (ix2 (0 : Fin 1) q) = Spec.colSum (HH (V c main_v79) (V c main_v101) (V c main_v81) (V c main_v102) (V c main_v85) (V c main_v103)) q := by
  have h0 : ∀ hz : 0 < cfg4.N, ((stAt4 V c 0 hz).2.1 : S1x128.Idx → EReal) (ix2 (0 : Fin 1) q)
      = ∑ p : Fin 2000, HH (V c main_v79) (V c main_v101) (V c main_v81) (V c main_v102) (V c main_v85) (V c main_v103) (BlockSum.rowOf h50 ⟨0, lt_of_lt_of_eq hz N_4⟩ p) q := fun hz => sum_zero4 V c hz q
  have hs : ∀ (k : ℕ) (hk : k + 1 < cfg4.N), ((stAt4 V c (k + 1) hk).2.1 : S1x128.Idx → EReal) (ix2 (0 : Fin 1) q)
      = ((stAt4 V c k (Nat.lt_of_succ_lt hk)).2.1 : S1x128.Idx → EReal) (ix2 (0 : Fin 1) q)
        + ∑ p : Fin 2000, HH (V c main_v79) (V c main_v101) (V c main_v81) (V c main_v102) (V c main_v85) (V c main_v103) (BlockSum.rowOf h50 ⟨k + 1, lt_of_lt_of_eq hk N_4⟩ p) q := fun k hk => sum_succ4 V c k hk q
  revert h h0 hs
  generalize stAt4 V c = S
  intro h h0 hs
  have key := SpecBlocks.colSum_of_running h50 (HH (V c main_v79) (V c main_v101) (V c main_v81) (V c main_v102) (V c main_v85) (V c main_v103)) q
    (fun n hn => ((S n (lt_of_lt_of_eq hn N_4.symm)).2.1 : S1x128.Idx → EReal) (ix2 (0 : Fin 1) q))
    (fun hk => h0 (lt_of_lt_of_eq hk N_4.symm)) (fun k hk => hs k (lt_of_lt_of_eq hk N_4.symm))
  exact key

theorem sq_zero4 (c : Dev nD) (h : 0 < cfg4.N) (q : Fin 128) :
    ((stAt4 V c 0 h).2.2 : S1x128.Idx → EReal) (ix2 (0 : Fin 1) q)
      = ∑ p : Fin 2000, HH (V c main_v79) (V c main_v101) (V c main_v81) (V c main_v102) (V c main_v85) (V c main_v103) (BlockSum.rowOf h50 ⟨0, lt_of_lt_of_eq h N_4⟩ p) q * HH (V c main_v79) (V c main_v101) (V c main_v81) (V c main_v102) (V c main_v85) (V c main_v103) (BlockSum.rowOf h50 ⟨0, lt_of_lt_of_eq h N_4⟩ p) q := by
  have e := sq_first4 V c ⟨0, h⟩ rfl q
  dsimp only at e
  exact e

theorem sq_succ4 (c : Dev nD) (k : ℕ) (hk : k + 1 < cfg4.N) (q : Fin 128) :
    ((stAt4 V c (k + 1) hk).2.2 : S1x128.Idx → EReal) (ix2 (0 : Fin 1) q)
      = ((stAt4 V c k (Nat.lt_of_succ_lt hk)).2.2 : S1x128.Idx → EReal) (ix2 (0 : Fin 1) q)
        + ∑ p : Fin 2000, HH (V c main_v79) (V c main_v101) (V c main_v81) (V c main_v102) (V c main_v85) (V c main_v103) (BlockSum.rowOf h50 ⟨k + 1, lt_of_lt_of_eq hk N_4⟩ p) q * HH (V c main_v79) (V c main_v101) (V c main_v81) (V c main_v102) (V c main_v85) (V c main_v103) (BlockSum.rowOf h50 ⟨k + 1, lt_of_lt_of_eq hk N_4⟩ p) q := by
  have e := sq_step4 V c ⟨k + 1, hk⟩ (Nat.succ_ne_zero k) q
  dsimp only at e
  rw [stAt4_irrel V c (k + 1 - 1) k (Nat.add_sub_cancel k 1) _ (Nat.lt_of_succ_lt hk)] at e
  exact e

/-- After the last point the running row holds the sums over all 100000 rows. -/
theorem sq_total4 (c : Dev nD) (q : Fin 128) (h : 49 < cfg4.N) :
    ((stAt4 V c 49 h).2.2 : S1x128.Idx → EReal) (ix2 (0 : Fin 1) q) = Spec.colSumSq (HH (V c main_v79) (V c main_v101) (V c main_v81) (V c main_v102) (V c main_v85) (V c main_v103)) q := by
  have h0 : ∀ hz : 0 < cfg4.N, ((stAt4 V c 0 hz).2.2 : S1x128.Idx → EReal) (ix2 (0 : Fin 1) q)
      = ∑ p : Fin 2000, HH (V c main_v79) (V c main_v101) (V c main_v81) (V c main_v102) (V c main_v85) (V c main_v103) (BlockSum.rowOf h50 ⟨0, lt_of_lt_of_eq hz N_4⟩ p) q * HH (V c main_v79) (V c main_v101) (V c main_v81) (V c main_v102) (V c main_v85) (V c main_v103) (BlockSum.rowOf h50 ⟨0, lt_of_lt_of_eq hz N_4⟩ p) q := fun hz => sq_zero4 V c hz q
  have hs : ∀ (k : ℕ) (hk : k + 1 < cfg4.N), ((stAt4 V c (k + 1) hk).2.2 : S1x128.Idx → EReal) (ix2 (0 : Fin 1) q)
      = ((stAt4 V c k (Nat.lt_of_succ_lt hk)).2.2 : S1x128.Idx → EReal) (ix2 (0 : Fin 1) q)
        + ∑ p : Fin 2000, HH (V c main_v79) (V c main_v101) (V c main_v81) (V c main_v102) (V c main_v85) (V c main_v103) (BlockSum.rowOf h50 ⟨k + 1, lt_of_lt_of_eq hk N_4⟩ p) q * HH (V c main_v79) (V c main_v101) (V c main_v81) (V c main_v102) (V c main_v85) (V c main_v103) (BlockSum.rowOf h50 ⟨k + 1, lt_of_lt_of_eq hk N_4⟩ p) q := fun k hk => sq_succ4 V c k hk q
  revert h h0 hs
  generalize stAt4 V c = S
  intro h h0 hs
  have key := SpecBlocks.colSumSq_of_running h50 (HH (V c main_v79) (V c main_v101) (V c main_v81) (V c main_v102) (V c main_v85) (V c main_v103)) q
    (fun n hn => ((S n (lt_of_lt_of_eq hn N_4.symm)).2.2 : S1x128.Idx → EReal) (ix2 (0 : Fin 1) q))
    (fun hk => h0 (lt_of_lt_of_eq hk N_4.symm)) (fun k hk => hs k (lt_of_lt_of_eq hk N_4.symm))
  exact key

/-- The same at the last point under its own name. -/
theorem sum_last4 (c : Dev nD) (t : Fin cfg4.N) (h49 : t.val = 49) (q : Fin 128) :
    ((stAt4 V c t.val t.isLt).2.1 : S1x128.Idx → EReal) (ix2 (0 : Fin 1) q) = Spec.colSum (HH (V c main_v79) (V c main_v101) (V c main_v81) (V c main_v102) (V c main_v85) (V c main_v103)) q := by
  rw [stAt4_irrel V c t.val 49 h49 t.isLt (lt_of_eq_of_lt h49.symm t.isLt)]
  exact sum_total4 V c q _

theorem sq_last4 (c : Dev nD) (t : Fin cfg4.N) (h49 : t.val = 49) (q : Fin 128) :
    ((stAt4 V c t.val t.isLt).2.2 : S1x128.Idx → EReal) (ix2 (0 : Fin 1) q) = Spec.colSumSq (HH (V c main_v79) (V c main_v101) (V c main_v81) (V c main_v102) (V c main_v85) (V c main_v103)) q := by
  rw [stAt4_irrel V c t.val 49 h49 t.isLt (lt_of_eq_of_lt h49.symm t.isLt)]
  exact sq_total4 V c q _

/-! ## The output array of hidden features -/

theorem flushed4_6_eq (c : Dev nD) (t : Fin cfg4.N) :
    (dat4 V c).flushed 6 t = ((cfg4.win 6).blk t).view.read (Elt Ideal) (GH (V c main_v79) (V c main_v101) (V c main_v81) (V c main_v102) (V c main_v85) (V c main_v103)) := by
  show (cfg4.win 6).cut (grid4.coords t) ((dat4 V c).after 6 t) = _
  rw [after4_6, st4_fst V c t]
  obtain ⟨e00, e01, e10, e11, e20, e21, e30, e31, e40, e41, e50, e51, e60, e61, e70, e71, e80, e81⟩ := idx_facts4 t
  funext j
  obtain ⟨p, q, rfl⟩ : ∃ (p : Fin 2000) (q : Fin 128), j = ix2 p q := ⟨j 0, j 1, eq_ix2 j⟩
  show k4_pay5 (F := Ideal) (iblk4 V c 0 t) (iblk4 V c 1 t) (iblk4 V c 2 t) (iblk4 V c 3 t) (iblk4 V c 4 t) (iblk4 V c 5 t) (ix2 p q) = GH (V c main_v79) (V c main_v101) (V c main_v81) (V c main_v102) (V c main_v85) (V c main_v103) (((cfg4.win 6).blk t).view.emb (ix2 p q))
  refine (blockH4 V c t p q).trans ?_
  refine GH_at (V c main_v79) (V c main_v101) (V c main_v81) (V c main_v102) (V c main_v85) (V c main_v103) (((cfg4.win 6).blk t).view.emb (ix2 p q)) (rowAt4 t p) q (Fin.ext ?_) (Fin.ext ?_)
  · show win4_6.index t (0 : Fin 2) * 2000 + 1 * p.val = t.val * 2000 + p.val; omega
  · show win4_6.index t (1 : Fin 2) * 128 + 1 * q.val = q.val; omega

theorem mem_blk4_6 (t : Fin cfg4.N) (i : S100000x128.Idx) :
    i ∈ ((cfg4.win 6).blk t).view.set ↔ ∀ a : Fin 2, win4_6.index t a * S2000x128.size a ≤ (i a).val ∧ (i a).val < win4_6.index t a * S2000x128.size a + S2000x128.size a := by
  show i ∈ ((View.whole main_v104_0).slice (win4_6.rect t)).set ↔ _
  rw [View.set_slice_whole, Rect.mem_set_unit]
  exact Iff.rfl

theorem tiles4_6 (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  have hN : cfg4.N = 50 := N_4
  refine ⟨⟨(i 0).val / 2000, by rw [hN]; omega⟩, flush4_6 _, ?_⟩
  rw [mem_blk4_6]
  obtain ⟨e00, e01, e10, e11, e20, e21, e30, e31, e40, e41, e50, e51, e60, e61, e70, e71, e80, e81⟩ := idx_facts4 ⟨(i 0).val / 2000, by rw [hN]; omega⟩
  intro a
  match a with
  | ⟨0, _⟩ =>
    show win4_6.index _ (0 : Fin 2) * 2000 ≤ (i 0).val ∧ (i 0).val < win4_6.index _ (0 : Fin 2) * 2000 + 2000
    rw [e60]; show (i 0).val / 2000 * 2000 ≤ (i 0).val ∧ (i 0).val < (i 0).val / 2000 * 2000 + 2000; omega
  | ⟨1, _⟩ =>
    show win4_6.index _ (1 : Fin 2) * 128 ≤ (i 1).val ∧ (i 1).val < win4_6.index _ (1 : Fin 2) * 128 + 128
    rw [e61]; omega

/-- The array of hidden features after the region is H of the input arrays as the region finds them. -/
theorem final4_6 (c : Dev nD) : (dat4 V c).arrAt 6 cfg4.N = GH (V c main_v79) (V c main_v101) (V c main_v81) (V c main_v102) (V c main_v85) (V c main_v103) :=
  (dat4 V c).arrAt_eq_of_cover 6 _ (fun t _ => flushed4_6_eq V c t) tiles4_6

theorem final4_6_apply (c : Dev nD) (r : Fin 100000) (j : Fin 128) :
    (dat4 V c).arrAt 6 cfg4.N (ix2 r j) = HH (V c main_v79) (V c main_v101) (V c main_v81) (V c main_v102) (V c main_v85) (V c main_v103) r j :=
  congrFun (final4_6 V c) (ix2 r j)

/-! ## The two row outputs -/

theorem mem_blk4_7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v104_1).slice (win4_7.rect t)).set ↔ _
  rw [View.set_slice_whole, Rect.mem_set_unit]
  exact Iff.rfl

theorem mem_blk4_8 (t : Fin cfg4.N) (i : S1x128.Idx) :
    i ∈ ((cfg4.win 8).blk t).view.set ↔ ∀ a : Fin 2, win4_8.index t a * S1x128.size a ≤ (i a).val ∧ (i a).val < win4_8.index t a * S1x128.size a + S1x128.size a := by
  show i ∈ ((View.whole main_v104_2).slice (win4_8.rect t)).set ↔ _
  rw [View.set_slice_whole, Rect.mem_set_unit]
  exact Iff.rfl

set_option maxRecDepth 200000 in
theorem flushed4_7_eq (c : Dev nD) (t : Fin cfg4.N) (hf : (cfg4.win 7).flush t = true) :
    (dat4 V c).flushed 7 t = ((cfg4.win 7).blk t).view.read (Elt Ideal) (GS (HH (V c main_v79) (V c main_v101) (V c main_v81) (V c main_v102) (V c main_v85) (V c main_v103))) := by
  have h49 : t.val = 49 := by have := (flush4_7 t).mp hf; have := pt_lt4 t; omega
  show (cfg4.win 7).cut (grid4.coords t) ((dat4 V c).after 7 t) = _
  rw [after4_7, (o784_last V c t h49).1]
  obtain ⟨e00, e01, e10, e11, e20, e21, e30, e31, e40, e41, e50, e51, e60, e61, e70, e71, e80, e81⟩ := idx_facts4 t
  funext j
  obtain ⟨u, q, rfl⟩ : ∃ (u : Fin 1) (q : Fin 128), j = ix2 u q := ⟨j 0, j 1, eq_ix2 j⟩
  obtain rfl : u = 0 := Subsingleton.elim _ _
  show ((stAt4 V c t.val t.isLt).2.1 : S1x128.Idx → EReal) (ix2 (0 : Fin 1) q) = GS (HH (V c main_v79) (V c main_v101) (V c main_v81) (V c main_v102) (V c main_v85) (V c main_v103)) (((cfg4.win 7).blk t).view.emb (ix2 (0 : Fin 1) q))
  refine (sum_last4 V c t h49 q).trans (GS_at (HH (V c main_v79) (V c main_v101) (V c main_v81) (V c main_v102) (V c main_v85) (V c main_v103)) _ q (Fin.ext ?_))
  show win4_7.index t (1 : Fin 2) * 128 + 1 * q.val = q.val; omega

set_option maxRecDepth 200000 in
theorem flushed4_8_eq (c : Dev nD) (t : Fin cfg4.N) (hf : (cfg4.win 8).flush t = true) :
    (dat4 V c).flushed 8 t = ((cfg4.win 8).blk t).view.read (Elt Ideal) (GQ (HH (V c main_v79) (V c main_v101) (V c main_v81) (V c main_v102) (V c main_v85) (V c main_v103))) := by
  have h49 : t.val = 49 := by have := (flush4_8 t).mp hf; have := pt_lt4 t; omega
  show (cfg4.win 8).cut (grid4.coords t) ((dat4 V c).after 8 t) = _
  rw [after4_8, (o784_last V c t h49).2]
  obtain ⟨e00, e01, e10, e11, e20, e21, e30, e31, e40, e41, e50, e51, e60, e61, e70, e71, e80, e81⟩ := idx_facts4 t
  funext j
  obtain ⟨u, q, rfl⟩ : ∃ (u : Fin 1) (q : Fin 128), j = ix2 u q := ⟨j 0, j 1, eq_ix2 j⟩
  obtain rfl : u = 0 := Subsingleton.elim _ _
  show ((stAt4 V c t.val t.isLt).2.2 : S1x128.Idx → EReal) (ix2 (0 : Fin 1) q) = GQ (HH (V c main_v79) (V c main_v101) (V c main_v81) (V c main_v102) (V c main_v85) (V c main_v103)) (((cfg4.win 8).blk t).view.emb (ix2 (0 : Fin 1) q))
  refine (sq_last4 V c t h49 q).trans (GQ_at (HH (V c main_v79) (V c main_v101) (V c main_v81) (V c main_v102) (V c main_v85) (V c main_v103)) _ q (Fin.ext ?_))
  show win4_8.index t (1 : Fin 2) * 128 + 1 * q.val = q.val; omega

theorem tiles4_7 (i : S1x128.Idx) : ∃ t : Fin cfg4.N, (cfg4.win 7).flush t = true ∧ i ∈ ((cfg4.win 7).blk t).view.set := by
  have hi0 : (i 0).val < 1 := (i 0).isLt
  have hi1 : (i 1).val < 128 := (i 1).isLt
  have hN : cfg4.N = 50 := N_4
  refine ⟨⟨49, by rw [hN]; omega⟩, (flush4_7 _).mpr rfl, ?_⟩
  rw [mem_blk4_7]
  obtain ⟨e00, e01, e10, e11, e20, e21, e30, e31, e40, e41, e50, e51, e60, e61, e70, e71, e80, e81⟩ := idx_facts4 ⟨49, by rw [hN]; omega⟩
  intro a
  match a with
  | ⟨0, _⟩ =>
    show win4_7.index _ (0 : Fin 2) * 1 ≤ (i 0).val ∧ (i 0).val < win4_7.index _ (0 : Fin 2) * 1 + 1
    rw [e70]; omega
  | ⟨1, _⟩ =>
    show win4_7.index _ (1 : Fin 2) * 128 ≤ (i 1).val ∧ (i 1).val < win4_7.index _ (1 : Fin 2) * 128 + 128
    rw [e71]; omega

theorem tiles4_8 (i : S1x128.Idx) : ∃ t : Fin cfg4.N, (cfg4.win 8).flush t = true ∧ i ∈ ((cfg4.win 8).blk t).view.set := by
  have hi0 : (i 0).val < 1 := (i 0).isLt
  have hi1 : (i 1).val < 128 := (i 1).isLt
  have hN : cfg4.N = 50 := N_4
  refine ⟨⟨49, by rw [hN]; omega⟩, (flush4_8 _).mpr rfl, ?_⟩
  rw [mem_blk4_8]
  obtain ⟨e00, e01, e10, e11, e20, e21, e30, e31, e40, e41, e50, e51, e60, e61, e70, e71, e80, e81⟩ := idx_facts4 ⟨49, by rw [hN]; omega⟩
  intro a
  match a with
  | ⟨0, _⟩ =>
    show win4_8.index _ (0 : Fin 2) * 1 ≤ (i 0).val ∧ (i 0).val < win4_8.index _ (0 : Fin 2) * 1 + 1
    rw [e80]; omega
  | ⟨1, _⟩ =>
    show win4_8.index _ (1 : Fin 2) * 128 ≤ (i 1).val ∧ (i 1).val < win4_8.index _ (1 : Fin 2) * 128 + 128
    rw [e81]; omega

/-- The row of column sums after the region. -/
theorem final4_7 (c : Dev nD) : (dat4 V c).arrAt 7 cfg4.N = GS (HH (V c main_v79) (V c main_v101) (V c main_v81) (V c main_v102) (V c main_v85) (V c main_v103)) :=
  (dat4 V c).arrAt_eq_of_cover 7 _ (fun t hf => flushed4_7_eq V c t hf) tiles4_7

/-- The row of column sums of squares after the region. -/
theorem final4_8 (c : Dev nD) : (dat4 V c).arrAt 8 cfg4.N = GQ (HH (V c main_v79) (V c main_v101) (V c main_v81) (V c main_v102) (V c main_v85) (V c main_v103)) :=
  (dat4 V c).arrAt_eq_of_cover 8 _ (fun t hf => flushed4_8_eq V c t hf) tiles4_8

theorem final4_7_apply (c : Dev nD) (q : Fin 128) :
    (dat4 V c).arrAt 7 cfg4.N (ix2 (0 : Fin 1) q) = Spec.colSum (HH (V c main_v79) (V c main_v101) (V c main_v81) (V c main_v102) (V c main_v85) (V c main_v103)) q :=
  congrFun (final4_7 V c) (ix2 (0 : Fin 1) q)

theorem final4_8_apply (c : Dev nD) (q : Fin 128) :
    (dat4 V c).arrAt 8 cfg4.N (ix2 (0 : Fin 1) q) = Spec.colSumSq (HH (V c main_v79) (V c main_v101) (V c main_v81) (V c main_v102) (V c main_v85) (V c main_v103)) q :=
  congrFun (final4_8 V c) (ix2 (0 : Fin 1) q)

end Cert.KerVal

end
-- ==== Proof.KerPayNorm.lean ====
/-
  The normalisation kernel's one stored value, read at an entry.

  The body of each normalisation region loads a block h of 2000 rows and four rows (mean, variance, scale, shift),
  and stores (h - mean) * rsqrt (variance + eps) * scale + shift, each row broadcast over the 2000 rows of the
  block. At the exact values, entry (p, q) of that block is therefore
      (h (p, q) - mean (0, q)) * rsqrt (variance (0, q) + eps) * scale (0, q) + shift (0, q),
  which is the specification's normalizeWith of the block and the four rows. The three regions print the same
  text, so the three payloads are one function.
-/
import proofs.«100772_j6322191859838_1_alg».proof.Proof.Gen.KernelIdeal.Skeleton
import proofs.«100772_j6322191859838_1_alg».proof.Proof.Spec
import proofs.«100772_j6322191859838_1_alg».proof.Proof.LibMatmulPlain
import proofs.«100772_j6322191859838_1_alg».proof.Proof.LibDenseLayer
import proofs.«100772_j6322191859838_1_alg».proof.Proof.LibColumnSums
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerPay

open Cert.KernelIdeal Cert.KernelIdeal.Gen
open Idealize.ShloMosaic Idealize.ShloMosaic.ValueIdx

/-- The normalisation payload at entry (p, q). -/
theorem k1_pay1_apply (x0 : Vec Ideal S2000x128 .f32) (x1 x2 x3 x4 : Vec Ideal S1x128 .f32) (p : Fin 2000) (q : Fin 128) :
    k1_pay1 (F := Ideal) x0 x1 x2 x3 x4 (ix2 p q)
      = (x0 (ix2 p q) - x1 (ix2 (0 : Fin 1) q)) * Ideal.rsqrt (x2 (ix2 (0 : Fin 1) q) + Ideal.ofBits .f32 0x3727C5AC#32)
          * x3 (ix2 (0 : Fin 1) q) + x4 (ix2 (0 : Fin 1) q) := by
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl

/-- The normalisation payload is the specification's normalizeWith of its five operands. -/
theorem k1_pay1_spec (x0 : Vec Ideal S2000x128 .f32) (x1 x2 x3 x4 : Vec Ideal S1x128 .f32) (p : Fin 2000) (q : Fin 128) :
    k1_pay1 (F := Ideal) x0 x1 x2 x3 x4 (ix2 p q)
      = Spec.normalizeWith (Spec.mat x0) (Spec.row1 x1) (Spec.row1 x2) (Spec.row1 x3) (Spec.row1 x4) p q :=
  k1_pay1_apply x0 x1 x2 x3 x4 p q

/-- The second and third normalisation regions print the first one's text. -/
theorem k3_pay1_eq : @k3_pay1 Ideal _ = @k1_pay1 Ideal _ := rfl
theorem k5_pay1_eq : @k5_pay1 Ideal _ = @k1_pay1 Ideal _ := rfl

theorem k3_pay1_apply (x0 : Vec Ideal S2000x128 .f32) (x1 x2 x3 x4 : Vec Ideal S1x128 .f32) (p : Fin 2000) (q : Fin 128) :
    k3_pay1 (F := Ideal) x0 x1 x2 x3 x4 (ix2 p q)
      = (x0 (ix2 p q) - x1 (ix2 (0 : Fin 1) q)) * Ideal.rsqrt (x2 (ix2 (0 : Fin 1) q) + Ideal.ofBits .f32 0x3727C5AC#32)
          * x3 (ix2 (0 : Fin 1) q) + x4 (ix2 (0 : Fin 1) q) := by
  rw [k3_pay1_eq]; exact k1_pay1_apply x0 x1 x2 x3 x4 p q

theorem k5_pay1_apply (x0 : Vec Ideal S2000x128 .f32) (x1 x2 x3 x4 : Vec Ideal S1x128 .f32) (p : Fin 2000) (q : Fin 128) :
    k5_pay1 (F := Ideal) x0 x1 x2 x3 x4 (ix2 p q)
      = (x0 (ix2 p q) - x1 (ix2 (0 : Fin 1) q)) * Ideal.rsqrt (x2 (ix2 (0 : Fin 1) q) + Ideal.ofBits .f32 0x3727C5AC#32)
          * x3 (ix2 (0 : Fin 1) q) + x4 (ix2 (0 : Fin 1) q) := by
  rw [k5_pay1_eq]; exact k1_pay1_apply x0 x1 x2 x3 x4 p q

theorem k3_pay1_spec (x0 : Vec Ideal S2000x128 .f32) (x1 x2 x3 x4 : Vec Ideal S1x128 .f32) (p : Fin 2000) (q : Fin 128) :
    k3_pay1 (F := Ideal) x0 x1 x2 x3 x4 (ix2 p q)
      = Spec.normalizeWith (Spec.mat x0) (Spec.row1 x1) (Spec.row1 x2) (Spec.row1 x3) (Spec.row1 x4) p q :=
  k3_pay1_apply x0 x1 x2 x3 x4 p q

theorem k5_pay1_spec (x0 : Vec Ideal S2000x128 .f32) (x1 x2 x3 x4 : Vec Ideal S1x128 .f32) (p : Fin 2000) (q : Fin 128) :
    k5_pay1 (F := Ideal) x0 x1 x2 x3 x4 (ix2 p q)
      = Spec.normalizeWith (Spec.mat x0) (Spec.row1 x1) (Spec.row1 x2) (Spec.row1 x3) (Spec.row1 x4) p q :=
  k5_pay1_apply x0 x1 x2 x3 x4 p q

end Cert.KerPay

end
-- ==== Proof.KerValNormCore.lean ====
/-
  The normalised array as one function of a region's five input arrays.

  A normalisation region reads a tall array h : [100000, 128] block by block and four rows mu, v, g, b : [1, 128]
  whole, and writes the block of (h - mu) * rsqrt (v + eps) * g + b. Entry i of the output array is therefore
      (h i - mu (0, col i)) * rsqrt (v (0, col i) + eps) * g (0, col i) + b (0, col i),
  the specification's normalizeWith at i's row and column.
-/
import proofs.«100772_j6322191859838_1_alg».proof.Proof.Gen.KernelIdeal
import proofs.«100772_j6322191859838_1_alg».proof.Proof.Spec
import Idealize.ShloMosaic.Lib.Pipeline.Value
import Idealize.ShloMosaic.Lib.ValueIdx
import Idealize.ShloMosaic.PureOps.Ideal.Laws

noncomputable section

namespace Cert.KerVal

open Cert.KernelIdeal Cert.KernelIdeal.Gen
open Idealize.ShloMosaic Idealize.ShloMosaic.ValueIdx

theorem hz : (![0, 0] : Fin 2 → Nat) = fun _ => 0 := funext fun a => by fin_cases a <;> rfl

/-- The column of an index of the tall array, as a column of a row. -/
abbrev colOf (i : S100000x128.Idx) : Fin 128 := ⟨(i 1).val, idx2_lt1 i⟩

/-- The normalised array as one function of the region's five input arrays. -/
abbrev GN (h : S100000x128.Idx → EReal) (mu v g b : S1x128.Idx → EReal) : S100000x128.Idx → EReal :=
  fun i => (h i - mu (ix2 (0 : Fin 1) (colOf i))) * Ideal.rsqrt (v (ix2 (0 : Fin 1) (colOf i)) + Ideal.ofBits .f32 0x3727C5AC#32)
    * g (ix2 (0 : Fin 1) (colOf i)) + b (ix2 (0 : Fin 1) (colOf i))

/-- The payload's value at a block entry is the array function's value at the entry's place in the array, once
    each operand's block index is the matching array index. -/
theorem GN_at (h : S100000x128.Idx → EReal) (mu v g b : S1x128.Idx → EReal) (i i0 : S100000x128.Idx)
    (i1 i2 i3 i4 : S1x128.Idx) (q : Fin 128) (h0 : i0 = i) (hc : colOf i = q)
    (h1 : i1 = ix2 (0 : Fin 1) q) (h2 : i2 = ix2 (0 : Fin 1) q) (h3 : i3 = ix2 (0 : Fin 1) q) (h4 : i4 = ix2 (0 : Fin 1) q) :
    (h i0 - mu i1) * Ideal.rsqrt (v i2 + Ideal.ofBits .f32 0x3727C5AC#32) * g i3 + b i4 = GN h mu v g b i := by
  subst h0 h1 h2 h3 h4
  show _ = (h i0 - mu (ix2 (0 : Fin 1) (colOf i0))) * Ideal.rsqrt (v (ix2 (0 : Fin 1) (colOf i0)) + Ideal.ofBits .f32 0x3727C5AC#32)
    * g (ix2 (0 : Fin 1) (colOf i0)) + b (ix2 (0 : Fin 1) (colOf i0))
  rw [hc]

/-- At (r, j) the array function is the specification's normalizeWith at row r, column j. -/
theorem GN_apply (h : S100000x128.Idx → EReal) (mu v g b : S1x128.Idx → EReal) (r : Fin 100000) (j : Fin 128) :
    GN h mu v g b (ix2 r j) = Spec.normalizeWith (Spec.mat h) (Spec.row1 mu) (Spec.row1 v) (Spec.row1 g) (Spec.row1 b) r j := rfl

end Cert.KerVal

end
-- ==== Proof.KerValNorm1.lean ====
/-
  The output array of a normalisation region, entry by entry.

  The region's grid has 50 points; point t reads rows 2000 t … 2000 t + 1999 of the activations and the four rows
  whole, and writes back the block of the normalised values. The blocks tile the array (row r lies in the block
  of point r / 2000), so after the region the output array holds, at every entry, the normalisation of the five
  input arrays as the region finds them.
-/
import proofs.«100772_j6322191859838_1_alg».proof.Proof.KI_Norm1
import proofs.«100772_j6322191859838_1_alg».proof.Proof.KerPayNorm
import proofs.«100772_j6322191859838_1_alg».proof.Proof.KerValNormCore
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem idx_facts1 : ∀ t : Fin cfg1.N, win1_0.index t (0 : Fin 2) = win1_5.index t (0 : Fin 2)
    ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val :=
  (by decide +kernel : ∀ t : Fin grid1.N, _)

theorem flushed1_5_eq (c : Dev nD) (t : Fin cfg1.N) :
    (dat1 V c).flushed 5 t = ((cfg1.win 5).blk t).view.read (Elt Ideal)
      (GN (V c main_v28_0) (V c main_v37) (V c main_v38) (V c main_v39) (V c main_v40)) := by
  show (cfg1.win 5).cut (grid1.coords t) ((dat1 V c).after 5 t) = _
  rw [after1_5]
  unfold out1_5
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1, e2, e3, e4, e5, e6, e7, e8, e9, e10, e11⟩ := idx_facts1 t
  show k1_pay1 (F := Ideal) (iblk1 V c 0 t) (iblk1 V c 1 t) (iblk1 V c 2 t) (iblk1 V c 3 t) (iblk1 V c 4 t) (ix2 p q)
    = GN (V c main_v28_0) (V c main_v37) (V c main_v38) (V c main_v39) (V c main_v40) (((cfg1.win 5).blk t).view.emb (ix2 p q))
  have h0 : ((cfg1.win 0).blk t).view.emb (ix2 p q) = ((cfg1.win 5).blk t).view.emb (ix2 p q) := by
    funext a; apply Fin.ext
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * q.val = win1_5.index t (1 : Fin 2) * 128 + 1 * q.val; omega
  have hc : colOf (((cfg1.win 5).blk t).view.emb (ix2 p q)) = q := by
    apply Fin.ext
    show win1_5.index t (1 : Fin 2) * 128 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have h4 : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  exact (KerPay.k1_pay1_apply _ _ _ _ _ p q).trans
    (GN_at (V c main_v28_0) (V c main_v37) (V c main_v38) (V c main_v39) (V c main_v40)
      (((cfg1.win 5).blk t).view.emb (ix2 p q)) (((cfg1.win 0).blk t).view.emb (ix2 p q))
      (((cfg1.win 1).blk t).view.emb (ix2 (0 : Fin 1) q)) (((cfg1.win 2).blk t).view.emb (ix2 (0 : Fin 1) q))
      (((cfg1.win 3).blk t).view.emb (ix2 (0 : Fin 1) q)) (((cfg1.win 4).blk t).view.emb (ix2 (0 : Fin 1) q))
      q h0 hc h1 h2 h3 h4)

/-- An index of the array is in point t's block iff each coordinate is in the block's range on its axis. -/
theorem mem_blk1_5 (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- Every index of the output array lies in the block of the point its row selects. -/
theorem tiles1_5 (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  refine ⟨⟨(i 0).val / 2000, by rw [hN]; omega⟩, flush1_5 _, ?_⟩
  rw [mem_blk1_5]
  obtain ⟨e0, e1, e2, e3, e4, e5, e6, e7, e8, e9, e10, e11⟩ := idx_facts1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e11]; show (i 0).val / 2000 * 2000 ≤ (i 0).val ∧ (i 0).val < (i 0).val / 2000 * 2000 + 2000; omega
  | ⟨1, _⟩ =>
    show win1_5.index _ (1 : Fin 2) * 128 ≤ (i 1).val ∧ (i 1).val < win1_5.index _ (1 : Fin 2) * 128 + 128
    rw [e2]; omega

/-- The output array after the region: the normalisation of the five input arrays as the region finds them. -/
theorem final1_5 (c : Dev nD) :
    (dat1 V c).arrAt 5 cfg1.N = GN (V c main_v28_0) (V c main_v37) (V c main_v38) (V c main_v39) (V c main_v40) :=
  (dat1 V c).arrAt_eq_of_cover 5 _ (fun t _ => flushed1_5_eq V c t) tiles1_5

/-- Entry (r, j) of the output array is the specification's normalizeWith of the input arrays at row r, column j. -/
theorem final1_5_apply (c : Dev nD) (r : Fin 100000) (j : Fin 128) :
    (dat1 V c).arrAt 5 cfg1.N (ix2 r j)
      = Spec.normalizeWith (Spec.mat (V c main_v28_0)) (Spec.row1 (V c main_v37)) (Spec.row1 (V c main_v38))
          (Spec.row1 (V c main_v39)) (Spec.row1 (V c main_v40)) r j := by
  rw [final1_5]
  rfl

end Cert.KerVal

end
-- ==== Proof.KerValNorm3.lean ====
/-
  The output array of a normalisation region, entry by entry.

  The region's grid has 50 points; point t reads rows 2000 t … 2000 t + 1999 of the activations and the four rows
  whole, and writes back the block of the normalised values. The blocks tile the array (row r lies in the block
  of point r / 2000), so after the region the output array holds, at every entry, the normalisation of the five
  input arrays as the region finds them.
-/
import proofs.«100772_j6322191859838_1_alg».proof.Proof.KI_Norm3
import proofs.«100772_j6322191859838_1_alg».proof.Proof.KerPayNorm
import proofs.«100772_j6322191859838_1_alg».proof.Proof.KerValNormCore
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem idx_facts3 : ∀ t : Fin cfg3.N, win3_0.index t (0 : Fin 2) = win3_5.index t (0 : Fin 2)
    ∧ win3_0.index t (1 : Fin 2) = 0 ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val :=
  (by decide +kernel : ∀ t : Fin grid3.N, _)

theorem flushed3_5_eq (c : Dev nD) (t : Fin cfg3.N) :
    (dat3 V c).flushed 5 t = ((cfg3.win 5).blk t).view.read (Elt Ideal)
      (GN (V c main_v66_0) (V c main_v75) (V c main_v76) (V c main_v77) (V c main_v78)) := by
  show (cfg3.win 5).cut (grid3.coords t) ((dat3 V c).after 5 t) = _
  rw [after3_5]
  unfold out3_5
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1, e2, e3, e4, e5, e6, e7, e8, e9, e10, e11⟩ := idx_facts3 t
  show k3_pay1 (F := Ideal) (iblk3 V c 0 t) (iblk3 V c 1 t) (iblk3 V c 2 t) (iblk3 V c 3 t) (iblk3 V c 4 t) (ix2 p q)
    = GN (V c main_v66_0) (V c main_v75) (V c main_v76) (V c main_v77) (V c main_v78) (((cfg3.win 5).blk t).view.emb (ix2 p q))
  have h0 : ((cfg3.win 0).blk t).view.emb (ix2 p q) = ((cfg3.win 5).blk t).view.emb (ix2 p q) := by
    funext a; apply Fin.ext
    match a with
    | ⟨0, _⟩ => show win3_0.index t (0 : Fin 2) * 2000 + 1 * p.val = win3_5.index t (0 : Fin 2) * 2000 + 1 * p.val; omega
    | ⟨1, _⟩ => show win3_0.index t (1 : Fin 2) * 128 + 1 * q.val = win3_5.index t (1 : Fin 2) * 128 + 1 * q.val; omega
  have hc : colOf (((cfg3.win 5).blk t).view.emb (ix2 p q)) = q := by
    apply Fin.ext
    show win3_5.index t (1 : Fin 2) * 128 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have h2 : ((cfg3.win 2).blk t).view.emb (ix2 (0 : Fin 1) q) = ix2 (0 : Fin 1) q := by
    funext a; apply Fin.ext
    match a with
    | ⟨0, _⟩ => show win3_2.index t (0 : Fin 2) * 1 + 1 * 0 = 0; omega
    | ⟨1, _⟩ => show win3_2.index t (1 : Fin 2) * 128 + 1 * q.val = q.val; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 128 + 1 * q.val = q.val; omega
  have h4 : ((cfg3.win 4).blk t).view.emb (ix2 (0 : Fin 1) q) = ix2 (0 : Fin 1) q := by
    funext a; apply Fin.ext
    match a with
    | ⟨0, _⟩ => show win3_4.index t (0 : Fin 2) * 1 + 1 * 0 = 0; omega
    | ⟨1, _⟩ => show win3_4.index t (1 : Fin 2) * 128 + 1 * q.val = q.val; omega
  exact (KerPay.k3_pay1_apply _ _ _ _ _ p q).trans
    (GN_at (V c main_v66_0) (V c main_v75) (V c main_v76) (V c main_v77) (V c main_v78)
      (((cfg3.win 5).blk t).view.emb (ix2 p q)) (((cfg3.win 0).blk t).view.emb (ix2 p q))
      (((cfg3.win 1).blk t).view.emb (ix2 (0 : Fin 1) q)) (((cfg3.win 2).blk t).view.emb (ix2 (0 : Fin 1) q))
      (((cfg3.win 3).blk t).view.emb (ix2 (0 : Fin 1) q)) (((cfg3.win 4).blk t).view.emb (ix2 (0 : Fin 1) q))
      q h0 hc h1 h2 h3 h4)

/-- An index of the array is in point t's block iff each coordinate is in the block's range on its axis. -/
theorem mem_blk3_5 (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v79).slice (win3_5.rect t)).set ↔ _
  rw [View.set_slice_whole, Rect.mem_set_unit]
  exact Iff.rfl

/-- Every index of the output array lies in the block of the point its row selects. -/
theorem tiles3_5 (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 50 := N_3
  refine ⟨⟨(i 0).val / 2000, by rw [hN]; omega⟩, flush3_5 _, ?_⟩
  rw [mem_blk3_5]
  obtain ⟨e0, e1, e2, e3, e4, e5, e6, e7, e8, e9, e10, e11⟩ := idx_facts3 ⟨(i 0).val / 2000, by rw [hN]; omega⟩
  intro a
  match a with
  | ⟨0, _⟩ =>
    show win3_5.index _ (0 : Fin 2) * 2000 ≤ (i 0).val ∧ (i 0).val < win3_5.index _ (0 : Fin 2) * 2000 + 2000
    rw [e11]; show (i 0).val / 2000 * 2000 ≤ (i 0).val ∧ (i 0).val < (i 0).val / 2000 * 2000 + 2000; omega
  | ⟨1, _⟩ =>
    show win3_5.index _ (1 : Fin 2) * 128 ≤ (i 1).val ∧ (i 1).val < win3_5.index _ (1 : Fin 2) * 128 + 128
    rw [e2]; omega

/-- The output array after the region: the normalisation of the five input arrays as the region finds them. -/
theorem final3_5 (c : Dev nD) :
    (dat3 V c).arrAt 5 cfg3.N = GN (V c main_v66_0) (V c main_v75) (V c main_v76) (V c main_v77) (V c main_v78) :=
  (dat3 V c).arrAt_eq_of_cover 5 _ (fun t _ => flushed3_5_eq V c t) tiles3_5

/-- Entry (r, j) of the output array is the specification's normalizeWith of the input arrays at row r, column j. -/
theorem final3_5_apply (c : Dev nD) (r : Fin 100000) (j : Fin 128) :
    (dat3 V c).arrAt 5 cfg3.N (ix2 r j)
      = Spec.normalizeWith (Spec.mat (V c main_v66_0)) (Spec.row1 (V c main_v75)) (Spec.row1 (V c main_v76))
          (Spec.row1 (V c main_v77)) (Spec.row1 (V c main_v78)) r j := by
  rw [final3_5]
  rfl

end Cert.KerVal

end
-- ==== Proof.KerValNorm5.lean ====
/-
  The output array of a normalisation region, entry by entry.

  The region's grid has 50 points; point t reads rows 2000 t … 2000 t + 1999 of the activations and the four rows
  whole, and writes back the block of the normalised values. The blocks tile the array (row r lies in the block
  of point r / 2000), so after the region the output array holds, at every entry, the normalisation of the five
  input arrays as the region finds them.
-/
import proofs.«100772_j6322191859838_1_alg».proof.Proof.KI_Norm5
import proofs.«100772_j6322191859838_1_alg».proof.Proof.KerPayNorm
import proofs.«100772_j6322191859838_1_alg».proof.Proof.KerValNormCore
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem idx_facts5 : ∀ t : Fin cfg5.N, win5_0.index t (0 : Fin 2) = win5_5.index t (0 : Fin 2)
    ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val :=
  (by decide +kernel : ∀ t : Fin grid5.N, _)

theorem flushed5_5_eq (c : Dev nD) (t : Fin cfg5.N) :
    (dat5 V c).flushed 5 t = ((cfg5.win 5).blk t).view.read (Elt Ideal)
      (GN (V c main_v104_0) (V c main_v113) (V c main_v114) (V c main_v115) (V c main_v116)) := by
  show (cfg5.win 5).cut (grid5.coords t) ((dat5 V c).after 5 t) = _
  rw [after5_5]
  unfold out5_5
  rw [View.canon_unit_zero hz]
  simp only [View.ld_unit_zero (S := S2000x128) hz, View.ld_unit_zero (S := S1x128) hz]
  funext j
  obtain ⟨p, q, rfl⟩ : ∃ (p : Fin 2000) (q : Fin 128), j = ix2 p q := ⟨j 0, j 1, eq_ix2 j⟩
  obtain ⟨e0, e1, e2, e3, e4, e5, e6, e7, e8, e9, e10, e11⟩ := idx_facts5 t
  show k5_pay1 (F := Ideal) (iblk5 V c 0 t) (iblk5 V c 1 t) (iblk5 V c 2 t) (iblk5 V c 3 t) (iblk5 V c 4 t) (ix2 p q)
    = GN (V c main_v104_0) (V c main_v113) (V c main_v114) (V c main_v115) (V c main_v116) (((cfg5.win 5).blk t).view.emb (ix2 p q))
  have h0 : ((cfg5.win 0).blk t).view.emb (ix2 p q) = ((cfg5.win 5).blk t).view.emb (ix2 p q) := by
    funext a; apply Fin.ext
    match a with
    | ⟨0, _⟩ => show win5_0.index t (0 : Fin 2) * 2000 + 1 * p.val = win5_5.index t (0 : Fin 2) * 2000 + 1 * p.val; omega
    | ⟨1, _⟩ => show win5_0.index t (1 : Fin 2) * 128 + 1 * q.val = win5_5.index t (1 : Fin 2) * 128 + 1 * q.val; omega
  have hc : colOf (((cfg5.win 5).blk t).view.emb (ix2 p q)) = q := by
    apply Fin.ext
    show win5_5.index t (1 : Fin 2) * 128 + 1 * q.val = q.val; omega
  have h1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 128 + 1 * q.val = q.val; omega
  have h2 : ((cfg5.win 2).blk t).view.emb (ix2 (0 : Fin 1) q) = ix2 (0 : Fin 1) q := by
    funext a; apply Fin.ext
    match a with
    | ⟨0, _⟩ => show win5_2.index t (0 : Fin 2) * 1 + 1 * 0 = 0; omega
    | ⟨1, _⟩ => show win5_2.index t (1 : Fin 2) * 128 + 1 * q.val = q.val; omega
  have h3 : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 128 + 1 * q.val = q.val; omega
  have h4 : ((cfg5.win 4).blk t).view.emb (ix2 (0 : Fin 1) q) = ix2 (0 : Fin 1) q := by
    funext a; apply Fin.ext
    match a with
    | ⟨0, _⟩ => show win5_4.index t (0 : Fin 2) * 1 + 1 * 0 = 0; omega
    | ⟨1, _⟩ => show win5_4.index t (1 : Fin 2) * 128 + 1 * q.val = q.val; omega
  exact (KerPay.k5_pay1_apply _ _ _ _ _ p q).trans
    (GN_at (V c main_v104_0) (V c main_v113) (V c main_v114) (V c main_v115) (V c main_v116)
      (((cfg5.win 5).blk t).view.emb (ix2 p q)) (((cfg5.win 0).blk t).view.emb (ix2 p q))
      (((cfg5.win 1).blk t).view.emb (ix2 (0 : Fin 1) q)) (((cfg5.win 2).blk t).view.emb (ix2 (0 : Fin 1) q))
      (((cfg5.win 3).blk t).view.emb (ix2 (0 : Fin 1) q)) (((cfg5.win 4).blk t).view.emb (ix2 (0 : Fin 1) q))
      q h0 hc h1 h2 h3 h4)

/-- An index of the array is in point t's block iff each coordinate is in the block's range on its axis. -/
theorem mem_blk5_5 (t : Fin cfg5.N) (i : S100000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v117).slice (win5_5.rect t)).set ↔ _
  rw [View.set_slice_whole, Rect.mem_set_unit]
  exact Iff.rfl

/-- Every index of the output array lies in the block of the point its row selects. -/
theorem tiles5_5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 50 := N_5
  refine ⟨⟨(i 0).val / 2000, by rw [hN]; omega⟩, flush5_5 _, ?_⟩
  rw [mem_blk5_5]
  obtain ⟨e0, e1, e2, e3, e4, e5, e6, e7, e8, e9, e10, e11⟩ := idx_facts5 ⟨(i 0).val / 2000, by rw [hN]; omega⟩
  intro a
  match a with
  | ⟨0, _⟩ =>
    show win5_5.index _ (0 : Fin 2) * 2000 ≤ (i 0).val ∧ (i 0).val < win5_5.index _ (0 : Fin 2) * 2000 + 2000
    rw [e11]; show (i 0).val / 2000 * 2000 ≤ (i 0).val ∧ (i 0).val < (i 0).val / 2000 * 2000 + 2000; omega
  | ⟨1, _⟩ =>
    show win5_5.index _ (1 : Fin 2) * 128 ≤ (i 1).val ∧ (i 1).val < win5_5.index _ (1 : Fin 2) * 128 + 128
    rw [e2]; omega

/-- The output array after the region: the normalisation of the five input arrays as the region finds them. -/
theorem final5_5 (c : Dev nD) :
    (dat5 V c).arrAt 5 cfg5.N = GN (V c main_v104_0) (V c main_v113) (V c main_v114) (V c main_v115) (V c main_v116) :=
  (dat5 V c).arrAt_eq_of_cover 5 _ (fun t _ => flushed5_5_eq V c t) tiles5_5

/-- Entry (r, j) of the output array is the specification's normalizeWith of the input arrays at row r, column j. -/
theorem final5_5_apply (c : Dev nD) (r : Fin 100000) (j : Fin 128) :
    (dat5 V c).arrAt 5 cfg5.N (ix2 r j)
      = Spec.normalizeWith (Spec.mat (V c main_v104_0)) (Spec.row1 (V c main_v113)) (Spec.row1 (V c main_v114))
          (Spec.row1 (V c main_v115)) (Spec.row1 (V c main_v116)) r j := by
  rw [final5_5]
  rfl

end Cert.KerVal

end
-- ==== Proof.KerGlue.lean ====
/-
  The host's mean row and variance row between the two kernels of a layer, read at a column.

  After the dense region the host takes the row s of column sums and the row ssq of column sums of squares (each a
  [1, 128] array), reshapes each to 128 numbers, divides each by the float word for 100000 splat over the 128
  columns, and forms
      mean = s / n,      var = ssq / n - mean * mean,
  then reshapes both back to one row of a [1, 128] array for the normalisation region. At column q the mean row is
  s (0, q) / n and the variance row ssq (0, q) / n - (s (0, q) / n) * (s (0, q) / n), the quotient the exact
  instance's division. When s and ssq are the column sums and the column sums of squares of a matrix h, these are
  the specification's mean and its variance in the form "mean of the squares less the squared mean".
-/
import proofs.«100772_j6322191859838_1_alg».proof.Proof.Gen.KernelIdeal
import proofs.«100772_j6322191859838_1_alg».proof.Proof.Spec
import proofs.«100772_j6322191859838_1_alg».proof.Proof.LibHostLayout
import proofs.«100772_j6322191859838_1_alg».proof.Proof.KerPayMlp
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KerGlue

open Cert.KernelIdeal Cert.KernelIdeal.Gen
open Idealize.ShloMosaic Idealize.ShloMosaic.ValueIdx

/-- The one row of a [1, b] array reshaped to b numbers reads, at q, the row at (0, q). -/
theorem shapeCast_1b_b_apply {α : Type} {b : ℕ} (v : (⟨2, ![1, b]⟩ : Shape).Idx → α)
    (h : (⟨2, ![1, b]⟩ : Shape).ShapeCasts ⟨1, ![b]⟩) (q : Fin b) :
    shapeCast ⟨1, ![b]⟩ v h (ix1 q) = v (ix2 (0 : Fin 1) q) :=
  shapeCast_apply v h _ _ (by
    rw [Shape.rowMajor_val_two, Shape.rowMajor_val_one]
    show 0 * b + q.val = q.val
    rw [Nat.zero_mul, Nat.zero_add])

/-- The float word for the number of rows. -/
abbrev nWord : EReal := Ideal.ofBits .f32 0x47C35000#32

/-- The host's quotient of a [1, 128] row by the splat word, as 128 numbers, at column q. -/
theorem host_quot_apply (s : FVec Ideal S1x128 .f32) (q : Fin 128) :
    Host.divf (shapeCast S128 s shapeCasts_S1x128_S128)
        (broadcastInDim S128 ![] bcast_S_S128 (constant (F := Ideal) S_ .f32 0x47C35000#32)) (ix1 q)
      = Ideal.div (s (ix2 (0 : Fin 1) q)) nWord := by
  rw [hostDivf_apply, shapeCast_1b_b_apply, HostLayout.bid_scalar_apply, constant_apply]

/-- The host's mean row at column q. -/
theorem host_mean_apply (s : FVec Ideal S1x128 .f32) (q : Fin 128) :
    shapeCast S1x128 (Host.divf (shapeCast S128 s shapeCasts_S1x128_S128)
        (broadcastInDim S128 ![] bcast_S_S128 (constant (F := Ideal) S_ .f32 0x47C35000#32))) shapeCasts_S128_S1x128
        (ix2 (0 : Fin 1) q)
      = Ideal.div (s (ix2 (0 : Fin 1) q)) nWord := by
  rw [KerPay.shapeCast_b_1b_apply, host_quot_apply]

/-- The host's variance row at column q: the quotient of the sums of squares less the squared mean. -/
theorem host_var_apply (s ssq : FVec Ideal S1x128 .f32) (q : Fin 128) :
    shapeCast S1x128
        (subf
          (Host.divf (shapeCast S128 ssq shapeCasts_S1x128_S128)
            (broadcastInDim S128 ![] bcast_S_S128 (constant (F := Ideal) S_ .f32 0x47C35000#32)))
          (mulf
            (Host.divf (shapeCast S128 s shapeCasts_S1x128_S128)
              (broadcastInDim S128 ![] bcast_S_S128 (constant (F := Ideal) S_ .f32 0x47C35000#32)))
            (Host.divf (shapeCast S128 s shapeCasts_S1x128_S128)
              (broadcastInDim S128 ![] bcast_S_S128 (constant (F := Ideal) S_ .f32 0x47C35000#32)))))
        shapeCasts_S128_S1x128 (ix2 (0 : Fin 1) q)
      = Ideal.div (ssq (ix2 (0 : Fin 1) q)) nWord
          - Ideal.div (s (ix2 (0 : Fin 1) q)) nWord * Ideal.div (s (ix2 (0 : Fin 1) q)) nWord := by
  rw [KerPay.shapeCast_b_1b_apply, subf_apply, mulf_apply, host_quot_apply, host_quot_apply]

variable {n : ℕ}

/-- With s the column sums of h, the mean row is the specification's mean. -/
theorem mean_of_sums (h : Spec.Mat n 128) (s : FVec Ideal S1x128 .f32) (q : Fin 128)
    (hs : s (ix2 (0 : Fin 1) q) = Spec.colSum h q) :
    Ideal.div (s (ix2 (0 : Fin 1) q)) nWord = Spec.mean h q := by
  rw [hs]; rfl

/-- With s, ssq the column sums and column sums of squares of h, the variance row is the specification's
    variance in the form the kernel computes. -/
theorem var_of_sums (h : Spec.Mat n 128) (s ssq : FVec Ideal S1x128 .f32) (q : Fin 128)
    (hs : s (ix2 (0 : Fin 1) q) = Spec.colSum h q) (hq : ssq (ix2 (0 : Fin 1) q) = Spec.colSumSq h q) :
    Ideal.div (ssq (ix2 (0 : Fin 1) q)) nWord
        - Ideal.div (s (ix2 (0 : Fin 1) q)) nWord * Ideal.div (s (ix2 (0 : Fin 1) q)) nWord
      = Spec.varKernel h q := by
  rw [hs, hq]; rfl

end Cert.KerGlue

end
-- ==== Proof.KerLayerCore.lean ====
/-
  One layer assembled from its parts.

  If a tall array h holds the hidden features of z + a (entry by entry), a row mu the column means of those features
  and a row v their variance in the form "mean of the squares less the squared mean", then the normalisation of h by
  mu, v and two further rows g, b is, entry by entry, the specification's layer of z + a with the variance in that
  form. Also: the mean row and the variance row the host forms from a row of column sums and a row of column sums of
  squares are those two rows.
-/
import proofs.«100772_j6322191859838_1_alg».proof.Proof.KerValNormCore
import proofs.«100772_j6322191859838_1_alg».proof.Proof.KerValMlpCore
import proofs.«100772_j6322191859838_1_alg».proof.Proof.KerGlue

noncomputable section

namespace Cert.KerVal

open Cert.KernelIdeal Cert.KernelIdeal.Gen
open Idealize.ShloMosaic Idealize.ShloMosaic.ValueIdx

/-- The hidden features of equal arrays are equal. -/
theorem HH_congr {z z' a a' : S100000x128.Idx → EReal} {W1 W1' : S128x128.Idx → EReal} {b1 b1' : S1x128.Idx → EReal}
    {W2 W2' : S128x128.Idx → EReal} {b2 b2' : S1x128.Idx → EReal}
    (hz : z = z') (ha : a = a') (hW1 : W1 = W1') (hb1 : b1 = b1') (hW2 : W2 = W2') (hb2 : b2 = b2') :
    HH z a W1 b1 W2 b2 = HH z' a' W1' b1' W2' b2' := by
  subst hz ha hW1 hb1 hW2 hb2; rfl

theorem GH_congr {z z' a a' : S100000x128.Idx → EReal} {W1 W1' : S128x128.Idx → EReal} {b1 b1' : S1x128.Idx → EReal}
    {W2 W2' : S128x128.Idx → EReal} {b2 b2' : S1x128.Idx → EReal}
    (hz : z = z') (ha : a = a') (hW1 : W1 = W1') (hb1 : b1 = b1') (hW2 : W2 = W2') (hb2 : b2 = b2') :
    GH z a W1 b1 W2 b2 = GH z' a' W1' b1' W2' b2' := by
  subst hz ha hW1 hb1 hW2 hb2; rfl

/-- The layer from its parts, at entry (r, j). -/
theorem layer_of_parts (z a : S100000x128.Idx → EReal) (W1 : S128x128.Idx → EReal) (b1 : S1x128.Idx → EReal)
    (W2 : S128x128.Idx → EReal) (b2 : S1x128.Idx → EReal) (h : S100000x128.Idx → EReal) (mu v g b : S1x128.Idx → EReal)
    (hh : h = GH z a W1 b1 W2 b2)
    (hmu : ∀ q : Fin 128, mu (ix2 (0 : Fin 1) q) = Spec.mean (HH z a W1 b1 W2 b2) q)
    (hv : ∀ q : Fin 128, v (ix2 (0 : Fin 1) q) = Spec.varKernel (HH z a W1 b1 W2 b2) q)
    (r : Fin 100000) (j : Fin 128) :
    GN h mu v g b (ix2 r j)
      = Spec.layerKernel (fun r i => z (ix2 r i) + a (ix2 r i)) (Spec.mat W1) (Spec.row1 b1) (Spec.mat W2) (Spec.row1 b2)
          (Spec.row1 g) (Spec.row1 b) r j := by
  subst hh
  show (GH z a W1 b1 W2 b2 (ix2 r j) - mu (ix2 (0 : Fin 1) j)) * Ideal.rsqrt (v (ix2 (0 : Fin 1) j) + Ideal.ofBits .f32 0x3727C5AC#32)
      * g (ix2 (0 : Fin 1) j) + b (ix2 (0 : Fin 1) j) = _
  rw [hmu j, hv j]
  rfl

/-- The host's mean row from the row of column sums of H. -/
theorem mean_row_of_sums (H : Spec.Mat 100000 128) (s : FVec Ideal S1x128 .f32) (hs : s = GS H) (q : Fin 128) :
    shapeCast S1x128 (Host.divf (shapeCast S128 s shapeCasts_S1x128_S128)
        (broadcastInDim S128 ![] bcast_S_S128 (constant (F := Ideal) S_ .f32 0x47C35000#32))) shapeCasts_S128_S1x128
        (ix2 (0 : Fin 1) q) = Spec.mean H q := by
  rw [KerGlue.host_mean_apply]
  exact KerGlue.mean_of_sums H s q (by rw [hs])

/-- The host's variance row from the rows of column sums and of column sums of squares of H. -/
theorem var_row_of_sums (H : Spec.Mat 100000 128) (s ssq : FVec Ideal S1x128 .f32) (hs : s = GS H) (hq : ssq = GQ H) (q : Fin 128) :
    shapeCast S1x128
        (subf
          (Host.divf (shapeCast S128 ssq shapeCasts_S1x128_S128)
            (broadcastInDim S128 ![] bcast_S_S128 (constant (F := Ideal) S_ .f32 0x47C35000#32)))
          (mulf
            (Host.divf (shapeCast S128 s shapeCasts_S1x128_S128)
              (broadcastInDim S128 ![] bcast_S_S128 (constant (F := Ideal) S_ .f32 0x47C35000#32)))
            (Host.divf (shapeCast S128 s shapeCasts_S1x128_S128)
              (broadcastInDim S128 ![] bcast_S_S128 (constant (F := Ideal) S_ .f32 0x47C35000#32)))))
        shapeCasts_S128_S1x128 (ix2 (0 : Fin 1) q) = Spec.varKernel H q := by
  rw [KerGlue.host_var_apply]
  exact KerGlue.var_of_sums H s ssq q (by rw [hs]) (by rw [hq])

/-- A row of 128 numbers reshaped to a [1, 128] array, read as a row, is the row. -/
theorem row1_reshape (v : S128.Idx → EReal) :
    Spec.row1 (shapeCast S1x128 v shapeCasts_S128_S1x128) = Spec.row v := by
  funext q
  exact KerPay.shapeCast_b_1b_apply v shapeCasts_S128_S1x128 q

end Cert.KerVal

end
-- ==== Proof.KerChain.lean ====
/-
  The kernel program's three layers and its two results, from the launch memory.

  The buffers' contents at the thirteen boundaries of the run are followed from the launch: a host stretch leaves a
  buffer it does not write as it was and each buffer it writes at its operation's value; a region leaves a buffer
  that is not one of its arrays, and each of its input arrays, as it was, and each output array at what the
  region's blocks leave (the hidden features, their column sums, the normalised features: the six region modules).
  So after the first normalisation region the first layer's output is the specification's layer of the launch
  features plus their neighbour sums with the first slices of the parameters; the second and third likewise from the
  layer before; and the two results are the three outputs side by side and their per-graph sums side by side (the
  last host stretch is read in two steps: the three per-graph sums, then the two concatenations over them).
-/
import proofs.«100772_j6322191859838_1_alg».proof.Proof.KerChainA
import proofs.«100772_j6322191859838_1_alg».proof.Proof.KerValMlp0
import proofs.«100772_j6322191859838_1_alg».proof.Proof.KerValMlp2
import proofs.«100772_j6322191859838_1_alg».proof.Proof.KerValMlp4
import proofs.«100772_j6322191859838_1_alg».proof.Proof.KerValNorm1
import proofs.«100772_j6322191859838_1_alg».proof.Proof.KerValNorm3
import proofs.«100772_j6322191859838_1_alg».proof.Proof.KerValNorm5
import proofs.«100772_j6322191859838_1_alg».proof.Proof.KerLayerCore
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384
set_option maxHeartbeats 4000000

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

open Idealize.ShloMosaic.StableHlo

variable (m : (ℓ : Loc nD τ sig) → Buf (Elt Ideal) ℓ) (ρ : Dev nD → PrngReg)

/-! ## Layer 1 -/

theorem W1_v25 (c : Dev nD) : (W1 m ρ c (Proc.devRef .tc main_v25) : S100000x128.Idx → EReal) = aggrK (a0 m c) (srcK (a1 m c)) (dstK (a1 m c)) := by
  show StableHlo.after hostOps0 (W0 m ρ c) (Proc.devRef .tc main_v25) = _
  after_results
  rfl

theorem W1_v5 (c : Dev nD) : (W1 m ρ c (Proc.devRef .tc main_v5) : FVec Ideal S128x128 .f32) = matK0 (a3 m c) := by
  show StableHlo.after hostOps0 (W0 m ρ c) (Proc.devRef .tc main_v5) = _
  after_results
  rfl

theorem W1_v26 (c : Dev nD) : (W1 m ρ c (Proc.devRef .tc main_v26) : FVec Ideal S1x128 .f32) = shapeCast S1x128 (vecK0 (a4 m c)) shapeCasts_S128_S1x128 := by
  show StableHlo.after hostOps0 (W0 m ρ c) (Proc.devRef .tc main_v26) = _
  after_results
  rfl

theorem W1_v9 (c : Dev nD) : (W1 m ρ c (Proc.devRef .tc main_v9) : FVec Ideal S128x128 .f32) = matK0 (a5 m c) := by
  show StableHlo.after hostOps0 (W0 m ρ c) (Proc.devRef .tc main_v9) = _
  after_results
  rfl

theorem W1_v27 (c : Dev nD) : (W1 m ρ c (Proc.devRef .tc main_v27) : FVec Ideal S1x128 .f32) = shapeCast S1x128 (vecK0 (a6 m c)) shapeCasts_S128_S1x128 := by
  show StableHlo.after hostOps0 (W0 m ρ c) (Proc.devRef .tc main_v27) = _
  after_results
  rfl

theorem W1_v13 (c : Dev nD) : (W1 m ρ c (Proc.devRef .tc main_v13) : FVec Ideal S128 .f32) = vecK0 (a7 m c) := by
  show StableHlo.after hostOps0 (W0 m ρ c) (Proc.devRef .tc main_v13) = _
  after_results
  rfl

theorem W1_v15 (c : Dev nD) : (W1 m ρ c (Proc.devRef .tc main_v15) : FVec Ideal S128 .f32) = vecK0 (a8 m c) := by
  show StableHlo.after hostOps0 (W0 m ρ c) (Proc.devRef .tc main_v15) = _
  after_results
  rfl

/-- The dense region's three outputs. -/
theorem W2_v28_0 (c : Dev nD) : (W2 m ρ c (Proc.devRef .tc main_v28_0) : S100000x128.Idx → EReal) = GH (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128) :=
  (W2_arr m ρ c 6).trans ((final0_6 (Ent1 m ρ) c).trans
    (GH_congr (W1_arg0 m ρ c) (W1_v25 m ρ c) (W1_v5 m ρ c) (W1_v26 m ρ c) (W1_v9 m ρ c) (W1_v27 m ρ c)))

theorem W2_v28_1 (c : Dev nD) : (W2 m ρ c (Proc.devRef .tc main_v28_1) : S1x128.Idx → EReal) = GS (HH (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128)) :=
  (W2_arr m ρ c 7).trans ((final0_7 (Ent1 m ρ) c).trans
    (congrArg GS (HH_congr (W1_arg0 m ρ c) (W1_v25 m ρ c) (W1_v5 m ρ c) (W1_v26 m ρ c) (W1_v9 m ρ c) (W1_v27 m ρ c))))

theorem W2_v28_2 (c : Dev nD) : (W2 m ρ c (Proc.devRef .tc main_v28_2) : S1x128.Idx → EReal) = GQ (HH (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128)) :=
  (W2_arr m ρ c 8).trans ((final0_8 (Ent1 m ρ) c).trans
    (congrArg GQ (HH_congr (W1_arg0 m ρ c) (W1_v25 m ρ c) (W1_v5 m ρ c) (W1_v26 m ρ c) (W1_v9 m ρ c) (W1_v27 m ρ c))))

theorem W2_v13 (c : Dev nD) : (W2 m ρ c (Proc.devRef .tc main_v13) : FVec Ideal S128 .f32) = vecK0 (a7 m c) :=
  (keepR0 m ρ c main_v13 (by decide)).trans (W1_v13 m ρ c)
theorem W2_v15 (c : Dev nD) : (W2 m ρ c (Proc.devRef .tc main_v15) : FVec Ideal S128 .f32) = vecK0 (a8 m c) :=
  (keepR0 m ρ c main_v15 (by decide)).trans (W1_v15 m ρ c)

/-- The host's rows for the normalisation region. -/
theorem W3_v28_0 (c : Dev nD) : (W3 m ρ c (Proc.devRef .tc main_v28_0) : S100000x128.Idx → EReal) = GH (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128) :=
  (keepH1 m ρ c main_v28_0 (by decide)).trans (W2_v28_0 m ρ c)

theorem W3_v37 (c : Dev nD) (q : Fin 128) :
    (W3 m ρ c (Proc.devRef .tc main_v37) : S1x128.Idx → EReal) (ix2 (0 : Fin 1) q) = Spec.mean (HH (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128)) q := by
  show StableHlo.after hostOps1 (W2 m ρ c) (Proc.devRef .tc main_v37) (ix2 (0 : Fin 1) q) = _
  after_results
  exact mean_row_of_sums (HH (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128)) _ (W2_v28_1 m ρ c) q

theorem W3_v38 (c : Dev nD) (q : Fin 128) :
    (W3 m ρ c (Proc.devRef .tc main_v38) : S1x128.Idx → EReal) (ix2 (0 : Fin 1) q) = Spec.varKernel (HH (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128)) q := by
  show StableHlo.after hostOps1 (W2 m ρ c) (Proc.devRef .tc main_v38) (ix2 (0 : Fin 1) q) = _
  after_results
  exact var_row_of_sums (HH (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128)) _ _ (W2_v28_1 m ρ c) (W2_v28_2 m ρ c) q

theorem W3_v39 (c : Dev nD) :
    (W3 m ρ c (Proc.devRef .tc main_v39) : S1x128.Idx → EReal) = shapeCast S1x128 (vecK0 (a7 m c)) shapeCasts_S128_S1x128 := by
  show StableHlo.after hostOps1 (W2 m ρ c) (Proc.devRef .tc main_v39) = _
  after_results
  rw [W2_v13 m ρ c]
  rfl

theorem W3_v40 (c : Dev nD) :
    (W3 m ρ c (Proc.devRef .tc main_v40) : S1x128.Idx → EReal) = shapeCast S1x128 (vecK0 (a8 m c)) shapeCasts_S128_S1x128 := by
  show StableHlo.after hostOps1 (W2 m ρ c) (Proc.devRef .tc main_v40) = _
  after_results
  rw [W2_v15 m ρ c]
  rfl

/-- The output of layer 1. -/
abbrev y1 (c : Dev nD) : S100000x128.Idx → EReal := W4 m ρ c (Proc.devRef .tc main_v41)

theorem y1_eq (c : Dev nD) :
    y1 m ρ c = GN (W3 m ρ c (Proc.devRef .tc main_v28_0)) (W3 m ρ c (Proc.devRef .tc main_v37)) (W3 m ρ c (Proc.devRef .tc main_v38))
      (W3 m ρ c (Proc.devRef .tc main_v39)) (W3 m ρ c (Proc.devRef .tc main_v40)) :=
  (W4_arr m ρ c 5).trans (final1_5 (Ent3 m ρ) c)

/-- LAYER 1: the output is the specification's layer of the input plus its neighbour sums, with the layer's slices of the parameters. -/
theorem ker_layer1 (c : Dev nD) :
    Spec.mat (y1 m ρ c)
      = Spec.layerKernel (Spec.mat (addf (a0 m c) (aggrK (a0 m c) (srcK (a1 m c)) (dstK (a1 m c))))) (Spec.mat (matK0 (a3 m c))) (Spec.row (vecK0 (a4 m c)))
          (Spec.mat (matK0 (a5 m c))) (Spec.row (vecK0 (a6 m c))) (Spec.row (vecK0 (a7 m c))) (Spec.row (vecK0 (a8 m c))) := by
  funext r j
  show y1 m ρ c (ix2 r j) = _
  rw [y1_eq m ρ c]
  refine (layer_of_parts (a0 m c) (aggrK (a0 m c) (srcK (a1 m c)) (dstK (a1 m c))) (matK0 (a3 m c)) (shapeCast S1x128 (vecK0 (a4 m c)) shapeCasts_S128_S1x128) (matK0 (a5 m c)) (shapeCast S1x128 (vecK0 (a6 m c)) shapeCasts_S128_S1x128) _ _ _ _ _
    (W3_v28_0 m ρ c) (W3_v37 m ρ c) (W3_v38 m ρ c) r j).trans ?_
  rw [W3_v39 m ρ c, W3_v40 m ρ c, row1_reshape, row1_reshape, row1_reshape, row1_reshape]
  rfl

/-- The layer's output stays in its buffer to the end. -/
theorem W5_v41' (c : Dev nD) : (W5 m ρ c (Proc.devRef .tc main_v41) : S100000x128.Idx → EReal) = y1 m ρ c := keepH2 m ρ c main_v41 (by decide)
theorem W6_v41' (c : Dev nD) : (W6 m ρ c (Proc.devRef .tc main_v41) : S100000x128.Idx → EReal) = y1 m ρ c :=
  (keepIn2 m ρ c 0 rfl).trans (W5_v41' m ρ c)
theorem W7_v41' (c : Dev nD) : (W7 m ρ c (Proc.devRef .tc main_v41) : S100000x128.Idx → EReal) = y1 m ρ c := (keepH3 m ρ c main_v41 (by decide)).trans (W6_v41' m ρ c)
theorem W8_v41' (c : Dev nD) : (W8 m ρ c (Proc.devRef .tc main_v41) : S100000x128.Idx → EReal) = y1 m ρ c := (keepR3 m ρ c main_v41 (by decide)).trans (W7_v41' m ρ c)
theorem W9_v41' (c : Dev nD) : (W9 m ρ c (Proc.devRef .tc main_v41) : S100000x128.Idx → EReal) = y1 m ρ c := (keepH4 m ρ c main_v41 (by decide)).trans (W8_v41' m ρ c)
theorem W10_v41' (c : Dev nD) : (W10 m ρ c (Proc.devRef .tc main_v41) : S100000x128.Idx → EReal) = y1 m ρ c := (keepR4 m ρ c main_v41 (by decide)).trans (W9_v41' m ρ c)
theorem W11_v41' (c : Dev nD) : (W11 m ρ c (Proc.devRef .tc main_v41) : S100000x128.Idx → EReal) = y1 m ρ c := (keepH5 m ρ c main_v41 (by decide)).trans (W10_v41' m ρ c)
theorem W12_v41' (c : Dev nD) : (W12 m ρ c (Proc.devRef .tc main_v41) : S100000x128.Idx → EReal) = y1 m ρ c := (keepR5 m ρ c main_v41 (by decide)).trans (W11_v41' m ρ c)

/-! ## Layer 2 -/

/-- The layer's input: the output of the layer before, still in its buffer when the dense region is entered. -/
theorem W5_v41 (c : Dev nD) : (W5 m ρ c (Proc.devRef .tc main_v41) : S100000x128.Idx → EReal) = y1 m ρ c := keepH2 m ρ c main_v41 (by decide)

theorem W5_v63 (c : Dev nD) : (W5 m ρ c (Proc.devRef .tc main_v63) : S100000x128.Idx → EReal) = aggrK (y1 m ρ c) (srcK (a1 m c)) (dstK (a1 m c)) := by
  show StableHlo.after hostOps2 (W4 m ρ c) (Proc.devRef .tc main_v63) = _
  after_results
  rw [W4_v1 m ρ c, W4_v3 m ρ c]
  rfl

theorem W5_v43 (c : Dev nD) : (W5 m ρ c (Proc.devRef .tc main_v43) : FVec Ideal S128x128 .f32) = matK1 (a3 m c) := by
  show StableHlo.after hostOps2 (W4 m ρ c) (Proc.devRef .tc main_v43) = _
  after_results
  rw [W4_arg3 m ρ c]
  rfl

theorem W5_v64 (c : Dev nD) : (W5 m ρ c (Proc.devRef .tc main_v64) : FVec Ideal S1x128 .f32) = shapeCast S1x128 (vecK1 (a4 m c)) shapeCasts_S128_S1x128 := by
  show StableHlo.after hostOps2 (W4 m ρ c) (Proc.devRef .tc main_v64) = _
  after_results
  rw [W4_arg4 m ρ c]
  rfl

theorem W5_v47 (c : Dev nD) : (W5 m ρ c (Proc.devRef .tc main_v47) : FVec Ideal S128x128 .f32) = matK1 (a5 m c) := by
  show StableHlo.after hostOps2 (W4 m ρ c) (Proc.devRef .tc main_v47) = _
  after_results
  rw [W4_arg5 m ρ c]
  rfl

theorem W5_v65 (c : Dev nD) : (W5 m ρ c (Proc.devRef .tc main_v65) : FVec Ideal S1x128 .f32) = shapeCast S1x128 (vecK1 (a6 m c)) shapeCasts_S128_S1x128 := by
  show StableHlo.after hostOps2 (W4 m ρ c) (Proc.devRef .tc main_v65) = _
  after_results
  rw [W4_arg6 m ρ c]
  rfl

theorem W5_v51 (c : Dev nD) : (W5 m ρ c (Proc.devRef .tc main_v51) : FVec Ideal S128 .f32) = vecK1 (a7 m c) := by
  show StableHlo.after hostOps2 (W4 m ρ c) (Proc.devRef .tc main_v51) = _
  after_results
  rw [W4_arg7 m ρ c]
  rfl

theorem W5_v53 (c : Dev nD) : (W5 m ρ c (Proc.devRef .tc main_v53) : FVec Ideal S128 .f32) = vecK1 (a8 m c) := by
  show StableHlo.after hostOps2 (W4 m ρ c) (Proc.devRef .tc main_v53) = _
  after_results
  rw [W4_arg8 m ρ c]
  rfl

/-- The dense region's three outputs. -/
theorem W6_v66_0 (c : Dev nD) : (W6 m ρ c (Proc.devRef .tc main_v66_0) : S100000x128.Idx → EReal) = GH (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128) :=
  (W6_arr m ρ c 6).trans ((final2_6 (Ent5 m ρ) c).trans
    (GH_congr (W5_v41 m ρ c) (W5_v63 m ρ c) (W5_v43 m ρ c) (W5_v64 m ρ c) (W5_v47 m ρ c) (W5_v65 m ρ c)))

theorem W6_v66_1 (c : Dev nD) : (W6 m ρ c (Proc.devRef .tc main_v66_1) : S1x128.Idx → EReal) = GS (HH (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128)) :=
  (W6_arr m ρ c 7).trans ((final2_7 (Ent5 m ρ) c).trans
    (congrArg GS (HH_congr (W5_v41 m ρ c) (W5_v63 m ρ c) (W5_v43 m ρ c) (W5_v64 m ρ c) (W5_v47 m ρ c) (W5_v65 m ρ c))))

theorem W6_v66_2 (c : Dev nD) : (W6 m ρ c (Proc.devRef .tc main_v66_2) : S1x128.Idx → EReal) = GQ (HH (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128)) :=
  (W6_arr m ρ c 8).trans ((final2_8 (Ent5 m ρ) c).trans
    (congrArg GQ (HH_congr (W5_v41 m ρ c) (W5_v63 m ρ c) (W5_v43 m ρ c) (W5_v64 m ρ c) (W5_v47 m ρ c) (W5_v65 m ρ c))))

theorem W6_v51 (c : Dev nD) : (W6 m ρ c (Proc.devRef .tc main_v51) : FVec Ideal S128 .f32) = vecK1 (a7 m c) :=
  (keepR2 m ρ c main_v51 (by decide)).trans (W5_v51 m ρ c)
theorem W6_v53 (c : Dev nD) : (W6 m ρ c (Proc.devRef .tc main_v53) : FVec Ideal S128 .f32) = vecK1 (a8 m c) :=
  (keepR2 m ρ c main_v53 (by decide)).trans (W5_v53 m ρ c)

/-- The host's rows for the normalisation region. -/
theorem W7_v66_0 (c : Dev nD) : (W7 m ρ c (Proc.devRef .tc main_v66_0) : S100000x128.Idx → EReal) = GH (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128) :=
  (keepH3 m ρ c main_v66_0 (by decide)).trans (W6_v66_0 m ρ c)

theorem W7_v75 (c : Dev nD) (q : Fin 128) :
    (W7 m ρ c (Proc.devRef .tc main_v75) : S1x128.Idx → EReal) (ix2 (0 : Fin 1) q) = Spec.mean (HH (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128)) q := by
  show StableHlo.after hostOps3 (W6 m ρ c) (Proc.devRef .tc main_v75) (ix2 (0 : Fin 1) q) = _
  after_results
  exact mean_row_of_sums (HH (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128)) _ (W6_v66_1 m ρ c) q

theorem W7_v76 (c : Dev nD) (q : Fin 128) :
    (W7 m ρ c (Proc.devRef .tc main_v76) : S1x128.Idx → EReal) (ix2 (0 : Fin 1) q) = Spec.varKernel (HH (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128)) q := by
  show StableHlo.after hostOps3 (W6 m ρ c) (Proc.devRef .tc main_v76) (ix2 (0 : Fin 1) q) = _
  after_results
  exact var_row_of_sums (HH (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128)) _ _ (W6_v66_1 m ρ c) (W6_v66_2 m ρ c) q

theorem W7_v77 (c : Dev nD) :
    (W7 m ρ c (Proc.devRef .tc main_v77) : S1x128.Idx → EReal) = shapeCast S1x128 (vecK1 (a7 m c)) shapeCasts_S128_S1x128 := by
  show StableHlo.after hostOps3 (W6 m ρ c) (Proc.devRef .tc main_v77) = _
  after_results
  rw [W6_v51 m ρ c]
  rfl

theorem W7_v78 (c : Dev nD) :
    (W7 m ρ c (Proc.devRef .tc main_v78) : S1x128.Idx → EReal) = shapeCast S1x128 (vecK1 (a8 m c)) shapeCasts_S128_S1x128 := by
  show StableHlo.after hostOps3 (W6 m ρ c) (Proc.devRef .tc main_v78) = _
  after_results
  rw [W6_v53 m ρ c]
  rfl

/-- The output of layer 2. -/
abbrev y2 (c : Dev nD) : S100000x128.Idx → EReal := W8 m ρ c (Proc.devRef .tc main_v79)

theorem y2_eq (c : Dev nD) :
    y2 m ρ c = GN (W7 m ρ c (Proc.devRef .tc main_v66_0)) (W7 m ρ c (Proc.devRef .tc main_v75)) (W7 m ρ c (Proc.devRef .tc main_v76))
      (W7 m ρ c (Proc.devRef .tc main_v77)) (W7 m ρ c (Proc.devRef .tc main_v78)) :=
  (W8_arr m ρ c 5).trans (final3_5 (Ent7 m ρ) c)

/-- LAYER 2: the output is the specification's layer of the input plus its neighbour sums, with the layer's slices of the parameters. -/
theorem ker_layer2 (c : Dev nD) :
    Spec.mat (y2 m ρ c)
      = Spec.layerKernel (Spec.mat (addf (y1 m ρ c) (aggrK (y1 m ρ c) (srcK (a1 m c)) (dstK (a1 m c))))) (Spec.mat (matK1 (a3 m c))) (Spec.row (vecK1 (a4 m c)))
          (Spec.mat (matK1 (a5 m c))) (Spec.row (vecK1 (a6 m c))) (Spec.row (vecK1 (a7 m c))) (Spec.row (vecK1 (a8 m c))) := by
  funext r j
  show y2 m ρ c (ix2 r j) = _
  rw [y2_eq m ρ c]
  refine (layer_of_parts (y1 m ρ c) (aggrK (y1 m ρ c) (srcK (a1 m c)) (dstK (a1 m c))) (matK1 (a3 m c)) (shapeCast S1x128 (vecK1 (a4 m c)) shapeCasts_S128_S1x128) (matK1 (a5 m c)) (shapeCast S1x128 (vecK1 (a6 m c)) shapeCasts_S128_S1x128) _ _ _ _ _
    (W7_v66_0 m ρ c) (W7_v75 m ρ c) (W7_v76 m ρ c) r j).trans ?_
  rw [W7_v77 m ρ c, W7_v78 m ρ c, row1_reshape, row1_reshape, row1_reshape, row1_reshape]
  rfl

/-- The layer's output stays in its buffer to the end. -/
theorem W9_v79' (c : Dev nD) : (W9 m ρ c (Proc.devRef .tc main_v79) : S100000x128.Idx → EReal) = y2 m ρ c := keepH4 m ρ c main_v79 (by decide)
theorem W10_v79' (c : Dev nD) : (W10 m ρ c (Proc.devRef .tc main_v79) : S100000x128.Idx → EReal) = y2 m ρ c :=
  (keepIn4 m ρ c 0 rfl).trans (W9_v79' m ρ c)
theorem W11_v79' (c : Dev nD) : (W11 m ρ c (Proc.devRef .tc main_v79) : S100000x128.Idx → EReal) = y2 m ρ c := (keepH5 m ρ c main_v79 (by decide)).trans (W10_v79' m ρ c)
theorem W12_v79' (c : Dev nD) : (W12 m ρ c (Proc.devRef .tc main_v79) : S100000x128.Idx → EReal) = y2 m ρ c := (keepR5 m ρ c main_v79 (by decide)).trans (W11_v79' m ρ c)

/-! ## Layer 3 -/

/-- The layer's input: the output of the layer before, still in its buffer when the dense region is entered. -/
theorem W9_v79 (c : Dev nD) : (W9 m ρ c (Proc.devRef .tc main_v79) : S100000x128.Idx → EReal) = y2 m ρ c := keepH4 m ρ c main_v79 (by decide)

theorem W9_v101 (c : Dev nD) : (W9 m ρ c (Proc.devRef .tc main_v101) : S100000x128.Idx → EReal) = aggrK (y2 m ρ c) (srcK (a1 m c)) (dstK (a1 m c)) := by
  show StableHlo.after hostOps4 (W8 m ρ c) (Proc.devRef .tc main_v101) = _
  after_results
  rw [W8_v1 m ρ c, W8_v3 m ρ c]
  rfl

theorem W9_v81 (c : Dev nD) : (W9 m ρ c (Proc.devRef .tc main_v81) : FVec Ideal S128x128 .f32) = matK2 (a3 m c) := by
  show StableHlo.after hostOps4 (W8 m ρ c) (Proc.devRef .tc main_v81) = _
  after_results
  rw [W8_arg3 m ρ c]
  rfl

theorem W9_v102 (c : Dev nD) : (W9 m ρ c (Proc.devRef .tc main_v102) : FVec Ideal S1x128 .f32) = shapeCast S1x128 (vecK2 (a4 m c)) shapeCasts_S128_S1x128 := by
  show StableHlo.after hostOps4 (W8 m ρ c) (Proc.devRef .tc main_v102) = _
  after_results
  rw [W8_arg4 m ρ c]
  rfl

theorem W9_v85 (c : Dev nD) : (W9 m ρ c (Proc.devRef .tc main_v85) : FVec Ideal S128x128 .f32) = matK2 (a5 m c) := by
  show StableHlo.after hostOps4 (W8 m ρ c) (Proc.devRef .tc main_v85) = _
  after_results
  rw [W8_arg5 m ρ c]
  rfl

theorem W9_v103 (c : Dev nD) : (W9 m ρ c (Proc.devRef .tc main_v103) : FVec Ideal S1x128 .f32) = shapeCast S1x128 (vecK2 (a6 m c)) shapeCasts_S128_S1x128 := by
  show StableHlo.after hostOps4 (W8 m ρ c) (Proc.devRef .tc main_v103) = _
  after_results
  rw [W8_arg6 m ρ c]
  rfl

theorem W9_v89 (c : Dev nD) : (W9 m ρ c (Proc.devRef .tc main_v89) : FVec Ideal S128 .f32) = vecK2 (a7 m c) := by
  show StableHlo.after hostOps4 (W8 m ρ c) (Proc.devRef .tc main_v89) = _
  after_results
  rw [W8_arg7 m ρ c]
  rfl

theorem W9_v91 (c : Dev nD) : (W9 m ρ c (Proc.devRef .tc main_v91) : FVec Ideal S128 .f32) = vecK2 (a8 m c) := by
  show StableHlo.after hostOps4 (W8 m ρ c) (Proc.devRef .tc main_v91) = _
  after_results
  rw [W8_arg8 m ρ c]
  rfl

/-- The dense region's three outputs. -/
theorem W10_v104_0 (c : Dev nD) : (W10 m ρ c (Proc.devRef .tc main_v104_0) : S100000x128.Idx → EReal) = GH (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128) :=
  (W10_arr m ρ c 6).trans ((final4_6 (Ent9 m ρ) c).trans
    (GH_congr (W9_v79 m ρ c) (W9_v101 m ρ c) (W9_v81 m ρ c) (W9_v102 m ρ c) (W9_v85 m ρ c) (W9_v103 m ρ c)))

theorem W10_v104_1 (c : Dev nD) : (W10 m ρ c (Proc.devRef .tc main_v104_1) : S1x128.Idx → EReal) = GS (HH (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128)) :=
  (W10_arr m ρ c 7).trans ((final4_7 (Ent9 m ρ) c).trans
    (congrArg GS (HH_congr (W9_v79 m ρ c) (W9_v101 m ρ c) (W9_v81 m ρ c) (W9_v102 m ρ c) (W9_v85 m ρ c) (W9_v103 m ρ c))))

theorem W10_v104_2 (c : Dev nD) : (W10 m ρ c (Proc.devRef .tc main_v104_2) : S1x128.Idx → EReal) = GQ (HH (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128)) :=
  (W10_arr m ρ c 8).trans ((final4_8 (Ent9 m ρ) c).trans
    (congrArg GQ (HH_congr (W9_v79 m ρ c) (W9_v101 m ρ c) (W9_v81 m ρ c) (W9_v102 m ρ c) (W9_v85 m ρ c) (W9_v103 m ρ c))))

theorem W10_v89 (c : Dev nD) : (W10 m ρ c (Proc.devRef .tc main_v89) : FVec Ideal S128 .f32) = vecK2 (a7 m c) :=
  (keepR4 m ρ c main_v89 (by decide)).trans (W9_v89 m ρ c)
theorem W10_v91 (c : Dev nD) : (W10 m ρ c (Proc.devRef .tc main_v91) : FVec Ideal S128 .f32) = vecK2 (a8 m c) :=
  (keepR4 m ρ c main_v91 (by decide)).trans (W9_v91 m ρ c)

/-- The host's rows for the normalisation region. -/
theorem W11_v104_0 (c : Dev nD) : (W11 m ρ c (Proc.devRef .tc main_v104_0) : S100000x128.Idx → EReal) = GH (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128) :=
  (keepH5 m ρ c main_v104_0 (by decide)).trans (W10_v104_0 m ρ c)

theorem W11_v113 (c : Dev nD) (q : Fin 128) :
    (W11 m ρ c (Proc.devRef .tc main_v113) : S1x128.Idx → EReal) (ix2 (0 : Fin 1) q) = Spec.mean (HH (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128)) q := by
  show StableHlo.after hostOps5 (W10 m ρ c) (Proc.devRef .tc main_v113) (ix2 (0 : Fin 1) q) = _
  after_results
  exact mean_row_of_sums (HH (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128)) _ (W10_v104_1 m ρ c) q

theorem W11_v114 (c : Dev nD) (q : Fin 128) :
    (W11 m ρ c (Proc.devRef .tc main_v114) : S1x128.Idx → EReal) (ix2 (0 : Fin 1) q) = Spec.varKernel (HH (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128)) q := by
  show StableHlo.after hostOps5 (W10 m ρ c) (Proc.devRef .tc main_v114) (ix2 (0 : Fin 1) q) = _
  after_results
  exact var_row_of_sums (HH (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128)) _ _ (W10_v104_1 m ρ c) (W10_v104_2 m ρ c) q

theorem W11_v115 (c : Dev nD) :
    (W11 m ρ c (Proc.devRef .tc main_v115) : S1x128.Idx → EReal) = shapeCast S1x128 (vecK2 (a7 m c)) shapeCasts_S128_S1x128 := by
  show StableHlo.after hostOps5 (W10 m ρ c) (Proc.devRef .tc main_v115) = _
  after_results
  rw [W10_v89 m ρ c]
  rfl

theorem W11_v116 (c : Dev nD) :
    (W11 m ρ c (Proc.devRef .tc main_v116) : S1x128.Idx → EReal) = shapeCast S1x128 (vecK2 (a8 m c)) shapeCasts_S128_S1x128 := by
  show StableHlo.after hostOps5 (W10 m ρ c) (Proc.devRef .tc main_v116) = _
  after_results
  rw [W10_v91 m ρ c]
  rfl

/-- The output of layer 3. -/
abbrev y3 (c : Dev nD) : S100000x128.Idx → EReal := W12 m ρ c (Proc.devRef .tc main_v117)

theorem y3_eq (c : Dev nD) :
    y3 m ρ c = GN (W11 m ρ c (Proc.devRef .tc main_v104_0)) (W11 m ρ c (Proc.devRef .tc main_v113)) (W11 m ρ c (Proc.devRef .tc main_v114))
      (W11 m ρ c (Proc.devRef .tc main_v115)) (W11 m ρ c (Proc.devRef .tc main_v116)) :=
  (W12_arr m ρ c 5).trans (final5_5 (Ent11 m ρ) c)

/-- LAYER 3: the output is the specification's layer of the input plus its neighbour sums, with the layer's slices of the parameters. -/
theorem ker_layer3 (c : Dev nD) :
    Spec.mat (y3 m ρ c)
      = Spec.layerKernel (Spec.mat (addf (y2 m ρ c) (aggrK (y2 m ρ c) (srcK (a1 m c)) (dstK (a1 m c))))) (Spec.mat (matK2 (a3 m c))) (Spec.row (vecK2 (a4 m c)))
          (Spec.mat (matK2 (a5 m c))) (Spec.row (vecK2 (a6 m c))) (Spec.row (vecK2 (a7 m c))) (Spec.row (vecK2 (a8 m c))) := by
  funext r j
  show y3 m ρ c (ix2 r j) = _
  rw [y3_eq m ρ c]
  refine (layer_of_parts (y2 m ρ c) (aggrK (y2 m ρ c) (srcK (a1 m c)) (dstK (a1 m c))) (matK2 (a3 m c)) (shapeCast S1x128 (vecK2 (a4 m c)) shapeCasts_S128_S1x128) (matK2 (a5 m c)) (shapeCast S1x128 (vecK2 (a6 m c)) shapeCasts_S128_S1x128) _ _ _ _ _
    (W11_v104_0 m ρ c) (W11_v113 m ρ c) (W11_v114 m ρ c) r j).trans ?_
  rw [W11_v115 m ρ c, W11_v116 m ρ c, row1_reshape, row1_reshape, row1_reshape, row1_reshape]
  rfl

/-! ## The two results -/

/-- The contents after two lists of operations run one after the other. -/
theorem after_app {τ' : Topo} {sig' : RefSig} {Val : EltTy → Type} (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, StableHlo.after_cons, ih]

section
variable {F : FTy → Type} [FloatOps F]

/-- The last host stretch before its two concatenations: the three per-graph sums. -/
abbrev hostOps6a : List (HloOp τ sig (Elt F)) :=
  [ StableHlo.nullary main_cst_13 (constant S_ .f32 0x00000000#32),
    StableHlo.unary main_cst_13 main_v118 (broadcastInDim S128x128 ![] bcast_S_S128x128 : (⟨S_, .f32⟩ : BufTy).Contents (Elt F) → (⟨S128x128, .f32⟩ : BufTy).Contents (Elt F)),
    StableHlo.unary main_arg2 main_v119 (broadcastInDim S100000x1 ![0] bcast_S100000_S100000x1_0 : (⟨S100000, .i32⟩ : BufTy).Contents (Elt F) → (⟨S100000x1, .i32⟩ : BufTy).Contents (Elt F)),
    StableHlo.ternary main_v118 main_v119 main_v41 main_v120 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_14 (constant S_ .f32 0x00000000#32),
    StableHlo.unary main_cst_14 main_v121 (broadcastInDim S128x128 ![] bcast_S_S128x128 : (⟨S_, .f32⟩ : BufTy).Contents (Elt F) → (⟨S128x128, .f32⟩ : BufTy).Contents (Elt F)),
    StableHlo.unary main_arg2 main_v122 (broadcastInDim S100000x1 ![0] bcast_S100000_S100000x1_0 : (⟨S100000, .i32⟩ : BufTy).Contents (Elt F) → (⟨S100000x1, .i32⟩ : BufTy).Contents (Elt F)),
    StableHlo.ternary main_v121 main_v122 main_v79 main_v123 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)),
    StableHlo.nullary main_cst_15 (constant S_ .f32 0x00000000#32),
    StableHlo.unary main_cst_15 main_v124 (broadcastInDim S128x128 ![] bcast_S_S128x128 : (⟨S_, .f32⟩ : BufTy).Contents (Elt F) → (⟨S128x128, .f32⟩ : BufTy).Contents (Elt F)),
    StableHlo.unary main_arg2 main_v125 (broadcastInDim S100000x1 ![0] bcast_S100000_S100000x1_0 : (⟨S100000, .i32⟩ : BufTy).Contents (Elt F) → (⟨S100000x1, .i32⟩ : BufTy).Contents (Elt F)),
    StableHlo.ternary main_v124 main_v125 main_v117 main_v126 ((fun x i u => Host.scatterAdd scatter_S128x128_S100000x1_S100000x128_1_0_0_1 x i u) : (⟨S128x128, .f32⟩ : BufTy).Contents (Elt F) → (⟨S100000x1, .i32⟩ : BufTy).Contents (Elt F) → (⟨S100000x128, .f32⟩ : BufTy).Contents (Elt F) → (⟨S128x128, .f32⟩ : BufTy).Contents (Elt F)) ]

/-- The two concatenations. -/
abbrev hostOps6b : List (HloOp τ sig (Elt F)) :=
  [ StableHlo.nary ![main_v41, main_v79, main_v117] main_v127 (fun u => concatenate S100000x384 1 [⟨S100000x128, u 0⟩, ⟨S100000x128, u 1⟩, ⟨S100000x128, u 2⟩] concatenates_S100000x128_S100000x128_S100000x128_S100000x384_d1),
    StableHlo.nary ![main_v120, main_v123, main_v126] main_v128 (fun u => concatenate S128x384 1 [⟨S128x128, u 0⟩, ⟨S128x128, u 1⟩, ⟨S128x128, u 2⟩] concatenates_S128x128_S128x128_S128x128_S128x384_d1) ]

theorem hostOps6_split : (hostOps6 : List (HloOp τ sig (Elt F))) = hostOps6a ++ hostOps6b := rfl

end

/-- The contents before the two concatenations. -/
def W12b (c : Dev nD) : Valuation τ sig (Elt Ideal) := StableHlo.after hostOps6a (W12 m ρ c)

theorem W13_eq (c : Dev nD) : W13 m ρ c = StableHlo.after hostOps6b (W12b m ρ c) := by
  unfold W12b
  show StableHlo.after hostOps6 (W12 m ρ c) = _
  rw [hostOps6_split, after_app]

theorem W12b_v41 (c : Dev nD) : (W12b m ρ c (Proc.devRef .tc main_v41) : S100000x128.Idx → EReal) = y1 m ρ c := by
  unfold W12b
  after_results
  exact W12_v41' m ρ c

theorem W12b_v79 (c : Dev nD) : (W12b m ρ c (Proc.devRef .tc main_v79) : S100000x128.Idx → EReal) = y2 m ρ c := by
  unfold W12b
  after_results
  exact W12_v79' m ρ c

theorem W12b_v117 (c : Dev nD) : (W12b m ρ c (Proc.devRef .tc main_v117) : S100000x128.Idx → EReal) = y3 m ρ c := by
  unfold W12b
  after_results

theorem W12b_v120 (c : Dev nD) : (W12b m ρ c (Proc.devRef .tc main_v120) : S128x128.Idx → EReal) = poolK (y1 m ρ c) (a2 m c) := by
  unfold W12b
  after_results
  rw [W12_v41' m ρ c, W12_arg2 m ρ c]
  rfl

theorem W12b_v123 (c : Dev nD) : (W12b m ρ c (Proc.devRef .tc main_v123) : S128x128.Idx → EReal) = poolK (y2 m ρ c) (a2 m c) := by
  unfold W12b
  after_results
  rw [W12_v79' m ρ c, W12_arg2 m ρ c]
  rfl

theorem W12b_v126 (c : Dev nD) : (W12b m ρ c (Proc.devRef .tc main_v126) : S128x128.Idx → EReal) = poolK (y3 m ρ c) (a2 m c) := by
  unfold W12b
  after_results
  rw [W12_arg2 m ρ c]
  rfl

/-- The three layers' outputs side by side. -/
theorem ker_nodes (c : Dev nD) :
    (W13 m ρ c (Proc.devRef .tc main_v127) : S100000x384.Idx → EReal) = catNodesK (y1 m ρ c) (y2 m ρ c) (y3 m ρ c) := by
  rw [W13_eq m ρ c]
  after_results
  rw [← W12b_v41 m ρ c, ← W12b_v79 m ρ c, ← W12b_v117 m ρ c]
  rfl

/-- The three layers' per-graph sums side by side. -/
theorem ker_graphs (c : Dev nD) :
    (W13 m ρ c (Proc.devRef .tc main_v128) : S128x384.Idx → EReal)
      = catGraphsK (poolK (y1 m ρ c) (a2 m c)) (poolK (y2 m ρ c) (a2 m c)) (poolK (y3 m ρ c) (a2 m c)) := by
  rw [W13_eq m ρ c]
  after_results
  rw [← W12b_v120 m ρ c, ← W12b_v123 m ρ c, ← W12b_v126 m ρ c]
  rfl

end Cert.KerVal

end
-- ==== Proof.KerBridge0.lean ====
/-
  The kernel program's host pieces are the reference's.

  Both programs slice the same edge list and the same stacked parameters, sum the neighbours' features by the same
  gather and scatter-add, pool by the same scatter-add and concatenate along the same axis; each program prints its
  own records of the operations' static data, equal field by field. So each named piece of the kernel program is the
  reference's piece of the same name.
-/
import proofs.«100772_j6322191859838_1_alg».proof.Proof.RefTerms
import proofs.«100772_j6322191859838_1_alg».proof.Proof.KerHost

noncomputable section

namespace Cert.KerVal

open Idealize.ShloMosaic

theorem srcK_eq : srcK = Cert.ReferenceIdeal.RefVal.srcT := rfl
theorem dstK_eq : dstK = Cert.ReferenceIdeal.RefVal.dstT := rfl
theorem matK0_eq : matK0 = Cert.ReferenceIdeal.RefVal.mat0T := rfl
theorem matK1_eq : matK1 = Cert.ReferenceIdeal.RefVal.mat1T := rfl
theorem matK2_eq : matK2 = Cert.ReferenceIdeal.RefVal.mat2T := rfl
theorem vecK0_eq : vecK0 = Cert.ReferenceIdeal.RefVal.vec0T := rfl
theorem vecK1_eq : vecK1 = Cert.ReferenceIdeal.RefVal.vec1T := rfl
theorem vecK2_eq : vecK2 = Cert.ReferenceIdeal.RefVal.vec2T := rfl
theorem wrapK_eq : wrapK = Cert.ReferenceIdeal.RefVal.wrapT := rfl
theorem aggrK_eq : aggrK = Cert.ReferenceIdeal.RefVal.aggrT := rfl
theorem poolK_eq : poolK = Cert.ReferenceIdeal.RefVal.poolT := rfl
theorem catNodesK_eq : catNodesK = Cert.ReferenceIdeal.RefVal.catNodesT := rfl
theorem catGraphsK_eq : catGraphsK = Cert.ReferenceIdeal.RefVal.catGraphsT := rfl

end Cert.KerVal

end
-- ==== Proof.KerBridge.lean ====
/-
  The kernel program's three layers and two results, stated with the reference's names for the host pieces.
-/
import proofs.«100772_j6322191859838_1_alg».proof.Proof.KerChain
import proofs.«100772_j6322191859838_1_alg».proof.Proof.KerBridge0
import proofs.«100772_j6322191859838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KerVal

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- Layer 1 of the kernel program, in the reference's names for the host pieces. -/
theorem ker_layer1T (c : Dev nD) :
    Spec.mat ((Cert.KernelIdeal.Hand.W4 m ρ c (Proc.devRef .tc main_v41)) : S100000x128.Idx → EReal)
      = Spec.layerKernel
          (Spec.mat (addf ((m ((c : Thread nD τ).loc main_arg0)) : S100000x128.Idx → EReal) (Cert.ReferenceIdeal.RefVal.aggrT (m ((c : Thread nD τ).loc main_arg0)) (Cert.ReferenceIdeal.RefVal.srcT (m ((c : Thread nD τ).loc main_arg1))) (Cert.ReferenceIdeal.RefVal.dstT (m ((c : Thread nD τ).loc main_arg1))))))
          (Spec.mat (Cert.ReferenceIdeal.RefVal.mat0T (m ((c : Thread nD τ).loc main_arg3)))) (Spec.row (Cert.ReferenceIdeal.RefVal.vec0T (m ((c : Thread nD τ).loc main_arg4))))
          (Spec.mat (Cert.ReferenceIdeal.RefVal.mat0T (m ((c : Thread nD τ).loc main_arg5)))) (Spec.row (Cert.ReferenceIdeal.RefVal.vec0T (m ((c : Thread nD τ).loc main_arg6))))
          (Spec.row (Cert.ReferenceIdeal.RefVal.vec0T (m ((c : Thread nD τ).loc main_arg7)))) (Spec.row (Cert.ReferenceIdeal.RefVal.vec0T (m ((c : Thread nD τ).loc main_arg8)))) := by
  have h := ker_layer1 m ρ c
  rw [aggrK_eq, srcK_eq, dstK_eq, matK0_eq, vecK0_eq] at h
  exact h

/-- Layer 2 of the kernel program, in the reference's names for the host pieces. -/
theorem ker_layer2T (c : Dev nD) :
    Spec.mat ((Cert.KernelIdeal.Hand.W8 m ρ c (Proc.devRef .tc main_v79)) : S100000x128.Idx → EReal)
      = Spec.layerKernel
          (Spec.mat (addf ((Cert.KernelIdeal.Hand.W4 m ρ c (Proc.devRef .tc main_v41)) : S100000x128.Idx → EReal) (Cert.ReferenceIdeal.RefVal.aggrT (Cert.KernelIdeal.Hand.W4 m ρ c (Proc.devRef .tc main_v41)) (Cert.ReferenceIdeal.RefVal.srcT (m ((c : Thread nD τ).loc main_arg1))) (Cert.ReferenceIdeal.RefVal.dstT (m ((c : Thread nD τ).loc main_arg1))))))
          (Spec.mat (Cert.ReferenceIdeal.RefVal.mat1T (m ((c : Thread nD τ).loc main_arg3)))) (Spec.row (Cert.ReferenceIdeal.RefVal.vec1T (m ((c : Thread nD τ).loc main_arg4))))
          (Spec.mat (Cert.ReferenceIdeal.RefVal.mat1T (m ((c : Thread nD τ).loc main_arg5)))) (Spec.row (Cert.ReferenceIdeal.RefVal.vec1T (m ((c : Thread nD τ).loc main_arg6))))
          (Spec.row (Cert.ReferenceIdeal.RefVal.vec1T (m ((c : Thread nD τ).loc main_arg7)))) (Spec.row (Cert.ReferenceIdeal.RefVal.vec1T (m ((c : Thread nD τ).loc main_arg8)))) := by
  have h := ker_layer2 m ρ c
  rw [aggrK_eq, srcK_eq, dstK_eq, matK1_eq, vecK1_eq] at h
  exact h

/-- Layer 3 of the kernel program, in the reference's names for the host pieces. -/
theorem ker_layer3T (c : Dev nD) :
    Spec.mat ((Cert.KernelIdeal.Hand.W12 m ρ c (Proc.devRef .tc main_v117)) : S100000x128.Idx → EReal)
      = Spec.layerKernel
          (Spec.mat (addf ((Cert.KernelIdeal.Hand.W8 m ρ c (Proc.devRef .tc main_v79)) : S100000x128.Idx → EReal) (Cert.ReferenceIdeal.RefVal.aggrT (Cert.KernelIdeal.Hand.W8 m ρ c (Proc.devRef .tc main_v79)) (Cert.ReferenceIdeal.RefVal.srcT (m ((c : Thread nD τ).loc main_arg1))) (Cert.ReferenceIdeal.RefVal.dstT (m ((c : Thread nD τ).loc main_arg1))))))
          (Spec.mat (Cert.ReferenceIdeal.RefVal.mat2T (m ((c : Thread nD τ).loc main_arg3)))) (Spec.row (Cert.ReferenceIdeal.RefVal.vec2T (m ((c : Thread nD τ).loc main_arg4))))
          (Spec.mat (Cert.ReferenceIdeal.RefVal.mat2T (m ((c : Thread nD τ).loc main_arg5)))) (Spec.row (Cert.ReferenceIdeal.RefVal.vec2T (m ((c : Thread nD τ).loc main_arg6))))
          (Spec.row (Cert.ReferenceIdeal.RefVal.vec2T (m ((c : Thread nD τ).loc main_arg7)))) (Spec.row (Cert.ReferenceIdeal.RefVal.vec2T (m ((c : Thread nD τ).loc main_arg8)))) := by
  have h := ker_layer3 m ρ c
  rw [aggrK_eq, srcK_eq, dstK_eq, matK2_eq, vecK2_eq] at h
  exact h

/-- The first result: the three layers' outputs side by side. -/
theorem ker_nodesT (c : Dev nD) :
    (Cert.KernelIdeal.Hand.W13 m ρ c (Proc.devRef .tc main_v127) : S100000x384.Idx → EReal)
      = Cert.ReferenceIdeal.RefVal.catNodesT (Cert.KernelIdeal.Hand.W4 m ρ c (Proc.devRef .tc main_v41)) (Cert.KernelIdeal.Hand.W8 m ρ c (Proc.devRef .tc main_v79)) (Cert.KernelIdeal.Hand.W12 m ρ c (Proc.devRef .tc main_v117)) := by
  have h := ker_nodes m ρ c
  rw [catNodesK_eq] at h
  exact h

/-- The second result: the three layers' per-graph sums side by side. -/
theorem ker_graphsT (c : Dev nD) :
    (Cert.KernelIdeal.Hand.W13 m ρ c (Proc.devRef .tc main_v128) : S128x384.Idx → EReal)
      = Cert.ReferenceIdeal.RefVal.catGraphsT (Cert.ReferenceIdeal.RefVal.poolT (Cert.KernelIdeal.Hand.W4 m ρ c (Proc.devRef .tc main_v41)) (m ((c : Thread nD τ).loc main_arg2))) (Cert.ReferenceIdeal.RefVal.poolT (Cert.KernelIdeal.Hand.W8 m ρ c (Proc.devRef .tc main_v79)) (m ((c : Thread nD τ).loc main_arg2))) (Cert.ReferenceIdeal.RefVal.poolT (Cert.KernelIdeal.Hand.W12 m ρ c (Proc.devRef .tc main_v117)) (m ((c : Thread nD τ).loc main_arg2))) := by
  have h := ker_graphs m ρ c
  rw [catGraphsK_eq, poolK_eq] at h
  exact h

end Cert.KerVal

end
-- ==== Proof.Algebraic.lean ====
/-
  The two programs end with equal results.

  Under the precondition every float argument has only real entries. The kernel program's three normalised arrays are
  described, entry by entry, by the layer with the variance as the mean of squares less the squared mean; on real
  operands that is the layer with the variance as the mean of squared deviations, which is what the reference computes,
  and a layer of real operands is real, so the agreement passes from each layer to the next. The side-by-side
  placement of the three outputs, and the per-graph sums, are the same host operations in both programs. So both
  results are one function of the argument arrays, and the two programs are started on equal arguments.
-/
import proofs.«100772_j6322191859838_1_alg».proof.Defs
import proofs.«100772_j6322191859838_1_alg».proof.Proof.Gen.KernelIdeal
import proofs.«100772_j6322191859838_1_alg».proof.Proof.Gen.KernelIdeal.Regions
import proofs.«100772_j6322191859838_1_alg».proof.Proof.Gen.ReferenceIdeal
import proofs.«100772_j6322191859838_1_alg».proof.Proof.Gen.Pre_finite_inputs
import proofs.«100772_j6322191859838_1_alg».proof.Proof.RefResult
import proofs.«100772_j6322191859838_1_alg».proof.Proof.MathPre
import proofs.«100772_j6322191859838_1_alg».proof.Proof.KI_Run
import proofs.«100772_j6322191859838_1_alg».proof.Proof.KerBridge
set_option maxRecDepth 8192

noncomputable section

namespace Cert.Proof.Alg

open Idealize.ShloMosaic Idealize.ShloMosaic.TcCoe Idealize.SL.Sem Idealize.ShloMosaic.StableHlo
open Cert.ReferenceIdeal.RefVal Cert.Decode

/-- The first result as a function of the argument arrays: the three layers' outputs side by side. -/
def nodesFn (a0 : FVec Ideal Cert.ReferenceIdeal.S100000x128 .f32) (a1 : IVec Cert.ReferenceIdeal.S2x1600000 32) (a3 : FVec Ideal Cert.ReferenceIdeal.S3x128x128 .f32)
    (a4 : FVec Ideal Cert.ReferenceIdeal.S3x128 .f32) (a5 : FVec Ideal Cert.ReferenceIdeal.S3x128x128 .f32) (a6 a7 a8 : FVec Ideal Cert.ReferenceIdeal.S3x128 .f32) :
    FVec Ideal Cert.ReferenceIdeal.S100000x384 .f32 :=
  catNodesT (chain1 a0 (srcT a1) (dstT a1) a3 a4 a5 a6 a7 a8) (chain2 a0 (srcT a1) (dstT a1) a3 a4 a5 a6 a7 a8)
    (chain3 a0 (srcT a1) (dstT a1) a3 a4 a5 a6 a7 a8)

/-- The second result as a function of the argument arrays: the three layers' per-graph sums side by side. -/
def graphsFn (a0 : FVec Ideal Cert.ReferenceIdeal.S100000x128 .f32) (a1 : IVec Cert.ReferenceIdeal.S2x1600000 32) (a2 : IVec Cert.ReferenceIdeal.S100000 32)
    (a3 : FVec Ideal Cert.ReferenceIdeal.S3x128x128 .f32) (a4 : FVec Ideal Cert.ReferenceIdeal.S3x128 .f32) (a5 : FVec Ideal Cert.ReferenceIdeal.S3x128x128 .f32)
    (a6 a7 a8 : FVec Ideal Cert.ReferenceIdeal.S3x128 .f32) : FVec Ideal Cert.ReferenceIdeal.S128x384 .f32 :=
  catGraphsT (poolT (chain1 a0 (srcT a1) (dstT a1) a3 a4 a5 a6 a7 a8) a2) (poolT (chain2 a0 (srcT a1) (dstT a1) a3 a4 a5 a6 a7 a8) a2)
    (poolT (chain3 a0 (srcT a1) (dstT a1) a3 a4 a5 a6 a7 a8) a2)

/-- The reference's results are those functions of its launch arguments. -/
theorem ref_nodes_fn (V : Val) :
    after Cert.ReferenceIdeal.RefRun.ops V (Proc.devRef .tc Cert.ReferenceIdeal.main_v169)
      = nodesFn (V (Proc.devRef .tc Cert.ReferenceIdeal.main_arg0)) (V (Proc.devRef .tc Cert.ReferenceIdeal.main_arg1)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) :=
  ref_nodes_chain V

theorem ref_graphs_fn (V : Val) :
    after Cert.ReferenceIdeal.RefRun.ops V (Proc.devRef .tc Cert.ReferenceIdeal.main_v170)
      = graphsFn (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) :=
  ref_graphs_chain V

/-- At the ideal instance, from memories that agree on the arguments and satisfy the precondition, both programs
    end with the same two results: the kernel's three normalised arrays are the reference's three layers (real
    arguments make the two variance formulas one number, layer after layer), and the concatenations and per-graph
    sums are the same operations on both sides. -/
theorem algebraic : Cert.algebraic_KernelIdeal_ReferenceIdeal := by
  intro m ρ m' ρ' hpre hagree
  refine ⟨fun c => nodesFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => graphsFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Hand.run_all (F := Ideal) m ρ)
    obtain ⟨h0, h3, h4, h5, h6, h7, h8⟩ := Cert.PreDecode.allReal_of_pre _ _ _ _ _ _ _ _ _ (hpre c)
    obtain ⟨e1, e2, e3⟩ := chain_agree (srcT (m ((c.tc : Thread Cert.KernelIdeal.nD Cert.KernelIdeal.τ).loc Cert.KernelIdeal.main_arg1))) (dstT (m ((c.tc : Thread Cert.KernelIdeal.nD Cert.KernelIdeal.τ).loc Cert.KernelIdeal.main_arg1))) h0 h3 h4 h5 h6 h7 h8 _ _ _
      (Cert.KerVal.ker_layer1T m ρ c) (Cert.KerVal.ker_layer2T m ρ c) (Cert.KerVal.ker_layer3T m ρ c)
    refine ⟨?_, ?_, (h c _ (Cert.KernelIdeal.Hand.mem_uc Cert.KernelIdeal.main_arg0 (by decide))).trans (Cert.KernelIdeal.Hand.W13_main_arg0 m ρ c),
      (h c _ (Cert.KernelIdeal.Hand.mem_uc Cert.KernelIdeal.main_arg1 (by decide))).trans (Cert.KernelIdeal.Hand.W13_main_arg1 m ρ c),
      (h c _ (Cert.KernelIdeal.Hand.mem_uc Cert.KernelIdeal.main_arg2 (by decide))).trans (Cert.KernelIdeal.Hand.W13_main_arg2 m ρ c),
      (h c _ (Cert.KernelIdeal.Hand.mem_uc Cert.KernelIdeal.main_arg3 (by decide))).trans (Cert.KernelIdeal.Hand.W13_main_arg3 m ρ c),
      (h c _ (Cert.KernelIdeal.Hand.mem_uc Cert.KernelIdeal.main_arg4 (by decide))).trans (Cert.KernelIdeal.Hand.W13_main_arg4 m ρ c),
      (h c _ (Cert.KernelIdeal.Hand.mem_uc Cert.KernelIdeal.main_arg5 (by decide))).trans (Cert.KernelIdeal.Hand.W13_main_arg5 m ρ c),
      (h c _ (Cert.KernelIdeal.Hand.mem_uc Cert.KernelIdeal.main_arg6 (by decide))).trans (Cert.KernelIdeal.Hand.W13_main_arg6 m ρ c),
      (h c _ (Cert.KernelIdeal.Hand.mem_uc Cert.KernelIdeal.main_arg7 (by decide))).trans (Cert.KernelIdeal.Hand.W13_main_arg7 m ρ c),
      (h c _ (Cert.KernelIdeal.Hand.mem_uc Cert.KernelIdeal.main_arg8 (by decide))).trans (Cert.KernelIdeal.Hand.W13_main_arg8 m ρ c)⟩
    · refine (h c _ (Cert.KernelIdeal.Hand.mem_uc Cert.KernelIdeal.main_v127 (by decide))).trans ((Cert.KerVal.ker_nodesT m ρ c).trans ?_)
      rw [e1, e2, e3]
      rfl
    · refine (h c _ (Cert.KernelIdeal.Hand.mem_uc Cert.KernelIdeal.main_v128 (by decide))).trans ((Cert.KerVal.ker_graphsT m ρ c).trans ?_)
      rw [e1, e2, e3]
      rfl
  · refine (θ_run Cert.ReferenceIdeal.defs _ _).mono (fun r h c => ⟨?_, ?_, (h c Cert.ReferenceIdeal.main_arg0).trans (Cert.ReferenceIdeal.RefRun.kept _ Cert.ReferenceIdeal.main_arg0 (by decide) (by decide) (by decide) (by decide)),
      (h c Cert.ReferenceIdeal.main_arg1).trans (Cert.ReferenceIdeal.RefRun.kept _ Cert.ReferenceIdeal.main_arg1 (by decide) (by decide) (by decide) (by decide)),
      (h c Cert.ReferenceIdeal.main_arg2).trans (Cert.ReferenceIdeal.RefRun.kept _ Cert.ReferenceIdeal.main_arg2 (by decide) (by decide) (by decide) (by decide)),
      (h c Cert.ReferenceIdeal.main_arg3).trans (Cert.ReferenceIdeal.RefRun.kept _ Cert.ReferenceIdeal.main_arg3 (by decide) (by decide) (by decide) (by decide)),
      (h c Cert.ReferenceIdeal.main_arg4).trans (Cert.ReferenceIdeal.RefRun.kept _ Cert.ReferenceIdeal.main_arg4 (by decide) (by decide) (by decide) (by decide)),
      (h c Cert.ReferenceIdeal.main_arg5).trans (Cert.ReferenceIdeal.RefRun.kept _ Cert.ReferenceIdeal.main_arg5 (by decide) (by decide) (by decide) (by decide)),
      (h c Cert.ReferenceIdeal.main_arg6).trans (Cert.ReferenceIdeal.RefRun.kept _ Cert.ReferenceIdeal.main_arg6 (by decide) (by decide) (by decide) (by decide)),
      (h c Cert.ReferenceIdeal.main_arg7).trans (Cert.ReferenceIdeal.RefRun.kept _ Cert.ReferenceIdeal.main_arg7 (by decide) (by decide) (by decide) (by decide)),
      (h c Cert.ReferenceIdeal.main_arg8).trans (Cert.ReferenceIdeal.RefRun.kept _ Cert.ReferenceIdeal.main_arg8 (by decide) (by decide) (by decide) (by decide))⟩)
      (Cert.ReferenceIdeal.RefRun.run_main (F := Ideal) m' ρ')
    · refine (h c Cert.ReferenceIdeal.main_v169).trans ((ref_nodes_fn _).trans ?_)
      show nodesFn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
      rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2]
    · refine (h c Cert.ReferenceIdeal.main_v170).trans ((ref_graphs_fn _).trans ?_)
      show graphsFn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.Proof.Alg

end
-- ==== Proof.lean ====
/-
  Three layers of graph isomorphism convolution with batch normalisation, pooled per graph: the kernel against
  the reference.

  One layer takes node features z : [100000, 128] and computes a = z + (the sum over each node's incoming edges of
  the source node's features), h = max(max(a·W₁ + b₁, 0)·W₂ + b₂, 0), the column means μ and biased column
  variances v of h over the 100000 rows, and z' = (h − μ)·rsqrt(v + ε)·γ + β. The results are the three layers'
  outputs side by side, and their per-graph sums side by side.

  The kernel computes h in row blocks of 2000 while it accumulates the column sums of h and of h² across the 50
  blocks, forms μ = Σh / N and v = Σh² / N − μ² on the host, and normalises in a second pass over the row blocks;
  the reference takes v as the mean of (h − μ)². Over the reals the two variances are one number, and finite
  inputs keep every intermediate value real (v ≥ 0, so v + ε > 0 under the reciprocal square root), so at the
  ideal instance the two programs compute one function, layer by layer.

  The parts. The reference's @main is a straight line of 270 host operations none of which writes an argument
  (Proof/RefOps, RefFrame), and its results are the three layers chained (Proof/RefValue…, RefResult). Each kernel
  program is thirteen segments — seven host stretches and six kernel regions — run from the launch to the return
  with every buffer's contents named at each boundary (Proof/KI_Run for the idealized program, Proof/K_Run for the
  word-level one, over the regions' halves KI_Norm…, KI_Mlp… / K_…); from that run come both frames and, read index
  by index (Proof/Ker…), the idealized kernel's results as the same three layers with the other spelling of the
  variance. Proof/Spec states one layer index by index, Proof/MathForms joins the two spellings on real entries,
  Proof/MathPre reads "every entry is a real" off the precondition, Proof/Algebraic puts the two runs side by side.
  The idealization rewrote no operation, so there is nothing to preserve.
-/
import proofs.«100772_j6322191859838_1_alg».proof.Defs
import proofs.«100772_j6322191859838_1_alg».proof.Proof.Gen.Kernel
import proofs.«100772_j6322191859838_1_alg».proof.Proof.Gen.Kernel.Skeleton
import proofs.«100772_j6322191859838_1_alg».proof.Proof.Gen.Kernel.Launch
import proofs.«100772_j6322191859838_1_alg».proof.Proof.Gen.Kernel.Regions
import proofs.«100772_j6322191859838_1_alg».proof.Proof.Gen.Kernel.Points
import proofs.«100772_j6322191859838_1_alg».proof.Proof.Gen.KernelIdeal
import proofs.«100772_j6322191859838_1_alg».proof.Proof.Gen.KernelIdeal.Skeleton
import proofs.«100772_j6322191859838_1_alg».proof.Proof.Gen.KernelIdeal.Launch
import proofs.«100772_j6322191859838_1_alg».proof.Proof.Gen.KernelIdeal.Regions
import proofs.«100772_j6322191859838_1_alg».proof.Proof.Gen.KernelIdeal.Points
import proofs.«100772_j6322191859838_1_alg».proof.Proof.Gen.ReferenceIdeal
import proofs.«100772_j6322191859838_1_alg».proof.Proof.Gen.Pre_finite_inputs
import proofs.«100772_j6322191859838_1_alg».proof.Proof.RefFrame
import proofs.«100772_j6322191859838_1_alg».proof.Proof.K_Run
import proofs.«100772_j6322191859838_1_alg».proof.Proof.KI_Run
import proofs.«100772_j6322191859838_1_alg».proof.Proof.Algebraic
import Idealize.ShloMosaic.Adequacy
import Idealize.ShloMosaic.Init

noncomputable section

namespace Cert.Proof

open Idealize.ShloMosaic Idealize.SL.Sem Cert.Kernel

/-- The word-level kernel program runs to the end and leaves its arguments unchanged. -/
theorem frame_kernel : Cert.frame_Kernel := fun m ρ _ => Cert.Kernel.Hand.frame (F := Bits) m ρ

/-- The idealized kernel program runs to the end and leaves its arguments unchanged. -/
theorem frame_kernelIdeal : Cert.frame_KernelIdeal := fun m ρ _ => Cert.KernelIdeal.Hand.frame (F := Ideal) m ρ

/-- The idealization rewrote no operation: nothing to preserve. -/
theorem preserves : Cert.preserves_Kernel_KernelIdeal := trivial

/-- At the ideal instance the kernel and the reference end with equal results. -/
theorem algebraic : Cert.algebraic_KernelIdeal_ReferenceIdeal := Cert.Proof.Alg.algebraic

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.Reference.frame, preserves, algebraic⟩

end Cert.Proof

end
